-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v136)) (v1 : (c : Dev Cert.KernelIdeal.nD) → Buf (Elt Ideal) ((c.tc : Thread Cert.KernelIdeal.nD Cert.KernelIdeal.τ).loc Cert.KernelIdeal.main_v137)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v136) = v0 c
          ∧ r.2.mem ((c.tc : Thread Cert.KernelIdeal.nD Cert.KernelIdeal.τ).loc Cert.KernelIdeal.main_v137) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v173) = v0 c
          ∧ r.2.mem ((c.tc : Thread Cert.ReferenceIdeal.nD Cert.ReferenceIdeal.τ).loc Cert.ReferenceIdeal.main_v174) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S3x128x128 : S_.BroadcastsInDim S3x128x128 (![] : Fin 0 → Fin S3x128x128.rank)
  reducesTo_S3x128x128_S_d0_1_2 : S3x128x128.ReducesTo [0, 1, 2] S_
  bcast_S_S3x128 : S_.BroadcastsInDim S3x128 (![] : Fin 0 → Fin S3x128.rank)
  reducesTo_S3x128_S_d0_1 : S3x128.ReducesTo [0, 1] S_

variable [Facts]

def fn_part1 {F : FTy → Type} [FloatOps F] (main_arg6 : FVec F S3x128 .f32) (main_arg7 : FVec F S3x128 .f32) (main_arg8 : FVec F S3x128 .f32) (main_v13 : IVec S_ 1) (main_v16 : IVec S3x128x128 1) : IVec S_ 1 :=
  let main_c_5 : IVec S_ 1 := constantI S_ 1 1#1
  let main_v17 : IVec S_ 1 := (fun x v => Host.reduce IntOp.andi x v reducesTo_S3x128x128_S_d0_1_2 h_S_) main_v16 main_c_5
  let main_v18 : IVec S_ 1 := andi main_v13 main_v17
  let main_v19 : FVec F S3x128 .f32 := Host.absf main_arg6
  let main_cst_6 : FVec F S_ .f32 := constant S_ .f32 0x7F800000#32
  let main_v20 : FVec F S3x128 .f32 := broadcastInDim S3x128 ![] bcast_S_S3x128 main_cst_6
  let main_v21 : IVec S3x128 1 := cmpf .olt main_v19 main_v20
  let main_c_7 : IVec S_ 1 := constantI S_ 1 1#1
  let main_v22 : IVec S_ 1 := (fun x v => Host.reduce IntOp.andi x v reducesTo_S3x128_S_d0_1 h_S_) main_v21 main_c_7
  let main_v23 : IVec S_ 1 := andi main_v18 main_v22
  let main_v24 : FVec F S3x128 .f32 := Host.absf main_arg7
  let main_cst_8 : FVec F S_ .f32 := constant S_ .f32 0x7F800000#32
  let main_v25 : FVec F S3x128 .f32 := broadcastInDim S3x128 ![] bcast_S_S3x128 main_cst_8
  let main_v26 : IVec S3x128 1 := cmpf .olt main_v24 main_v25
  let main_c_9 : IVec S_ 1 := constantI S_ 1 1#1
  let main_v27 : IVec S_ 1 := (fun x v => Host.reduce IntOp.andi x v reducesTo_S3x128_S_d0_1 h_S_) main_v26 main_c_9
  let main_v28 : IVec S_ 1 := andi main_v23 main_v27
  let main_v29 : FVec F S3x128 .f32 := Host.absf main_arg8
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  main_v33

def fn {F : FTy → Type} [FloatOps F] (main_arg0 : FVec F S100000x128 .f32) (main_arg1 : IVec S2x1600000 32) (main_arg2 : IVec S100000 32) (main_arg3 : FVec F S3x128x128 .f32) (main_arg4 : FVec F S3x128 .f32) (main_arg5 : FVec F S3x128x128 .f32) (main_arg6 : FVec F S3x128 .f32) (main_arg7 : FVec F S3x128 .f32) (main_arg8 : FVec F S3x128 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S3x128x128 .f32 := Host.absf main_arg3
  let main_cst_0 : FVec F S_ .f32 := constant S_ .f32 0x7F800000#32
  let main_v5 : FVec F S3x128x128 .f32 := broadcastInDim S3x128x128 ![] bcast_S_S3x128x128 main_cst_0
  let main_v6 : IVec S3x128x128 1 := cmpf .olt main_v4 main_v5
  let main_c_1 : IVec S_ 1 := constantI S_ 1 1#1
  let main_v7 : IVec S_ 1 := (fun x v => Host.reduce IntOp.andi x v reducesTo_S3x128x128_S_d0_1_2 h_S_) main_v6 main_c_1
  let main_v8 : IVec S_ 1 := andi main_v3 main_v7
  let main_v9 : FVec F S3x128 .f32 := Host.absf main_arg4
  let main_cst_2 : FVec F S_ .f32 := constant S_ .f32 0x7F800000#32
  let main_v10 : FVec F S3x128 .f32 := broadcastInDim S3x128 ![] bcast_S_S3x128 main_cst_2
  let main_v11 : IVec S3x128 1 := cmpf .olt main_v9 main_v10
  let main_c_3 : IVec S_ 1 := constantI S_ 1 1#1
  let main_v12 : IVec S_ 1 := (fun x v => Host.reduce IntOp.andi x v reducesTo_S3x128_S_d0_1 h_S_) main_v11 main_c_3
  let main_v13 : IVec S_ 1 := andi main_v8 main_v12
  let main_v14 : FVec F S3x128x128 .f32 := Host.absf main_arg5
  let main_cst_4 : FVec F S_ .f32 := constant S_ .f32 0x7F800000#32
  let main_v15 : FVec F S3x128x128 .f32 := broadcastInDim S3x128x128 ![] bcast_S_S3x128x128 main_cst_4
  let main_v16 : IVec S3x128x128 1 := cmpf .olt main_v14 main_v15
  fn_part1 (F := F) main_arg6 main_arg7 main_arg8 main_v13 main_v16
-- ==== Kernel.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S2x128 : Shape := ⟨2, ![2, 128]⟩
abbrev S5000x128 : Shape := ⟨2, ![5000, 128]⟩
abbrev S512x128 : Shape := ⟨2, ![512, 128]⟩
abbrev S100000x1 : Shape := ⟨2, ![100000, 1]⟩
abbrev S100000x384 : Shape := ⟨2, ![100000, 384]⟩
abbrev S512x384 : Shape := ⟨2, ![512, 384]⟩

abbrev nBuf : Space → Nat
  | .hbm => 168
  | .vmem => 51
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S1x128, .f32⟩
  | 30 => ⟨S128, .f32⟩
  | 31 => ⟨S1x128x128, .f32⟩
  | 32 => ⟨S128x128, .f32⟩
  | 33 => ⟨S1x128, .f32⟩
  | 34 => ⟨S128, .f32⟩
  | 35 => ⟨S1x128, .f32⟩
  | 36 => ⟨S1x128, .f32⟩
  | 37 => ⟨S100000x128, .f32⟩
  | 38 => ⟨S2x128, .f32⟩
  | 39 => ⟨S1x128, .f32⟩
  | 40 => ⟨S128, .f32⟩
  | 41 => ⟨S_, .f32⟩
  | 42 => ⟨S128, .f32⟩
  | 43 => ⟨S128, .f32⟩
  | 44 => ⟨S1x128, .f32⟩
  | 45 => ⟨S128, .f32⟩
  | 46 => ⟨S_, .f32⟩
  | 47 => ⟨S128, .f32⟩
  | 48 => ⟨S128, .f32⟩
  | 49 => ⟨S128, .f32⟩
  | 50 => ⟨S128, .f32⟩
  | 51 => ⟨S1x128, .f32⟩
  | 52 => ⟨S128, .f32⟩
  | 53 => ⟨S1x128, .f32⟩
  | 54 => ⟨S128, .f32⟩
  | 55 => ⟨S1x128, .f32⟩
  | 56 => ⟨S1x128, .f32⟩
  | 57 => ⟨S1x128, .f32⟩
  | 58 => ⟨S1x128, .f32⟩
  | 59 => ⟨S100000x128, .f32⟩
  | 60 => ⟨S_, .i32⟩
  | 61 => ⟨S1600000, .i32⟩
  | 62 => ⟨S1600000, .i1⟩
  | 63 => ⟨S_, .i32⟩
  | 64 => ⟨S1600000, .i32⟩
  | 65 => ⟨S1600000, .i32⟩
  | 66 => ⟨S1600000, .i32⟩
  | 67 => ⟨S1600000x1, .i32⟩
  | 68 => ⟨S1600000x128, .f32⟩
  | 69 => ⟨S_, .f32⟩
  | 70 => ⟨S100000x128, .f32⟩
  | 71 => ⟨S1600000x1, .i32⟩
  | 72 => ⟨S100000x128, .f32⟩
  | 73 => ⟨S100000x128, .f32⟩
  | 74 => ⟨S1x128x128, .f32⟩
  | 75 => ⟨S128x128, .f32⟩
  | 76 => ⟨S1x128, .f32⟩
  | 77 => ⟨S128, .f32⟩
  | 78 => ⟨S1x128x128, .f32⟩
  | 79 => ⟨S128x128, .f32⟩
  | 80 => ⟨S1x128, .f32⟩
  | 81 => ⟨S128, .f32⟩
  | 82 => ⟨S1x128, .f32⟩
  | 83 => ⟨S1x128, .f32⟩
  | 84 => ⟨S100000x128, .f32⟩
  | 85 => ⟨S2x128, .f32⟩
  | 86 => ⟨S1x128, .f32⟩
  | 87 => ⟨S128, .f32⟩
  | 88 => ⟨S_, .f32⟩
  | 89 => ⟨S128, .f32⟩
  | 90 => ⟨S128, .f32⟩
  | 91 => ⟨S1x128, .f32⟩
  | 92 => ⟨S128, .f32⟩
  | 93 => ⟨S_, .f32⟩
  | 94 => ⟨S128, .f32⟩
  | 95 => ⟨S128, .f32⟩
  | 96 => ⟨S128, .f32⟩
  | 97 => ⟨S128, .f32⟩
  | 98 => ⟨S1x128, .f32⟩
  | 99 => ⟨S128, .f32⟩
  | 100 => ⟨S1x128, .f32⟩
  | 101 => ⟨S128, .f32⟩
  | 102 => ⟨S1x128, .f32⟩
  | 103 => ⟨S1x128, .f32⟩
  | 104 => ⟨S1x128, .f32⟩
  | 105 => ⟨S1x128, .f32⟩
  | 106 => ⟨S100000x128, .f32⟩
  | 107 => ⟨S_, .i32⟩
  | 108 => ⟨S1600000, .i32⟩
  | 109 => ⟨S1600000, .i1⟩
  | 110 => ⟨S_, .i32⟩
  | 111 => ⟨S1600000, .i32⟩
  | 112 => ⟨S1600000, .i32⟩
  | 113 => ⟨S1600000, .i32⟩
  | 114 => ⟨S1600000x1, .i32⟩
  | 115 => ⟨S1600000x128, .f32⟩
  | 116 => ⟨S_, .f32⟩
  | 117 => ⟨S100000x128, .f32⟩
  | 118 => ⟨S1600000x1, .i32⟩
  | 119 => ⟨S100000x128, .f32⟩
  | 120 => ⟨S100000x128, .f32⟩
  | 121 => ⟨S1x128x128, .f32⟩
  | 122 => ⟨S128x128, .f32⟩
  | 123 => ⟨S1x128, .f32⟩
  | 124 => ⟨S128, .f32⟩
  | 125 => ⟨S1x128x128, .f32⟩
  | 126 => ⟨S128x128, .f32⟩
  | 127 => ⟨S1x128, .f32⟩
  | _ => ⟨S100000x128, .f32⟩

abbrev hbmTy0_1 (i : Nat) : BufTy := match i % 128 with
  | 0 => ⟨S128, .f32⟩
  | 1 => ⟨S1x128, .f32⟩
  | 2 => ⟨S1x128, .f32⟩
  | 3 => ⟨S100000x128, .f32⟩
  | 4 => ⟨S2x128, .f32⟩
  | 5 => ⟨S1x128, .f32⟩
  | 6 => ⟨S128, .f32⟩
  | 7 => ⟨S_, .f32⟩
  | 8 => ⟨S128, .f32⟩
  | 9 => ⟨S128, .f32⟩
  | 10 => ⟨S1x128, .f32⟩
  | 11 => ⟨S128, .f32⟩
  | 12 => ⟨S_, .f32⟩
  | 13 => ⟨S128, .f32⟩
  | 14 => ⟨S128, .f32⟩
  | 15 => ⟨S128, .f32⟩
  | 16 => ⟨S128, .f32⟩
  | 17 => ⟨S1x128, .f32⟩
  | 18 => ⟨S128, .f32⟩
  | 19 => ⟨S1x128, .f32⟩
  | 20 => ⟨S128, .f32⟩
  | 21 => ⟨S1x128, .f32⟩
  | 22 => ⟨S1x128, .f32⟩
  | 23 => ⟨S1x128, .f32⟩
  | 24 => ⟨S1x128, .f32⟩
  | 25 => ⟨S100000x128, .f32⟩
  | 26 => ⟨S_, .f32⟩
  | 27 => ⟨S512x128, .f32⟩
  | 28 => ⟨S100000x1, .i32⟩
  | 29 => ⟨S512x128, .f32⟩
  | 30 => ⟨S_, .f32⟩
  | 31 => ⟨S512x128, .f32⟩
  | 32 => ⟨S100000x1, .i32⟩
  | 33 => ⟨S512x128, .f32⟩
  | 34 => ⟨S_, .f32⟩
  | 35 => ⟨S512x128, .f32⟩
  | 36 => ⟨S100000x1, .i32⟩
  | 37 => ⟨S512x128, .f32⟩
  | 38 => ⟨S100000x384, .f32⟩
  | 39 => ⟨S512x384, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S5000x128, .f32⟩
  | .local _ .vmem, ⟨1, _⟩ => ⟨S5000x128, .f32⟩
  | .local _ .vmem, ⟨2, _⟩ => ⟨S128x128, .f32⟩
  | .local _ .vmem, ⟨3, _⟩ => ⟨S1x128, .f32⟩
  | .local _ .vmem, ⟨4, _⟩ => ⟨S128x128, .f32⟩
  | .local _ .vmem, ⟨5, _⟩ => ⟨S1x128, .f32⟩
  | .local _ .vmem, ⟨6, _⟩ => ⟨S5000x128, .f32⟩
  | .local _ .vmem, ⟨7, _⟩ => ⟨S5000x128, .f32⟩
  | .local _ .vmem, ⟨8, _⟩ => ⟨S2x128, .f32⟩
  | .local _ .vmem, ⟨9, _⟩ => ⟨S5000x128, .f32⟩
  | .local _ .vmem, ⟨10, _⟩ => ⟨S5000x128, .f32⟩
  | .local _ .vmem, ⟨11, _⟩ => ⟨S1x128, .f32⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S5000x128, .f32⟩
  | .local _ .vmem, ⟨16, _⟩ => ⟨S5000x128, .f32⟩
  | .local _ .vmem, ⟨17, _⟩ => ⟨S5000x128, .f32⟩
  | .local _ .vmem, ⟨18, _⟩ => ⟨S5000x128, .f32⟩
  | .local _ .vmem, ⟨19, _⟩ => ⟨S128x128, .f32⟩
  | .local _ .vmem, ⟨20, _⟩ => ⟨S1x128, .f32⟩
  | .local _ .vmem, ⟨21, _⟩ => ⟨S128x128, .f32⟩
  | .local _ .vmem, ⟨22, _⟩ => ⟨S1x128, .f32⟩
  | .local _ .vmem, ⟨23, _⟩ => ⟨S5000x128, .f32⟩
  | .local _ .vmem, ⟨24, _⟩ => ⟨S5000x128, .f32⟩
  | .local _ .vmem, ⟨25, _⟩ => ⟨S2x128, .f32⟩
  | .local _ .vmem, ⟨26, _⟩ => ⟨S5000x128, .f32⟩
  | .local _ .vmem, ⟨27, _⟩ => ⟨S5000x128, .f32⟩
  | .local _ .vmem, ⟨28, _⟩ => ⟨S1x128, .f32⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S5000x128, .f32⟩
  | .local _ .vmem, ⟨33, _⟩ => ⟨S5000x128, .f32⟩
  | .local _ .vmem, ⟨34, _⟩ => ⟨S5000x128, .f32⟩
  | .local _ .vmem, ⟨35, _⟩ => ⟨S5000x128, .f32⟩
  | .local _ .vmem, ⟨36, _⟩ => ⟨S128x128, .f32⟩
  | .local _ .vmem, ⟨37, _⟩ => ⟨S1x128, .f32⟩
  | .local _ .vmem, ⟨38, _⟩ => ⟨S128x128, .f32⟩
  | .local _ .vmem, ⟨39, _⟩ => ⟨S1x128, .f32⟩
  | .local _ .vmem, ⟨40, _⟩ => ⟨S5000x128, .f32⟩
  | .local _ .vmem, ⟨41, _⟩ => ⟨S5000x128, .f32⟩
  | .local _ .vmem, ⟨42, _⟩ => ⟨S2x128, .f32⟩
  | .local _ .vmem, ⟨43, _⟩ => ⟨S5000x128, .f32⟩
  | .local _ .vmem, ⟨44, _⟩ => ⟨S5000x128, .f32⟩
  | .local _ .vmem, ⟨45, _⟩ => ⟨S1x128, .f32⟩
  | .local _ .vmem, ⟨46, _⟩ => ⟨S1x128, .f32⟩
  | .local _ .vmem, ⟨47, _⟩ => ⟨S1x128, .f32⟩
  | .local _ .vmem, ⟨48, _⟩ => ⟨S1x128, .f32⟩
  | .local _ .vmem, ⟨49, _⟩ => ⟨S5000x128, .f32⟩
  | .local _ .vmem, ⟨50, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | _, _ => false

abbrev semScoped : Fin 0 → Bool
  | ⟨_, h⟩ => absurd h (Nat.not_lt_zero _)

abbrev dmaSemScoped : Fin 51 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | _ => false

abbrev sig : RefSig :=
  ofTc nBuf bufTy 0 51 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25_0 : Ref sig .tc := ⟨.hbm, 37, rfl⟩
abbrev main_v25_1 : Ref sig .tc := ⟨.hbm, 38, rfl⟩
abbrev main_v26 : Ref sig .tc := ⟨.hbm, 39, rfl⟩
abbrev main_v27 : Ref sig .tc := ⟨.hbm, 40, rfl⟩
abbrev main_cst_1 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_2 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_c_3 : Ref sig .tc := ⟨.hbm, 60, rfl⟩
abbrev main_v45 : Ref sig .tc := ⟨.hbm, 61, rfl⟩
abbrev main_v46 : Ref sig .tc := ⟨.hbm, 62, rfl⟩
abbrev main_c_4 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_cst_5 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66_0 : Ref sig .tc := ⟨.hbm, 84, rfl⟩
abbrev main_v66_1 : Ref sig .tc := ⟨.hbm, 85, rfl⟩
abbrev main_v67 : Ref sig .tc := ⟨.hbm, 86, rfl⟩
abbrev main_v68 : Ref sig .tc := ⟨.hbm, 87, rfl⟩
abbrev main_cst_6 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_cst_7 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_c_8 : Ref sig .tc := ⟨.hbm, 107, rfl⟩
abbrev main_v86 : Ref sig .tc := ⟨.hbm, 108, rfl⟩
abbrev main_v87 : Ref sig .tc := ⟨.hbm, 109, rfl⟩
abbrev main_c_9 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_cst_10 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107_0 : Ref sig .tc := ⟨.hbm, 131, rfl⟩
abbrev main_v107_1 : Ref sig .tc := ⟨.hbm, 132, rfl⟩
abbrev main_v108 : Ref sig .tc := ⟨.hbm, 133, rfl⟩
abbrev main_v109 : Ref sig .tc := ⟨.hbm, 134, rfl⟩
abbrev main_cst_11 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_cst_12 : Ref sig .tc := ⟨.hbm, 140, rfl⟩
abbrev main_v114 : Ref sig .tc := ⟨.hbm, 141, rfl⟩
abbrev main_v115 : Ref sig .tc := ⟨.hbm, 142, rfl⟩
abbrev main_v116 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_v122 : Ref sig .tc := ⟨.hbm, 149, rfl⟩
abbrev main_v123 : Ref sig .tc := ⟨.hbm, 150, rfl⟩
abbrev main_v124 : Ref sig .tc := ⟨.hbm, 151, rfl⟩
abbrev main_v125 : Ref sig .tc := ⟨.hbm, 152, rfl⟩
abbrev main_v126 : Ref sig .tc := ⟨.hbm, 153, rfl⟩
abbrev main_cst_13 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩
abbrev main_cst_14 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_cst_15 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg5_0 : Ref sig .tc := ⟨.vmem, 23, rfl⟩
abbrev cc2_stg5_1 : Ref sig .tc := ⟨.vmem, 24, rfl⟩
abbrev cc2_stg6_0 : Ref sig .tc := ⟨.vmem, 25, rfl⟩
abbrev cc3_stg0_0 : Ref sig .tc := ⟨.vmem, 26, rfl⟩
abbrev cc3_stg0_1 : Ref sig .tc := ⟨.vmem, 27, rfl⟩
abbrev cc3_stg1_0 : Ref sig .tc := ⟨.vmem, 28, rfl⟩
abbrev cc3_stg2_0 : Ref sig .tc := ⟨.vmem, 29, rfl⟩
abbrev cc3_stg3_0 : Ref sig .tc := ⟨.vmem, 30, rfl⟩
abbrev cc3_stg4_0 : Ref sig .tc := ⟨.vmem, 31, rfl⟩
abbrev cc3_stg5_0 : Ref sig .tc := ⟨.vmem, 32, rfl⟩
abbrev cc3_stg5_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg2_0 : Ref sig .tc := ⟨.vmem, 37, rfl⟩
abbrev cc4_stg3_0 : Ref sig .tc := ⟨.vmem, 38, rfl⟩
abbrev cc4_stg4_0 : Ref sig .tc := ⟨.vmem, 39, rfl⟩
abbrev cc4_stg5_0 : Ref sig .tc := ⟨.vmem, 40, rfl⟩
abbrev cc4_stg5_1 : Ref sig .tc := ⟨.vmem, 41, rfl⟩
abbrev cc4_stg6_0 : Ref sig .tc := ⟨.vmem, 42, rfl⟩
abbrev cc5_stg0_0 : Ref sig .tc := ⟨.vmem, 43, rfl⟩
abbrev cc5_stg0_1 : Ref sig .tc := ⟨.vmem, 44, rfl⟩
abbrev cc5_stg1_0 : Ref sig .tc := ⟨.vmem, 45, rfl⟩
abbrev cc5_stg2_0 : Ref sig .tc := ⟨.vmem, 46, rfl⟩
abbrev cc5_stg3_0 : Ref sig .tc := ⟨.vmem, 47, rfl⟩
abbrev cc5_stg4_0 : Ref sig .tc := ⟨.vmem, 48, rfl⟩
abbrev cc5_stg5_0 : Ref sig .tc := ⟨.vmem, 49, rfl⟩
abbrev cc5_stg5_1 : Ref sig .tc := ⟨.vmem, 50, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem2_0 : DmaSem sig := 20
abbrev cc2_sem3_0 : DmaSem sig := 21
abbrev cc2_sem4_0 : DmaSem sig := 22
abbrev cc2_sem5_0 : DmaSem sig := 23
abbrev cc2_sem5_1 : DmaSem sig := 24
abbrev cc2_sem6_0 : DmaSem sig := 25
abbrev cc3_sem0_0 : DmaSem sig := 26
abbrev cc3_sem0_1 : DmaSem sig := 27
abbrev cc3_sem1_0 : DmaSem sig := 28
abbrev cc3_sem2_0 : DmaSem sig := 29
abbrev cc3_sem3_0 : DmaSem sig := 30
abbrev cc3_sem4_0 : DmaSem sig := 31
abbrev cc3_sem5_0 : DmaSem sig := 32
abbrev cc3_sem5_1 : DmaSem sig := 33
abbrev cc4_sem0_0 : DmaSem sig := 34
abbrev cc4_sem0_1 : DmaSem sig := 35
abbrev cc4_sem1_0 : DmaSem sig := 36
abbrev cc4_sem2_0 : DmaSem sig := 37
abbrev cc4_sem3_0 : DmaSem sig := 38
abbrev cc4_sem4_0 : DmaSem sig := 39
abbrev cc4_sem5_0 : DmaSem sig := 40
abbrev cc4_sem5_1 : DmaSem sig := 41
abbrev cc4_sem6_0 : DmaSem sig := 42
abbrev cc5_sem0_0 : DmaSem sig := 43
abbrev cc5_sem0_1 : DmaSem sig := 44
abbrev cc5_sem1_0 : DmaSem sig := 45
abbrev cc5_sem2_0 : DmaSem sig := 46
abbrev cc5_sem3_0 : DmaSem sig := 47
abbrev cc5_sem4_0 : DmaSem sig := 48
abbrev cc5_sem5_0 : DmaSem sig := 49
abbrev cc5_sem5_1 : DmaSem sig := 50

abbrev nD : Nat := 1
abbrev τ : Topo := Topo.v7x

variable {F : FTy → Type} [FloatOps F]

abbrev grid0 : Pipeline.Grid := ⟨1, ![20], ![false]⟩

def k0_cond1 (i : grid0.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_15 : BitVec 32 := 0#32
  let v31 : BitVec 1 := Scalar.cmpi .ne v30 c0_i32_15
  v31

def k0_cond2 (i : grid0.Coords) : BitVec 1 :=
  let arg0 : BitVec 32 := BitVec.ofNat 32 (i 0).val
  let c0_i32_16 : BitVec 32 := 0#32
  let v32 : BitVec 1 := Scalar.cmpi .ne arg0 c0_i32_16
  let v33 : BitVec 32 := Scalar.extui v32
  let c0_i32_17 : BitVec 32 := 0#32
  let v34 : BitVec 1 := Scalar.cmpi .ne v33 c0_i32_17
  v34

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S2x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![20], ![false]⟩

def k2_cond1 (i : grid2.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_15 : BitVec 32 := 0#32
  let v31 : BitVec 1 := Scalar.cmpi .ne v30 c0_i32_15
  v31

def k2_cond2 (i : grid2.Coords) : BitVec 1 :=
  let arg0 : BitVec 32 := BitVec.ofNat 32 (i 0).val
  let c0_i32_16 : BitVec 32 := 0#32
  let v32 : BitVec 1 := Scalar.cmpi .ne arg0 c0_i32_16
  let v33 : BitVec 32 := Scalar.extui v32
  let c0_i32_17 : BitVec 32 := 0#32
  let v34 : BitVec 1 := Scalar.cmpi .ne v33 c0_i32_17
  v34

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 1 → Memref sig .tc .vmem S2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x128 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![20], ![false]⟩

def k4_cond1 (i : grid4.Coords) : BitVec 1 :=
  let arg0 : BitVec 32 := BitVec.ofNat 32 (i 0).val
  let c0_i32 : BitVec 32 := 0#32
  let v29 : BitVec 1 := Scalar.cmpi .eq arg0 c0_i32
  let v30 : BitVec 32 := Scalar.extui v29
  let c0_i32_15 : BitVec 32 := 0#32
  let v31 : BitVec 1 := Scalar.cmpi .ne v30 c0_i32_15
  v31

def k4_cond2 (i : grid4.Coords) : BitVec 1 :=
  let arg0 : BitVec 32 := BitVec.ofNat 32 (i 0).val
  let c0_i32_16 : BitVec 32 := 0#32
  let v32 : BitVec 1 := Scalar.cmpi .ne arg0 c0_i32_16
  let v33 : BitVec 32 := Scalar.extui v32
  let c0_i32_17 : BitVec 32 := 0#32
  let v34 : BitVec 1 := Scalar.cmpi .ne v33 c0_i32_17
  v34

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S128x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 1 → Memref sig .tc .vmem S1x128 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 2 → Memref sig .tc .vmem S5000x128 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S2x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  concatenates_S1x128_S1x128_S2x128_d0 : Shape.Concatenates [S1x128, S1x128] S2x128 0
  inb_S2x128_S2x128_0_0 : ∀ a, (![0, 0] : Fin 2 → Nat) a + S2x128.size a ≤ S2x128.size a
  h_S2x128 : 0 < S2x128.numel
  shapeCasts_S2x128_S2x128 : S2x128.ShapeCasts S2x128
  slices_S2x128_S1x128_0_0 : S2x128.Slices ![0, 0] S1x128
  bcast_S_S128 : S_.BroadcastsInDim S128 (![] : Fin 0 → Fin S128.rank)
  slices_S2x128_S1x128_1_0 : S2x128.Slices ![1, 0] S1x128
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  concatenates_S512x128_S512x128_S512x128_S512x384_d1 : Shape.Concatenates [S512x128, S512x128, S512x128] S512x384 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S2x128.size a ≤ S2x128.size a
  hwx0_6 : ∀ i : grid0.Coords, EltTy.bits .f32 = 32 ∨ (Rect.block (s := S2x128) S2x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x128.size a ≤ S100000x128.size a
  hwx2_5 : ∀ i : grid2.Coords, EltTy.bits .f32 = 32 ∨ (Rect.block (s := S100000x128) S5000x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S2x128.size a ≤ S2x128.size a
  hwx2_6 : ∀ i : grid2.Coords, EltTy.bits .f32 = 32 ∨ (Rect.block (s := S2x128) S2x128.size (cc2_transform_6 i) (hinb2_6 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x128.size a ≤ S1x128.size a
  hwx3_3 : ∀ i : grid3.Coords, EltTy.bits .f32 = 32 ∨ (Rect.block (s := S1x128) S1x128.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S100000x128.size a
  hwx3_5 : ∀ i : grid3.Coords, EltTy.bits .f32 = 32 ∨ (Rect.block (s := S100000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x128.size a ≤ S128x128.size a
  hwx4_1 : ∀ i : grid4.Coords, EltTy.bits .f32 = 32 ∨ (Rect.block (s := S128x128) S128x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S128x128.size a ≤ S128x128.size a
  hwx4_3 : ∀ i : grid4.Coords, EltTy.bits .f32 = 32 ∨ (Rect.block (s := S128x128) S128x128.size (cc4_transform_3 i) (hinb4_3 i)).WholeWords (EltTy.packing .f32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x128.size a ≤ S1x128.size a
  hwx4_4 : ∀ i : grid4.Coords, EltTy.bits .f32 = 32 ∨ (Rect.block (s := S1x128) S1x128.size (cc4_transform_4 i) (hinb4_4 i)).WholeWords (EltTy.packing .f32)
  hstage4_5 : ∀ j, (stage4_5 j).IsWhole
  nbuf4_5 : grid4.bufCount reads4_5 false = 2
  hreads4_5 : ∀ i i' : grid4.Coords, (∀ a, reads4_5 a = true → i a = i' a) → cc4_transform_5 i = cc4_transform_5 i'
  hinb4_5 : ∀ (i : grid4.Coords) a, (cc4_transform_5 i a + 1) * S5000x128.size a ≤ S100000x128.size a
  hwx4_5 : ∀ i : grid4.Coords, EltTy.bits .f32 = 32 ∨ (Rect.block (s := S100000x128) S5000x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S2x128.size a ≤ S2x128.size a
  hwx4_6 : ∀ i : grid4.Coords, EltTy.bits .f32 = 32 ∨ (Rect.block (s := S2x128) S2x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

abbrev win0_0 : Pipeline.Window sig grid0 :=
  Pipeline.Window.ofSpec (Memref.whole main_v14) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v16) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v23) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v20) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v24) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v25_0) S5000x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v25_1) S2x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond1 i == 1#1) && !(k0_cond2 i == 1#1) | ⟨_ + 7, h⟩ => absurd h (Nat.not_lt.2 (Nat.le_add_left _ _))

abbrev win1_0 : Pipeline.Window sig grid1 :=
  Pipeline.Window.ofSpec (Memref.whole main_v25_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v42) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v43) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v44) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v55) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v57) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v64) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v61) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v65) S1x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v66_0) S5000x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v66_1) S2x128.size cc2_transform_6 reads2_6 true true 1 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

abbrev idle2 : Fin 7 → grid2.Coords → Bool := fun | 0 => fun _ => false | 1 => fun _ => false | 2 => fun _ => false | 3 => fun _ => false | 4 => fun _ => false | 5 => fun _ => false | 6 => fun i => !(k2_cond1 i == 1#1) && !(k2_cond2 i == 1#1) | ⟨_ + 7, h⟩ => absurd h (Nat.not_lt.2 (Nat.le_add_left _ _))

abbrev win3_0 : Pipeline.Window sig grid3 :=
  Pipeline.Window.ofSpec (Memref.whole main_v66_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v81) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v83) S1x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v84) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v85) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v98) S128x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v105) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v102) S128x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v106) S1x128.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v107_0) S5000x128.size cc4_transform_5 reads4_5 true false 2 stage4_5 sem4_5
    hrank4 hreads4_5 hinb4_5 nbuf4_5 (Memref.isWhole_whole _) hwx4_5 hstage4_5

abbrev win4_6 : Pipeline.Window sig grid4 :=
  Pipeline.Window.ofSpec (Memref.whole main_v107_1) S2x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev idle4 : Fin 7 → grid4.Coords → Bool := fun | 0 => fun _ => false | 1 => fun _ => false | 2 => fun _ => false | 3 => fun _ => false | 4 => fun _ => false | 5 => fun _ => false | 6 => fun i => !(k4_cond1 i == 1#1) && !(k4_cond2 i == 1#1) | ⟨_ + 7, h⟩ => absurd h (Nat.not_lt.2 (Nat.le_add_left _ _))

abbrev win5_0 : Pipeline.Window sig grid5 :=
  Pipeline.Window.ofSpec (Memref.whole main_v107_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v122) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v123) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v124) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v125) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v126) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

class Facts : Prop extends Facts₀ where

variable [Facts]
-- ==== ReferenceIdeal.lean ====
abbrev S100000x128 : Shape := ⟨2, ![100000, 128]⟩
abbrev S2x1600000 : Shape := ⟨2, ![2, 1600000]⟩
abbrev S100000 : Shape := ⟨1, ![100000]⟩
abbrev S3x128x128 : Shape := ⟨3, ![3, 128, 128]⟩
abbrev S3x128 : Shape := ⟨2, ![3, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S100000x384 : Shape := ⟨2, ![100000, 384]⟩
abbrev S512x384 : Shape := ⟨2, ![512, 384]⟩

abbrev nBuf : Space → Nat
  | .hbm => 276
  | .vmem => 0
  | .smem => 0
  | _ => 0

abbrev hbmTy0_0 (i : Nat) : BufTy := match i % 128 with
  | 0 => ⟨S100000x128, .f32⟩
  | 1 => ⟨S2x1600000, .i32⟩
  | 2 => ⟨S100000, .i32⟩
  | 3 => ⟨S3x128x128, .f32⟩
  | 4 => ⟨S3x128, .f32⟩
  | 5 => ⟨S3x128x128, .f32⟩
  | 6 => ⟨S3x128, .f32⟩
  | 7 => ⟨S3x128, .f32⟩
  | 8 => ⟨S3x128, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x128, .f32⟩
  | 22 => ⟨S_, .f32⟩
  | 23 => ⟨S100000x128, .f32⟩
  | 24 => ⟨S1600000x1, .i32⟩
  | 25 => ⟨S100000x128, .f32⟩
  | 26 => ⟨S100000x128, .f32⟩
  | 27 => ⟨S1x128x128, .f32⟩
  | 28 => ⟨S128x128, .f32⟩
  | 29 => ⟨S100000x128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S_, .f32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S_, .f32⟩
  | 47 => ⟨S128, .f32⟩
  | 48 => ⟨S_, .f32⟩
  | 49 => ⟨S128, .f32⟩
  | 50 => ⟨S128, .f32⟩
  | 51 => ⟨S_, .i32⟩
  | 52 => ⟨S_, .f32⟩
  | 53 => ⟨S128, .f32⟩
  | 54 => ⟨S1x128, .f32⟩
  | 55 => ⟨S_, .f32⟩
  | 56 => ⟨S1x128, .f32⟩
  | 57 => ⟨S1x128, .f32⟩
  | 58 => ⟨S100000x128, .f32⟩
  | 59 => ⟨S100000x128, .f32⟩
  | 60 => ⟨S100000x128, .f32⟩
  | 61 => ⟨S_, .f32⟩
  | 62 => ⟨S_, .f32⟩
  | 63 => ⟨S_, .f32⟩
  | 64 => ⟨S_, .f32⟩
  | 65 => ⟨S128, .f32⟩
  | 66 => ⟨S128, .f32⟩
  | 67 => ⟨S128, .f32⟩
  | 68 => ⟨S_, .f32⟩
  | 69 => ⟨S_, .i1⟩
  | 70 => ⟨S_, .f32⟩
  | 71 => ⟨S_, .f32⟩
  | 72 => ⟨S128, .f32⟩
  | 73 => ⟨S128, .f32⟩
  | 74 => ⟨S1x128, .f32⟩
  | 75 => ⟨S128, .f32⟩
  | 76 => ⟨S1x128, .f32⟩
  | 77 => ⟨S100000x128, .f32⟩
  | 78 => ⟨S100000x128, .f32⟩
  | 79 => ⟨S1x128, .f32⟩
  | 80 => ⟨S100000x128, .f32⟩
  | 81 => ⟨S100000x128, .f32⟩
  | 82 => ⟨S_, .f32⟩
  | 83 => ⟨S128, .f32⟩
  | 84 => ⟨S128, .f32⟩
  | 85 => ⟨S128, .f32⟩
  | 86 => ⟨S1x128, .f32⟩
  | 87 => ⟨S100000x128, .f32⟩
  | 88 => ⟨S100000x128, .f32⟩
  | 89 => ⟨S1x128, .f32⟩
  | 90 => ⟨S128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S_, .i32⟩
  | 98 => ⟨S1600000, .i32⟩
  | 99 => ⟨S1600000, .i1⟩
  | 100 => ⟨S_, .i32⟩
  | 101 => ⟨S1600000, .i32⟩
  | 102 => ⟨S1600000, .i32⟩
  | 103 => ⟨S1600000, .i32⟩
  | 104 => ⟨S1600000x1, .i32⟩
  | 105 => ⟨S1600000x128, .f32⟩
  | 106 => ⟨S_, .f32⟩
  | 107 => ⟨S100000x128, .f32⟩
  | 108 => ⟨S1600000x1, .i32⟩
  | 109 => ⟨S100000x128, .f32⟩
  | 110 => ⟨S100000x128, .f32⟩
  | 111 => ⟨S1x128x128, .f32⟩
  | 112 => ⟨S128x128, .f32⟩
  | 113 => ⟨S100000x128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S_, .f32⟩
  | 120 => ⟨S100000x128, .f32⟩
  | 121 => ⟨S100000x128, .f32⟩
  | 122 => ⟨S1x128x128, .f32⟩
  | 123 => ⟨S128x128, .f32⟩
  | 124 => ⟨S100000x128, .f32⟩
  | 125 => ⟨S1x128, .f32⟩
  | 126 => ⟨S128, .f32⟩
  | 127 => ⟨S1x128, .f32⟩
  | _ => ⟨S100000x128, .f32⟩

abbrev hbmTy0_1 (i : Nat) : BufTy := match i % 128 with
  | 0 => ⟨S100000x128, .f32⟩
  | 1 => ⟨S100000x128, .f32⟩
  | 2 => ⟨S_, .f32⟩
  | 3 => ⟨S128, .f32⟩
  | 4 => ⟨S_, .f32⟩
  | 5 => ⟨S128, .f32⟩
  | 6 => ⟨S128, .f32⟩
  | 7 => ⟨S_, .i32⟩
  | 8 => ⟨S_, .f32⟩
  | 9 => ⟨S128, .f32⟩
  | 10 => ⟨S1x128, .f32⟩
  | 11 => ⟨S_, .f32⟩
  | 12 => ⟨S1x128, .f32⟩
  | 13 => ⟨S1x128, .f32⟩
  | 14 => ⟨S100000x128, .f32⟩
  | 15 => ⟨S100000x128, .f32⟩
  | 16 => ⟨S100000x128, .f32⟩
  | 17 => ⟨S_, .f32⟩
  | 18 => ⟨S_, .f32⟩
  | 19 => ⟨S_, .f32⟩
  | 20 => ⟨S_, .f32⟩
  | 21 => ⟨S128, .f32⟩
  | 22 => ⟨S128, .f32⟩
  | 23 => ⟨S128, .f32⟩
  | 24 => ⟨S_, .f32⟩
  | 25 => ⟨S_, .i1⟩
  | 26 => ⟨S_, .f32⟩
  | 27 => ⟨S_, .f32⟩
  | 28 => ⟨S128, .f32⟩
  | 29 => ⟨S128, .f32⟩
  | 30 => ⟨S1x128, .f32⟩
  | 31 => ⟨S128, .f32⟩
  | 32 => ⟨S1x128, .f32⟩
  | 33 => ⟨S100000x128, .f32⟩
  | 34 => ⟨S100000x128, .f32⟩
  | 35 => ⟨S1x128, .f32⟩
  | 36 => ⟨S100000x128, .f32⟩
  | 37 => ⟨S100000x128, .f32⟩
  | 38 => ⟨S_, .f32⟩
  | 39 => ⟨S128, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S1x128, .f32⟩
  | 46 => ⟨S128, .f32⟩
  | 47 => ⟨S1x128, .f32⟩
  | 48 => ⟨S100000x128, .f32⟩
  | 49 => ⟨S100000x128, .f32⟩
  | 50 => ⟨S_, .f32⟩
  | 51 => ⟨S100000x128, .f32⟩
  | 52 => ⟨S100000x128, .f32⟩
  | 53 => ⟨S_, .i32⟩
  | 54 => ⟨S1600000, .i32⟩
  | 55 => ⟨S1600000, .i1⟩
  | 56 => ⟨S_, .i32⟩
  | 57 => ⟨S1600000, .i32⟩
  | 58 => ⟨S1600000, .i32⟩
  | 59 => ⟨S1600000, .i32⟩
  | 60 => ⟨S1600000x1, .i32⟩
  | 61 => ⟨S1600000x128, .f32⟩
  | 62 => ⟨S_, .f32⟩
  | 63 => ⟨S100000x128, .f32⟩
  | 64 => ⟨S1600000x1, .i32⟩
  | 65 => ⟨S100000x128, .f32⟩
  | 66 => ⟨S100000x128, .f32⟩
  | 67 => ⟨S1x128x128, .f32⟩
  | 68 => ⟨S128x128, .f32⟩
  | 69 => ⟨S100000x128, .f32⟩
  | 70 => ⟨S1x128, .f32⟩
  | 71 => ⟨S128, .f32⟩
  | 72 => ⟨S1x128, .f32⟩
  | 73 => ⟨S100000x128, .f32⟩
  | 74 => ⟨S100000x128, .f32⟩
  | 75 => ⟨S_, .f32⟩
  | 76 => ⟨S100000x128, .f32⟩
  | 77 => ⟨S100000x128, .f32⟩
  | 78 => ⟨S1x128x128, .f32⟩
  | 79 => ⟨S128x128, .f32⟩
  | 80 => ⟨S100000x128, .f32⟩
  | 81 => ⟨S1x128, .f32⟩
  | 82 => ⟨S128, .f32⟩
  | 83 => ⟨S1x128, .f32⟩
  | 84 => ⟨S100000x128, .f32⟩
  | 85 => ⟨S100000x128, .f32⟩
  | 86 => ⟨S_, .f32⟩
  | 87 => ⟨S128, .f32⟩
  | 88 => ⟨S_, .f32⟩
  | 89 => ⟨S128, .f32⟩
  | 90 => ⟨S128, .f32⟩
  | 91 => ⟨S_, .i32⟩
  | 92 => ⟨S_, .f32⟩
  | 93 => ⟨S128, .f32⟩
  | 94 => ⟨S1x128, .f32⟩
  | 95 => ⟨S_, .f32⟩
  | 96 => ⟨S1x128, .f32⟩
  | 97 => ⟨S1x128, .f32⟩
  | 98 => ⟨S100000x128, .f32⟩
  | 99 => ⟨S100000x128, .f32⟩
  | 100 => ⟨S100000x128, .f32⟩
  | 101 => ⟨S_, .f32⟩
  | 102 => ⟨S_, .f32⟩
  | 103 => ⟨S_, .f32⟩
  | 104 => ⟨S_, .f32⟩
  | 105 => ⟨S128, .f32⟩
  | 106 => ⟨S128, .f32⟩
  | 107 => ⟨S128, .f32⟩
  | 108 => ⟨S_, .f32⟩
  | 109 => ⟨S_, .i1⟩
  | 110 => ⟨S_, .f32⟩
  | 111 => ⟨S_, .f32⟩
  | 112 => ⟨S128, .f32⟩
  | 113 => ⟨S128, .f32⟩
  | 114 => ⟨S1x128, .f32⟩
  | 115 => ⟨S128, .f32⟩
  | 116 => ⟨S1x128, .f32⟩
  | 117 => ⟨S100000x128, .f32⟩
  | 118 => ⟨S100000x128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_2 (i : Nat) : BufTy := match i % 128 with
  | 0 => ⟨S100000x128, .f32⟩
  | 1 => ⟨S1x128, .f32⟩
  | 2 => ⟨S128, .f32⟩
  | 3 => ⟨S1x128, .f32⟩
  | 4 => ⟨S100000x128, .f32⟩
  | 5 => ⟨S100000x128, .f32⟩
  | 6 => ⟨S_, .f32⟩
  | 7 => ⟨S512x128, .f32⟩
  | 8 => ⟨S100000x1, .i32⟩
  | 9 => ⟨S512x128, .f32⟩
  | 10 => ⟨S_, .f32⟩
  | 11 => ⟨S512x128, .f32⟩
  | 12 => ⟨S100000x1, .i32⟩
  | 13 => ⟨S512x128, .f32⟩
  | 14 => ⟨S_, .f32⟩
  | 15 => ⟨S512x128, .f32⟩
  | 16 => ⟨S100000x1, .i32⟩
  | 17 => ⟨S512x128, .f32⟩
  | 18 => ⟨S100000x384, .f32⟩
  | 19 => ⟨S512x384, .f32⟩
  | _ => ⟨S100000x128, .f32⟩

abbrev hbmTy (i : Nat) : BufTy := match i / 128 with
  | 0 => hbmTy0_0 i
  | 1 => hbmTy0_1 i
  | 2 => hbmTy0_2 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_1 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_2 : Ref sig .tc := ⟨.hbm, 46, rfl⟩
abbrev main_v33 : Ref sig .tc := ⟨.hbm, 47, rfl⟩
abbrev main_cst_3 : Ref sig .tc := ⟨.hbm, 48, rfl⟩
abbrev main_v34 : Ref sig .tc := ⟨.hbm, 49, rfl⟩
abbrev main_v35 : Ref sig .tc := ⟨.hbm, 50, rfl⟩
abbrev main_c_4 : Ref sig .tc := ⟨.hbm, 51, rfl⟩
abbrev main_call0_cst : Ref sig .tc := ⟨.hbm, 52, rfl⟩
abbrev main_call0_v0 : Ref sig .tc := ⟨.hbm, 53, rfl⟩
abbrev main_call0_v1 : Ref sig .tc := ⟨.hbm, 54, rfl⟩
abbrev main_call0_cst_0 : Ref sig .tc := ⟨.hbm, 55, rfl⟩
abbrev main_call0_v2 : Ref sig .tc := ⟨.hbm, 56, rfl⟩
abbrev main_call0_v3 : Ref sig .tc := ⟨.hbm, 57, rfl⟩
abbrev main_call0_v4 : Ref sig .tc := ⟨.hbm, 58, rfl⟩
abbrev main_call0_v5 : Ref sig .tc := ⟨.hbm, 59, rfl⟩
abbrev main_call0_v6 : Ref sig .tc := ⟨.hbm, 60, rfl⟩
abbrev main_call0_v7 : Ref sig .tc := ⟨.hbm, 61, rfl⟩
abbrev main_call0_cst_1 : Ref sig .tc := ⟨.hbm, 62, rfl⟩
abbrev main_call0_v8 : Ref sig .tc := ⟨.hbm, 63, rfl⟩
abbrev main_call0_cst_2 : Ref sig .tc := ⟨.hbm, 64, rfl⟩
abbrev main_call0_v9 : Ref sig .tc := ⟨.hbm, 65, rfl⟩
abbrev main_call0_v10 : Ref sig .tc := ⟨.hbm, 66, rfl⟩
abbrev main_call0_v11 : Ref sig .tc := ⟨.hbm, 67, rfl⟩
abbrev main_call0_cst_3 : Ref sig .tc := ⟨.hbm, 68, rfl⟩
abbrev main_call0_v12 : Ref sig .tc := ⟨.hbm, 69, rfl⟩
abbrev main_call0_cst_4 : Ref sig .tc := ⟨.hbm, 70, rfl⟩
abbrev main_call0_call0_v0 : Ref sig .tc := ⟨.hbm, 71, rfl⟩
abbrev main_call0_call0_v1 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_cst_5 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_6 : Ref sig .tc := ⟨.hbm, 94, rfl⟩
abbrev main_v56 : Ref sig .tc := ⟨.hbm, 95, rfl⟩
abbrev main_v57 : Ref sig .tc := ⟨.hbm, 96, rfl⟩
abbrev main_c_7 : Ref sig .tc := ⟨.hbm, 97, rfl⟩
abbrev main_v58 : Ref sig .tc := ⟨.hbm, 98, rfl⟩
abbrev main_v59 : Ref sig .tc := ⟨.hbm, 99, rfl⟩
abbrev main_c_8 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_cst_9 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_10 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_11 : Ref sig .tc := ⟨.hbm, 130, rfl⟩
abbrev main_v87 : Ref sig .tc := ⟨.hbm, 131, rfl⟩
abbrev main_cst_12 : Ref sig .tc := ⟨.hbm, 132, rfl⟩
abbrev main_v88 : Ref sig .tc := ⟨.hbm, 133, rfl⟩
abbrev main_v89 : Ref sig .tc := ⟨.hbm, 134, rfl⟩
abbrev main_c_13 : Ref sig .tc := ⟨.hbm, 135, rfl⟩
abbrev main_call1_cst : Ref sig .tc := ⟨.hbm, 136, rfl⟩
abbrev main_call1_v0 : Ref sig .tc := ⟨.hbm, 137, rfl⟩
abbrev main_call1_v1 : Ref sig .tc := ⟨.hbm, 138, rfl⟩
abbrev main_call1_cst_0 : Ref sig .tc := ⟨.hbm, 139, rfl⟩
abbrev main_call1_v2 : Ref sig .tc := ⟨.hbm, 140, rfl⟩
abbrev main_call1_v3 : Ref sig .tc := ⟨.hbm, 141, rfl⟩
abbrev main_call1_v4 : Ref sig .tc := ⟨.hbm, 142, rfl⟩
abbrev main_call1_v5 : Ref sig .tc := ⟨.hbm, 143, rfl⟩
abbrev main_call1_v6 : Ref sig .tc := ⟨.hbm, 144, rfl⟩
abbrev main_call1_v7 : Ref sig .tc := ⟨.hbm, 145, rfl⟩
abbrev main_call1_cst_1 : Ref sig .tc := ⟨.hbm, 146, rfl⟩
abbrev main_call1_v8 : Ref sig .tc := ⟨.hbm, 147, rfl⟩
abbrev main_call1_cst_2 : Ref sig .tc := ⟨.hbm, 148, rfl⟩
abbrev main_call1_v9 : Ref sig .tc := ⟨.hbm, 149, rfl⟩
abbrev main_call1_v10 : Ref sig .tc := ⟨.hbm, 150, rfl⟩
abbrev main_call1_v11 : Ref sig .tc := ⟨.hbm, 151, rfl⟩
abbrev main_call1_cst_3 : Ref sig .tc := ⟨.hbm, 152, rfl⟩
abbrev main_call1_v12 : Ref sig .tc := ⟨.hbm, 153, rfl⟩
abbrev main_call1_cst_4 : Ref sig .tc := ⟨.hbm, 154, rfl⟩
abbrev main_call1_call0_v0 : Ref sig .tc := ⟨.hbm, 155, rfl⟩
abbrev main_call1_call0_v1 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_cst_14 : Ref sig .tc := ⟨.hbm, 166, rfl⟩
abbrev main_v99 : Ref sig .tc := ⟨.hbm, 167, rfl⟩
abbrev main_v100 : Ref sig .tc := ⟨.hbm, 168, rfl⟩
abbrev main_v101 : Ref sig .tc := ⟨.hbm, 169, rfl⟩
abbrev main_v102 : Ref sig .tc := ⟨.hbm, 170, rfl⟩
abbrev main_v103 : Ref sig .tc := ⟨.hbm, 171, rfl⟩
abbrev main_v104 : Ref sig .tc := ⟨.hbm, 172, rfl⟩
abbrev main_v105 : Ref sig .tc := ⟨.hbm, 173, rfl⟩
abbrev main_v106 : Ref sig .tc := ⟨.hbm, 174, rfl⟩
abbrev main_v107 : Ref sig .tc := ⟨.hbm, 175, rfl⟩
abbrev main_v108 : Ref sig .tc := ⟨.hbm, 176, rfl⟩
abbrev main_v109 : Ref sig .tc := ⟨.hbm, 177, rfl⟩
abbrev main_cst_15 : Ref sig .tc := ⟨.hbm, 178, rfl⟩
abbrev main_v110 : Ref sig .tc := ⟨.hbm, 179, rfl⟩
abbrev main_v111 : Ref sig .tc := ⟨.hbm, 180, rfl⟩
abbrev main_c_16 : Ref sig .tc := ⟨.hbm, 181, rfl⟩
abbrev main_v112 : Ref sig .tc := ⟨.hbm, 182, rfl⟩
abbrev main_v113 : Ref sig .tc := ⟨.hbm, 183, rfl⟩
abbrev main_c_17 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_cst_18 : Ref sig .tc := ⟨.hbm, 190, rfl⟩
abbrev main_v119 : Ref sig .tc := ⟨.hbm, 191, rfl⟩
abbrev main_v120 : Ref sig .tc := ⟨.hbm, 192, rfl⟩
abbrev main_v121 : Ref sig .tc := ⟨.hbm, 193, rfl⟩
abbrev main_v122 : Ref sig .tc := ⟨.hbm, 194, rfl⟩
abbrev main_v123 : Ref sig .tc := ⟨.hbm, 195, rfl⟩
abbrev main_v124 : Ref sig .tc := ⟨.hbm, 196, rfl⟩
abbrev main_v125 : Ref sig .tc := ⟨.hbm, 197, rfl⟩
abbrev main_v126 : Ref sig .tc := ⟨.hbm, 198, rfl⟩
abbrev main_v127 : Ref sig .tc := ⟨.hbm, 199, rfl⟩
abbrev main_v128 : Ref sig .tc := ⟨.hbm, 200, rfl⟩
abbrev main_v129 : Ref sig .tc := ⟨.hbm, 201, rfl⟩
abbrev main_v130 : Ref sig .tc := ⟨.hbm, 202, rfl⟩
abbrev main_cst_19 : Ref sig .tc := ⟨.hbm, 203, rfl⟩
abbrev main_v131 : Ref sig .tc := ⟨.hbm, 204, rfl⟩
abbrev main_v132 : Ref sig .tc := ⟨.hbm, 205, rfl⟩
abbrev main_v133 : Ref sig .tc := ⟨.hbm, 206, rfl⟩
abbrev main_v134 : Ref sig .tc := ⟨.hbm, 207, rfl⟩
abbrev main_v135 : Ref sig .tc := ⟨.hbm, 208, rfl⟩
abbrev main_v136 : Ref sig .tc := ⟨.hbm, 209, rfl⟩
abbrev main_v137 : Ref sig .tc := ⟨.hbm, 210, rfl⟩
abbrev main_v138 : Ref sig .tc := ⟨.hbm, 211, rfl⟩
abbrev main_v139 : Ref sig .tc := ⟨.hbm, 212, rfl⟩
abbrev main_v140 : Ref sig .tc := ⟨.hbm, 213, rfl⟩
abbrev main_cst_20 : Ref sig .tc := ⟨.hbm, 214, rfl⟩
abbrev main_v141 : Ref sig .tc := ⟨.hbm, 215, rfl⟩
abbrev main_cst_21 : Ref sig .tc := ⟨.hbm, 216, rfl⟩
abbrev main_v142 : Ref sig .tc := ⟨.hbm, 217, rfl⟩
abbrev main_v143 : Ref sig .tc := ⟨.hbm, 218, rfl⟩
abbrev main_c_22 : Ref sig .tc := ⟨.hbm, 219, rfl⟩
abbrev main_call2_cst : Ref sig .tc := ⟨.hbm, 220, rfl⟩
abbrev main_call2_v0 : Ref sig .tc := ⟨.hbm, 221, rfl⟩
abbrev main_call2_v1 : Ref sig .tc := ⟨.hbm, 222, rfl⟩
abbrev main_call2_cst_0 : Ref sig .tc := ⟨.hbm, 223, rfl⟩
abbrev main_call2_v2 : Ref sig .tc := ⟨.hbm, 224, rfl⟩
abbrev main_call2_v3 : Ref sig .tc := ⟨.hbm, 225, rfl⟩
abbrev main_call2_v4 : Ref sig .tc := ⟨.hbm, 226, rfl⟩
abbrev main_call2_v5 : Ref sig .tc := ⟨.hbm, 227, rfl⟩
abbrev main_call2_v6 : Ref sig .tc := ⟨.hbm, 228, rfl⟩
abbrev main_call2_v7 : Ref sig .tc := ⟨.hbm, 229, rfl⟩
abbrev main_call2_cst_1 : Ref sig .tc := ⟨.hbm, 230, rfl⟩
abbrev main_call2_v8 : Ref sig .tc := ⟨.hbm, 231, rfl⟩
abbrev main_call2_cst_2 : Ref sig .tc := ⟨.hbm, 232, rfl⟩
abbrev main_call2_v9 : Ref sig .tc := ⟨.hbm, 233, rfl⟩
abbrev main_call2_v10 : Ref sig .tc := ⟨.hbm, 234, rfl⟩
abbrev main_call2_v11 : Ref sig .tc := ⟨.hbm, 235, rfl⟩
abbrev main_call2_cst_3 : Ref sig .tc := ⟨.hbm, 236, rfl⟩
abbrev main_call2_v12 : Ref sig .tc := ⟨.hbm, 237, rfl⟩
abbrev main_call2_cst_4 : Ref sig .tc := ⟨.hbm, 238, rfl⟩
abbrev main_call2_call0_v0 : Ref sig .tc := ⟨.hbm, 239, rfl⟩
abbrev main_call2_call0_v1 : Ref sig .tc := ⟨.hbm, 240, rfl⟩
abbrev main_v144 : Ref sig .tc := ⟨.hbm, 241, rfl⟩
abbrev main_v145 : Ref sig .tc := ⟨.hbm, 242, rfl⟩
abbrev main_v146 : Ref sig .tc := ⟨.hbm, 243, rfl⟩
abbrev main_v147 : Ref sig .tc := ⟨.hbm, 244, rfl⟩
abbrev main_v148 : Ref sig .tc := ⟨.hbm, 245, rfl⟩
abbrev main_v149 : Ref sig .tc := ⟨.hbm, 246, rfl⟩
abbrev main_v150 : Ref sig .tc := ⟨.hbm, 247, rfl⟩
abbrev main_v151 : Ref sig .tc := ⟨.hbm, 248, rfl⟩
abbrev main_v152 : Ref sig .tc := ⟨.hbm, 249, rfl⟩
abbrev main_cst_23 : Ref sig .tc := ⟨.hbm, 250, rfl⟩
abbrev main_v153 : Ref sig .tc := ⟨.hbm, 251, rfl⟩
abbrev main_v154 : Ref sig .tc := ⟨.hbm, 252, rfl⟩
abbrev main_v155 : Ref sig .tc := ⟨.hbm, 253, rfl⟩
abbrev main_v156 : Ref sig .tc := ⟨.hbm, 254, rfl⟩
abbrev main_v157 : Ref sig .tc := ⟨.hbm, 255, rfl⟩
abbrev main_v158 : Ref sig .tc := ⟨.hbm, 256, rfl⟩
abbrev main_v159 : Ref sig .tc := ⟨.hbm, 257, rfl⟩
abbrev main_v160 : Ref sig .tc := ⟨.hbm, 258, rfl⟩
abbrev main_v161 : Ref sig .tc := ⟨.hbm, 259, rfl⟩
abbrev main_v162 : Ref sig .tc := ⟨.hbm, 260, rfl⟩
abbrev main_v163 : Ref sig .tc := ⟨.hbm, 261, rfl⟩
abbrev main_cst_24 : Ref sig .tc := ⟨.hbm, 262, rfl⟩
abbrev main_v164 : Ref sig .tc := ⟨.hbm, 263, rfl⟩
abbrev main_v165 : Ref sig .tc := ⟨.hbm, 264, rfl⟩
abbrev main_v166 : Ref sig .tc := ⟨.hbm, 265, rfl⟩
abbrev main_cst_25 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_cst_26 : Ref sig .tc := ⟨.hbm, 270, rfl⟩
abbrev main_v170 : Ref sig .tc := ⟨.hbm, 271, rfl⟩
abbrev main_v171 : Ref sig .tc := ⟨.hbm, 272, rfl⟩
abbrev main_v172 : Ref sig .tc := ⟨.hbm, 273, rfl⟩
abbrev main_v173 : Ref sig .tc := ⟨.hbm, 274, rfl⟩
abbrev main_v174 : Ref sig .tc := ⟨.hbm, 275, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  slices_S3x128x128_S1x128x128_0_0_0 : S3x128x128.Slices ![0, 0, 0] S1x128x128
  shapeCasts_S1x128x128_S128x128 : S1x128x128.ShapeCasts S128x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S3x128x128_S1x128x128_1_0_0 : S3x128x128.Slices ![1, 0, 0] S1x128x128
  slices_S3x128_S1x128_1_0 : S3x128.Slices ![1, 0] S1x128
  slices_S3x128x128_S1x128x128_2_0_0 : S3x128x128.Slices ![2, 0, 0] S1x128x128
  slices_S3x128_S1x128_2_0 : S3x128.Slices ![2, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  concatenates_S100000x128_S100000x128_S100000x128_S100000x384_d1 : Shape.Concatenates [S100000x128, S100000x128, S100000x128] S100000x384 1
  concatenates_S512x128_S512x128_S512x128_S512x384_d1 : Shape.Concatenates [S512x128, S512x128, S512x128] S512x384 1
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf

class Facts : Prop extends Facts₀ where

variable [Facts]
-- ==== Proof.K.Mlp0.lean ====
import proofs.«125359_j15118284882190_1_alg».proof.Proof.Gen.Kernel.Launch
import proofs.«125359_j15118284882190_1_alg».proof.Proof.Gen.Kernel.Skeleton
import proofs.«125359_j15118284882190_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! # Pipeline 0 (the MLP-and-statistics kernel): proof data and body obligation

Per point of the grid of 20 the body loads five whole input buffers (a row block, two weight matrices, two bias rows),
stores the row block's image under the two-layer MLP into the row-block output, and accumulates into the statistics
output the block's column sums and column sums of squares: stored at the first point, added to what the point before left
at every later one. This module states what every staging buffer holds after the body at each point, over ANY contents
`V` of the core's buffers at region entry and at any float model `F`, and proves the body's obligation to the
pipeline from it; the two outputs are then read through the body's payloads. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What core `c`'s TensorCore buffers hold when the region is entered: a parameter of everything below.
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window fetched at
    the first point only keeps its block index, hence its block), for any proof data over the arrays `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window fetched at
    the first point only keeps its block index, hence its block), for any proof data over the arrays `V` whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window fetched at
    the first point only keeps its block index, hence its block), for any proof data over the arrays `V` whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a window fetched at
    the first point only keeps its block index, hence its block), for any proof data over the arrays `V` whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (a window fetched at
    the first point only keeps its block index, hence its block), for any proof data over the arrays `V` whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, in closed form -/

/-- The first conditional (`i == 0`) is taken at the first point only — decided over the grid. -/
theorem hcond0_1 : ∀ t : Fin cfg0.N, k0_cond1 (grid0.coords t) = 1#1 ↔ t.val % 20 = 0 :=
  (by decide +kernel : ∀ t : Fin grid0.N, k0_cond1 (grid0.coords t) = 1#1 ↔ t.val % 20 = 0)
/-- The second conditional (`i != 0`) is taken at every other point — decided over the grid. -/
theorem hcond0_2 : ∀ t : Fin cfg0.N, k0_cond2 (grid0.coords t) = 1#1 ↔ ¬t.val % 20 = 0 :=
  (by decide +kernel : ∀ t : Fin grid0.N, k0_cond2 (grid0.coords t) = 1#1 ↔ ¬t.val % 20 = 0)

/-- One of the two conditionals holds at every setting of the coordinate, so the statistics window is idle nowhere:
    both conditions read the coordinate's value only, and the twenty values are checked. -/
theorem live0_6 : ∀ i : grid0.Coords, cfg0.idle 6 i = false := by
  intro i
  have h : ∀ n : Fin 20, (!(Scalar.cmpi .ne (Scalar.extui (Scalar.cmpi .eq (BitVec.ofNat 32 n.val) 0#32)) 0#32 == 1#1) && !(Scalar.cmpi .ne (Scalar.extui (Scalar.cmpi .ne (BitVec.ofNat 32 n.val) 0#32)) 0#32 == 1#1)) = false := by decide
  exact h (i 0)

/-! ## The body's accesses: every load and store is of a whole staging buffer -/

abbrev rblk0 : Rect S5000x128 := Rect.unit (s := S5000x128) ![0, 0] S5000x128.size (by decide)
abbrev rmat0 : Rect S128x128 := Rect.unit (s := S128x128) ![0, 0] S128x128.size (by decide)
abbrev rrow0 : Rect S1x128 := Rect.unit (s := S1x128) ![0, 0] S1x128.size (by decide)
abbrev rsts0 : Rect S2x128 := Rect.unit (s := S2x128) ![0, 0] S2x128.size (by decide)

/-- The offsets of every access are zero. -/
theorem hzero0 : (![0, 0] : Fin 2 → Nat) = fun _ => 0 := funext fun a => by fin_cases a <;> rfl

/-! ## What the body leaves in each output window's buffer -/

/-- The row-block output's buffer after the body: its one whole-buffer store. -/
def out0_5 (xa : Vec F S5000x128 .f32) (xb : Vec F S128x128 .f32) (xc : Vec F S1x128 .f32) (xd : Vec F S128x128 .f32) (xe : Vec F S1x128 .f32) : Vec F S5000x128 .f32 :=
  View.canon [⟨rblk0, k0_pay1 (View.ld xa rblk0) (View.ld xb rmat0) (View.ld xc rrow0) (View.ld xd rmat0) (View.ld xe rrow0)⟩]

/-- The statistics buffer after the body at the first point: the block's column sums and column sums of squares. -/
def outA0_6 (xa : Vec F S5000x128 .f32) (xb : Vec F S128x128 .f32) (xc : Vec F S1x128 .f32) (xd : Vec F S128x128 .f32) (xe : Vec F S1x128 .f32) : Vec F S2x128 .f32 :=
  View.canon [⟨rsts0, k0_pay2 (View.ld xa rblk0) (View.ld xb rmat0) (View.ld xc rrow0) (View.ld xd rmat0) (View.ld xe rrow0)⟩]

/-- The statistics buffer after the body at a later point: what it held (`xo`) plus the block's contribution. -/
def outB0_6 (xa : Vec F S5000x128 .f32) (xb : Vec F S128x128 .f32) (xc : Vec F S1x128 .f32) (xd : Vec F S128x128 .f32) (xe : Vec F S1x128 .f32) (xo : Vec F S2x128 .f32) : Vec F S2x128 .f32 :=
  View.canon [⟨rsts0, k0_pay3 (View.ld xa rblk0) (View.ld xb rmat0) (View.ld xc rrow0) (View.ld xd rmat0) (View.ld xe rrow0) (View.ld xo rsts0)⟩]

/-- One whole-buffer store covers the buffer. -/
theorem cover0_5 (p : Vec F S5000x128 .f32) (y : S5000x128.Idx) :
    ∃ pc ∈ ([⟨rblk0, p⟩] : List (View.Piece (Elt F) S5000x128 .f32)), y ∈ pc.1.set :=
  ⟨_, List.mem_singleton_self _, View.mem_set_unit_zero hzero0 (by decide) y⟩
theorem cover0_6 (p : Vec F S2x128 .f32) (y : S2x128.Idx) :
    ∃ pc ∈ ([⟨rsts0, p⟩] : List (View.Piece (Elt F) S2x128 .f32)), y ∈ pc.1.set :=
  ⟨_, List.mem_singleton_self _, View.mem_set_unit_zero hzero0 (by decide) y⟩

/-! ## The body's triple, case by case -/

set_option maxHeartbeats 4000000 in
/-- AT THE FIRST POINT (the first conditional taken, the second not): on whole staging memrefs, the inputs' at contents
    `xW` and the outputs' at anything, the body runs to the continuation holding the inputs' as they were, the row-block
    output at `out0_5` and the statistics at `outA0_6` of the inputs'. -/
theorem sound_kernel0_A (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : k0_cond1 i = 1#1) (hc2 : ¬k0_cond2 i = 1#1) (xa : Vec F S5000x128 .f32) (xb : Vec F S128x128 .f32) (xc : Vec F S1x128 .f32) (xd : Vec F S128x128 .f32) (xe : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out0_5 xa xb xc xd xe) ∗ owns (c : Thread nD τ) arg7 fullShare (outA0_6 xa xb xc xd xe)) -∗ K ⟨⟩))
      ⊢ wp frame (wpE (defs₀ (F := F)) Variants.none c none) E (cc0__mlp_reduce_kernel i arg1 harg1 arg2 harg2 arg3 harg3 arg4 harg4 arg5 harg5 arg6 harg6 arg7 harg7) K := by
  simp only [cc0__mlp_reduce_kernel_eq_skeleton]; unfold cc0__mlp_reduce_kernel_skel
  simp only [k0_part1_eq_skeleton]; unfold k0_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%dg, %fg, -, Hg⟩, Hk⟩
  subst hfa hfb hfc hfd hfe
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover0_5 _)
  iexists _; isplitr
  swap; · iexact Hg
  ipureintro
  exact View.read_writes_eq_canon _ _ _ (cover0_6 _)

set_option maxHeartbeats 4000000 in
/-- AT A LATER POINT (the first conditional not taken, the second taken): the same, the statistics buffer handed in at
    contents `xo` (what the point before left) and handed back at `outB0_6` of the inputs' and `xo`. -/
theorem sound_kernel0_B (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : ¬k0_cond1 i = 1#1) (hc2 : k0_cond2 i = 1#1) (xa : Vec F S5000x128 .f32) (xb : Vec F S128x128 .f32) (xc : Vec F S1x128 .f32) (xd : Vec F S128x128 .f32) (xe : Vec F S1x128 .f32) (xo : Vec F S2x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ owns (c : Thread nD τ) arg7 fullShare xo
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out0_5 xa xb xc xd xe) ∗ owns (c : Thread nD τ) arg7 fullShare (outB0_6 xa xb xc xd xe xo)) -∗ K ⟨⟩))
      ⊢ wp frame (wpE (defs₀ (F := F)) Variants.none c none) E (cc0__mlp_reduce_kernel i arg1 harg1 arg2 harg2 arg3 harg3 arg4 harg4 arg5 harg5 arg6 harg6 arg7 harg7) K := by
  simp only [cc0__mlp_reduce_kernel_eq_skeleton]; unfold cc0__mlp_reduce_kernel_skel
  simp only [k0_part1_eq_skeleton]; unfold k0_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fg, %hfg, Hg⟩, Hk⟩
  subst hfa hfb hfc hfd hfe hfg
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover0_5 _)
  iexists _; isplitr
  swap; · iexact Hg
  ipureintro
  exact View.read_writes_eq_canon _ _ _ (cover0_6 _)

/-! ## The statistics, point by point -/

/-- THE ACCUMULATION. What the statistics buffer holds after the body at position `n`: at the first point the block's
    sums, afterwards what the point before left plus the block's (the buffer is not written back in between). -/
def stats0 (c : Dev nD) : (n : ℕ) → n < cfg0.N → Vec F S2x128 .f32
  | 0, hn => outA0_6 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => outB0_6 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (stats0 c n (Nat.lt_of_succ_lt hn))

theorem stats0_zero (c : Dev nD) (t : Fin cfg0.N) (h : t.val = 0) :
    stats0 V c t.val t.isLt = outA0_6 (iblk0 V c 0 t) (iblk0 V c 1 t) (iblk0 V c 2 t) (iblk0 V c 3 t) (iblk0 V c 4 t) := by
  obtain ⟨n, hn⟩ := t
  cases n with
  | zero => exact rfl
  | succ n => exact absurd h (Nat.succ_ne_zero n)

theorem stats0_succ (c : Dev nD) (t : Fin cfg0.N) (h : t.val ≠ 0) :
    stats0 V c t.val t.isLt = outB0_6 (iblk0 V c 0 t) (iblk0 V c 1 t) (iblk0 V c 2 t) (iblk0 V c 3 t) (iblk0 V c 4 t) (stats0 V c (t.val - 1) (Nat.lt_of_le_of_lt (Nat.sub_le _ _) t.isLt)) := by
  obtain ⟨n, hn⟩ := t
  cases n with
  | zero => exact absurd rfl h
  | succ n => exact rfl

/-! ## The pipeline's proof data -/

/-- The proof data of the pipeline on core `c`: the arrays as the region finds them (`V`); after the body at point
    `t` each input's buffer at its block, the row-block output at `out0_5` of the input blocks and the statistics at
    `stats0`; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => stats0 V c t.val t.isLt
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5_out (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6_stats (c : Dev nD) (t : Fin cfg0.N) : (dat0 V c).after 6 t = stats0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a later point the statistics buffer holds what the body left at the point before: the point is not the first,
    the buffer is written back at the last point only, the window is live everywhere and uncut. -/
theorem before0_6_succ (c : Dev nD) (t : Fin cfg0.N) (h : t.val ≠ 0) (d) :
    (dat0 V c).before 6 t d = stats0 V c (t.val - 1) (Nat.lt_of_le_of_lt (Nat.sub_le _ _) t.isLt) := by
  have hN : t.val < 20 := lt_of_lt_of_eq t.isLt (show cfg0.N = 20 from N_0)
  rw [Dat.before_out_kept _ 6 rfl t h (Bool.eq_false_iff.mpr fun hf => by have := (flush0_6 _).mp hf; dsimp only at this; omega)
    live0_6 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leavesExact 6 t)

set_option maxHeartbeats 1600000 in
/-- The body at any point: the inputs' memrefs hold their blocks; the closed forms say which case the point is in; at a
    later point the statistics buffer holds what the point before left; so the case's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    show (dat0 V c).leavesExact 6 t = owns (c : Thread nD τ) (st0_6 t) fullShare ((dat0 V c).after 6 t) from by
      unfold Dat.leavesExact; rw [live0_6 (grid0.coords t)],
    after0_0, after0_1, after0_2, after0_3, after0_4, after0_5_out, after0_6_stats]
  have hN : t.val < 20 := lt_of_lt_of_eq t.isLt (show cfg0.N = 20 from N_0)
  by_cases hz : t.val = 0
  · have hm : t.val % 20 = 0 := by omega
    rw [stats0_zero V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel0_A c Set.univ (grid0.coords t) _ _ _ _ _ _ _ _ _ _ _ _ _ _ ((hcond0_1 t).mpr hm) (fun h => ((hcond0_2 t).mp h) hm)
      (iblk0 V c 0 t) (iblk0 V c 1 t) (iblk0 V c 2 t) (iblk0 V c 3 t) (iblk0 V c 4 t) _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexists _; iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg
  · have hm : ¬t.val % 20 = 0 := by omega
    rw [stats0_succ V c t hz]
    simp only [before0_6_succ V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel0_B c Set.univ (grid0.coords t) _ _ _ _ _ _ _ _ _ _ _ _ _ _ (fun h => hm ((hcond0_1 t).mp h)) ((hcond0_2 t).mpr hm)
      (iblk0 V c 0 t) (iblk0 V c 1 t) (iblk0 V c 2 t) (iblk0 V c 3 t) (iblk0 V c 4 t) _ _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs through the body's payloads -/

/-- The row-block output after the body at point `t` is the body's first payload of the five input blocks there (one
    whole-buffer store of it; every load reads a whole buffer). -/
theorem after0_5 (c : Dev nD) (t : Fin cfg0.N) :
    (dat0 V c).after 5 t = k0_pay1 (iblk0 V c 0 t) (iblk0 V c 1 t) (iblk0 V c 2 t) (iblk0 V c 3 t) (iblk0 V c 4 t) := by
  rw [after0_5_out]; unfold out0_5
  rw [View.canon_unit_zero hzero0]
  simp only [View.ld_unit_zero (S := S5000x128) hzero0, View.ld_unit_zero (S := S128x128) hzero0, View.ld_unit_zero (S := S1x128) hzero0, View.ld_unit_zero (S := S2x128) hzero0]

/-- The statistics after the body at the first point: the second payload (the block's column sums and sums of squares). -/
theorem after0_6_zero (c : Dev nD) (t : Fin cfg0.N) (h : t.val = 0) :
    (dat0 V c).after 6 t = k0_pay2 (iblk0 V c 0 t) (iblk0 V c 1 t) (iblk0 V c 2 t) (iblk0 V c 3 t) (iblk0 V c 4 t) := by
  rw [after0_6_stats, stats0_zero V c t h]; unfold outA0_6
  rw [View.canon_unit_zero hzero0]
  simp only [View.ld_unit_zero (S := S5000x128) hzero0, View.ld_unit_zero (S := S128x128) hzero0, View.ld_unit_zero (S := S1x128) hzero0, View.ld_unit_zero (S := S2x128) hzero0]

/-- The statistics after the body at a later point: the third payload of the input blocks and of the statistics the
    point before left (the running sums plus the block's). -/
theorem after0_6_succ (c : Dev nD) (t : Fin cfg0.N) (h : t.val ≠ 0) :
    (dat0 V c).after 6 t = k0_pay3 (iblk0 V c 0 t) (iblk0 V c 1 t) (iblk0 V c 2 t) (iblk0 V c 3 t) (iblk0 V c 4 t)
      ((dat0 V c).after 6 ⟨t.val - 1, Nat.lt_of_le_of_lt (Nat.sub_le _ _) t.isLt⟩) := by
  rw [after0_6_stats V c t, after0_6_stats V c ⟨t.val - 1, _⟩, stats0_succ V c t h]; unfold outB0_6
  rw [View.canon_unit_zero hzero0]
  simp only [View.ld_unit_zero (S := S5000x128) hzero0, View.ld_unit_zero (S := S128x128) hzero0, View.ld_unit_zero (S := S1x128) hzero0, View.ld_unit_zero (S := S2x128) hzero0]

end Cert.Kernel.Hand

end
-- ==== Proof.K.Mlp2.lean ====
import proofs.«125359_j15118284882190_1_alg».proof.Proof.Gen.Kernel.Launch
import proofs.«125359_j15118284882190_1_alg».proof.Proof.Gen.Kernel.Skeleton
import proofs.«125359_j15118284882190_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! # Pipeline 2 (the MLP-and-statistics kernel): proof data and body obligation

Per point of the grid of 20 the body loads five whole input buffers (a row block, two weight matrices, two bias rows),
stores the row block's image under the two-layer MLP into the row-block output, and accumulates into the statistics
output the block's column sums and column sums of squares: stored at the first point, added to what the point before left
at every later one. This module states what every staging buffer holds after the body at each point, over ANY contents
`V` of the core's buffers at region entry and at any float model `F`, and proves the body's obligation to the
pipeline from it; the two outputs are then read through the body's payloads. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What core `c`'s TensorCore buffers hold when the region is entered: a parameter of everything below.
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window fetched at
    the first point only keeps its block index, hence its block), for any proof data over the arrays `V` whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window fetched at
    the first point only keeps its block index, hence its block), for any proof data over the arrays `V` whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window fetched at
    the first point only keeps its block index, hence its block), for any proof data over the arrays `V` whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window fetched at
    the first point only keeps its block index, hence its block), for any proof data over the arrays `V` whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window fetched at
    the first point only keeps its block index, hence its block), for any proof data over the arrays `V` whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions, in closed form -/

/-- The first conditional (`i == 0`) is taken at the first point only — decided over the grid. -/
theorem hcond2_1 : ∀ t : Fin cfg2.N, k2_cond1 (grid2.coords t) = 1#1 ↔ t.val % 20 = 0 :=
  (by decide +kernel : ∀ t : Fin grid2.N, k2_cond1 (grid2.coords t) = 1#1 ↔ t.val % 20 = 0)
/-- The second conditional (`i != 0`) is taken at every other point — decided over the grid. -/
theorem hcond2_2 : ∀ t : Fin cfg2.N, k2_cond2 (grid2.coords t) = 1#1 ↔ ¬t.val % 20 = 0 :=
  (by decide +kernel : ∀ t : Fin grid2.N, k2_cond2 (grid2.coords t) = 1#1 ↔ ¬t.val % 20 = 0)

/-- One of the two conditionals holds at every setting of the coordinate, so the statistics window is idle nowhere:
    both conditions read the coordinate's value only, and the twenty values are checked. -/
theorem live2_6 : ∀ i : grid2.Coords, cfg2.idle 6 i = false := by
  intro i
  have h : ∀ n : Fin 20, (!(Scalar.cmpi .ne (Scalar.extui (Scalar.cmpi .eq (BitVec.ofNat 32 n.val) 0#32)) 0#32 == 1#1) && !(Scalar.cmpi .ne (Scalar.extui (Scalar.cmpi .ne (BitVec.ofNat 32 n.val) 0#32)) 0#32 == 1#1)) = false := by decide
  exact h (i 0)

/-! ## The body's accesses: every load and store is of a whole staging buffer -/

abbrev rblk2 : Rect S5000x128 := Rect.unit (s := S5000x128) ![0, 0] S5000x128.size (by decide)
abbrev rmat2 : Rect S128x128 := Rect.unit (s := S128x128) ![0, 0] S128x128.size (by decide)
abbrev rrow2 : Rect S1x128 := Rect.unit (s := S1x128) ![0, 0] S1x128.size (by decide)
abbrev rsts2 : Rect S2x128 := Rect.unit (s := S2x128) ![0, 0] S2x128.size (by decide)

/-- The offsets of every access are zero. -/
theorem hzero2 : (![0, 0] : Fin 2 → Nat) = fun _ => 0 := funext fun a => by fin_cases a <;> rfl

/-! ## What the body leaves in each output window's buffer -/

/-- The row-block output's buffer after the body: its one whole-buffer store. -/
def out2_5 (xa : Vec F S5000x128 .f32) (xb : Vec F S128x128 .f32) (xc : Vec F S1x128 .f32) (xd : Vec F S128x128 .f32) (xe : Vec F S1x128 .f32) : Vec F S5000x128 .f32 :=
  View.canon [⟨rblk2, k2_pay1 (View.ld xa rblk2) (View.ld xb rmat2) (View.ld xc rrow2) (View.ld xd rmat2) (View.ld xe rrow2)⟩]

/-- The statistics buffer after the body at the first point: the block's column sums and column sums of squares. -/
def outA2_6 (xa : Vec F S5000x128 .f32) (xb : Vec F S128x128 .f32) (xc : Vec F S1x128 .f32) (xd : Vec F S128x128 .f32) (xe : Vec F S1x128 .f32) : Vec F S2x128 .f32 :=
  View.canon [⟨rsts2, k2_pay2 (View.ld xa rblk2) (View.ld xb rmat2) (View.ld xc rrow2) (View.ld xd rmat2) (View.ld xe rrow2)⟩]

/-- The statistics buffer after the body at a later point: what it held (`xo`) plus the block's contribution. -/
def outB2_6 (xa : Vec F S5000x128 .f32) (xb : Vec F S128x128 .f32) (xc : Vec F S1x128 .f32) (xd : Vec F S128x128 .f32) (xe : Vec F S1x128 .f32) (xo : Vec F S2x128 .f32) : Vec F S2x128 .f32 :=
  View.canon [⟨rsts2, k2_pay3 (View.ld xa rblk2) (View.ld xb rmat2) (View.ld xc rrow2) (View.ld xd rmat2) (View.ld xe rrow2) (View.ld xo rsts2)⟩]

/-- One whole-buffer store covers the buffer. -/
theorem cover2_5 (p : Vec F S5000x128 .f32) (y : S5000x128.Idx) :
    ∃ pc ∈ ([⟨rblk2, p⟩] : List (View.Piece (Elt F) S5000x128 .f32)), y ∈ pc.1.set :=
  ⟨_, List.mem_singleton_self _, View.mem_set_unit_zero hzero2 (by decide) y⟩
theorem cover2_6 (p : Vec F S2x128 .f32) (y : S2x128.Idx) :
    ∃ pc ∈ ([⟨rsts2, p⟩] : List (View.Piece (Elt F) S2x128 .f32)), y ∈ pc.1.set :=
  ⟨_, List.mem_singleton_self _, View.mem_set_unit_zero hzero2 (by decide) y⟩

/-! ## The body's triple, case by case -/

set_option maxHeartbeats 4000000 in
/-- AT THE FIRST POINT (the first conditional taken, the second not): on whole staging memrefs, the inputs' at contents
    `xW` and the outputs' at anything, the body runs to the continuation holding the inputs' as they were, the row-block
    output at `out2_5` and the statistics at `outA2_6` of the inputs'. -/
theorem sound_kernel2_A (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : k2_cond1 i = 1#1) (hc2 : ¬k2_cond2 i = 1#1) (xa : Vec F S5000x128 .f32) (xb : Vec F S128x128 .f32) (xc : Vec F S1x128 .f32) (xd : Vec F S128x128 .f32) (xe : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out2_5 xa xb xc xd xe) ∗ owns (c : Thread nD τ) arg7 fullShare (outA2_6 xa xb xc xd xe)) -∗ K ⟨⟩))
      ⊢ wp frame (wpE (defs₀ (F := F)) Variants.none c none) E (cc2__mlp_reduce_kernel i arg1 harg1 arg2 harg2 arg3 harg3 arg4 harg4 arg5 harg5 arg6 harg6 arg7 harg7) K := by
  simp only [cc2__mlp_reduce_kernel_eq_skeleton]; unfold cc2__mlp_reduce_kernel_skel
  simp only [k2_part1_eq_skeleton]; unfold k2_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%dg, %fg, -, Hg⟩, Hk⟩
  subst hfa hfb hfc hfd hfe
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover2_5 _)
  iexists _; isplitr
  swap; · iexact Hg
  ipureintro
  exact View.read_writes_eq_canon _ _ _ (cover2_6 _)

set_option maxHeartbeats 4000000 in
/-- AT A LATER POINT (the first conditional not taken, the second taken): the same, the statistics buffer handed in at
    contents `xo` (what the point before left) and handed back at `outB2_6` of the inputs' and `xo`. -/
theorem sound_kernel2_B (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : ¬k2_cond1 i = 1#1) (hc2 : k2_cond2 i = 1#1) (xa : Vec F S5000x128 .f32) (xb : Vec F S128x128 .f32) (xc : Vec F S1x128 .f32) (xd : Vec F S128x128 .f32) (xe : Vec F S1x128 .f32) (xo : Vec F S2x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ owns (c : Thread nD τ) arg7 fullShare xo
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out2_5 xa xb xc xd xe) ∗ owns (c : Thread nD τ) arg7 fullShare (outB2_6 xa xb xc xd xe xo)) -∗ K ⟨⟩))
      ⊢ wp frame (wpE (defs₀ (F := F)) Variants.none c none) E (cc2__mlp_reduce_kernel i arg1 harg1 arg2 harg2 arg3 harg3 arg4 harg4 arg5 harg5 arg6 harg6 arg7 harg7) K := by
  simp only [cc2__mlp_reduce_kernel_eq_skeleton]; unfold cc2__mlp_reduce_kernel_skel
  simp only [k2_part1_eq_skeleton]; unfold k2_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fg, %hfg, Hg⟩, Hk⟩
  subst hfa hfb hfc hfd hfe hfg
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover2_5 _)
  iexists _; isplitr
  swap; · iexact Hg
  ipureintro
  exact View.read_writes_eq_canon _ _ _ (cover2_6 _)

/-! ## The statistics, point by point -/

/-- THE ACCUMULATION. What the statistics buffer holds after the body at position `n`: at the first point the block's
    sums, afterwards what the point before left plus the block's (the buffer is not written back in between). -/
def stats2 (c : Dev nD) : (n : ℕ) → n < cfg2.N → Vec F S2x128 .f32
  | 0, hn => outA2_6 (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => outB2_6 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (stats2 c n (Nat.lt_of_succ_lt hn))

theorem stats2_zero (c : Dev nD) (t : Fin cfg2.N) (h : t.val = 0) :
    stats2 V c t.val t.isLt = outA2_6 (iblk2 V c 0 t) (iblk2 V c 1 t) (iblk2 V c 2 t) (iblk2 V c 3 t) (iblk2 V c 4 t) := by
  obtain ⟨n, hn⟩ := t
  cases n with
  | zero => exact rfl
  | succ n => exact absurd h (Nat.succ_ne_zero n)

theorem stats2_succ (c : Dev nD) (t : Fin cfg2.N) (h : t.val ≠ 0) :
    stats2 V c t.val t.isLt = outB2_6 (iblk2 V c 0 t) (iblk2 V c 1 t) (iblk2 V c 2 t) (iblk2 V c 3 t) (iblk2 V c 4 t) (stats2 V c (t.val - 1) (Nat.lt_of_le_of_lt (Nat.sub_le _ _) t.isLt)) := by
  obtain ⟨n, hn⟩ := t
  cases n with
  | zero => exact absurd rfl h
  | succ n => exact rfl

/-! ## The pipeline's proof data -/

/-- The proof data of the pipeline on core `c`: the arrays as the region finds them (`V`); after the body at point
    `t` each input's buffer at its block, the row-block output at `out2_5` of the input blocks and the statistics at
    `stats2`; the invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => stats2 V c t.val t.isLt
  Φ _ := Pipeline.ΦA spec2 c
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5_out (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6_stats (c : Dev nD) (t : Fin cfg2.N) : (dat2 V c).after 6 t = stats2 V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point the statistics buffer holds what the body left at the point before: the point is not the first,
    the buffer is written back at the last point only, the window is live everywhere and uncut. -/
theorem before2_6_succ (c : Dev nD) (t : Fin cfg2.N) (h : t.val ≠ 0) (d) :
    (dat2 V c).before 6 t d = stats2 V c (t.val - 1) (Nat.lt_of_le_of_lt (Nat.sub_le _ _) t.isLt) := by
  have hN : t.val < 20 := lt_of_lt_of_eq t.isLt (show cfg2.N = 20 from N_2)
  rw [Dat.before_out_kept _ 6 rfl t h (Bool.eq_false_iff.mpr fun hf => by have := (flush2_6 _).mp hf; dsimp only at this; omega)
    live2_6 (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (dat2 V c).leavesExact 6 t)

set_option maxHeartbeats 1600000 in
/-- The body at any point: the inputs' memrefs hold their blocks; the closed forms say which case the point is in; at a
    later point the statistics buffer holds what the point before left; so the case's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    show (dat2 V c).leavesExact 6 t = owns (c : Thread nD τ) (st2_6 t) fullShare ((dat2 V c).after 6 t) from by
      unfold Dat.leavesExact; rw [live2_6 (grid2.coords t)],
    after2_0, after2_1, after2_2, after2_3, after2_4, after2_5_out, after2_6_stats]
  have hN : t.val < 20 := lt_of_lt_of_eq t.isLt (show cfg2.N = 20 from N_2)
  by_cases hz : t.val = 0
  · have hm : t.val % 20 = 0 := by omega
    rw [stats2_zero V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel2_A c Set.univ (grid2.coords t) _ _ _ _ _ _ _ _ _ _ _ _ _ _ ((hcond2_1 t).mpr hm) (fun h => ((hcond2_2 t).mp h) hm)
      (iblk2 V c 0 t) (iblk2 V c 1 t) (iblk2 V c 2 t) (iblk2 V c 3 t) (iblk2 V c 4 t) _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexists _; iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg
  · have hm : ¬t.val % 20 = 0 := by omega
    rw [stats2_succ V c t hz]
    simp only [before2_6_succ V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel2_B c Set.univ (grid2.coords t) _ _ _ _ _ _ _ _ _ _ _ _ _ _ (fun h => hm ((hcond2_1 t).mp h)) ((hcond2_2 t).mpr hm)
      (iblk2 V c 0 t) (iblk2 V c 1 t) (iblk2 V c 2 t) (iblk2 V c 3 t) (iblk2 V c 4 t) _ _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The outputs through the body's payloads -/

/-- The row-block output after the body at point `t` is the body's first payload of the five input blocks there (one
    whole-buffer store of it; every load reads a whole buffer). -/
theorem after2_5 (c : Dev nD) (t : Fin cfg2.N) :
    (dat2 V c).after 5 t = k2_pay1 (iblk2 V c 0 t) (iblk2 V c 1 t) (iblk2 V c 2 t) (iblk2 V c 3 t) (iblk2 V c 4 t) := by
  rw [after2_5_out]; unfold out2_5
  rw [View.canon_unit_zero hzero2]
  simp only [View.ld_unit_zero (S := S5000x128) hzero2, View.ld_unit_zero (S := S128x128) hzero2, View.ld_unit_zero (S := S1x128) hzero2, View.ld_unit_zero (S := S2x128) hzero2]

/-- The statistics after the body at the first point: the second payload (the block's column sums and sums of squares). -/
theorem after2_6_zero (c : Dev nD) (t : Fin cfg2.N) (h : t.val = 0) :
    (dat2 V c).after 6 t = k2_pay2 (iblk2 V c 0 t) (iblk2 V c 1 t) (iblk2 V c 2 t) (iblk2 V c 3 t) (iblk2 V c 4 t) := by
  rw [after2_6_stats, stats2_zero V c t h]; unfold outA2_6
  rw [View.canon_unit_zero hzero2]
  simp only [View.ld_unit_zero (S := S5000x128) hzero2, View.ld_unit_zero (S := S128x128) hzero2, View.ld_unit_zero (S := S1x128) hzero2, View.ld_unit_zero (S := S2x128) hzero2]

/-- The statistics after the body at a later point: the third payload of the input blocks and of the statistics the
    point before left (the running sums plus the block's). -/
theorem after2_6_succ (c : Dev nD) (t : Fin cfg2.N) (h : t.val ≠ 0) :
    (dat2 V c).after 6 t = k2_pay3 (iblk2 V c 0 t) (iblk2 V c 1 t) (iblk2 V c 2 t) (iblk2 V c 3 t) (iblk2 V c 4 t)
      ((dat2 V c).after 6 ⟨t.val - 1, Nat.lt_of_le_of_lt (Nat.sub_le _ _) t.isLt⟩) := by
  rw [after2_6_stats V c t, after2_6_stats V c ⟨t.val - 1, _⟩, stats2_succ V c t h]; unfold outB2_6
  rw [View.canon_unit_zero hzero2]
  simp only [View.ld_unit_zero (S := S5000x128) hzero2, View.ld_unit_zero (S := S128x128) hzero2, View.ld_unit_zero (S := S1x128) hzero2, View.ld_unit_zero (S := S2x128) hzero2]

end Cert.Kernel.Hand

end
-- ==== Proof.K.Mlp4.lean ====
import proofs.«125359_j15118284882190_1_alg».proof.Proof.Gen.Kernel.Launch
import proofs.«125359_j15118284882190_1_alg».proof.Proof.Gen.Kernel.Skeleton
import proofs.«125359_j15118284882190_1_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! # Pipeline 4 (the MLP-and-statistics kernel): proof data and body obligation

Per point of the grid of 20 the body loads five whole input buffers (a row block, two weight matrices, two bias rows),
stores the row block's image under the two-layer MLP into the row-block output, and accumulates into the statistics
output the block's column sums and column sums of squares: stored at the first point, added to what the point before left
at every later one. This module states what every staging buffer holds after the body at each point, over ANY contents
`V` of the core's buffers at region entry and at any float model `F`, and proves the body's obligation to the
pipeline from it; the two outputs are then read through the body's payloads. -/

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What core `c`'s TensorCore buffers hold when the region is entered: a parameter of everything below.
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a window fetched at
    the first point only keeps its block index, hence its block), for any proof data over the arrays `V` whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (a window fetched at
    the first point only keeps its block index, hence its block), for any proof data over the arrays `V` whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (a window fetched at
    the first point only keeps its block index, hence its block), for any proof data over the arrays `V` whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (a window fetched at
    the first point only keeps its block index, hence its block), for any proof data over the arrays `V` whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (a window fetched at
    the first point only keeps its block index, hence its block), for any proof data over the arrays `V` whose body
    leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions, in closed form -/

/-- The first conditional (`i == 0`) is taken at the first point only — decided over the grid. -/
theorem hcond4_1 : ∀ t : Fin cfg4.N, k4_cond1 (grid4.coords t) = 1#1 ↔ t.val % 20 = 0 :=
  (by decide +kernel : ∀ t : Fin grid4.N, k4_cond1 (grid4.coords t) = 1#1 ↔ t.val % 20 = 0)
/-- The second conditional (`i != 0`) is taken at every other point — decided over the grid. -/
theorem hcond4_2 : ∀ t : Fin cfg4.N, k4_cond2 (grid4.coords t) = 1#1 ↔ ¬t.val % 20 = 0 :=
  (by decide +kernel : ∀ t : Fin grid4.N, k4_cond2 (grid4.coords t) = 1#1 ↔ ¬t.val % 20 = 0)

/-- One of the two conditionals holds at every setting of the coordinate, so the statistics window is idle nowhere:
    both conditions read the coordinate's value only, and the twenty values are checked. -/
theorem live4_6 : ∀ i : grid4.Coords, cfg4.idle 6 i = false := by
  intro i
  have h : ∀ n : Fin 20, (!(Scalar.cmpi .ne (Scalar.extui (Scalar.cmpi .eq (BitVec.ofNat 32 n.val) 0#32)) 0#32 == 1#1) && !(Scalar.cmpi .ne (Scalar.extui (Scalar.cmpi .ne (BitVec.ofNat 32 n.val) 0#32)) 0#32 == 1#1)) = false := by decide
  exact h (i 0)

/-! ## The body's accesses: every load and store is of a whole staging buffer -/

abbrev rblk4 : Rect S5000x128 := Rect.unit (s := S5000x128) ![0, 0] S5000x128.size (by decide)
abbrev rmat4 : Rect S128x128 := Rect.unit (s := S128x128) ![0, 0] S128x128.size (by decide)
abbrev rrow4 : Rect S1x128 := Rect.unit (s := S1x128) ![0, 0] S1x128.size (by decide)
abbrev rsts4 : Rect S2x128 := Rect.unit (s := S2x128) ![0, 0] S2x128.size (by decide)

/-- The offsets of every access are zero. -/
theorem hzero4 : (![0, 0] : Fin 2 → Nat) = fun _ => 0 := funext fun a => by fin_cases a <;> rfl

/-! ## What the body leaves in each output window's buffer -/

/-- The row-block output's buffer after the body: its one whole-buffer store. -/
def out4_5 (xa : Vec F S5000x128 .f32) (xb : Vec F S128x128 .f32) (xc : Vec F S1x128 .f32) (xd : Vec F S128x128 .f32) (xe : Vec F S1x128 .f32) : Vec F S5000x128 .f32 :=
  View.canon [⟨rblk4, k4_pay1 (View.ld xa rblk4) (View.ld xb rmat4) (View.ld xc rrow4) (View.ld xd rmat4) (View.ld xe rrow4)⟩]

/-- The statistics buffer after the body at the first point: the block's column sums and column sums of squares. -/
def outA4_6 (xa : Vec F S5000x128 .f32) (xb : Vec F S128x128 .f32) (xc : Vec F S1x128 .f32) (xd : Vec F S128x128 .f32) (xe : Vec F S1x128 .f32) : Vec F S2x128 .f32 :=
  View.canon [⟨rsts4, k4_pay2 (View.ld xa rblk4) (View.ld xb rmat4) (View.ld xc rrow4) (View.ld xd rmat4) (View.ld xe rrow4)⟩]

/-- The statistics buffer after the body at a later point: what it held (`xo`) plus the block's contribution. -/
def outB4_6 (xa : Vec F S5000x128 .f32) (xb : Vec F S128x128 .f32) (xc : Vec F S1x128 .f32) (xd : Vec F S128x128 .f32) (xe : Vec F S1x128 .f32) (xo : Vec F S2x128 .f32) : Vec F S2x128 .f32 :=
  View.canon [⟨rsts4, k4_pay3 (View.ld xa rblk4) (View.ld xb rmat4) (View.ld xc rrow4) (View.ld xd rmat4) (View.ld xe rrow4) (View.ld xo rsts4)⟩]

/-- One whole-buffer store covers the buffer. -/
theorem cover4_5 (p : Vec F S5000x128 .f32) (y : S5000x128.Idx) :
    ∃ pc ∈ ([⟨rblk4, p⟩] : List (View.Piece (Elt F) S5000x128 .f32)), y ∈ pc.1.set :=
  ⟨_, List.mem_singleton_self _, View.mem_set_unit_zero hzero4 (by decide) y⟩
theorem cover4_6 (p : Vec F S2x128 .f32) (y : S2x128.Idx) :
    ∃ pc ∈ ([⟨rsts4, p⟩] : List (View.Piece (Elt F) S2x128 .f32)), y ∈ pc.1.set :=
  ⟨_, List.mem_singleton_self _, View.mem_set_unit_zero hzero4 (by decide) y⟩

/-! ## The body's triple, case by case -/

set_option maxHeartbeats 4000000 in
/-- AT THE FIRST POINT (the first conditional taken, the second not): on whole staging memrefs, the inputs' at contents
    `xW` and the outputs' at anything, the body runs to the continuation holding the inputs' as they were, the row-block
    output at `out4_5` and the statistics at `outA4_6` of the inputs'. -/
theorem sound_kernel4_A (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : k4_cond1 i = 1#1) (hc2 : ¬k4_cond2 i = 1#1) (xa : Vec F S5000x128 .f32) (xb : Vec F S128x128 .f32) (xc : Vec F S1x128 .f32) (xd : Vec F S128x128 .f32) (xe : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out4_5 xa xb xc xd xe) ∗ owns (c : Thread nD τ) arg7 fullShare (outA4_6 xa xb xc xd xe)) -∗ K ⟨⟩))
      ⊢ wp frame (wpE (defs₀ (F := F)) Variants.none c none) E (cc4__mlp_reduce_kernel i arg1 harg1 arg2 harg2 arg3 harg3 arg4 harg4 arg5 harg5 arg6 harg6 arg7 harg7) K := by
  simp only [cc4__mlp_reduce_kernel_eq_skeleton]; unfold cc4__mlp_reduce_kernel_skel
  simp only [k4_part1_eq_skeleton]; unfold k4_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%dg, %fg, -, Hg⟩, Hk⟩
  subst hfa hfb hfc hfd hfe
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover4_5 _)
  iexists _; isplitr
  swap; · iexact Hg
  ipureintro
  exact View.read_writes_eq_canon _ _ _ (cover4_6 _)

set_option maxHeartbeats 4000000 in
/-- AT A LATER POINT (the first conditional not taken, the second taken): the same, the statistics buffer handed in at
    contents `xo` (what the point before left) and handed back at `outB4_6` of the inputs' and `xo`. -/
theorem sound_kernel4_B (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : ¬k4_cond1 i = 1#1) (hc2 : k4_cond2 i = 1#1) (xa : Vec F S5000x128 .f32) (xb : Vec F S128x128 .f32) (xc : Vec F S1x128 .f32) (xd : Vec F S128x128 .f32) (xe : Vec F S1x128 .f32) (xo : Vec F S2x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ owns (c : Thread nD τ) arg7 fullShare xo
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out4_5 xa xb xc xd xe) ∗ owns (c : Thread nD τ) arg7 fullShare (outB4_6 xa xb xc xd xe xo)) -∗ K ⟨⟩))
      ⊢ wp frame (wpE (defs₀ (F := F)) Variants.none c none) E (cc4__mlp_reduce_kernel i arg1 harg1 arg2 harg2 arg3 harg3 arg4 harg4 arg5 harg5 arg6 harg6 arg7 harg7) K := by
  simp only [cc4__mlp_reduce_kernel_eq_skeleton]; unfold cc4__mlp_reduce_kernel_skel
  simp only [k4_part1_eq_skeleton]; unfold k4_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fg, %hfg, Hg⟩, Hk⟩
  subst hfa hfb hfc hfd hfe hfg
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover4_5 _)
  iexists _; isplitr
  swap; · iexact Hg
  ipureintro
  exact View.read_writes_eq_canon _ _ _ (cover4_6 _)

/-! ## The statistics, point by point -/

/-- THE ACCUMULATION. What the statistics buffer holds after the body at position `n`: at the first point the block's
    sums, afterwards what the point before left plus the block's (the buffer is not written back in between). -/
def stats4 (c : Dev nD) : (n : ℕ) → n < cfg4.N → Vec F S2x128 .f32
  | 0, hn => outA4_6 (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn => outB4_6 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (stats4 c n (Nat.lt_of_succ_lt hn))

theorem stats4_zero (c : Dev nD) (t : Fin cfg4.N) (h : t.val = 0) :
    stats4 V c t.val t.isLt = outA4_6 (iblk4 V c 0 t) (iblk4 V c 1 t) (iblk4 V c 2 t) (iblk4 V c 3 t) (iblk4 V c 4 t) := by
  obtain ⟨n, hn⟩ := t
  cases n with
  | zero => exact rfl
  | succ n => exact absurd h (Nat.succ_ne_zero n)

theorem stats4_succ (c : Dev nD) (t : Fin cfg4.N) (h : t.val ≠ 0) :
    stats4 V c t.val t.isLt = outB4_6 (iblk4 V c 0 t) (iblk4 V c 1 t) (iblk4 V c 2 t) (iblk4 V c 3 t) (iblk4 V c 4 t) (stats4 V c (t.val - 1) (Nat.lt_of_le_of_lt (Nat.sub_le _ _) t.isLt)) := by
  obtain ⟨n, hn⟩ := t
  cases n with
  | zero => exact absurd rfl h
  | succ n => exact rfl

/-! ## The pipeline's proof data -/

/-- The proof data of the pipeline on core `c`: the arrays as the region finds them (`V`); after the body at point
    `t` each input's buffer at its block, the row-block output at `out4_5` of the input blocks and the statistics at
    `stats4`; the invariant the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => stats4 V c t.val t.isLt
  Φ _ := Pipeline.ΦA spec4 c
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5_out (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6_stats (c : Dev nD) (t : Fin cfg4.N) : (dat4 V c).after 6 t = stats4 V c t.val t.isLt := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point the statistics buffer holds what the body left at the point before: the point is not the first,
    the buffer is written back at the last point only, the window is live everywhere and uncut. -/
theorem before4_6_succ (c : Dev nD) (t : Fin cfg4.N) (h : t.val ≠ 0) (d) :
    (dat4 V c).before 6 t d = stats4 V c (t.val - 1) (Nat.lt_of_le_of_lt (Nat.sub_le _ _) t.isLt) := by
  have hN : t.val < 20 := lt_of_lt_of_eq t.isLt (show cfg4.N = 20 from N_4)
  rw [Dat.before_out_kept _ 6 rfl t h (Bool.eq_false_iff.mpr fun hf => by have := (flush4_6 _).mp hf; dsimp only at this; omega)
    live4_6 (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (dat4 V c).leavesExact 6 t)

set_option maxHeartbeats 1600000 in
/-- The body at any point: the inputs' memrefs hold their blocks; the closed forms say which case the point is in; at a
    later point the statistics buffer holds what the point before left; so the case's triple applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    show (dat4 V c).leavesExact 6 t = owns (c : Thread nD τ) (st4_6 t) fullShare ((dat4 V c).after 6 t) from by
      unfold Dat.leavesExact; rw [live4_6 (grid4.coords t)],
    after4_0, after4_1, after4_2, after4_3, after4_4, after4_5_out, after4_6_stats]
  have hN : t.val < 20 := lt_of_lt_of_eq t.isLt (show cfg4.N = 20 from N_4)
  by_cases hz : t.val = 0
  · have hm : t.val % 20 = 0 := by omega
    rw [stats4_zero V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel4_A c Set.univ (grid4.coords t) _ _ _ _ _ _ _ _ _ _ _ _ _ _ ((hcond4_1 t).mpr hm) (fun h => ((hcond4_2 t).mp h) hm)
      (iblk4 V c 0 t) (iblk4 V c 1 t) (iblk4 V c 2 t) (iblk4 V c 3 t) (iblk4 V c 4 t) _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexists _; iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg
  · have hm : ¬t.val % 20 = 0 := by omega
    rw [stats4_succ V c t hz]
    simp only [before4_6_succ V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel4_B c Set.univ (grid4.coords t) _ _ _ _ _ _ _ _ _ _ _ _ _ _ (fun h => hm ((hcond4_1 t).mp h)) ((hcond4_2 t).mpr hm)
      (iblk4 V c 0 t) (iblk4 V c 1 t) (iblk4 V c 2 t) (iblk4 V c 3 t) (iblk4 V c 4 t) _ _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The outputs through the body's payloads -/

/-- The row-block output after the body at point `t` is the body's first payload of the five input blocks there (one
    whole-buffer store of it; every load reads a whole buffer). -/
theorem after4_5 (c : Dev nD) (t : Fin cfg4.N) :
    (dat4 V c).after 5 t = k4_pay1 (iblk4 V c 0 t) (iblk4 V c 1 t) (iblk4 V c 2 t) (iblk4 V c 3 t) (iblk4 V c 4 t) := by
  rw [after4_5_out]; unfold out4_5
  rw [View.canon_unit_zero hzero4]
  simp only [View.ld_unit_zero (S := S5000x128) hzero4, View.ld_unit_zero (S := S128x128) hzero4, View.ld_unit_zero (S := S1x128) hzero4, View.ld_unit_zero (S := S2x128) hzero4]

/-- The statistics after the body at the first point: the second payload (the block's column sums and sums of squares). -/
theorem after4_6_zero (c : Dev nD) (t : Fin cfg4.N) (h : t.val = 0) :
    (dat4 V c).after 6 t = k4_pay2 (iblk4 V c 0 t) (iblk4 V c 1 t) (iblk4 V c 2 t) (iblk4 V c 3 t) (iblk4 V c 4 t) := by
  rw [after4_6_stats, stats4_zero V c t h]; unfold outA4_6
  rw [View.canon_unit_zero hzero4]
  simp only [View.ld_unit_zero (S := S5000x128) hzero4, View.ld_unit_zero (S := S128x128) hzero4, View.ld_unit_zero (S := S1x128) hzero4, View.ld_unit_zero (S := S2x128) hzero4]

/-- The statistics after the body at a later point: the third payload of the input blocks and of the statistics the
    point before left (the running sums plus the block's). -/
theorem after4_6_succ (c : Dev nD) (t : Fin cfg4.N) (h : t.val ≠ 0) :
    (dat4 V c).after 6 t = k4_pay3 (iblk4 V c 0 t) (iblk4 V c 1 t) (iblk4 V c 2 t) (iblk4 V c 3 t) (iblk4 V c 4 t)
      ((dat4 V c).after 6 ⟨t.val - 1, Nat.lt_of_le_of_lt (Nat.sub_le _ _) t.isLt⟩) := by
  rw [after4_6_stats V c t, after4_6_stats V c ⟨t.val - 1, _⟩, stats4_succ V c t h]; unfold outB4_6
  rw [View.canon_unit_zero hzero4]
  simp only [View.ld_unit_zero (S := S5000x128) hzero4, View.ld_unit_zero (S := S128x128) hzero4, View.ld_unit_zero (S := S1x128) hzero4, View.ld_unit_zero (S := S2x128) hzero4]

end Cert.Kernel.Hand

end
-- ==== Proof.K.Bn1.lean ====
import proofs.«125359_j15118284882190_1_alg».proof.Proof.Gen.Kernel.Points
import proofs.«125359_j15118284882190_1_alg».proof.Proof.Gen.Kernel.Skeleton
import proofs.«125359_j15118284882190_1_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered: a parameter of everything below
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole [5000,128] block: the rectangle of the body's load of window 0 and of its one store. -/
abbrev rBlk1 : Rect S5000x128 := Rect.unit (s := S5000x128) ![0, 0] S5000x128.size inb_S5000x128_S5000x128_0_0
/-- The whole [1,128] row: the rectangle of the body's loads of windows 1 to 4. -/
abbrev rRow1 : Rect S1x128 := Rect.unit (s := S1x128) ![0, 0] S1x128.size inb_S1x128_S1x128_0_0

/-- Both rectangles sit at offset zero. -/
theorem zeros1 : (![0, 0] : Fin 2 → Nat) = fun _ => 0 := funext fun a => by fin_cases a <;> rfl

/-- The one store's payload over what the loads read: a load through a whole-shape rectangle at offset zero reads the
    buffer, and a store through it leaves its payload, so the block the body leaves is the payload of the blocks. -/
theorem canon_store1 (xA : Vec F S5000x128 .f32) (xB xC xD xE : Vec F S1x128 .f32) :
    View.canon [(⟨rBlk1, k1_pay1 (View.ld xA rBlk1) (View.ld xB rRow1) (View.ld xC rRow1) (View.ld xD rRow1) (View.ld xE rRow1)⟩ : View.Piece (Elt F) S5000x128 .f32)]
      = k1_pay1 xA xB xC xD xE := by
  rw [View.canon_unit_zero (S := S5000x128) zeros1 inb_S5000x128_S5000x128_0_0,
    View.ld_unit_zero (S := S5000x128) zeros1 inb_S5000x128_S5000x128_0_0 xA,
    View.ld_unit_zero (S := S1x128) zeros1 inb_S1x128_S1x128_0_0 xB,
    View.ld_unit_zero (S := S1x128) zeros1 inb_S1x128_S1x128_0_0 xC,
    View.ld_unit_zero (S := S1x128) zeros1 inb_S1x128_S1x128_0_0 xD,
    View.ld_unit_zero (S := S1x128) zeros1 inb_S1x128_S1x128_0_0 xE]

/-- The one store covers the block. -/
theorem cover1 (pA : Vec F S5000x128 .f32) (y : S5000x128.Idx) :
    ∃ pc ∈ ([⟨rBlk1, pA⟩] : List (View.Piece (Elt F) S5000x128 .f32)), y ∈ pc.1.set :=
  ⟨_, List.mem_singleton_self _, View.mem_set_unit_zero (S := S5000x128) zeros1 inb_S5000x128_S5000x128_0_0 y⟩

/-! ## The body's triple -/

set_option maxHeartbeats 1000000 in
/-- The kernel body on whole staging memrefs, the inputs' at read contents `xW` and the output's at anything, runs to
    the continuation holding the inputs' as they were and the output's at the payload of the inputs' contents: the
    printed function is its skeleton, whose loads and one store are run in turn; the store covers the block. -/
theorem sound_kernel1 (c : Dev nD) (E : Set ℕ) (i : grid1.Coords)
    (mA : Memref sig .tc .vmem S5000x128 .f32) (hmA : mA.IsWhole) (mB : Memref sig .tc .vmem S1x128 .f32) (hmB : mB.IsWhole)
    (mC : Memref sig .tc .vmem S1x128 .f32) (hmC : mC.IsWhole) (mD : Memref sig .tc .vmem S1x128 .f32) (hmD : mD.IsWhole)
    (mE : Memref sig .tc .vmem S1x128 .f32) (hmE : mE.IsWhole) (mF : Memref sig .tc .vmem S5000x128 .f32) (hmF : mF.IsWhole)
    (xA : Vec F S5000x128 .f32) (xB xC xD xE : Vec F S1x128 .f32) (K : PUnit → sProp 𝕄) :
    iprop(owns (c : Thread nD τ) mA fullShare xA ∗ owns (c : Thread nD τ) mB fullShare xB ∗ owns (c : Thread nD τ) mC fullShare xC
        ∗ owns (c : Thread nD τ) mD fullShare xD ∗ owns (c : Thread nD τ) mE fullShare xE ∗ (∃ d, owns (c : Thread nD τ) mF fullShare d)
        ∗ (iprop(owns (c : Thread nD τ) mA fullShare xA ∗ owns (c : Thread nD τ) mB fullShare xB ∗ owns (c : Thread nD τ) mC fullShare xC
            ∗ owns (c : Thread nD τ) mD fullShare xD ∗ owns (c : Thread nD τ) mE fullShare xE
            ∗ owns (c : Thread nD τ) mF fullShare (k1_pay1 xA xB xC xD xE)) -∗ K ⟨⟩))
      ⊢ wp frame (wpE (defs₀ (F := F)) Variants.none c none) E (cc1__bn_kernel i mA hmA mB hmB mC hmC mD hmD mE hmE mF hmF) K := by
  simp only [cc1__bn_kernel_eq_skeleton]; unfold cc1__bn_kernel_skel
  unfold owns
  iintro ⟨⟨%fA, %hfA, HA⟩, ⟨%fB, %hfB, HB⟩, ⟨%fC, %hfC, HC⟩, ⟨%fD, %hfD, HD⟩, ⟨%fE, %hfE, HE⟩, ⟨%dF, %fF, -, HF⟩, Hk⟩
  subst hfA hfB hfC hfD hfE
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  isplitl [HE]
  · iexists fE; isplitr; · ipureintro; rfl
    iexact HE
  iexists _; isplitr
  swap; · iexact HF
  ipureintro
  exact (View.read_writes_eq_canon _ _ _ (cover1 _)).trans (canon_store1 _ _ _ _ _)

/-! ## The pipeline's proof data -/

/-- The proof data of the pipeline on core `c`: the arrays as the region finds them (`V`); after the body at point
    `t` each input's buffer at its block and the output's at the payload of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = k1_pay1 (iblk1 V c 0 t) (iblk1 V c 1 t) (iblk1 V c 2 t) (iblk1 V c 3 t) (iblk1 V c 4 t) := by dsimp only [dat1]

/-- Each input's current staging buffer holds its block at every point, fetched there or not: an input the body leaves
    in place holds what a fetch would put there, since where it is not fetched its block index did not move. The
    windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%dA, HA⟩, ⟨%dB, HB⟩, ⟨%dC, HC⟩, ⟨%dD, HD⟩, ⟨%dE, HE⟩, ⟨%dF, HF⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [HA]; · iexact HA
  isplitl [HB]; · iexact HB
  isplitl [HC]; · iexact HC
  isplitl [HD]; · iexact HD
  isplitl [HE]; · iexact HE
  isplitl [HF]; · iexists _; iexact HF
  iintro ⟨HA, HB, HC, HD, HE, HF⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  iexact HF

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Bn3.lean ====
import proofs.«125359_j15118284882190_1_alg».proof.Proof.Gen.Kernel.Points
import proofs.«125359_j15118284882190_1_alg».proof.Proof.Gen.Kernel.Skeleton
import proofs.«125359_j15118284882190_1_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered: a parameter of everything below
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

/-- The whole [5000,128] block: the rectangle of the body's load of window 0 and of its one store. -/
abbrev rBlk3 : Rect S5000x128 := Rect.unit (s := S5000x128) ![0, 0] S5000x128.size inb_S5000x128_S5000x128_0_0
/-- The whole [1,128] row: the rectangle of the body's loads of windows 1 to 4. -/
abbrev rRow3 : Rect S1x128 := Rect.unit (s := S1x128) ![0, 0] S1x128.size inb_S1x128_S1x128_0_0

/-- Both rectangles sit at offset zero. -/
theorem zeros3 : (![0, 0] : Fin 2 → Nat) = fun _ => 0 := funext fun a => by fin_cases a <;> rfl

/-- The one store's payload over what the loads read: a load through a whole-shape rectangle at offset zero reads the
    buffer, and a store through it leaves its payload, so the block the body leaves is the payload of the blocks. -/
theorem canon_store3 (x0 : Vec F S5000x128 .f32) (x1 x2 x3 x4 : Vec F S1x128 .f32) :
    View.canon [(⟨rBlk3, k3_pay1 (View.ld x0 rBlk3) (View.ld x1 rRow3) (View.ld x2 rRow3) (View.ld x3 rRow3) (View.ld x4 rRow3)⟩ : View.Piece (Elt F) S5000x128 .f32)]
      = k3_pay1 x0 x1 x2 x3 x4 := by
  rw [View.canon_unit_zero (S := S5000x128) zeros3 inb_S5000x128_S5000x128_0_0,
    View.ld_unit_zero (S := S5000x128) zeros3 inb_S5000x128_S5000x128_0_0 x0,
    View.ld_unit_zero (S := S1x128) zeros3 inb_S1x128_S1x128_0_0 x1,
    View.ld_unit_zero (S := S1x128) zeros3 inb_S1x128_S1x128_0_0 x2,
    View.ld_unit_zero (S := S1x128) zeros3 inb_S1x128_S1x128_0_0 x3,
    View.ld_unit_zero (S := S1x128) zeros3 inb_S1x128_S1x128_0_0 x4]

/-- The one store covers the block. -/
theorem cover3 (p0 : Vec F S5000x128 .f32) (y : S5000x128.Idx) :
    ∃ pc ∈ ([⟨rBlk3, p0⟩] : List (View.Piece (Elt F) S5000x128 .f32)), y ∈ pc.1.set :=
  ⟨_, List.mem_singleton_self _, View.mem_set_unit_zero (S := S5000x128) zeros3 inb_S5000x128_S5000x128_0_0 y⟩

/-! ## The body's triple -/

set_option maxHeartbeats 1000000 in
/-- The kernel body on whole staging memrefs, the inputs' at read contents `xW` and the output's at anything, runs to
    the continuation holding the inputs' as they were and the output's at the payload of the inputs' contents: the
    printed function is its skeleton, whose loads and one store are run in turn; the store covers the block. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover3 _)).trans (canon_store3 _ _ _ _ _)

/-! ## The pipeline's proof data -/

/-- The proof data of the pipeline on core `c`: the arrays as the region finds them (`V`); after the body at point
    `t` each input's buffer at its block and the output's at the payload of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = k3_pay1 (iblk3 V c 0 t) (iblk3 V c 1 t) (iblk3 V c 2 t) (iblk3 V c 3 t) (iblk3 V c 4 t) := by dsimp only [dat3]

/-- Each input's current staging buffer holds its block at every point, fetched there or not: an input the body leaves
    in place holds what a fetch would put there, since where it is not fetched its block index did not move. The
    windows are uncut and never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Hand

end
-- ==== Proof.K.Bn5.lean ====
import proofs.«125359_j15118284882190_1_alg».proof.Proof.Gen.Kernel.Points
import proofs.«125359_j15118284882190_1_alg».proof.Proof.Gen.Kernel.Skeleton
import proofs.«125359_j15118284882190_1_alg».proof.Proof.Gen.Kernel.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered: a parameter of everything below
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses -/

/-- The whole [5000,128] block: the rectangle of the body's load of window 0 and of its one store. -/
abbrev rBlk5 : Rect S5000x128 := Rect.unit (s := S5000x128) ![0, 0] S5000x128.size inb_S5000x128_S5000x128_0_0
/-- The whole [1,128] row: the rectangle of the body's loads of windows 1 to 4. -/
abbrev rRow5 : Rect S1x128 := Rect.unit (s := S1x128) ![0, 0] S1x128.size inb_S1x128_S1x128_0_0

/-- Both rectangles sit at offset zero. -/
theorem zeros5 : (![0, 0] : Fin 2 → Nat) = fun _ => 0 := funext fun a => by fin_cases a <;> rfl

/-- The one store's payload over what the loads read: a load through a whole-shape rectangle at offset zero reads the
    buffer, and a store through it leaves its payload, so the block the body leaves is the payload of the blocks. -/
theorem canon_store5 (x0 : Vec F S5000x128 .f32) (x1 x2 x3 x4 : Vec F S1x128 .f32) :
    View.canon [(⟨rBlk5, k5_pay1 (View.ld x0 rBlk5) (View.ld x1 rRow5) (View.ld x2 rRow5) (View.ld x3 rRow5) (View.ld x4 rRow5)⟩ : View.Piece (Elt F) S5000x128 .f32)]
      = k5_pay1 x0 x1 x2 x3 x4 := by
  rw [View.canon_unit_zero (S := S5000x128) zeros5 inb_S5000x128_S5000x128_0_0,
    View.ld_unit_zero (S := S5000x128) zeros5 inb_S5000x128_S5000x128_0_0 x0,
    View.ld_unit_zero (S := S1x128) zeros5 inb_S1x128_S1x128_0_0 x1,
    View.ld_unit_zero (S := S1x128) zeros5 inb_S1x128_S1x128_0_0 x2,
    View.ld_unit_zero (S := S1x128) zeros5 inb_S1x128_S1x128_0_0 x3,
    View.ld_unit_zero (S := S1x128) zeros5 inb_S1x128_S1x128_0_0 x4]

/-- The one store covers the block. -/
theorem cover5 (p0 : Vec F S5000x128 .f32) (y : S5000x128.Idx) :
    ∃ pc ∈ ([⟨rBlk5, p0⟩] : List (View.Piece (Elt F) S5000x128 .f32)), y ∈ pc.1.set :=
  ⟨_, List.mem_singleton_self _, View.mem_set_unit_zero (S := S5000x128) zeros5 inb_S5000x128_S5000x128_0_0 y⟩

/-! ## The body's triple -/

set_option maxHeartbeats 1000000 in
/-- The kernel body on whole staging memrefs, the inputs' at read contents `xW` and the output's at anything, runs to
    the continuation holding the inputs' as they were and the output's at the payload of the inputs' contents: the
    printed function is its skeleton, whose loads and one store are run in turn; the store covers the block. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k5_pay1 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover5 _)).trans (canon_store5 _ _ _ _ _)

/-! ## The pipeline's proof data -/

/-- The proof data of the pipeline on core `c`: the arrays as the region finds them (`V`); after the body at point
    `t` each input's buffer at its block and the output's at the payload of the input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k5_pay1 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = k5_pay1 (iblk5 V c 0 t) (iblk5 V c 1 t) (iblk5 V c 2 t) (iblk5 V c 3 t) (iblk5 V c 4 t) := by dsimp only [dat5]

/-- Each input's current staging buffer holds its block at every point, fetched there or not: an input the body leaves
    in place holds what a fetch would put there, since where it is not fetched its block index did not move. The
    windows are uncut and never idle. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## The body obligation, at a generic point -/

/-- What the body is called with at point `t` (the library's body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Hand

end
-- ==== Proof.K.Run.lean ====
/-
  The kernel's @main as a run of thirteen segments: seven stretches of host operations and six kernel
  regions between them. Between two segments every unscoped buffer of a core is held whole at a known content
  (the valuations WJ below): the launch memory, then each host stretch applied to it, then, after a region, the
  region's window arrays at what its write-backs leave and every other buffer as the region found it. Each region
  is entered by splitting its window arrays out of the held buffers and left by putting them back at their final
  contents; the generator register and the core's empty debt ride along. The run ends with every unscoped buffer
  at the last valuation, from which the argument arrays (no segment writes one) and the two results are read.
-/
import proofs.«125359_j15118284882190_1_alg».proof.Proof.Gen.Kernel.Regions
import proofs.«125359_j15118284882190_1_alg».proof.Proof.K.Mlp0
import proofs.«125359_j15118284882190_1_alg».proof.Proof.K.Mlp2
import proofs.«125359_j15118284882190_1_alg».proof.Proof.K.Mlp4
import proofs.«125359_j15118284882190_1_alg».proof.Proof.K.Bn1
import proofs.«125359_j15118284882190_1_alg».proof.Proof.K.Bn3
import proofs.«125359_j15118284882190_1_alg».proof.Proof.K.Bn5
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.Kernel.Hand

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation of a core's buffers read at its TensorCore references. -/
abbrev rd (Wv : Dev nD → Valuation τ sig (Elt F)) (c : Dev nD) (b : Ref sig .tc) : Buf (Elt F) ((c : Thread nD τ).loc b) :=
  Wv c (Proc.devRef .tc b)

/-! ## The buffers' contents between segments -/

/-- At launch. -/
abbrev W0 (c : Dev nD) : Valuation τ sig (Elt F) := fun b => m (c, b)
/-- After the first stretch of host operations. -/
abbrev W1 (c : Dev nD) : Valuation τ sig (Elt F) := StableHlo.after hostOps0 (W0 m c)
/-- After region 0: its window arrays at what the pipeline leaves, every other buffer as entered. -/
def W2 (c : Dev nD) : Valuation τ sig (Elt F) :=
  Pipeline.withArrays spec0 c (W1 m c) fun w => (dat0 (rd (W1 m)) c).arrAt w cfg0.N
theorem W2_arr (c : Dev nD) (w : Fin cfg0.W) :
    W2 m c (Proc.devRef .tc (Pipeline.arrRef spec0 w)) = (dat0 (rd (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) :
    (dat0 (rd (W1 m)) c).arrAt w cfg0.N = rd (W2 m) c (Pipeline.arrRef spec0 w) :=
  (W2_arr m c w).symm
theorem hrest0 (c : Dev nD) : ∀ b, b ∉ Finset.univ.image (Pipeline.arrRef spec0) → rd (W2 m) c b = rd (W1 m) c b :=
  fun b hb => W2_of_ne m c b fun w e => hb (Finset.mem_image.mpr ⟨w, Finset.mem_univ _, e⟩)
/-- After the next stretch of host operations. -/
abbrev W3 (c : Dev nD) : Valuation τ sig (Elt F) := StableHlo.after hostOps1 (W2 m c)
/-- After region 1: its window arrays at what the pipeline leaves, every other buffer as entered. -/
def W4 (c : Dev nD) : Valuation τ sig (Elt F) :=
  Pipeline.withArrays spec1 c (W3 m c) fun w => (dat1 (rd (W3 m)) c).arrAt w cfg1.N
theorem W4_arr (c : Dev nD) (w : Fin cfg1.W) :
    W4 m c (Proc.devRef .tc (Pipeline.arrRef spec1 w)) = (dat1 (rd (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) :
    (dat1 (rd (W3 m)) c).arrAt w cfg1.N = rd (W4 m) c (Pipeline.arrRef spec1 w) :=
  (W4_arr m c w).symm
theorem hrest1 (c : Dev nD) : ∀ b, b ∉ Finset.univ.image (Pipeline.arrRef spec1) → rd (W4 m) c b = rd (W3 m) c b :=
  fun b hb => W4_of_ne m c b fun w e => hb (Finset.mem_image.mpr ⟨w, Finset.mem_univ _, e⟩)
/-- After the next stretch of host operations. -/
abbrev W5 (c : Dev nD) : Valuation τ sig (Elt F) := StableHlo.after hostOps2 (W4 m c)
/-- After region 2: its window arrays at what the pipeline leaves, every other buffer as entered. -/
def W6 (c : Dev nD) : Valuation τ sig (Elt F) :=
  Pipeline.withArrays spec2 c (W5 m c) fun w => (dat2 (rd (W5 m)) c).arrAt w cfg2.N
theorem W6_arr (c : Dev nD) (w : Fin cfg2.W) :
    W6 m c (Proc.devRef .tc (Pipeline.arrRef spec2 w)) = (dat2 (rd (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) :
    (dat2 (rd (W5 m)) c).arrAt w cfg2.N = rd (W6 m) c (Pipeline.arrRef spec2 w) :=
  (W6_arr m c w).symm
theorem hrest2 (c : Dev nD) : ∀ b, b ∉ Finset.univ.image (Pipeline.arrRef spec2) → rd (W6 m) c b = rd (W5 m) c b :=
  fun b hb => W6_of_ne m c b fun w e => hb (Finset.mem_image.mpr ⟨w, Finset.mem_univ _, e⟩)
/-- After the next stretch of host operations. -/
abbrev W7 (c : Dev nD) : Valuation τ sig (Elt F) := StableHlo.after hostOps3 (W6 m c)
/-- After region 3: its window arrays at what the pipeline leaves, every other buffer as entered. -/
def W8 (c : Dev nD) : Valuation τ sig (Elt F) :=
  Pipeline.withArrays spec3 c (W7 m c) fun w => (dat3 (rd (W7 m)) c).arrAt w cfg3.N
theorem W8_arr (c : Dev nD) (w : Fin cfg3.W) :
    W8 m c (Proc.devRef .tc (Pipeline.arrRef spec3 w)) = (dat3 (rd (W7 m)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) :
    (dat3 (rd (W7 m)) c).arrAt w cfg3.N = rd (W8 m) c (Pipeline.arrRef spec3 w) :=
  (W8_arr m c w).symm
theorem hrest3 (c : Dev nD) : ∀ b, b ∉ Finset.univ.image (Pipeline.arrRef spec3) → rd (W8 m) c b = rd (W7 m) c b :=
  fun b hb => W8_of_ne m c b fun w e => hb (Finset.mem_image.mpr ⟨w, Finset.mem_univ _, e⟩)
/-- After the next stretch of host operations. -/
abbrev W9 (c : Dev nD) : Valuation τ sig (Elt F) := StableHlo.after hostOps4 (W8 m c)
/-- After region 4: its window arrays at what the pipeline leaves, every other buffer as entered. -/
def W10 (c : Dev nD) : Valuation τ sig (Elt F) :=
  Pipeline.withArrays spec4 c (W9 m c) fun w => (dat4 (rd (W9 m)) c).arrAt w cfg4.N
theorem W10_arr (c : Dev nD) (w : Fin cfg4.W) :
    W10 m c (Proc.devRef .tc (Pipeline.arrRef spec4 w)) = (dat4 (rd (W9 m)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem hF4 (c : Dev nD) (w : Fin cfg4.W) :
    (dat4 (rd (W9 m)) c).arrAt w cfg4.N = rd (W10 m) c (Pipeline.arrRef spec4 w) :=
  (W10_arr m c w).symm
theorem hrest4 (c : Dev nD) : ∀ b, b ∉ Finset.univ.image (Pipeline.arrRef spec4) → rd (W10 m) c b = rd (W9 m) c b :=
  fun b hb => W10_of_ne m c b fun w e => hb (Finset.mem_image.mpr ⟨w, Finset.mem_univ _, e⟩)
/-- After the next stretch of host operations. -/
abbrev W11 (c : Dev nD) : Valuation τ sig (Elt F) := StableHlo.after hostOps5 (W10 m c)
/-- After region 5: its window arrays at what the pipeline leaves, every other buffer as entered. -/
def W12 (c : Dev nD) : Valuation τ sig (Elt F) :=
  Pipeline.withArrays spec5 c (W11 m c) fun w => (dat5 (rd (W11 m)) c).arrAt w cfg5.N
theorem W12_arr (c : Dev nD) (w : Fin cfg5.W) :
    W12 m c (Proc.devRef .tc (Pipeline.arrRef spec5 w)) = (dat5 (rd (W11 m)) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem hF5 (c : Dev nD) (w : Fin cfg5.W) :
    (dat5 (rd (W11 m)) c).arrAt w cfg5.N = rd (W12 m) c (Pipeline.arrRef spec5 w) :=
  (W12_arr m c w).symm
theorem hrest5 (c : Dev nD) : ∀ b, b ∉ Finset.univ.image (Pipeline.arrRef spec5) → rd (W12 m) c b = rd (W11 m) c b :=
  fun b hb => W12_of_ne m c b fun w e => hb (Finset.mem_image.mpr ⟨w, Finset.mem_univ _, e⟩)
/-- After the next stretch of host operations. -/
abbrev W13 (c : Dev nD) : Valuation τ sig (Elt F) := StableHlo.after hostOps6 (W12 m c)

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debt, at nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Region 0: entered from every unscoped buffer at `W1`, left at `W2`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W3 m) c) (rd (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (rd (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W5 m) c) (rd (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (rd (W7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W7 m) c) (rd (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W9 m)) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (rd (W9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (W9 m) c) (rd (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W11`, left at `W12`. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W11 m)) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (rd (W11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (W11 m) c) (rd (W12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

-- the launch theorem's implicit arguments are found by unifying its conclusion with this one, which takes unfolding
-- plain definitions in a metavariable's type
set_option backward.isDefEq.respectTransparency.types false in
/-- From any memory with zero counters every weakly fair execution of @main on the TensorCores terminates, nothing
    faulting, and in every final state each unscoped buffer of each core holds what the last valuation says. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W13 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m c) ∗ ∃ r, prngReg c r))
    (hch := fun c => ⟨.rfl, .rfl, .rfl, .rfl, .rfl, .rfl, .rfl, .rfl, .rfl, .rfl, .rfl, .rfl, .rfl, by
      dsimp only [Seg.ChainsAt, Seg.post, hseg, HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A buffer no segment writes ends as launched -/

/-- A reference that no stretch of host operations writes and that is no region's window array holds at the end what it held at launch. -/
theorem W13_of (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W) (h6 : r ∉ hostOps6_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r) :
    W13 m c (Proc.devRef .tc r) = m ((c : Thread nD τ).loc r) :=
  calc W13 m c (Proc.devRef .tc r)
      = W12 m c (Proc.devRef .tc r) := StableHlo.after_of_writes_sub hostOps6 _ hostOps6_writes h6
    _ = W11 m c (Proc.devRef .tc r) := W12_of_ne m c r a5
    _ = W10 m c (Proc.devRef .tc r) := StableHlo.after_of_writes_sub hostOps5 _ hostOps5_writes h5
    _ = W9 m c (Proc.devRef .tc r) := W10_of_ne m c r a4
    _ = W8 m c (Proc.devRef .tc r) := StableHlo.after_of_writes_sub hostOps4 _ hostOps4_writes h4
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl
theorem W13_main_arg0 (c : Dev nD) : W13 m c (Proc.devRef .tc main_arg0) = m ((c : Thread nD τ).loc main_arg0) :=
  W13_of m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_of m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_of m c main_arg2 (by decide) (by decide) (by decide) (by decide) (by decide) (by decide) (by decide) (by decide) (by decide) (by decide) (by decide) (by decide) (by decide)
theorem W13_main_arg3 (c : Dev nD) : W13 m c (Proc.devRef .tc main_arg3) = m ((c : Thread nD τ).loc main_arg3) :=
  W13_of m c main_arg3 (by decide) (by decide) (by decide) (by decide) (by decide) (by decide) (by decide) (by decide) (by decide) (by decide) (by decide) (by decide) (by decide)
theorem W13_main_arg4 (c : Dev nD) : W13 m c (Proc.devRef .tc main_arg4) = m ((c : Thread nD τ).loc main_arg4) :=
  W13_of m c main_arg4 (by decide) (by decide) (by decide) (by decide) (by decide) (by decide) (by decide) (by decide) (by decide) (by decide) (by decide) (by decide) (by decide)
theorem W13_main_arg5 (c : Dev nD) : W13 m c (Proc.devRef .tc main_arg5) = m ((c : Thread nD τ).loc main_arg5) :=
  W13_of m c main_arg5 (by decide) (by decide) (by decide) (by decide) (by decide) (by decide) (by decide) (by decide) (by decide) (by decide) (by decide) (by decide) (by decide)
theorem W13_main_arg6 (c : Dev nD) : W13 m c (Proc.devRef .tc main_arg6) = m ((c : Thread nD τ).loc main_arg6) :=
  W13_of m c main_arg6 (by decide) (by decide) (by decide) (by decide) (by decide) (by decide) (by decide) (by decide) (by decide) (by decide) (by decide) (by decide) (by decide)
theorem W13_main_arg7 (c : Dev nD) : W13 m c (Proc.devRef .tc main_arg7) = m ((c : Thread nD τ).loc main_arg7) :=
  W13_of m c main_arg7 (by decide) (by decide) (by decide) (by decide) (by decide) (by decide) (by decide) (by decide) (by decide) (by decide) (by decide) (by decide) (by decide)
theorem W13_main_arg8 (c : Dev nD) : W13 m c (Proc.devRef .tc main_arg8) = m ((c : Thread nD τ).loc main_arg8) :=
  W13_of m c main_arg8 (by decide) (by decide) (by decide) (by decide) (by decide) (by decide) (by decide) (by decide) (by decide) (by decide) (by decide) (by decide) (by decide)

/-- THE FRAME: every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c),
     (h c _ (mem_uc main_arg6 (by decide))).trans (W13_main_arg6 m c),
     (h c _ (mem_uc main_arg7 (by decide))).trans (W13_main_arg7 m c),
     (h c _ (mem_uc main_arg8 (by decide))).trans (W13_main_arg8 m c)⟩) (run_all m ρ)

end Cert.Kernel.Hand

end
-- ==== Proof.KI.Mlp0.lean ====
import proofs.«125359_j15118284882190_1_alg».proof.Proof.Gen.KernelIdeal.Launch
import proofs.«125359_j15118284882190_1_alg».proof.Proof.Gen.KernelIdeal.Skeleton
import proofs.«125359_j15118284882190_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! # Pipeline 0 (the MLP-and-statistics kernel): proof data and body obligation

Per point of the grid of 20 the body loads five whole input buffers (a row block, two weight matrices, two bias rows),
stores the row block's image under the two-layer MLP into the row-block output, and accumulates into the statistics
output the block's column sums and column sums of squares: stored at the first point, added to what the point before left
at every later one. This module states what every staging buffer holds after the body at each point, over ANY contents
`V` of the core's buffers at region entry and at any float model `F`, and proves the body's obligation to the
pipeline from it; the two outputs are then read through the body's payloads. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What core `c`'s TensorCore buffers hold when the region is entered: a parameter of everything below.
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not (a window fetched at
    the first point only keeps its block index, hence its block), for any proof data over the arrays `V` whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not (a window fetched at
    the first point only keeps its block index, hence its block), for any proof data over the arrays `V` whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's current staging buffer holds its block at every point, fetched there or not (a window fetched at
    the first point only keeps its block index, hence its block), for any proof data over the arrays `V` whose body
    leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's current staging buffer holds its block at every point, fetched there or not (a window fetched at
    the first point only keeps its block index, hence its block), for any proof data over the arrays `V` whose body
    leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's current staging buffer holds its block at every point, fetched there or not (a window fetched at
    the first point only keeps its block index, hence its block), for any proof data over the arrays `V` whose body
    leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions, in closed form -/

/-- The first conditional (`i == 0`) is taken at the first point only — decided over the grid. -/
theorem hcond0_1 : ∀ t : Fin cfg0.N, k0_cond1 (grid0.coords t) = 1#1 ↔ t.val % 20 = 0 :=
  (by decide +kernel : ∀ t : Fin grid0.N, k0_cond1 (grid0.coords t) = 1#1 ↔ t.val % 20 = 0)
/-- The second conditional (`i != 0`) is taken at every other point — decided over the grid. -/
theorem hcond0_2 : ∀ t : Fin cfg0.N, k0_cond2 (grid0.coords t) = 1#1 ↔ ¬t.val % 20 = 0 :=
  (by decide +kernel : ∀ t : Fin grid0.N, k0_cond2 (grid0.coords t) = 1#1 ↔ ¬t.val % 20 = 0)

/-- One of the two conditionals holds at every setting of the coordinate, so the statistics window is idle nowhere:
    both conditions read the coordinate's value only, and the twenty values are checked. -/
theorem live0_6 : ∀ i : grid0.Coords, cfg0.idle 6 i = false := by
  intro i
  have h : ∀ n : Fin 20, (!(Scalar.cmpi .ne (Scalar.extui (Scalar.cmpi .eq (BitVec.ofNat 32 n.val) 0#32)) 0#32 == 1#1) && !(Scalar.cmpi .ne (Scalar.extui (Scalar.cmpi .ne (BitVec.ofNat 32 n.val) 0#32)) 0#32 == 1#1)) = false := by decide
  exact h (i 0)

/-! ## The body's accesses: every load and store is of a whole staging buffer -/

abbrev rblk0 : Rect S5000x128 := Rect.unit (s := S5000x128) ![0, 0] S5000x128.size (by decide)
abbrev rmat0 : Rect S128x128 := Rect.unit (s := S128x128) ![0, 0] S128x128.size (by decide)
abbrev rrow0 : Rect S1x128 := Rect.unit (s := S1x128) ![0, 0] S1x128.size (by decide)
abbrev rsts0 : Rect S2x128 := Rect.unit (s := S2x128) ![0, 0] S2x128.size (by decide)

/-- The offsets of every access are zero. -/
theorem hzero0 : (![0, 0] : Fin 2 → Nat) = fun _ => 0 := funext fun a => by fin_cases a <;> rfl

/-! ## What the body leaves in each output window's buffer -/

/-- The row-block output's buffer after the body: its one whole-buffer store. -/
def out0_5 (xa : Vec F S5000x128 .f32) (xb : Vec F S128x128 .f32) (xc : Vec F S1x128 .f32) (xd : Vec F S128x128 .f32) (xe : Vec F S1x128 .f32) : Vec F S5000x128 .f32 :=
  View.canon [⟨rblk0, k0_pay1 (View.ld xa rblk0) (View.ld xb rmat0) (View.ld xc rrow0) (View.ld xd rmat0) (View.ld xe rrow0)⟩]

/-- The statistics buffer after the body at the first point: the block's column sums and column sums of squares. -/
def outA0_6 (xa : Vec F S5000x128 .f32) (xb : Vec F S128x128 .f32) (xc : Vec F S1x128 .f32) (xd : Vec F S128x128 .f32) (xe : Vec F S1x128 .f32) : Vec F S2x128 .f32 :=
  View.canon [⟨rsts0, k0_pay2 (View.ld xa rblk0) (View.ld xb rmat0) (View.ld xc rrow0) (View.ld xd rmat0) (View.ld xe rrow0)⟩]

/-- The statistics buffer after the body at a later point: what it held (`xo`) plus the block's contribution. -/
def outB0_6 (xa : Vec F S5000x128 .f32) (xb : Vec F S128x128 .f32) (xc : Vec F S1x128 .f32) (xd : Vec F S128x128 .f32) (xe : Vec F S1x128 .f32) (xo : Vec F S2x128 .f32) : Vec F S2x128 .f32 :=
  View.canon [⟨rsts0, k0_pay3 (View.ld xa rblk0) (View.ld xb rmat0) (View.ld xc rrow0) (View.ld xd rmat0) (View.ld xe rrow0) (View.ld xo rsts0)⟩]

/-- One whole-buffer store covers the buffer. -/
theorem cover0_5 (p : Vec F S5000x128 .f32) (y : S5000x128.Idx) :
    ∃ pc ∈ ([⟨rblk0, p⟩] : List (View.Piece (Elt F) S5000x128 .f32)), y ∈ pc.1.set :=
  ⟨_, List.mem_singleton_self _, View.mem_set_unit_zero hzero0 (by decide) y⟩
theorem cover0_6 (p : Vec F S2x128 .f32) (y : S2x128.Idx) :
    ∃ pc ∈ ([⟨rsts0, p⟩] : List (View.Piece (Elt F) S2x128 .f32)), y ∈ pc.1.set :=
  ⟨_, List.mem_singleton_self _, View.mem_set_unit_zero hzero0 (by decide) y⟩

/-! ## The body's triple, case by case -/

set_option maxHeartbeats 4000000 in
/-- AT THE FIRST POINT (the first conditional taken, the second not): on whole staging memrefs, the inputs' at contents
    `xW` and the outputs' at anything, the body runs to the continuation holding the inputs' as they were, the row-block
    output at `out0_5` and the statistics at `outA0_6` of the inputs'. -/
theorem sound_kernel0_A (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : k0_cond1 i = 1#1) (hc2 : ¬k0_cond2 i = 1#1) (xa : Vec F S5000x128 .f32) (xb : Vec F S128x128 .f32) (xc : Vec F S1x128 .f32) (xd : Vec F S128x128 .f32) (xe : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out0_5 xa xb xc xd xe) ∗ owns (c : Thread nD τ) arg7 fullShare (outA0_6 xa xb xc xd xe)) -∗ K ⟨⟩))
      ⊢ wp frame (wpE (defs₀ (F := F)) Variants.none c none) E (cc0__mlp_reduce_kernel i arg1 harg1 arg2 harg2 arg3 harg3 arg4 harg4 arg5 harg5 arg6 harg6 arg7 harg7) K := by
  simp only [cc0__mlp_reduce_kernel_eq_skeleton]; unfold cc0__mlp_reduce_kernel_skel
  simp only [k0_part1_eq_skeleton]; unfold k0_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%dg, %fg, -, Hg⟩, Hk⟩
  subst hfa hfb hfc hfd hfe
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover0_5 _)
  iexists _; isplitr
  swap; · iexact Hg
  ipureintro
  exact View.read_writes_eq_canon _ _ _ (cover0_6 _)

set_option maxHeartbeats 4000000 in
/-- AT A LATER POINT (the first conditional not taken, the second taken): the same, the statistics buffer handed in at
    contents `xo` (what the point before left) and handed back at `outB0_6` of the inputs' and `xo`. -/
theorem sound_kernel0_B (c : Dev nD) (E : Set ℕ) (i : grid0.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : ¬k0_cond1 i = 1#1) (hc2 : k0_cond2 i = 1#1) (xa : Vec F S5000x128 .f32) (xb : Vec F S128x128 .f32) (xc : Vec F S1x128 .f32) (xd : Vec F S128x128 .f32) (xe : Vec F S1x128 .f32) (xo : Vec F S2x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ owns (c : Thread nD τ) arg7 fullShare xo
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out0_5 xa xb xc xd xe) ∗ owns (c : Thread nD τ) arg7 fullShare (outB0_6 xa xb xc xd xe xo)) -∗ K ⟨⟩))
      ⊢ wp frame (wpE (defs₀ (F := F)) Variants.none c none) E (cc0__mlp_reduce_kernel i arg1 harg1 arg2 harg2 arg3 harg3 arg4 harg4 arg5 harg5 arg6 harg6 arg7 harg7) K := by
  simp only [cc0__mlp_reduce_kernel_eq_skeleton]; unfold cc0__mlp_reduce_kernel_skel
  simp only [k0_part1_eq_skeleton]; unfold k0_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fg, %hfg, Hg⟩, Hk⟩
  subst hfa hfb hfc hfd hfe hfg
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover0_5 _)
  iexists _; isplitr
  swap; · iexact Hg
  ipureintro
  exact View.read_writes_eq_canon _ _ _ (cover0_6 _)

/-! ## The statistics, point by point -/

/-- THE ACCUMULATION. What the statistics buffer holds after the body at position `n`: at the first point the block's
    sums, afterwards what the point before left plus the block's (the buffer is not written back in between). -/
def stats0 (c : Dev nD) : (n : ℕ) → n < cfg0.N → Vec F S2x128 .f32
  | 0, hn => outA0_6 (iblk0 V c 0 ⟨0, hn⟩) (iblk0 V c 1 ⟨0, hn⟩) (iblk0 V c 2 ⟨0, hn⟩) (iblk0 V c 3 ⟨0, hn⟩) (iblk0 V c 4 ⟨0, hn⟩)
  | n + 1, hn => outB0_6 (iblk0 V c 0 ⟨n + 1, hn⟩) (iblk0 V c 1 ⟨n + 1, hn⟩) (iblk0 V c 2 ⟨n + 1, hn⟩) (iblk0 V c 3 ⟨n + 1, hn⟩) (iblk0 V c 4 ⟨n + 1, hn⟩) (stats0 c n (Nat.lt_of_succ_lt hn))

theorem stats0_zero (c : Dev nD) (t : Fin cfg0.N) (h : t.val = 0) :
    stats0 V c t.val t.isLt = outA0_6 (iblk0 V c 0 t) (iblk0 V c 1 t) (iblk0 V c 2 t) (iblk0 V c 3 t) (iblk0 V c 4 t) := by
  obtain ⟨n, hn⟩ := t
  cases n with
  | zero => exact rfl
  | succ n => exact absurd h (Nat.succ_ne_zero n)

theorem stats0_succ (c : Dev nD) (t : Fin cfg0.N) (h : t.val ≠ 0) :
    stats0 V c t.val t.isLt = outB0_6 (iblk0 V c 0 t) (iblk0 V c 1 t) (iblk0 V c 2 t) (iblk0 V c 3 t) (iblk0 V c 4 t) (stats0 V c (t.val - 1) (Nat.lt_of_le_of_lt (Nat.sub_le _ _) t.isLt)) := by
  obtain ⟨n, hn⟩ := t
  cases n with
  | zero => exact absurd rfl h
  | succ n => exact rfl

/-! ## The pipeline's proof data -/

/-- The proof data of the pipeline on core `c`: the arrays as the region finds them (`V`); after the body at point
    `t` each input's buffer at its block, the row-block output at `out0_5` of the input blocks and the statistics at
    `stats0`; the invariant the scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => out0_5 (iblk0 V c 0 t) (iblk0 V c 1 t) (iblk0 V c 2 t) (iblk0 V c 3 t) (iblk0 V c 4 t)
    | ⟨6, _⟩ => stats0 V c t.val t.isLt
  Φ _ := Pipeline.ΦA spec0 c
  q _ := fullShare
  owed _ := 0

/-- The proof data's arrays are the region-entry contents (the definition projected, `V` never unfolded). -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5_out (c : Dev nD) (t : Fin cfg0.N) : (dat0 V c).after 5 t = out0_5 (iblk0 V c 0 t) (iblk0 V c 1 t) (iblk0 V c 2 t) (iblk0 V c 3 t) (iblk0 V c 4 t) := by dsimp only [dat0]
theorem after0_6_stats (c : Dev nD) (t : Fin cfg0.N) : (dat0 V c).after 6 t = stats0 V c t.val t.isLt := by dsimp only [dat0]

/-- Each input's current staging buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d

/-- At a later point the statistics buffer holds what the body left at the point before: the point is not the first,
    the buffer is written back at the last point only, the window is live everywhere and uncut. -/
theorem before0_6_succ (c : Dev nD) (t : Fin cfg0.N) (h : t.val ≠ 0) (d) :
    (dat0 V c).before 6 t d = stats0 V c (t.val - 1) (Nat.lt_of_le_of_lt (Nat.sub_le _ _) t.isLt) := by
  have hN : t.val < 20 := lt_of_lt_of_eq t.isLt (show cfg0.N = 20 from N_0)
  rw [Dat.before_out_kept _ 6 rfl t h (Bool.eq_false_iff.mpr fun hf => by have := (flush0_6 _).mp hf; dsimp only at this; omega)
    live0_6 (fun _ _ => rfl)]
  dsimp only [dat0]

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ (dat0 V c).leavesExact 6 t)

set_option maxHeartbeats 1600000 in
/-- The body at any point: the inputs' memrefs hold their blocks; the closed forms say which case the point is in; at a
    later point the statistics buffer holds what the point before left; so the case's triple applies; the invariant and
    the core's `owes` pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    show (dat0 V c).leavesExact 6 t = owns (c : Thread nD τ) (st0_6 t) fullShare ((dat0 V c).after 6 t) from by
      unfold Dat.leavesExact; rw [live0_6 (grid0.coords t)],
    after0_0, after0_1, after0_2, after0_3, after0_4, after0_5_out, after0_6_stats]
  have hN : t.val < 20 := lt_of_lt_of_eq t.isLt (show cfg0.N = 20 from N_0)
  by_cases hz : t.val = 0
  · have hm : t.val % 20 = 0 := by omega
    rw [stats0_zero V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel0_A c Set.univ (grid0.coords t) _ _ _ _ _ _ _ _ _ _ _ _ _ _ ((hcond0_1 t).mpr hm) (fun h => ((hcond0_2 t).mp h) hm)
      (iblk0 V c 0 t) (iblk0 V c 1 t) (iblk0 V c 2 t) (iblk0 V c 3 t) (iblk0 V c 4 t) _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexists _; iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg
  · have hm : ¬t.val % 20 = 0 := by omega
    rw [stats0_succ V c t hz]
    simp only [before0_6_succ V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel0_B c Set.univ (grid0.coords t) _ _ _ _ _ _ _ _ _ _ _ _ _ _ (fun h => hm ((hcond0_1 t).mp h)) ((hcond0_2 t).mpr hm)
      (iblk0 V c 0 t) (iblk0 V c 1 t) (iblk0 V c 2 t) (iblk0 V c 3 t) (iblk0 V c 4 t) _ _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! ## The outputs through the body's payloads -/

/-- The row-block output after the body at point `t` is the body's first payload of the five input blocks there (one
    whole-buffer store of it; every load reads a whole buffer). -/
theorem after0_5 (c : Dev nD) (t : Fin cfg0.N) :
    (dat0 V c).after 5 t = k0_pay1 (iblk0 V c 0 t) (iblk0 V c 1 t) (iblk0 V c 2 t) (iblk0 V c 3 t) (iblk0 V c 4 t) := by
  rw [after0_5_out]; unfold out0_5
  rw [View.canon_unit_zero hzero0]
  simp only [View.ld_unit_zero (S := S5000x128) hzero0, View.ld_unit_zero (S := S128x128) hzero0, View.ld_unit_zero (S := S1x128) hzero0, View.ld_unit_zero (S := S2x128) hzero0]

/-- The statistics after the body at the first point: the second payload (the block's column sums and sums of squares). -/
theorem after0_6_zero (c : Dev nD) (t : Fin cfg0.N) (h : t.val = 0) :
    (dat0 V c).after 6 t = k0_pay2 (iblk0 V c 0 t) (iblk0 V c 1 t) (iblk0 V c 2 t) (iblk0 V c 3 t) (iblk0 V c 4 t) := by
  rw [after0_6_stats, stats0_zero V c t h]; unfold outA0_6
  rw [View.canon_unit_zero hzero0]
  simp only [View.ld_unit_zero (S := S5000x128) hzero0, View.ld_unit_zero (S := S128x128) hzero0, View.ld_unit_zero (S := S1x128) hzero0, View.ld_unit_zero (S := S2x128) hzero0]

/-- The statistics after the body at a later point: the third payload of the input blocks and of the statistics the
    point before left (the running sums plus the block's). -/
theorem after0_6_succ (c : Dev nD) (t : Fin cfg0.N) (h : t.val ≠ 0) :
    (dat0 V c).after 6 t = k0_pay3 (iblk0 V c 0 t) (iblk0 V c 1 t) (iblk0 V c 2 t) (iblk0 V c 3 t) (iblk0 V c 4 t)
      ((dat0 V c).after 6 ⟨t.val - 1, Nat.lt_of_le_of_lt (Nat.sub_le _ _) t.isLt⟩) := by
  rw [after0_6_stats V c t, after0_6_stats V c ⟨t.val - 1, _⟩, stats0_succ V c t h]; unfold outB0_6
  rw [View.canon_unit_zero hzero0]
  simp only [View.ld_unit_zero (S := S5000x128) hzero0, View.ld_unit_zero (S := S128x128) hzero0, View.ld_unit_zero (S := S1x128) hzero0, View.ld_unit_zero (S := S2x128) hzero0]

end Cert.KernelIdeal.Hand

end
-- ==== Proof.KI.Mlp2.lean ====
import proofs.«125359_j15118284882190_1_alg».proof.Proof.Gen.KernelIdeal.Launch
import proofs.«125359_j15118284882190_1_alg».proof.Proof.Gen.KernelIdeal.Skeleton
import proofs.«125359_j15118284882190_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! # Pipeline 2 (the MLP-and-statistics kernel): proof data and body obligation

Per point of the grid of 20 the body loads five whole input buffers (a row block, two weight matrices, two bias rows),
stores the row block's image under the two-layer MLP into the row-block output, and accumulates into the statistics
output the block's column sums and column sums of squares: stored at the first point, added to what the point before left
at every later one. This module states what every staging buffer holds after the body at each point, over ANY contents
`V` of the core's buffers at region entry and at any float model `F`, and proves the body's obligation to the
pipeline from it; the two outputs are then read through the body's payloads. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What core `c`'s TensorCore buffers hold when the region is entered: a parameter of everything below.
variable (V : (c : Dev nD) → (b : Ref sig .tc) → Buf (Elt F) ((c : Thread nD τ).loc b))

/-! ## The windows' blocks -/

/-- Window `w`'s block at point `t`, read off its array as the region finds it (`V`). -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not (a window fetched at
    the first point only keeps its block index, hence its block), for any proof data over the arrays `V` whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not (a window fetched at
    the first point only keeps its block index, hence its block), for any proof data over the arrays `V` whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not (a window fetched at
    the first point only keeps its block index, hence its block), for any proof data over the arrays `V` whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not (a window fetched at
    the first point only keeps its block index, hence its block), for any proof data over the arrays `V` whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block at every point, fetched there or not (a window fetched at
    the first point only keeps its block index, hence its block), for any proof data over the arrays `V` whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

/-! ## The body's branch conditions, in closed form -/

/-- The first conditional (`i == 0`) is taken at the first point only — decided over the grid. -/
theorem hcond2_1 : ∀ t : Fin cfg2.N, k2_cond1 (grid2.coords t) = 1#1 ↔ t.val % 20 = 0 :=
  (by decide +kernel : ∀ t : Fin grid2.N, k2_cond1 (grid2.coords t) = 1#1 ↔ t.val % 20 = 0)
/-- The second conditional (`i != 0`) is taken at every other point — decided over the grid. -/
theorem hcond2_2 : ∀ t : Fin cfg2.N, k2_cond2 (grid2.coords t) = 1#1 ↔ ¬t.val % 20 = 0 :=
  (by decide +kernel : ∀ t : Fin grid2.N, k2_cond2 (grid2.coords t) = 1#1 ↔ ¬t.val % 20 = 0)

/-- One of the two conditionals holds at every setting of the coordinate, so the statistics window is idle nowhere:
    both conditions read the coordinate's value only, and the twenty values are checked. -/
theorem live2_6 : ∀ i : grid2.Coords, cfg2.idle 6 i = false := by
  intro i
  have h : ∀ n : Fin 20, (!(Scalar.cmpi .ne (Scalar.extui (Scalar.cmpi .eq (BitVec.ofNat 32 n.val) 0#32)) 0#32 == 1#1) && !(Scalar.cmpi .ne (Scalar.extui (Scalar.cmpi .ne (BitVec.ofNat 32 n.val) 0#32)) 0#32 == 1#1)) = false := by decide
  exact h (i 0)

/-! ## The body's accesses: every load and store is of a whole staging buffer -/

abbrev rblk2 : Rect S5000x128 := Rect.unit (s := S5000x128) ![0, 0] S5000x128.size (by decide)
abbrev rmat2 : Rect S128x128 := Rect.unit (s := S128x128) ![0, 0] S128x128.size (by decide)
abbrev rrow2 : Rect S1x128 := Rect.unit (s := S1x128) ![0, 0] S1x128.size (by decide)
abbrev rsts2 : Rect S2x128 := Rect.unit (s := S2x128) ![0, 0] S2x128.size (by decide)

/-- The offsets of every access are zero. -/
theorem hzero2 : (![0, 0] : Fin 2 → Nat) = fun _ => 0 := funext fun a => by fin_cases a <;> rfl

/-! ## What the body leaves in each output window's buffer -/

/-- The row-block output's buffer after the body: its one whole-buffer store. -/
def out2_5 (xa : Vec F S5000x128 .f32) (xb : Vec F S128x128 .f32) (xc : Vec F S1x128 .f32) (xd : Vec F S128x128 .f32) (xe : Vec F S1x128 .f32) : Vec F S5000x128 .f32 :=
  View.canon [⟨rblk2, k2_pay1 (View.ld xa rblk2) (View.ld xb rmat2) (View.ld xc rrow2) (View.ld xd rmat2) (View.ld xe rrow2)⟩]

/-- The statistics buffer after the body at the first point: the block's column sums and column sums of squares. -/
def outA2_6 (xa : Vec F S5000x128 .f32) (xb : Vec F S128x128 .f32) (xc : Vec F S1x128 .f32) (xd : Vec F S128x128 .f32) (xe : Vec F S1x128 .f32) : Vec F S2x128 .f32 :=
  View.canon [⟨rsts2, k2_pay2 (View.ld xa rblk2) (View.ld xb rmat2) (View.ld xc rrow2) (View.ld xd rmat2) (View.ld xe rrow2)⟩]

/-- The statistics buffer after the body at a later point: what it held (`xo`) plus the block's contribution. -/
def outB2_6 (xa : Vec F S5000x128 .f32) (xb : Vec F S128x128 .f32) (xc : Vec F S1x128 .f32) (xd : Vec F S128x128 .f32) (xe : Vec F S1x128 .f32) (xo : Vec F S2x128 .f32) : Vec F S2x128 .f32 :=
  View.canon [⟨rsts2, k2_pay3 (View.ld xa rblk2) (View.ld xb rmat2) (View.ld xc rrow2) (View.ld xd rmat2) (View.ld xe rrow2) (View.ld xo rsts2)⟩]

/-- One whole-buffer store covers the buffer. -/
theorem cover2_5 (p : Vec F S5000x128 .f32) (y : S5000x128.Idx) :
    ∃ pc ∈ ([⟨rblk2, p⟩] : List (View.Piece (Elt F) S5000x128 .f32)), y ∈ pc.1.set :=
  ⟨_, List.mem_singleton_self _, View.mem_set_unit_zero hzero2 (by decide) y⟩
theorem cover2_6 (p : Vec F S2x128 .f32) (y : S2x128.Idx) :
    ∃ pc ∈ ([⟨rsts2, p⟩] : List (View.Piece (Elt F) S2x128 .f32)), y ∈ pc.1.set :=
  ⟨_, List.mem_singleton_self _, View.mem_set_unit_zero hzero2 (by decide) y⟩

/-! ## The body's triple, case by case -/

set_option maxHeartbeats 4000000 in
/-- AT THE FIRST POINT (the first conditional taken, the second not): on whole staging memrefs, the inputs' at contents
    `xW` and the outputs' at anything, the body runs to the continuation holding the inputs' as they were, the row-block
    output at `out2_5` and the statistics at `outA2_6` of the inputs'. -/
theorem sound_kernel2_A (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : k2_cond1 i = 1#1) (hc2 : ¬k2_cond2 i = 1#1) (xa : Vec F S5000x128 .f32) (xb : Vec F S128x128 .f32) (xc : Vec F S1x128 .f32) (xd : Vec F S128x128 .f32) (xe : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out2_5 xa xb xc xd xe) ∗ owns (c : Thread nD τ) arg7 fullShare (outA2_6 xa xb xc xd xe)) -∗ K ⟨⟩))
      ⊢ wp frame (wpE (defs₀ (F := F)) Variants.none c none) E (cc2__mlp_reduce_kernel i arg1 harg1 arg2 harg2 arg3 harg3 arg4 harg4 arg5 harg5 arg6 harg6 arg7 harg7) K := by
  simp only [cc2__mlp_reduce_kernel_eq_skeleton]; unfold cc2__mlp_reduce_kernel_skel
  simp only [k2_part1_eq_skeleton]; unfold k2_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%dg, %fg, -, Hg⟩, Hk⟩
  subst hfa hfb hfc hfd hfe
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover2_5 _)
  iexists _; isplitr
  swap; · iexact Hg
  ipureintro
  exact View.read_writes_eq_canon _ _ _ (cover2_6 _)

set_option maxHeartbeats 4000000 in
/-- AT A LATER POINT (the first conditional not taken, the second taken): the same, the statistics buffer handed in at
    contents `xo` (what the point before left) and handed back at `outB2_6` of the inputs' and `xo`. -/
theorem sound_kernel2_B (c : Dev nD) (E : Set ℕ) (i : grid2.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : ¬k2_cond1 i = 1#1) (hc2 : k2_cond2 i = 1#1) (xa : Vec F S5000x128 .f32) (xb : Vec F S128x128 .f32) (xc : Vec F S1x128 .f32) (xd : Vec F S128x128 .f32) (xe : Vec F S1x128 .f32) (xo : Vec F S2x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ owns (c : Thread nD τ) arg7 fullShare xo
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out2_5 xa xb xc xd xe) ∗ owns (c : Thread nD τ) arg7 fullShare (outB2_6 xa xb xc xd xe xo)) -∗ K ⟨⟩))
      ⊢ wp frame (wpE (defs₀ (F := F)) Variants.none c none) E (cc2__mlp_reduce_kernel i arg1 harg1 arg2 harg2 arg3 harg3 arg4 harg4 arg5 harg5 arg6 harg6 arg7 harg7) K := by
  simp only [cc2__mlp_reduce_kernel_eq_skeleton]; unfold cc2__mlp_reduce_kernel_skel
  simp only [k2_part1_eq_skeleton]; unfold k2_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fg, %hfg, Hg⟩, Hk⟩
  subst hfa hfb hfc hfd hfe hfg
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover2_5 _)
  iexists _; isplitr
  swap; · iexact Hg
  ipureintro
  exact View.read_writes_eq_canon _ _ _ (cover2_6 _)

/-! ## The statistics, point by point -/

/-- THE ACCUMULATION. What the statistics buffer holds after the body at position `n`: at the first point the block's
    sums, afterwards what the point before left plus the block's (the buffer is not written back in between). -/
def stats2 (c : Dev nD) : (n : ℕ) → n < cfg2.N → Vec F S2x128 .f32
  | 0, hn => outA2_6 (iblk2 V c 0 ⟨0, hn⟩) (iblk2 V c 1 ⟨0, hn⟩) (iblk2 V c 2 ⟨0, hn⟩) (iblk2 V c 3 ⟨0, hn⟩) (iblk2 V c 4 ⟨0, hn⟩)
  | n + 1, hn => outB2_6 (iblk2 V c 0 ⟨n + 1, hn⟩) (iblk2 V c 1 ⟨n + 1, hn⟩) (iblk2 V c 2 ⟨n + 1, hn⟩) (iblk2 V c 3 ⟨n + 1, hn⟩) (iblk2 V c 4 ⟨n + 1, hn⟩) (stats2 c n (Nat.lt_of_succ_lt hn))

theorem stats2_zero (c : Dev nD) (t : Fin cfg2.N) (h : t.val = 0) :
    stats2 V c t.val t.isLt = outA2_6 (iblk2 V c 0 t) (iblk2 V c 1 t) (iblk2 V c 2 t) (iblk2 V c 3 t) (iblk2 V c 4 t) := by
  obtain ⟨n, hn⟩ := t
  cases n with
  | zero => exact rfl
  | succ n => exact absurd h (Nat.succ_ne_zero n)

theorem stats2_succ (c : Dev nD) (t : Fin cfg2.N) (h : t.val ≠ 0) :
    stats2 V c t.val t.isLt = outB2_6 (iblk2 V c 0 t) (iblk2 V c 1 t) (iblk2 V c 2 t) (iblk2 V c 3 t) (iblk2 V c 4 t) (stats2 V c (t.val - 1) (Nat.lt_of_le_of_lt (Nat.sub_le _ _) t.isLt)) := by
  obtain ⟨n, hn⟩ := t
  cases n with
  | zero => exact absurd rfl h
  | succ n => exact rfl

/-! ## The pipeline's proof data -/

/-- The proof data of the pipeline on core `c`: the arrays as the region finds them (`V`); after the body at point
    `t` each input's buffer at its block, the row-block output at `out2_5` of the input blocks and the statistics at
    `stats2`; the invariant the scoped rest and the generator register, untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
    | ⟨6, _⟩ => stats2 V c t.val t.isLt
  Φ _ := Pipeline.ΦA spec2 c
  q _ := fullShare
  owed _ := 0

/-- The proof data's arrays are the region-entry contents (the definition projected, `V` never unfolded). -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5_out (c : Dev nD) (t : Fin cfg2.N) : (dat2 V c).after 5 t = out2_5 (iblk2 V c 0 t) (iblk2 V c 1 t) (iblk2 V c 2 t) (iblk2 V c 3 t) (iblk2 V c 4 t) := by dsimp only [dat2]
theorem after2_6_stats (c : Dev nD) (t : Fin cfg2.N) : (dat2 V c).after 6 t = stats2 V c t.val t.isLt := by dsimp only [dat2]

/-- Each input's current staging buffer holds its block at every point. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- At a later point the statistics buffer holds what the body left at the point before: the point is not the first,
    the buffer is written back at the last point only, the window is live everywhere and uncut. -/
theorem before2_6_succ (c : Dev nD) (t : Fin cfg2.N) (h : t.val ≠ 0) (d) :
    (dat2 V c).before 6 t d = stats2 V c (t.val - 1) (Nat.lt_of_le_of_lt (Nat.sub_le _ _) t.isLt) := by
  have hN : t.val < 20 := lt_of_lt_of_eq t.isLt (show cfg2.N = 20 from N_2)
  rw [Dat.before_out_kept _ 6 rfl t h (Bool.eq_false_iff.mpr fun hf => by have := (flush2_6 _).mp hf; dsimp only at this; omega)
    live2_6 (fun _ _ => rfl)]
  dsimp only [dat2]

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d))
    ∗ (∃ d, owns (c : Thread nD τ) (st2_6 t) fullShare ((dat2 V c).before 6 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t)
    ∗ (dat2 V c).leavesExact 6 t)

set_option maxHeartbeats 1600000 in
/-- The body at any point: the inputs' memrefs hold their blocks; the closed forms say which case the point is in; at a
    later point the statistics buffer holds what the point before left; so the case's triple applies; the invariant and
    the core's `owes` pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    show (dat2 V c).leavesExact 6 t = owns (c : Thread nD τ) (st2_6 t) fullShare ((dat2 V c).after 6 t) from by
      unfold Dat.leavesExact; rw [live2_6 (grid2.coords t)],
    after2_0, after2_1, after2_2, after2_3, after2_4, after2_5_out, after2_6_stats]
  have hN : t.val < 20 := lt_of_lt_of_eq t.isLt (show cfg2.N = 20 from N_2)
  by_cases hz : t.val = 0
  · have hm : t.val % 20 = 0 := by omega
    rw [stats2_zero V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel2_A c Set.univ (grid2.coords t) _ _ _ _ _ _ _ _ _ _ _ _ _ _ ((hcond2_1 t).mpr hm) (fun h => ((hcond2_2 t).mp h) hm)
      (iblk2 V c 0 t) (iblk2 V c 1 t) (iblk2 V c 2 t) (iblk2 V c 3 t) (iblk2 V c 4 t) _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexists _; iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg
  · have hm : ¬t.val % 20 = 0 := by omega
    rw [stats2_succ V c t hz]
    simp only [before2_6_succ V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel2_B c Set.univ (grid2.coords t) _ _ _ _ _ _ _ _ _ _ _ _ _ _ (fun h => hm ((hcond2_1 t).mp h)) ((hcond2_2 t).mpr hm)
      (iblk2 V c 0 t) (iblk2 V c 1 t) (iblk2 V c 2 t) (iblk2 V c 3 t) (iblk2 V c 4 t) _ _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg

/-- The library's body obligation, at every point. -/
theorem body_obligation2 (c : Dev nD) : BodyObligation (dat2 (F := F) V c) (defs₀ (F := F)) Variants.none () Set.univ := fun t => by
  rw [bigSep_W2, bigSep_W2]
  exact sound_body2 V c t

/-! ## The outputs through the body's payloads -/

/-- The row-block output after the body at point `t` is the body's first payload of the five input blocks there (one
    whole-buffer store of it; every load reads a whole buffer). -/
theorem after2_5 (c : Dev nD) (t : Fin cfg2.N) :
    (dat2 V c).after 5 t = k2_pay1 (iblk2 V c 0 t) (iblk2 V c 1 t) (iblk2 V c 2 t) (iblk2 V c 3 t) (iblk2 V c 4 t) := by
  rw [after2_5_out]; unfold out2_5
  rw [View.canon_unit_zero hzero2]
  simp only [View.ld_unit_zero (S := S5000x128) hzero2, View.ld_unit_zero (S := S128x128) hzero2, View.ld_unit_zero (S := S1x128) hzero2, View.ld_unit_zero (S := S2x128) hzero2]

/-- The statistics after the body at the first point: the second payload (the block's column sums and sums of squares). -/
theorem after2_6_zero (c : Dev nD) (t : Fin cfg2.N) (h : t.val = 0) :
    (dat2 V c).after 6 t = k2_pay2 (iblk2 V c 0 t) (iblk2 V c 1 t) (iblk2 V c 2 t) (iblk2 V c 3 t) (iblk2 V c 4 t) := by
  rw [after2_6_stats, stats2_zero V c t h]; unfold outA2_6
  rw [View.canon_unit_zero hzero2]
  simp only [View.ld_unit_zero (S := S5000x128) hzero2, View.ld_unit_zero (S := S128x128) hzero2, View.ld_unit_zero (S := S1x128) hzero2, View.ld_unit_zero (S := S2x128) hzero2]

/-- The statistics after the body at a later point: the third payload of the input blocks and of the statistics the
    point before left (the running sums plus the block's). -/
theorem after2_6_succ (c : Dev nD) (t : Fin cfg2.N) (h : t.val ≠ 0) :
    (dat2 V c).after 6 t = k2_pay3 (iblk2 V c 0 t) (iblk2 V c 1 t) (iblk2 V c 2 t) (iblk2 V c 3 t) (iblk2 V c 4 t)
      ((dat2 V c).after 6 ⟨t.val - 1, Nat.lt_of_le_of_lt (Nat.sub_le _ _) t.isLt⟩) := by
  rw [after2_6_stats V c t, after2_6_stats V c ⟨t.val - 1, _⟩, stats2_succ V c t h]; unfold outB2_6
  rw [View.canon_unit_zero hzero2]
  simp only [View.ld_unit_zero (S := S5000x128) hzero2, View.ld_unit_zero (S := S128x128) hzero2, View.ld_unit_zero (S := S1x128) hzero2, View.ld_unit_zero (S := S2x128) hzero2]

end Cert.KernelIdeal.Hand

end
-- ==== Proof.KI.Mlp4.lean ====
import proofs.«125359_j15118284882190_1_alg».proof.Proof.Gen.KernelIdeal.Launch
import proofs.«125359_j15118284882190_1_alg».proof.Proof.Gen.KernelIdeal.Skeleton
import proofs.«125359_j15118284882190_1_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

/-! # Pipeline 4 (the MLP-and-statistics kernel): proof data and body obligation

Per point of the grid of 20 the body loads five whole input buffers (a row block, two weight matrices, two bias rows),
stores the row block's image under the two-layer MLP into the row-block output, and accumulates into the statistics
output the block's column sums and column sums of squares: stored at the first point, added to what the point before left
at every later one. This module states what every staging buffer holds after the body at each point, over ANY contents
`V` of the core's buffers at region entry and at any float model `F`, and proves the body's obligation to the
pipeline from it; the two outputs are then read through the body's payloads. -/

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- What core `c`'s TensorCore buffers hold when the region is entered: a parameter of everything below.
variable (V : (c : Dev nD) → (b : Ref sig .tc) → Buf (Elt F) ((c : Thread nD τ).loc b))

/-! ## The windows' blocks -/

/-- Window `w`'s block at point `t`, read off its array as the region finds it (`V`). -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- Input window 0's current staging buffer holds its block at every point, fetched there or not (a window fetched at
    the first point only keeps its block index, hence its block), for any proof data over the arrays `V` whose body
    leaves the block in place. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- Input window 1's current staging buffer holds its block at every point, fetched there or not (a window fetched at
    the first point only keeps its block index, hence its block), for any proof data over the arrays `V` whose body
    leaves the block in place. -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- Input window 2's current staging buffer holds its block at every point, fetched there or not (a window fetched at
    the first point only keeps its block index, hence its block), for any proof data over the arrays `V` whose body
    leaves the block in place. -/
theorem before4_2_of {c : Dev nD} (dat : Dat τ (Elt F) Unit ℕ (UR sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- Input window 3's current staging buffer holds its block at every point, fetched there or not (a window fetched at
    the first point only keeps its block index, hence its block), for any proof data over the arrays `V` whose body
    leaves the block in place. -/
theorem before4_3_of {c : Dev nD} (dat : Dat τ (Elt F) Unit ℕ (UR sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

/-- Input window 4's current staging buffer holds its block at every point, fetched there or not (a window fetched at
    the first point only keeps its block index, hence its block), for any proof data over the arrays `V` whose body
    leaves the block in place. -/
theorem before4_4_of {c : Dev nD} (dat : Dat τ (Elt F) Unit ℕ (UR sig nD τ) ℕ cfg4 c) (hA : dat.A 4 = V c (Pipeline.arrRef spec4 4))
    (hafter : ∀ t, dat.after 4 t = iblk4 V c 4 t) (t : Fin cfg4.N) (d) : dat.before 4 t d = iblk4 V c 4 t :=
  (dat.before_in_eq_fetched 4 rfl (fun _ => rfl) (fun _ _ _ => rfl) (fun t => by rw [hafter]; unfold Dat.blockOf iblk4; rw [hA]; try rfl) t d).trans
    (by unfold Dat.fetched Dat.blockOf iblk4; rw [hA]; try rfl)

/-! ## The body's branch conditions, in closed form -/

/-- The first conditional (`i == 0`) is taken at the first point only — decided over the grid. -/
theorem hcond4_1 : ∀ t : Fin cfg4.N, k4_cond1 (grid4.coords t) = 1#1 ↔ t.val % 20 = 0 :=
  (by decide +kernel : ∀ t : Fin grid4.N, k4_cond1 (grid4.coords t) = 1#1 ↔ t.val % 20 = 0)
/-- The second conditional (`i != 0`) is taken at every other point — decided over the grid. -/
theorem hcond4_2 : ∀ t : Fin cfg4.N, k4_cond2 (grid4.coords t) = 1#1 ↔ ¬t.val % 20 = 0 :=
  (by decide +kernel : ∀ t : Fin grid4.N, k4_cond2 (grid4.coords t) = 1#1 ↔ ¬t.val % 20 = 0)

/-- One of the two conditionals holds at every setting of the coordinate, so the statistics window is idle nowhere:
    both conditions read the coordinate's value only, and the twenty values are checked. -/
theorem live4_6 : ∀ i : grid4.Coords, cfg4.idle 6 i = false := by
  intro i
  have h : ∀ n : Fin 20, (!(Scalar.cmpi .ne (Scalar.extui (Scalar.cmpi .eq (BitVec.ofNat 32 n.val) 0#32)) 0#32 == 1#1) && !(Scalar.cmpi .ne (Scalar.extui (Scalar.cmpi .ne (BitVec.ofNat 32 n.val) 0#32)) 0#32 == 1#1)) = false := by decide
  exact h (i 0)

/-! ## The body's accesses: every load and store is of a whole staging buffer -/

abbrev rblk4 : Rect S5000x128 := Rect.unit (s := S5000x128) ![0, 0] S5000x128.size (by decide)
abbrev rmat4 : Rect S128x128 := Rect.unit (s := S128x128) ![0, 0] S128x128.size (by decide)
abbrev rrow4 : Rect S1x128 := Rect.unit (s := S1x128) ![0, 0] S1x128.size (by decide)
abbrev rsts4 : Rect S2x128 := Rect.unit (s := S2x128) ![0, 0] S2x128.size (by decide)

/-- The offsets of every access are zero. -/
theorem hzero4 : (![0, 0] : Fin 2 → Nat) = fun _ => 0 := funext fun a => by fin_cases a <;> rfl

/-! ## What the body leaves in each output window's buffer -/

/-- The row-block output's buffer after the body: its one whole-buffer store. -/
def out4_5 (xa : Vec F S5000x128 .f32) (xb : Vec F S128x128 .f32) (xc : Vec F S1x128 .f32) (xd : Vec F S128x128 .f32) (xe : Vec F S1x128 .f32) : Vec F S5000x128 .f32 :=
  View.canon [⟨rblk4, k4_pay1 (View.ld xa rblk4) (View.ld xb rmat4) (View.ld xc rrow4) (View.ld xd rmat4) (View.ld xe rrow4)⟩]

/-- The statistics buffer after the body at the first point: the block's column sums and column sums of squares. -/
def outA4_6 (xa : Vec F S5000x128 .f32) (xb : Vec F S128x128 .f32) (xc : Vec F S1x128 .f32) (xd : Vec F S128x128 .f32) (xe : Vec F S1x128 .f32) : Vec F S2x128 .f32 :=
  View.canon [⟨rsts4, k4_pay2 (View.ld xa rblk4) (View.ld xb rmat4) (View.ld xc rrow4) (View.ld xd rmat4) (View.ld xe rrow4)⟩]

/-- The statistics buffer after the body at a later point: what it held (`xo`) plus the block's contribution. -/
def outB4_6 (xa : Vec F S5000x128 .f32) (xb : Vec F S128x128 .f32) (xc : Vec F S1x128 .f32) (xd : Vec F S128x128 .f32) (xe : Vec F S1x128 .f32) (xo : Vec F S2x128 .f32) : Vec F S2x128 .f32 :=
  View.canon [⟨rsts4, k4_pay3 (View.ld xa rblk4) (View.ld xb rmat4) (View.ld xc rrow4) (View.ld xd rmat4) (View.ld xe rrow4) (View.ld xo rsts4)⟩]

/-- One whole-buffer store covers the buffer. -/
theorem cover4_5 (p : Vec F S5000x128 .f32) (y : S5000x128.Idx) :
    ∃ pc ∈ ([⟨rblk4, p⟩] : List (View.Piece (Elt F) S5000x128 .f32)), y ∈ pc.1.set :=
  ⟨_, List.mem_singleton_self _, View.mem_set_unit_zero hzero4 (by decide) y⟩
theorem cover4_6 (p : Vec F S2x128 .f32) (y : S2x128.Idx) :
    ∃ pc ∈ ([⟨rsts4, p⟩] : List (View.Piece (Elt F) S2x128 .f32)), y ∈ pc.1.set :=
  ⟨_, List.mem_singleton_self _, View.mem_set_unit_zero hzero4 (by decide) y⟩

/-! ## The body's triple, case by case -/

set_option maxHeartbeats 4000000 in
/-- AT THE FIRST POINT (the first conditional taken, the second not): on whole staging memrefs, the inputs' at contents
    `xW` and the outputs' at anything, the body runs to the continuation holding the inputs' as they were, the row-block
    output at `out4_5` and the statistics at `outA4_6` of the inputs'. -/
theorem sound_kernel4_A (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : k4_cond1 i = 1#1) (hc2 : ¬k4_cond2 i = 1#1) (xa : Vec F S5000x128 .f32) (xb : Vec F S128x128 .f32) (xc : Vec F S1x128 .f32) (xd : Vec F S128x128 .f32) (xe : Vec F S1x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ (∃ d, owns (c : Thread nD τ) arg7 fullShare d)
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out4_5 xa xb xc xd xe) ∗ owns (c : Thread nD τ) arg7 fullShare (outA4_6 xa xb xc xd xe)) -∗ K ⟨⟩))
      ⊢ wp frame (wpE (defs₀ (F := F)) Variants.none c none) E (cc4__mlp_reduce_kernel i arg1 harg1 arg2 harg2 arg3 harg3 arg4 harg4 arg5 harg5 arg6 harg6 arg7 harg7) K := by
  simp only [cc4__mlp_reduce_kernel_eq_skeleton]; unfold cc4__mlp_reduce_kernel_skel
  simp only [k4_part1_eq_skeleton]; unfold k4_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%dg, %fg, -, Hg⟩, Hk⟩
  subst hfa hfb hfc hfd hfe
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover4_5 _)
  iexists _; isplitr
  swap; · iexact Hg
  ipureintro
  exact View.read_writes_eq_canon _ _ _ (cover4_6 _)

set_option maxHeartbeats 4000000 in
/-- AT A LATER POINT (the first conditional not taken, the second taken): the same, the statistics buffer handed in at
    contents `xo` (what the point before left) and handed back at `outB4_6` of the inputs' and `xo`. -/
theorem sound_kernel4_B (c : Dev nD) (E : Set ℕ) (i : grid4.Coords) (arg1 : Memref sig .tc .vmem S5000x128 .f32) (harg1 : arg1.IsWhole) (arg2 : Memref sig .tc .vmem S128x128 .f32) (harg2 : arg2.IsWhole) (arg3 : Memref sig .tc .vmem S1x128 .f32) (harg3 : arg3.IsWhole) (arg4 : Memref sig .tc .vmem S128x128 .f32) (harg4 : arg4.IsWhole) (arg5 : Memref sig .tc .vmem S1x128 .f32) (harg5 : arg5.IsWhole) (arg6 : Memref sig .tc .vmem S5000x128 .f32) (harg6 : arg6.IsWhole) (arg7 : Memref sig .tc .vmem S2x128 .f32) (harg7 : arg7.IsWhole)
    (hc1 : ¬k4_cond1 i = 1#1) (hc2 : k4_cond2 i = 1#1) (xa : Vec F S5000x128 .f32) (xb : Vec F S128x128 .f32) (xc : Vec F S1x128 .f32) (xd : Vec F S128x128 .f32) (xe : Vec F S1x128 .f32) (xo : Vec F S2x128 .f32) (K : PUnit → sProp 𝕄) :
    iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ (∃ d, owns (c : Thread nD τ) arg6 fullShare d) ∗ owns (c : Thread nD τ) arg7 fullShare xo
        ∗ (iprop(owns (c : Thread nD τ) arg1 fullShare xa ∗ owns (c : Thread nD τ) arg2 fullShare xb ∗ owns (c : Thread nD τ) arg3 fullShare xc ∗ owns (c : Thread nD τ) arg4 fullShare xd ∗ owns (c : Thread nD τ) arg5 fullShare xe ∗ owns (c : Thread nD τ) arg6 fullShare (out4_5 xa xb xc xd xe) ∗ owns (c : Thread nD τ) arg7 fullShare (outB4_6 xa xb xc xd xe xo)) -∗ K ⟨⟩))
      ⊢ wp frame (wpE (defs₀ (F := F)) Variants.none c none) E (cc4__mlp_reduce_kernel i arg1 harg1 arg2 harg2 arg3 harg3 arg4 harg4 arg5 harg5 arg6 harg6 arg7 harg7) K := by
  simp only [cc4__mlp_reduce_kernel_eq_skeleton]; unfold cc4__mlp_reduce_kernel_skel
  simp only [k4_part1_eq_skeleton]; unfold k4_part1_skel
  unfold owns
  iintro ⟨⟨%fa, %hfa, Ha⟩, ⟨%fb, %hfb, Hb⟩, ⟨%fc, %hfc, Hc⟩, ⟨%fd, %hfd, Hd⟩, ⟨%fe, %hfe, He⟩, ⟨%df, %ff, -, Hf⟩, ⟨%fg, %hfg, Hg⟩, Hk⟩
  subst hfa hfb hfc hfd hfe hfg
  sl_exec (disch := first | exact hc1 | exact hc2)
  sl_step
  iapply Hk
  isplitl [Ha]
  · iexists fa; isplitr; · ipureintro; rfl
    iexact Ha
  isplitl [Hb]
  · iexists fb; isplitr; · ipureintro; rfl
    iexact Hb
  isplitl [Hc]
  · iexists fc; isplitr; · ipureintro; rfl
    iexact Hc
  isplitl [Hd]
  · iexists fd; isplitr; · ipureintro; rfl
    iexact Hd
  isplitl [He]
  · iexists fe; isplitr; · ipureintro; rfl
    iexact He
  isplitl [Hf]
  · iexists _; isplitr
    swap; · iexact Hf
    ipureintro
    exact View.read_writes_eq_canon _ _ _ (cover4_5 _)
  iexists _; isplitr
  swap; · iexact Hg
  ipureintro
  exact View.read_writes_eq_canon _ _ _ (cover4_6 _)

/-! ## The statistics, point by point -/

/-- THE ACCUMULATION. What the statistics buffer holds after the body at position `n`: at the first point the block's
    sums, afterwards what the point before left plus the block's (the buffer is not written back in between). -/
def stats4 (c : Dev nD) : (n : ℕ) → n < cfg4.N → Vec F S2x128 .f32
  | 0, hn => outA4_6 (iblk4 V c 0 ⟨0, hn⟩) (iblk4 V c 1 ⟨0, hn⟩) (iblk4 V c 2 ⟨0, hn⟩) (iblk4 V c 3 ⟨0, hn⟩) (iblk4 V c 4 ⟨0, hn⟩)
  | n + 1, hn => outB4_6 (iblk4 V c 0 ⟨n + 1, hn⟩) (iblk4 V c 1 ⟨n + 1, hn⟩) (iblk4 V c 2 ⟨n + 1, hn⟩) (iblk4 V c 3 ⟨n + 1, hn⟩) (iblk4 V c 4 ⟨n + 1, hn⟩) (stats4 c n (Nat.lt_of_succ_lt hn))

theorem stats4_zero (c : Dev nD) (t : Fin cfg4.N) (h : t.val = 0) :
    stats4 V c t.val t.isLt = outA4_6 (iblk4 V c 0 t) (iblk4 V c 1 t) (iblk4 V c 2 t) (iblk4 V c 3 t) (iblk4 V c 4 t) := by
  obtain ⟨n, hn⟩ := t
  cases n with
  | zero => exact rfl
  | succ n => exact absurd h (Nat.succ_ne_zero n)

theorem stats4_succ (c : Dev nD) (t : Fin cfg4.N) (h : t.val ≠ 0) :
    stats4 V c t.val t.isLt = outB4_6 (iblk4 V c 0 t) (iblk4 V c 1 t) (iblk4 V c 2 t) (iblk4 V c 3 t) (iblk4 V c 4 t) (stats4 V c (t.val - 1) (Nat.lt_of_le_of_lt (Nat.sub_le _ _) t.isLt)) := by
  obtain ⟨n, hn⟩ := t
  cases n with
  | zero => exact absurd rfl h
  | succ n => exact rfl

/-! ## The pipeline's proof data -/

/-- The proof data of the pipeline on core `c`: the arrays as the region finds them (`V`); after the body at point
    `t` each input's buffer at its block, the row-block output at `out4_5` of the input blocks and the statistics at
    `stats4`; the invariant the scoped rest and the generator register, untouched; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => iblk4 V c 4 t
    | ⟨5, _⟩ => out4_5 (iblk4 V c 0 t) (iblk4 V c 1 t) (iblk4 V c 2 t) (iblk4 V c 3 t) (iblk4 V c 4 t)
    | ⟨6, _⟩ => stats4 V c t.val t.isLt
  Φ _ := Pipeline.ΦA spec4 c
  q _ := fullShare
  owed _ := 0

/-- The proof data's arrays are the region-entry contents (the definition projected, `V` never unfolded). -/
theorem A_eq4 (c : Dev nD) (w : Fin cfg4.W) : (dat4 V c).A w = V c (Pipeline.arrRef spec4 w) := by
  dsimp only [dat4]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = iblk4 V c 4 t := by dsimp only [dat4]
theorem after4_5_out (c : Dev nD) (t : Fin cfg4.N) : (dat4 V c).after 5 t = out4_5 (iblk4 V c 0 t) (iblk4 V c 1 t) (iblk4 V c 2 t) (iblk4 V c 3 t) (iblk4 V c 4 t) := by dsimp only [dat4]
theorem after4_6_stats (c : Dev nD) (t : Fin cfg4.N) : (dat4 V c).after 6 t = stats4 V c t.val t.isLt := by dsimp only [dat4]

/-- Each input's current staging buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d
theorem before4_4 (c : Dev nD) (t : Fin cfg4.N) (d) : (dat4 V c).before 4 t d = iblk4 V c 4 t :=
  before4_4_of V (dat4 V c) (A_eq4 V c 4) (after4_4 V c) t d

/-- At a later point the statistics buffer holds what the body left at the point before: the point is not the first,
    the buffer is written back at the last point only, the window is live everywhere and uncut. -/
theorem before4_6_succ (c : Dev nD) (t : Fin cfg4.N) (h : t.val ≠ 0) (d) :
    (dat4 V c).before 6 t d = stats4 V c (t.val - 1) (Nat.lt_of_le_of_lt (Nat.sub_le _ _) t.isLt) := by
  have hN : t.val < 20 := lt_of_lt_of_eq t.isLt (show cfg4.N = 20 from N_4)
  rw [Dat.before_out_kept _ 6 rfl t h (Bool.eq_false_iff.mpr fun hf => by have := (flush4_6 _).mp hf; dsimp only at this; omega)
    live4_6 (fun _ _ => rfl)]
  dsimp only [dat4]

/-! ## The body obligation, at a generic point -/

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ d, owns (c : Thread nD τ) (st4_6 t) fullShare ((dat4 V c).before 6 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (dat4 V c).leavesExact 6 t)

set_option maxHeartbeats 1600000 in
/-- The body at any point: the inputs' memrefs hold their blocks; the closed forms say which case the point is in; at a
    later point the statistics buffer holds what the point before left; so the case's triple applies; the invariant and
    the core's `owes` pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3, before4_4]
  rw [show (dat4 V c).Φ t.succ = (dat4 V c).Φ t.castSucc from rfl,
    show (dat4 V c).owesAt () t.succ = (dat4 V c).owesAt () t.castSucc from rfl,
    show (dat4 V c).leavesExact 6 t = owns (c : Thread nD τ) (st4_6 t) fullShare ((dat4 V c).after 6 t) from by
      unfold Dat.leavesExact; rw [live4_6 (grid4.coords t)],
    after4_0, after4_1, after4_2, after4_3, after4_4, after4_5_out, after4_6_stats]
  have hN : t.val < 20 := lt_of_lt_of_eq t.isLt (show cfg4.N = 20 from N_4)
  by_cases hz : t.val = 0
  · have hm : t.val % 20 = 0 := by omega
    rw [stats4_zero V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel4_A c Set.univ (grid4.coords t) _ _ _ _ _ _ _ _ _ _ _ _ _ _ ((hcond4_1 t).mpr hm) (fun h => ((hcond4_2 t).mp h) hm)
      (iblk4 V c 0 t) (iblk4 V c 1 t) (iblk4 V c 2 t) (iblk4 V c 3 t) (iblk4 V c 4 t) _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexists _; iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg
  · have hm : ¬t.val % 20 = 0 := by omega
    rw [stats4_succ V c t hz]
    simp only [before4_6_succ V c t hz]
    iintro ⟨HΦ, Ho, ⟨%da, Ha⟩, ⟨%db, Hb⟩, ⟨%dc, Hc⟩, ⟨%dd, Hd⟩, ⟨%de, He⟩, ⟨%df, Hf⟩, ⟨%dg, Hg⟩⟩
    iapply (sound_kernel4_B c Set.univ (grid4.coords t) _ _ _ _ _ _ _ _ _ _ _ _ _ _ (fun h => hm ((hcond4_1 t).mp h)) ((hcond4_2 t).mpr hm)
      (iblk4 V c 0 t) (iblk4 V c 1 t) (iblk4 V c 2 t) (iblk4 V c 3 t) (iblk4 V c 4 t) _ _)
    isplitl [Ha]; · iexact Ha
    isplitl [Hb]; · iexact Hb
    isplitl [Hc]; · iexact Hc
    isplitl [Hd]; · iexact Hd
    isplitl [He]; · iexact He
    isplitl [Hf]; · iexists _; iexact Hf
    isplitl [Hg]; · iexact Hg
    iintro ⟨Ha, Hb, Hc, Hd, He, Hf, Hg⟩
    isplitl [HΦ]; · iexact HΦ
    isplitl [Ho]; · iexact Ho
    isplitl [Ha]; · iexact Ha
    isplitl [Hb]; · iexact Hb
    isplitl [Hc]; · iexact Hc
    isplitl [Hd]; · iexact Hd
    isplitl [He]; · iexact He
    isplitl [Hf]; · iexact Hf
    iexact Hg

/-- The library's body obligation, at every point. -/
theorem body_obligation4 (c : Dev nD) : BodyObligation (dat4 (F := F) V c) (defs₀ (F := F)) Variants.none () Set.univ := fun t => by
  rw [bigSep_W4, bigSep_W4]
  exact sound_body4 V c t

/-! ## The outputs through the body's payloads -/

/-- The row-block output after the body at point `t` is the body's first payload of the five input blocks there (one
    whole-buffer store of it; every load reads a whole buffer). -/
theorem after4_5 (c : Dev nD) (t : Fin cfg4.N) :
    (dat4 V c).after 5 t = k4_pay1 (iblk4 V c 0 t) (iblk4 V c 1 t) (iblk4 V c 2 t) (iblk4 V c 3 t) (iblk4 V c 4 t) := by
  rw [after4_5_out]; unfold out4_5
  rw [View.canon_unit_zero hzero4]
  simp only [View.ld_unit_zero (S := S5000x128) hzero4, View.ld_unit_zero (S := S128x128) hzero4, View.ld_unit_zero (S := S1x128) hzero4, View.ld_unit_zero (S := S2x128) hzero4]

/-- The statistics after the body at the first point: the second payload (the block's column sums and sums of squares). -/
theorem after4_6_zero (c : Dev nD) (t : Fin cfg4.N) (h : t.val = 0) :
    (dat4 V c).after 6 t = k4_pay2 (iblk4 V c 0 t) (iblk4 V c 1 t) (iblk4 V c 2 t) (iblk4 V c 3 t) (iblk4 V c 4 t) := by
  rw [after4_6_stats, stats4_zero V c t h]; unfold outA4_6
  rw [View.canon_unit_zero hzero4]
  simp only [View.ld_unit_zero (S := S5000x128) hzero4, View.ld_unit_zero (S := S128x128) hzero4, View.ld_unit_zero (S := S1x128) hzero4, View.ld_unit_zero (S := S2x128) hzero4]

/-- The statistics after the body at a later point: the third payload of the input blocks and of the statistics the
    point before left (the running sums plus the block's). -/
theorem after4_6_succ (c : Dev nD) (t : Fin cfg4.N) (h : t.val ≠ 0) :
    (dat4 V c).after 6 t = k4_pay3 (iblk4 V c 0 t) (iblk4 V c 1 t) (iblk4 V c 2 t) (iblk4 V c 3 t) (iblk4 V c 4 t)
      ((dat4 V c).after 6 ⟨t.val - 1, Nat.lt_of_le_of_lt (Nat.sub_le _ _) t.isLt⟩) := by
  rw [after4_6_stats V c t, after4_6_stats V c ⟨t.val - 1, _⟩, stats4_succ V c t h]; unfold outB4_6
  rw [View.canon_unit_zero hzero4]
  simp only [View.ld_unit_zero (S := S5000x128) hzero4, View.ld_unit_zero (S := S128x128) hzero4, View.ld_unit_zero (S := S1x128) hzero4, View.ld_unit_zero (S := S2x128) hzero4]

end Cert.KernelIdeal.Hand

end
-- ==== Proof.KI.Bn1.lean ====
import proofs.«125359_j15118284882190_1_alg».proof.Proof.Gen.KernelIdeal.Points
import proofs.«125359_j15118284882190_1_alg».proof.Proof.Gen.KernelIdeal.Skeleton
import proofs.«125359_j15118284882190_1_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered: a parameter of everything below
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-! ## The body's accesses -/

/-- The whole [5000,128] block: the rectangle of the body's load of window 0 and of its one store. -/
abbrev rBlk1 : Rect S5000x128 := Rect.unit (s := S5000x128) ![0, 0] S5000x128.size inb_S5000x128_S5000x128_0_0
/-- The whole [1,128] row: the rectangle of the body's loads of windows 1 to 4. -/
abbrev rRow1 : Rect S1x128 := Rect.unit (s := S1x128) ![0, 0] S1x128.size inb_S1x128_S1x128_0_0

/-- Both rectangles sit at offset zero. -/
theorem zeros1 : (![0, 0] : Fin 2 → Nat) = fun _ => 0 := funext fun a => by fin_cases a <;> rfl

/-- The one store's payload over what the loads read: a load through a whole-shape rectangle at offset zero reads the
    buffer, and a store through it leaves its payload, so the block the body leaves is the payload of the blocks. -/
theorem canon_store1 (xA : Vec F S5000x128 .f32) (xB xC xD xE : Vec F S1x128 .f32) :
    View.canon [(⟨rBlk1, k1_pay1 (View.ld xA rBlk1) (View.ld xB rRow1) (View.ld xC rRow1) (View.ld xD rRow1) (View.ld xE rRow1)⟩ : View.Piece (Elt F) S5000x128 .f32)]
      = k1_pay1 xA xB xC xD xE := by
  rw [View.canon_unit_zero (S := S5000x128) zeros1 inb_S5000x128_S5000x128_0_0,
    View.ld_unit_zero (S := S5000x128) zeros1 inb_S5000x128_S5000x128_0_0 xA,
    View.ld_unit_zero (S := S1x128) zeros1 inb_S1x128_S1x128_0_0 xB,
    View.ld_unit_zero (S := S1x128) zeros1 inb_S1x128_S1x128_0_0 xC,
    View.ld_unit_zero (S := S1x128) zeros1 inb_S1x128_S1x128_0_0 xD,
    View.ld_unit_zero (S := S1x128) zeros1 inb_S1x128_S1x128_0_0 xE]

/-- The one store covers the block. -/
theorem cover1 (pA : Vec F S5000x128 .f32) (y : S5000x128.Idx) :
    ∃ pc ∈ ([⟨rBlk1, pA⟩] : List (View.Piece (Elt F) S5000x128 .f32)), y ∈ pc.1.set :=
  ⟨_, List.mem_singleton_self _, View.mem_set_unit_zero (S := S5000x128) zeros1 inb_S5000x128_S5000x128_0_0 y⟩

/-! ## The body's triple -/

set_option maxHeartbeats 1000000 in
/-- The kernel body on whole staging memrefs, the inputs' at read contents `xW` and the output's at anything, runs to
    the continuation holding the inputs' as they were and the output's at the payload of the inputs' contents: the
    printed function is its skeleton, whose loads and one store are run in turn; the store covers the block. -/
theorem sound_kernel1 (c : Dev nD) (E : Set ℕ) (i : grid1.Coords)
    (mA : Memref sig .tc .vmem S5000x128 .f32) (hmA : mA.IsWhole) (mB : Memref sig .tc .vmem S1x128 .f32) (hmB : mB.IsWhole)
    (mC : Memref sig .tc .vmem S1x128 .f32) (hmC : mC.IsWhole) (mD : Memref sig .tc .vmem S1x128 .f32) (hmD : mD.IsWhole)
    (mE : Memref sig .tc .vmem S1x128 .f32) (hmE : mE.IsWhole) (mF : Memref sig .tc .vmem S5000x128 .f32) (hmF : mF.IsWhole)
    (xA : Vec F S5000x128 .f32) (xB xC xD xE : Vec F S1x128 .f32) (K : PUnit → sProp 𝕄) :
    iprop(owns (c : Thread nD τ) mA fullShare xA ∗ owns (c : Thread nD τ) mB fullShare xB ∗ owns (c : Thread nD τ) mC fullShare xC
        ∗ owns (c : Thread nD τ) mD fullShare xD ∗ owns (c : Thread nD τ) mE fullShare xE ∗ (∃ d, owns (c : Thread nD τ) mF fullShare d)
        ∗ (iprop(owns (c : Thread nD τ) mA fullShare xA ∗ owns (c : Thread nD τ) mB fullShare xB ∗ owns (c : Thread nD τ) mC fullShare xC
            ∗ owns (c : Thread nD τ) mD fullShare xD ∗ owns (c : Thread nD τ) mE fullShare xE
            ∗ owns (c : Thread nD τ) mF fullShare (k1_pay1 xA xB xC xD xE)) -∗ K ⟨⟩))
      ⊢ wp frame (wpE (defs₀ (F := F)) Variants.none c none) E (cc1__bn_kernel i mA hmA mB hmB mC hmC mD hmD mE hmE mF hmF) K := by
  simp only [cc1__bn_kernel_eq_skeleton]; unfold cc1__bn_kernel_skel
  unfold owns
  iintro ⟨⟨%fA, %hfA, HA⟩, ⟨%fB, %hfB, HB⟩, ⟨%fC, %hfC, HC⟩, ⟨%fD, %hfD, HD⟩, ⟨%fE, %hfE, HE⟩, ⟨%dF, %fF, -, HF⟩, Hk⟩
  subst hfA hfB hfC hfD hfE
  sl_exec
  sl_step
  iapply Hk
  isplitl [HA]
  · iexists fA; isplitr; · ipureintro; rfl
    iexact HA
  isplitl [HB]
  · iexists fB; isplitr; · ipureintro; rfl
    iexact HB
  isplitl [HC]
  · iexists fC; isplitr; · ipureintro; rfl
    iexact HC
  isplitl [HD]
  · iexists fD; isplitr; · ipureintro; rfl
    iexact HD
  isplitl [HE]
  · iexists fE; isplitr; · ipureintro; rfl
    iexact HE
  iexists _; isplitr
  swap; · iexact HF
  ipureintro
  exact (View.read_writes_eq_canon _ _ _ (cover1 _)).trans (canon_store1 _ _ _ _ _)

/-! ## The pipeline's proof data -/

/-- The proof data of the pipeline on core `c`: the arrays as the region finds them (`V`); after the body at point
    `t` each input's buffer at its block and the output's at the payload of the input blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => k1_pay1 (iblk1 V c 0 t) (iblk1 V c 1 t) (iblk1 V c 2 t) (iblk1 V c 3 t) (iblk1 V c 4 t)
  Φ _ := Pipeline.ΦA spec1 c
  q _ := fullShare
  owed _ := 0

/-- The proof data's arrays are the region-entry contents (the definition projected, `V` never unfolded). -/
theorem A_eq1 (c : Dev nD) (w : Fin cfg1.W) : (dat1 V c).A w = V c (Pipeline.arrRef spec1 w) := by
  dsimp only [dat1]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t
    = k1_pay1 (iblk1 V c 0 t) (iblk1 V c 1 t) (iblk1 V c 2 t) (iblk1 V c 3 t) (iblk1 V c 4 t) := by dsimp only [dat1]

/-- Each input's current staging buffer holds its block at every point, fetched there or not: an input the body leaves
    in place holds what a fetch would put there, since where it is not fetched its block index did not move. The
    windows are uncut and never idle. -/
theorem before1_0 (c : Dev nD) (t : Fin cfg1.N) (d) : (dat1 V c).before 0 t d = iblk1 V c 0 t :=
  ((dat1 V c).before_in_eq_fetched 0 rfl (fun _ => rfl) (fun _ _ _ => rfl)
    (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl)
    (fun t => by rw [after1_1]; unfold Dat.blockOf iblk1; rw [A_eq1]; try rfl) t d).trans
    (by unfold Dat.fetched Dat.blockOf iblk1; rw [A_eq1]; try rfl)
theorem before1_2 (c : Dev nD) (t : Fin cfg1.N) (d) : (dat1 V c).before 2 t d = iblk1 V c 2 t :=
  ((dat1 V c).before_in_eq_fetched 2 rfl (fun _ => rfl) (fun _ _ _ => rfl)
    (fun t => by rw [after1_2]; unfold Dat.blockOf iblk1; rw [A_eq1]; try rfl) t d).trans
    (by unfold Dat.fetched Dat.blockOf iblk1; rw [A_eq1]; try rfl)
theorem before1_3 (c : Dev nD) (t : Fin cfg1.N) (d) : (dat1 V c).before 3 t d = iblk1 V c 3 t :=
  ((dat1 V c).before_in_eq_fetched 3 rfl (fun _ => rfl) (fun _ _ _ => rfl)
    (fun t => by rw [after1_3]; unfold Dat.blockOf iblk1; rw [A_eq1]; try rfl) t d).trans
    (by unfold Dat.fetched Dat.blockOf iblk1; rw [A_eq1]; try rfl)
theorem before1_4 (c : Dev nD) (t : Fin cfg1.N) (d) : (dat1 V c).before 4 t d = iblk1 V c 4 t :=
  ((dat1 V c).before_in_eq_fetched 4 rfl (fun _ => rfl) (fun _ _ _ => rfl)
    (fun t => by rw [after1_4]; unfold Dat.blockOf iblk1; rw [A_eq1]; try rfl) t d).trans
    (by unfold Dat.fetched Dat.blockOf iblk1; rw [A_eq1]; try rfl)

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the body's triple applies; the invariant and the
    core's obligations pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%dA, HA⟩, ⟨%dB, HB⟩, ⟨%dC, HC⟩, ⟨%dD, HD⟩, ⟨%dE, HE⟩, ⟨%dF, HF⟩⟩
  iapply (sound_kernel1 c Set.univ (grid1.coords t) _ _ _ _ _ _ _ _ _ _ _ _
    (iblk1 V c 0 t) (iblk1 V c 1 t) (iblk1 V c 2 t) (iblk1 V c 3 t) (iblk1 V c 4 t) _)
  isplitl [HA]; · iexact HA
  isplitl [HB]; · iexact HB
  isplitl [HC]; · iexact HC
  isplitl [HD]; · iexact HD
  isplitl [HE]; · iexact HE
  isplitl [HF]; · iexists _; iexact HF
  iintro ⟨HA, HB, HC, HD, HE, HF⟩
  isplitl [HΦ]; · iexact HΦ
  isplitl [Ho]; · iexact Ho
  isplitl [HA]; · iexact HA
  isplitl [HB]; · iexact HB
  isplitl [HC]; · iexact HC
  isplitl [HD]; · iexact HD
  isplitl [HE]; · iexact HE
  iexact HF

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Bn3.lean ====
import proofs.«125359_j15118284882190_1_alg».proof.Proof.Gen.KernelIdeal.Points
import proofs.«125359_j15118284882190_1_alg».proof.Proof.Gen.KernelIdeal.Skeleton
import proofs.«125359_j15118284882190_1_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered: a parameter of everything below
variable (V : (c : Dev nD) → (b : Ref sig .tc) → Buf (Elt F) ((c : Thread nD τ).loc b))

/-! ## The windows' blocks -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-! ## The body's accesses -/

/-- The whole [5000,128] block: the rectangle of the body's load of window 0 and of its one store. -/
abbrev rBlk3 : Rect S5000x128 := Rect.unit (s := S5000x128) ![0, 0] S5000x128.size inb_S5000x128_S5000x128_0_0
/-- The whole [1,128] row: the rectangle of the body's loads of windows 1 to 4. -/
abbrev rRow3 : Rect S1x128 := Rect.unit (s := S1x128) ![0, 0] S1x128.size inb_S1x128_S1x128_0_0

/-- Both rectangles sit at offset zero. -/
theorem zeros3 : (![0, 0] : Fin 2 → Nat) = fun _ => 0 := funext fun a => by fin_cases a <;> rfl

/-- The one store's payload over what the loads read: a load through a whole-shape rectangle at offset zero reads the
    buffer, and a store through it leaves its payload, so the block the body leaves is the payload of the blocks. -/
theorem canon_store3 (x0 : Vec F S5000x128 .f32) (x1 x2 x3 x4 : Vec F S1x128 .f32) :
    View.canon [(⟨rBlk3, k3_pay1 (View.ld x0 rBlk3) (View.ld x1 rRow3) (View.ld x2 rRow3) (View.ld x3 rRow3) (View.ld x4 rRow3)⟩ : View.Piece (Elt F) S5000x128 .f32)]
      = k3_pay1 x0 x1 x2 x3 x4 := by
  rw [View.canon_unit_zero (S := S5000x128) zeros3 inb_S5000x128_S5000x128_0_0,
    View.ld_unit_zero (S := S5000x128) zeros3 inb_S5000x128_S5000x128_0_0 x0,
    View.ld_unit_zero (S := S1x128) zeros3 inb_S1x128_S1x128_0_0 x1,
    View.ld_unit_zero (S := S1x128) zeros3 inb_S1x128_S1x128_0_0 x2,
    View.ld_unit_zero (S := S1x128) zeros3 inb_S1x128_S1x128_0_0 x3,
    View.ld_unit_zero (S := S1x128) zeros3 inb_S1x128_S1x128_0_0 x4]

/-- The one store covers the block. -/
theorem cover3 (p0 : Vec F S5000x128 .f32) (y : S5000x128.Idx) :
    ∃ pc ∈ ([⟨rBlk3, p0⟩] : List (View.Piece (Elt F) S5000x128 .f32)), y ∈ pc.1.set :=
  ⟨_, List.mem_singleton_self _, View.mem_set_unit_zero (S := S5000x128) zeros3 inb_S5000x128_S5000x128_0_0 y⟩

/-! ## The body's triple -/

set_option maxHeartbeats 1000000 in
/-- The kernel body on whole staging memrefs, the inputs' at read contents `xW` and the output's at anything, runs to
    the continuation holding the inputs' as they were and the output's at the payload of the inputs' contents: the
    printed function is its skeleton, whose loads and one store are run in turn; the store covers the block. -/
theorem sound_kernel3 (c : Dev nD) (E : Set ℕ) (i : grid3.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k3_pay1 x0 x1 x2 x3 x4)) -∗ K ⟨⟩))
      ⊢ wp frame (wpE (defs₀ (F := F)) Variants.none c none) E (cc3__bn_kernel i arg1 harg1 arg2 harg2 arg3 harg3 arg4 harg4 arg5 harg5 arg6 harg6) K := by
  simp only [cc3__bn_kernel_eq_skeleton]; unfold cc3__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover3 _)).trans (canon_store3 _ _ _ _ _)

/-! ## The pipeline's proof data -/

/-- The proof data of the pipeline on core `c`: the arrays as the region finds them (`V`); after the body at point
    `t` each input's buffer at its block and the output's at the payload of the input blocks; the invariant the
    scoped rest and the generator register, untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => k3_pay1 (iblk3 V c 0 t) (iblk3 V c 1 t) (iblk3 V c 2 t) (iblk3 V c 3 t) (iblk3 V c 4 t)
  Φ _ := Pipeline.ΦA spec3 c
  q _ := fullShare
  owed _ := 0

/-- The proof data's arrays are the region-entry contents (the definition projected, `V` never unfolded). -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t
    = k3_pay1 (iblk3 V c 0 t) (iblk3 V c 1 t) (iblk3 V c 2 t) (iblk3 V c 3 t) (iblk3 V c 4 t) := by dsimp only [dat3]

/-- Each input's current staging buffer holds its block at every point, fetched there or not: an input the body leaves
    in place holds what a fetch would put there, since where it is not fetched its block index did not move. The
    windows are uncut and never idle. -/
theorem before3_0 (c : Dev nD) (t : Fin cfg3.N) (d) : (dat3 V c).before 0 t d = iblk3 V c 0 t :=
  ((dat3 V c).before_in_eq_fetched 0 rfl (fun _ => rfl) (fun _ _ _ => rfl)
    (fun t => by rw [after3_0]; unfold Dat.blockOf iblk3; rw [A_eq3]; try rfl) t d).trans
    (by unfold Dat.fetched Dat.blockOf iblk3; rw [A_eq3]; try rfl)
theorem before3_1 (c : Dev nD) (t : Fin cfg3.N) (d) : (dat3 V c).before 1 t d = iblk3 V c 1 t :=
  ((dat3 V c).before_in_eq_fetched 1 rfl (fun _ => rfl) (fun _ _ _ => rfl)
    (fun t => by rw [after3_1]; unfold Dat.blockOf iblk3; rw [A_eq3]; try rfl) t d).trans
    (by unfold Dat.fetched Dat.blockOf iblk3; rw [A_eq3]; try rfl)
theorem before3_2 (c : Dev nD) (t : Fin cfg3.N) (d) : (dat3 V c).before 2 t d = iblk3 V c 2 t :=
  ((dat3 V c).before_in_eq_fetched 2 rfl (fun _ => rfl) (fun _ _ _ => rfl)
    (fun t => by rw [after3_2]; unfold Dat.blockOf iblk3; rw [A_eq3]; try rfl) t d).trans
    (by unfold Dat.fetched Dat.blockOf iblk3; rw [A_eq3]; try rfl)
theorem before3_3 (c : Dev nD) (t : Fin cfg3.N) (d) : (dat3 V c).before 3 t d = iblk3 V c 3 t :=
  ((dat3 V c).before_in_eq_fetched 3 rfl (fun _ => rfl) (fun _ _ _ => rfl)
    (fun t => by rw [after3_3]; unfold Dat.blockOf iblk3; rw [A_eq3]; try rfl) t d).trans
    (by unfold Dat.fetched Dat.blockOf iblk3; rw [A_eq3]; try rfl)
theorem before3_4 (c : Dev nD) (t : Fin cfg3.N) (d) : (dat3 V c).before 4 t d = iblk3 V c 4 t :=
  ((dat3 V c).before_in_eq_fetched 4 rfl (fun _ => rfl) (fun _ _ _ => rfl)
    (fun t => by rw [after3_4]; unfold Dat.blockOf iblk3; rw [A_eq3]; try rfl) t d).trans
    (by unfold Dat.fetched Dat.blockOf iblk3; rw [A_eq3]; try rfl)

/-! ## The body obligation, at a generic point -/

/-- What the body is called with at point `t` (the library's body obligation's precondition, the windows one by one), -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the body's triple applies; the invariant and the
    core's obligations pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _
    (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Hand

end
-- ==== Proof.KI.Bn5.lean ====
import proofs.«125359_j15118284882190_1_alg».proof.Proof.Gen.KernelIdeal.Points
import proofs.«125359_j15118284882190_1_alg».proof.Proof.Gen.KernelIdeal.Skeleton
import proofs.«125359_j15118284882190_1_alg».proof.Proof.Gen.KernelIdeal.Launch
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- what core `c`'s TensorCore buffers hold when the region is entered: a parameter of everything below
variable (V : (c : Dev nD) → (b : Ref sig .tc) → Buf (Elt F) ((c : Thread nD τ).loc b))

/-! ## The windows' blocks -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-! ## The body's accesses -/

/-- The whole [5000,128] block: the rectangle of the body's load of window 0 and of its one store. -/
abbrev rBlk5 : Rect S5000x128 := Rect.unit (s := S5000x128) ![0, 0] S5000x128.size inb_S5000x128_S5000x128_0_0
/-- The whole [1,128] row: the rectangle of the body's loads of windows 1 to 4. -/
abbrev rRow5 : Rect S1x128 := Rect.unit (s := S1x128) ![0, 0] S1x128.size inb_S1x128_S1x128_0_0

/-- Both rectangles sit at offset zero. -/
theorem zeros5 : (![0, 0] : Fin 2 → Nat) = fun _ => 0 := funext fun a => by fin_cases a <;> rfl

/-- The one store's payload over what the loads read: a load through a whole-shape rectangle at offset zero reads the
    buffer, and a store through it leaves its payload, so the block the body leaves is the payload of the blocks. -/
theorem canon_store5 (x0 : Vec F S5000x128 .f32) (x1 x2 x3 x4 : Vec F S1x128 .f32) :
    View.canon [(⟨rBlk5, k5_pay1 (View.ld x0 rBlk5) (View.ld x1 rRow5) (View.ld x2 rRow5) (View.ld x3 rRow5) (View.ld x4 rRow5)⟩ : View.Piece (Elt F) S5000x128 .f32)]
      = k5_pay1 x0 x1 x2 x3 x4 := by
  rw [View.canon_unit_zero (S := S5000x128) zeros5 inb_S5000x128_S5000x128_0_0,
    View.ld_unit_zero (S := S5000x128) zeros5 inb_S5000x128_S5000x128_0_0 x0,
    View.ld_unit_zero (S := S1x128) zeros5 inb_S1x128_S1x128_0_0 x1,
    View.ld_unit_zero (S := S1x128) zeros5 inb_S1x128_S1x128_0_0 x2,
    View.ld_unit_zero (S := S1x128) zeros5 inb_S1x128_S1x128_0_0 x3,
    View.ld_unit_zero (S := S1x128) zeros5 inb_S1x128_S1x128_0_0 x4]

/-- The one store covers the block. -/
theorem cover5 (p0 : Vec F S5000x128 .f32) (y : S5000x128.Idx) :
    ∃ pc ∈ ([⟨rBlk5, p0⟩] : List (View.Piece (Elt F) S5000x128 .f32)), y ∈ pc.1.set :=
  ⟨_, List.mem_singleton_self _, View.mem_set_unit_zero (S := S5000x128) zeros5 inb_S5000x128_S5000x128_0_0 y⟩

/-! ## The body's triple -/

set_option maxHeartbeats 1000000 in
/-- The kernel body on whole staging memrefs, the inputs' at read contents `xW` and the output's at anything, runs to
    the continuation holding the inputs' as they were and the output's at the payload of the inputs' contents: the
    printed function is its skeleton, whose loads and one store are run in turn; the store covers the block. -/
theorem sound_kernel5 (c : Dev nD) (E : Set ℕ) (i : grid5.Coords)
    (arg1 : Memref sig .tc .vmem S5000x128 .f32) (harg1 : arg1.IsWhole) (arg2 : Memref sig .tc .vmem S1x128 .f32) (harg2 : arg2.IsWhole)
    (arg3 : Memref sig .tc .vmem S1x128 .f32) (harg3 : arg3.IsWhole) (arg4 : Memref sig .tc .vmem S1x128 .f32) (harg4 : arg4.IsWhole)
    (arg5 : Memref sig .tc .vmem S1x128 .f32) (harg5 : arg5.IsWhole) (arg6 : Memref sig .tc .vmem S5000x128 .f32) (harg6 : arg6.IsWhole)
    (x0 : Vec F S5000x128 .f32) (x1 x2 x3 x4 : Vec F S1x128 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare x4
            ∗ owns (c : Thread nD τ) arg6 fullShare (k5_pay1 x0 x1 x2 x3 x4)) -∗ K ⟨⟩))
      ⊢ wp frame (wpE (defs₀ (F := F)) Variants.none c none) E (cc5__bn_kernel i arg1 harg1 arg2 harg2 arg3 harg3 arg4 harg4 arg5 harg5 arg6 harg6) K := by
  simp only [cc5__bn_kernel_eq_skeleton]; unfold cc5__bn_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact (View.read_writes_eq_canon _ _ _ (cover5 _)).trans (canon_store5 _ _ _ _ _)

/-! ## The pipeline's proof data -/

/-- The proof data of the pipeline on core `c`: the arrays as the region finds them (`V`); after the body at point
    `t` each input's buffer at its block and the output's at the payload of the input blocks; the invariant the
    scoped rest and the generator register, untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => k5_pay1 (iblk5 V c 0 t) (iblk5 V c 1 t) (iblk5 V c 2 t) (iblk5 V c 3 t) (iblk5 V c 4 t)
  Φ _ := Pipeline.ΦA spec5 c
  q _ := fullShare
  owed _ := 0

/-- The proof data's arrays are the region-entry contents (the definition projected, `V` never unfolded). -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t
    = k5_pay1 (iblk5 V c 0 t) (iblk5 V c 1 t) (iblk5 V c 2 t) (iblk5 V c 3 t) (iblk5 V c 4 t) := by dsimp only [dat5]

/-- Each input's current staging buffer holds its block at every point, fetched there or not: an input the body leaves
    in place holds what a fetch would put there, since where it is not fetched its block index did not move. The
    windows are uncut and never idle. -/
theorem before5_0 (c : Dev nD) (t : Fin cfg5.N) (d) : (dat5 V c).before 0 t d = iblk5 V c 0 t :=
  ((dat5 V c).before_in_eq_fetched 0 rfl (fun _ => rfl) (fun _ _ _ => rfl)
    (fun t => by rw [after5_0]; unfold Dat.blockOf iblk5; rw [A_eq5]; try rfl) t d).trans
    (by unfold Dat.fetched Dat.blockOf iblk5; rw [A_eq5]; try rfl)
theorem before5_1 (c : Dev nD) (t : Fin cfg5.N) (d) : (dat5 V c).before 1 t d = iblk5 V c 1 t :=
  ((dat5 V c).before_in_eq_fetched 1 rfl (fun _ => rfl) (fun _ _ _ => rfl)
    (fun t => by rw [after5_1]; unfold Dat.blockOf iblk5; rw [A_eq5]; try rfl) t d).trans
    (by unfold Dat.fetched Dat.blockOf iblk5; rw [A_eq5]; try rfl)
theorem before5_2 (c : Dev nD) (t : Fin cfg5.N) (d) : (dat5 V c).before 2 t d = iblk5 V c 2 t :=
  ((dat5 V c).before_in_eq_fetched 2 rfl (fun _ => rfl) (fun _ _ _ => rfl)
    (fun t => by rw [after5_2]; unfold Dat.blockOf iblk5; rw [A_eq5]; try rfl) t d).trans
    (by unfold Dat.fetched Dat.blockOf iblk5; rw [A_eq5]; try rfl)
theorem before5_3 (c : Dev nD) (t : Fin cfg5.N) (d) : (dat5 V c).before 3 t d = iblk5 V c 3 t :=
  ((dat5 V c).before_in_eq_fetched 3 rfl (fun _ => rfl) (fun _ _ _ => rfl)
    (fun t => by rw [after5_3]; unfold Dat.blockOf iblk5; rw [A_eq5]; try rfl) t d).trans
    (by unfold Dat.fetched Dat.blockOf iblk5; rw [A_eq5]; try rfl)
theorem before5_4 (c : Dev nD) (t : Fin cfg5.N) (d) : (dat5 V c).before 4 t d = iblk5 V c 4 t :=
  ((dat5 V c).before_in_eq_fetched 4 rfl (fun _ => rfl) (fun _ _ _ => rfl)
    (fun t => by rw [after5_4]; unfold Dat.blockOf iblk5; rw [A_eq5]; try rfl) t d).trans
    (by unfold Dat.fetched Dat.blockOf iblk5; rw [A_eq5]; try rfl)

/-! ## The body obligation, at a generic point -/

/-- What the body is called with at point `t` (the library's body obligation's precondition, the windows one by one), -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the body's triple applies; the invariant and the
    core's obligations pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _
    (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Hand

end
-- ==== Proof.KI.Run.lean ====
/-
  The idealized kernel's @main as a run of thirteen segments: seven stretches of host operations and six kernel
  regions between them. Between two segments every unscoped buffer of a core is held whole at a known content
  (the valuations WJ below): the launch memory, then each host stretch applied to it, then, after a region, the
  region's window arrays at what its write-backs leave and every other buffer as the region found it. Each region
  is entered by splitting its window arrays out of the held buffers and left by putting them back at their final
  contents; the generator register and the core's empty debt ride along. The run ends with every unscoped buffer
  at the last valuation, from which the argument arrays (no segment writes one) and the two results are read.
-/
import proofs.«125359_j15118284882190_1_alg».proof.Proof.Gen.KernelIdeal.Regions
import proofs.«125359_j15118284882190_1_alg».proof.Proof.KI.Mlp0
import proofs.«125359_j15118284882190_1_alg».proof.Proof.KI.Mlp2
import proofs.«125359_j15118284882190_1_alg».proof.Proof.KI.Mlp4
import proofs.«125359_j15118284882190_1_alg».proof.Proof.KI.Bn1
import proofs.«125359_j15118284882190_1_alg».proof.Proof.KI.Bn3
import proofs.«125359_j15118284882190_1_alg».proof.Proof.KI.Bn5
import Idealize.ShloMosaic.Lib.Pipeline.Frame
import Idealize.ShloMosaic.Lib.Pipeline.FrameSuffix
import Idealize.ShloMosaic.Lib.Pipeline.Regions
import Idealize.ShloMosaic.Lib.Pipeline.RegionsLoop

set_option maxRecDepth 16384

noncomputable section

namespace Cert.KernelIdeal.Hand

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A valuation of a core's buffers read at its TensorCore references. -/
abbrev rd (Wv : Dev nD → Valuation τ sig (Elt F)) (c : Dev nD) (b : Ref sig .tc) : Buf (Elt F) ((c : Thread nD τ).loc b) :=
  Wv c (Proc.devRef .tc b)

/-! ## The buffers' contents between segments -/

/-- At launch. -/
abbrev W0 (c : Dev nD) : Valuation τ sig (Elt F) := fun b => m (c, b)
/-- After the first stretch of host operations. -/
abbrev W1 (c : Dev nD) : Valuation τ sig (Elt F) := StableHlo.after hostOps0 (W0 m c)
/-- After region 0: its window arrays at what the pipeline leaves, every other buffer as entered. -/
def W2 (c : Dev nD) : Valuation τ sig (Elt F) :=
  Pipeline.withArrays spec0 c (W1 m c) fun w => (dat0 (rd (W1 m)) c).arrAt w cfg0.N
theorem W2_arr (c : Dev nD) (w : Fin cfg0.W) :
    W2 m c (Proc.devRef .tc (Pipeline.arrRef spec0 w)) = (dat0 (rd (W1 m)) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m c (Proc.devRef .tc b) = W1 m c (Proc.devRef .tc b) := by
  unfold W2; exact Pipeline.withArrays_of_ne spec0 c _ _ b hb
theorem hF0 (c : Dev nD) (w : Fin cfg0.W) :
    (dat0 (rd (W1 m)) c).arrAt w cfg0.N = rd (W2 m) c (Pipeline.arrRef spec0 w) :=
  (W2_arr m c w).symm
theorem hrest0 (c : Dev nD) : ∀ b, b ∉ Finset.univ.image (Pipeline.arrRef spec0) → rd (W2 m) c b = rd (W1 m) c b :=
  fun b hb => W2_of_ne m c b fun w e => hb (Finset.mem_image.mpr ⟨w, Finset.mem_univ _, e⟩)
/-- After the next stretch of host operations. -/
abbrev W3 (c : Dev nD) : Valuation τ sig (Elt F) := StableHlo.after hostOps1 (W2 m c)
/-- After region 1: its window arrays at what the pipeline leaves, every other buffer as entered. -/
def W4 (c : Dev nD) : Valuation τ sig (Elt F) :=
  Pipeline.withArrays spec1 c (W3 m c) fun w => (dat1 (rd (W3 m)) c).arrAt w cfg1.N
theorem W4_arr (c : Dev nD) (w : Fin cfg1.W) :
    W4 m c (Proc.devRef .tc (Pipeline.arrRef spec1 w)) = (dat1 (rd (W3 m)) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m c (Proc.devRef .tc b) = W3 m c (Proc.devRef .tc b) := by
  unfold W4; exact Pipeline.withArrays_of_ne spec1 c _ _ b hb
theorem hF1 (c : Dev nD) (w : Fin cfg1.W) :
    (dat1 (rd (W3 m)) c).arrAt w cfg1.N = rd (W4 m) c (Pipeline.arrRef spec1 w) :=
  (W4_arr m c w).symm
theorem hrest1 (c : Dev nD) : ∀ b, b ∉ Finset.univ.image (Pipeline.arrRef spec1) → rd (W4 m) c b = rd (W3 m) c b :=
  fun b hb => W4_of_ne m c b fun w e => hb (Finset.mem_image.mpr ⟨w, Finset.mem_univ _, e⟩)
/-- After the next stretch of host operations. -/
abbrev W5 (c : Dev nD) : Valuation τ sig (Elt F) := StableHlo.after hostOps2 (W4 m c)
/-- After region 2: its window arrays at what the pipeline leaves, every other buffer as entered. -/
def W6 (c : Dev nD) : Valuation τ sig (Elt F) :=
  Pipeline.withArrays spec2 c (W5 m c) fun w => (dat2 (rd (W5 m)) c).arrAt w cfg2.N
theorem W6_arr (c : Dev nD) (w : Fin cfg2.W) :
    W6 m c (Proc.devRef .tc (Pipeline.arrRef spec2 w)) = (dat2 (rd (W5 m)) c).arrAt w cfg2.N := by
  unfold W6; exact Pipeline.withArrays_arr spec2 launch2.win.arr_inj c _ _ w
theorem W6_of_ne (c : Dev nD) (b : Ref sig .tc) (hb : ∀ w, Pipeline.arrRef spec2 w ≠ b) :
    W6 m c (Proc.devRef .tc b) = W5 m c (Proc.devRef .tc b) := by
  unfold W6; exact Pipeline.withArrays_of_ne spec2 c _ _ b hb
theorem hF2 (c : Dev nD) (w : Fin cfg2.W) :
    (dat2 (rd (W5 m)) c).arrAt w cfg2.N = rd (W6 m) c (Pipeline.arrRef spec2 w) :=
  (W6_arr m c w).symm
theorem hrest2 (c : Dev nD) : ∀ b, b ∉ Finset.univ.image (Pipeline.arrRef spec2) → rd (W6 m) c b = rd (W5 m) c b :=
  fun b hb => W6_of_ne m c b fun w e => hb (Finset.mem_image.mpr ⟨w, Finset.mem_univ _, e⟩)
/-- After the next stretch of host operations. -/
abbrev W7 (c : Dev nD) : Valuation τ sig (Elt F) := StableHlo.after hostOps3 (W6 m c)
/-- After region 3: its window arrays at what the pipeline leaves, every other buffer as entered. -/
def W8 (c : Dev nD) : Valuation τ sig (Elt F) :=
  Pipeline.withArrays spec3 c (W7 m c) fun w => (dat3 (rd (W7 m)) c).arrAt w cfg3.N
theorem W8_arr (c : Dev nD) (w : Fin cfg3.W) :
    W8 m c (Proc.devRef .tc (Pipeline.arrRef spec3 w)) = (dat3 (rd (W7 m)) c).arrAt w cfg3.N := by
  unfold W8; exact Pipeline.withArrays_arr spec3 launch3.win.arr_inj c _ _ w
theorem W8_of_ne (c : Dev nD) (b : Ref sig .tc) (hb : ∀ w, Pipeline.arrRef spec3 w ≠ b) :
    W8 m c (Proc.devRef .tc b) = W7 m c (Proc.devRef .tc b) := by
  unfold W8; exact Pipeline.withArrays_of_ne spec3 c _ _ b hb
theorem hF3 (c : Dev nD) (w : Fin cfg3.W) :
    (dat3 (rd (W7 m)) c).arrAt w cfg3.N = rd (W8 m) c (Pipeline.arrRef spec3 w) :=
  (W8_arr m c w).symm
theorem hrest3 (c : Dev nD) : ∀ b, b ∉ Finset.univ.image (Pipeline.arrRef spec3) → rd (W8 m) c b = rd (W7 m) c b :=
  fun b hb => W8_of_ne m c b fun w e => hb (Finset.mem_image.mpr ⟨w, Finset.mem_univ _, e⟩)
/-- After the next stretch of host operations. -/
abbrev W9 (c : Dev nD) : Valuation τ sig (Elt F) := StableHlo.after hostOps4 (W8 m c)
/-- After region 4: its window arrays at what the pipeline leaves, every other buffer as entered. -/
def W10 (c : Dev nD) : Valuation τ sig (Elt F) :=
  Pipeline.withArrays spec4 c (W9 m c) fun w => (dat4 (rd (W9 m)) c).arrAt w cfg4.N
theorem W10_arr (c : Dev nD) (w : Fin cfg4.W) :
    W10 m c (Proc.devRef .tc (Pipeline.arrRef spec4 w)) = (dat4 (rd (W9 m)) c).arrAt w cfg4.N := by
  unfold W10; exact Pipeline.withArrays_arr spec4 launch4.win.arr_inj c _ _ w
theorem W10_of_ne (c : Dev nD) (b : Ref sig .tc) (hb : ∀ w, Pipeline.arrRef spec4 w ≠ b) :
    W10 m c (Proc.devRef .tc b) = W9 m c (Proc.devRef .tc b) := by
  unfold W10; exact Pipeline.withArrays_of_ne spec4 c _ _ b hb
theorem hF4 (c : Dev nD) (w : Fin cfg4.W) :
    (dat4 (rd (W9 m)) c).arrAt w cfg4.N = rd (W10 m) c (Pipeline.arrRef spec4 w) :=
  (W10_arr m c w).symm
theorem hrest4 (c : Dev nD) : ∀ b, b ∉ Finset.univ.image (Pipeline.arrRef spec4) → rd (W10 m) c b = rd (W9 m) c b :=
  fun b hb => W10_of_ne m c b fun w e => hb (Finset.mem_image.mpr ⟨w, Finset.mem_univ _, e⟩)
/-- After the next stretch of host operations. -/
abbrev W11 (c : Dev nD) : Valuation τ sig (Elt F) := StableHlo.after hostOps5 (W10 m c)
/-- After region 5: its window arrays at what the pipeline leaves, every other buffer as entered. -/
def W12 (c : Dev nD) : Valuation τ sig (Elt F) :=
  Pipeline.withArrays spec5 c (W11 m c) fun w => (dat5 (rd (W11 m)) c).arrAt w cfg5.N
theorem W12_arr (c : Dev nD) (w : Fin cfg5.W) :
    W12 m c (Proc.devRef .tc (Pipeline.arrRef spec5 w)) = (dat5 (rd (W11 m)) c).arrAt w cfg5.N := by
  unfold W12; exact Pipeline.withArrays_arr spec5 launch5.win.arr_inj c _ _ w
theorem W12_of_ne (c : Dev nD) (b : Ref sig .tc) (hb : ∀ w, Pipeline.arrRef spec5 w ≠ b) :
    W12 m c (Proc.devRef .tc b) = W11 m c (Proc.devRef .tc b) := by
  unfold W12; exact Pipeline.withArrays_of_ne spec5 c _ _ b hb
theorem hF5 (c : Dev nD) (w : Fin cfg5.W) :
    (dat5 (rd (W11 m)) c).arrAt w cfg5.N = rd (W12 m) c (Pipeline.arrRef spec5 w) :=
  (W12_arr m c w).symm
theorem hrest5 (c : Dev nD) : ∀ b, b ∉ Finset.univ.image (Pipeline.arrRef spec5) → rd (W12 m) c b = rd (W11 m) c b :=
  fun b hb => W12_of_ne m c b fun w e => hb (Finset.mem_image.mpr ⟨w, Finset.mem_univ _, e⟩)
/-- After the next stretch of host operations. -/
abbrev W13 (c : Dev nD) : Valuation τ sig (Elt F) := StableHlo.after hostOps6 (W12 m c)

/-! ## The proof data family and the thread state -/

/-- Every pipeline's proof data, each at its region's entry contents. -/
def pdats : (p : Fin 6) → (c : Dev nD) → Dat τ (Elt F) Unit ℕ (UR sig nD τ) ℕ (cfgs p) c
  | ⟨0, _⟩ => fun c => dat0 (rd (W1 m)) c
  | ⟨1, _⟩ => fun c => dat1 (rd (W3 m)) c
  | ⟨2, _⟩ => fun c => dat2 (rd (W5 m)) c
  | ⟨3, _⟩ => fun c => dat3 (rd (W7 m)) c
  | ⟨4, _⟩ => fun c => dat4 (rd (W9 m)) c
  | ⟨5, _⟩ => fun c => dat5 (rd (W11 m)) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the generator register at some state and the core's debt, at nothing. -/
abbrev R (c : Dev nD) : sProp 𝕄 := iprop((∃ r, prngReg c r) ∗ ∃ W, owes (c : Thread nD τ) (0 : CellTallies nD τ sig Unit) W)
/-- A stretch of host operations as a segment over the unscoped references, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-! ## The regions as segments -/

set_option backward.isDefEq.respectTransparency.types false in
/-- Region 0: entered from every unscoped buffer at `W1`, left at `W2`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (rd (W1 m)) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (rd (W1 m) c)
  hentry c := by
    rw [Pipeline.ownSems0_none]
    have hsplit := Pipeline.arrays_of_unscopedBufs (p := 0) (pcfgs (F := F)) adm (pdats m) launch0.win launch0.arr_whole c
      ((pdats m 0 c).share_full fun _ => rfl) (rd (W1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (rd (W1 m) c) (rd (W2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1: entered from every unscoped buffer at `W3`, left at `W4`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (rd (W3 m)) c).loose
  hwaits := Pipeline.hwaits_of_owed_zero _ _ _ _ L lv 1 fun _ _ => rfl
  pre c := iprop(StableHlo.held (c : Thread nD τ) (Pipeline.ucRefs τ sig) (W3 m c) ∗ R c)
  post c := iprop(StableHlo.held (c : Thread nD τ) (Pipeline.ucRefs τ sig) (W4 m c) ∗ R c)
  X c := iprop(∃ r, prngReg c r)
  Y c := iprop(∃ r, prngReg c r)
  Z c := Pipeline.unscopedRest (Ix := Unit) (Name := ℕ) (U := UR sig nD τ) (Lvl := ℕ) spec1 c (rd (W3 m) c)
  hentry c := by
    rw [Pipeline.ownSems0_none]
    have hsplit := Pipeline.arrays_of_unscopedBufs (p := 1) (pcfgs (F := F)) adm (pdats m) launch1.win launch1.arr_whole c
      ((pdats m 1 c).share_full fun _ => rfl) (rd (W3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (rd (W3 m) c) (rd (W4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2: entered from every unscoped buffer at `W5`, left at `W6`. -/
def reg2 : RegionSeg (pcfgs (F := F)) adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (rd (W5 m)) c).loose
  hwaits := Pipeline.hwaits_of_owed_zero _ _ _ _ L lv 2 fun _ _ => rfl
  pre c := iprop(StableHlo.held (c : Thread nD τ) (Pipeline.ucRefs τ sig) (W5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec2 c (rd (W5 m) c)
  hentry c := by
    rw [Pipeline.ownSems0_none]
    have hsplit := Pipeline.arrays_of_unscopedBufs (p := 2) (pcfgs (F := F)) adm (pdats m) launch2.win launch2.arr_whole c
      ((pdats m 2 c).share_full fun _ => rfl) (rd (W5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m) ((pdats m 2 c).share_full fun _ => rfl)
      (rd (W5 m) c) (rd (W6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3: entered from every unscoped buffer at `W7`, left at `W8`. -/
def reg3 : RegionSeg (pcfgs (F := F)) adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (rd (W7 m)) c).loose
  hwaits := Pipeline.hwaits_of_owed_zero _ _ _ _ L lv 3 fun _ _ => rfl
  pre c := iprop(StableHlo.held (c : Thread nD τ) (Pipeline.ucRefs τ sig) (W7 m c) ∗ R c)
  post c := iprop(StableHlo.held (c : Thread nD τ) (Pipeline.ucRefs τ sig) (W8 m c) ∗ R c)
  X c := iprop(∃ r, prngReg c r)
  Y c := iprop(∃ r, prngReg c r)
  Z c := Pipeline.unscopedRest (Ix := Unit) (Name := ℕ) (U := UR sig nD τ) (Lvl := ℕ) spec3 c (rd (W7 m) c)
  hentry c := by
    rw [Pipeline.ownSems0_none]
    have hsplit := Pipeline.arrays_of_unscopedBufs (p := 3) (pcfgs (F := F)) adm (pdats m) launch3.win launch3.arr_whole c
      ((pdats m 3 c).share_full fun _ => rfl) (rd (W7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) adm (Ix := Unit) (Name := ℕ) (U := UR sig nD τ) (Lvl := ℕ)
      launch3.win launch3.arr_whole c (pdats m) ((pdats m 3 c).share_full fun _ => rfl)
      (rd (W7 m) c) (rd (W8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4: entered from every unscoped buffer at `W9`, left at `W10`. -/
def reg4 : RegionSeg (pcfgs (F := F)) adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (rd (W9 m)) c).loose
  hwaits := Pipeline.hwaits_of_owed_zero _ _ _ _ L lv 4 fun _ _ => rfl
  pre c := iprop(StableHlo.held (c : Thread nD τ) (Pipeline.ucRefs τ sig) (W9 m c) ∗ R c)
  post c := iprop(StableHlo.held (c : Thread nD τ) (Pipeline.ucRefs τ sig) (W10 m c) ∗ R c)
  X c := iprop(∃ r, prngReg c r)
  Y c := iprop(∃ r, prngReg c r)
  Z c := Pipeline.unscopedRest (Ix := Unit) (Name := ℕ) (U := UR sig nD τ) (Lvl := ℕ) spec4 c (rd (W9 m) c)
  hentry c := by
    rw [Pipeline.ownSems0_none]
    have hsplit := Pipeline.arrays_of_unscopedBufs (p := 4) (pcfgs (F := F)) adm (pdats m) launch4.win launch4.arr_whole c
      ((pdats m 4 c).share_full fun _ => rfl) (rd (W9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) adm (Ix := Unit) (Name := ℕ) (U := UR sig nD τ) (Lvl := ℕ)
      launch4.win launch4.arr_whole c (pdats m) ((pdats m 4 c).share_full fun _ => rfl)
      (rd (W9 m) c) (rd (W10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5: entered from every unscoped buffer at `W11`, left at `W12`. -/
def reg5 : RegionSeg (pcfgs (F := F)) adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (rd (W11 m)) c).loose
  hwaits := Pipeline.hwaits_of_owed_zero _ _ _ _ L lv 5 fun _ _ => rfl
  pre c := iprop(StableHlo.held (c : Thread nD τ) (Pipeline.ucRefs τ sig) (W11 m c) ∗ R c)
  post c := iprop(StableHlo.held (c : Thread nD τ) (Pipeline.ucRefs τ sig) (W12 m c) ∗ R c)
  X c := iprop(∃ r, prngReg c r)
  Y c := iprop(∃ r, prngReg c r)
  Z c := Pipeline.unscopedRest (Ix := Unit) (Name := ℕ) (U := UR sig nD τ) (Lvl := ℕ) spec5 c (rd (W11 m) c)
  hentry c := by
    rw [Pipeline.ownSems0_none]
    have hsplit := Pipeline.arrays_of_unscopedBufs (p := 5) (pcfgs (F := F)) adm (pdats m) launch5.win launch5.arr_whole c
      ((pdats m 5 c).share_full fun _ => rfl) (rd (W11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) adm (Ix := Unit) (Name := ℕ) (U := UR sig nD τ) (Lvl := ℕ)
      launch5.win launch5.arr_whole c (pdats m) ((pdats m 5 c).share_full fun _ => rfl)
      (rd (W11 m) c) (rd (W12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's thirteen segments in order. -/
abbrev segs : List (Seg (pcfgs (F := F)) adm (pdats m) () defs₀ 𝒱₀ L lv) :=
  [ .host (hseg hostOps0 hostOps0_sub hostOps0_fresh (W0 m)),
    .region (reg0 m),
    .host (hseg hostOps1 hostOps1_sub hostOps1_fresh (W2 m)),
    .region (reg1 m),
    .host (hseg hostOps2 hostOps2_sub hostOps2_fresh (W4 m)),
    .region (reg2 m),
    .host (hseg hostOps3 hostOps3_sub hostOps3_fresh (W6 m)),
    .region (reg3 m),
    .host (hseg hostOps4 hostOps4_sub hostOps4_fresh (W8 m)),
    .region (reg4 m),
    .host (hseg hostOps5 hostOps5_sub hostOps5_fresh (W10 m)),
    .region (reg5 m),
    .host (hseg hostOps6 hostOps6_sub hostOps6_fresh (W12 m)) ]

-- the launch theorem's implicit arguments are found by unifying its conclusion with this one, which takes unfolding
-- plain definitions in a metavariable's type
set_option backward.isDefEq.respectTransparency.types false in
/-- From any memory with zero counters every weakly fair execution of @main on the TensorCores terminates, nothing
    faulting, and in every final state each unscoped buffer of each core holds what the last valuation says. -/
theorem run_all : θ_run defs (onTc (τ := τ) (main (F := F))) ⟨m, fun _ => 0, ρ⟩ (fun r => ∀ c : Dev nD,
    ∀ b ∈ Pipeline.ucRefs τ sig, r.2.mem (((c : Thread nD τ)).1, b) = W13 m c b) := by
  refine Pipeline.θ_run_regions_kit_dev (pcfgs (F := F)) adm (pdats m) () cellOf_inj emb₁ defs₀ 𝒱₀ L lv m ρ main
    (fun _ => segs m)
    (fun c Q => by
      rewrite [main_chain c, Seg.run_eq_chain,
        show (segs m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c))
    (Tₙ := fun c => iprop(StableHlo.held (c : Thread nD τ) (Pipeline.ucRefs τ sig) (W13 m c) ∗ ∃ r, prngReg c r))
    (hch := fun c => ⟨.rfl, .rfl, .rfl, .rfl, .rfl, .rfl, .rfl, .rfl, .rfl, .rfl, .rfl, .rfl, .rfl, by
      dsimp only [Seg.ChainsAt, Seg.post, hseg, HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W13 m c b)
    (hfin := fun c s' => by
      iintro ⟨⟨Hh, -⟩, HSI⟩
      unfold StableHlo.held
      imodintro
      iapply (pointsTo_read_all (Pipeline.ucRefs τ sig) (fun b => (((c : Thread nD τ)).1, b)) (W13 m c) s')
      isplitl [Hh] <;> iassumption)
    (hQ := fun _ h => h)

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! ## A buffer no segment writes ends as launched -/

/-- A reference that no stretch of host operations writes and that is no region's window array holds at the end what it held at launch. -/
theorem W13_of (c : Dev nD) (r : Ref sig .tc)
    (h0 : r ∉ hostOps0_W) (h1 : r ∉ hostOps1_W) (h2 : r ∉ hostOps2_W) (h3 : r ∉ hostOps3_W) (h4 : r ∉ hostOps4_W) (h5 : r ∉ hostOps5_W) (h6 : r ∉ hostOps6_W)
    (a0 : ∀ w, Pipeline.arrRef spec0 w ≠ r) (a1 : ∀ w, Pipeline.arrRef spec1 w ≠ r) (a2 : ∀ w, Pipeline.arrRef spec2 w ≠ r)
    (a3 : ∀ w, Pipeline.arrRef spec3 w ≠ r) (a4 : ∀ w, Pipeline.arrRef spec4 w ≠ r) (a5 : ∀ w, Pipeline.arrRef spec5 w ≠ r) :
    W13 m c (Proc.devRef .tc r) = m ((c : Thread nD τ).loc r) :=
  calc W13 m c (Proc.devRef .tc r)
      = W12 m c (Proc.devRef .tc r) := StableHlo.after_of_writes_sub hostOps6 _ hostOps6_writes h6
    _ = W11 m c (Proc.devRef .tc r) := W12_of_ne m c r a5
    _ = W10 m c (Proc.devRef .tc r) := StableHlo.after_of_writes_sub hostOps5 _ hostOps5_writes h5
    _ = W9 m c (Proc.devRef .tc r) := W10_of_ne m c r a4
    _ = W8 m c (Proc.devRef .tc r) := StableHlo.after_of_writes_sub hostOps4 _ hostOps4_writes h4
    _ = W7 m c (Proc.devRef .tc r) := W8_of_ne m c r a3
    _ = W6 m c (Proc.devRef .tc r) := StableHlo.after_of_writes_sub hostOps3 _ hostOps3_writes h3
    _ = W5 m c (Proc.devRef .tc r) := W6_of_ne m c r a2
    _ = W4 m c (Proc.devRef .tc r) := StableHlo.after_of_writes_sub hostOps2 _ hostOps2_writes h2
    _ = W3 m c (Proc.devRef .tc r) := W4_of_ne m c r a1
    _ = W2 m c (Proc.devRef .tc r) := StableHlo.after_of_writes_sub hostOps1 _ hostOps1_writes h1
    _ = W1 m c (Proc.devRef .tc r) := W2_of_ne m c r a0
    _ = W0 m c (Proc.devRef .tc r) := StableHlo.after_of_writes_sub hostOps0 _ hostOps0_writes h0
    _ = m ((c : Thread nD τ).loc r) := rfl
theorem W13_main_arg0 (c : Dev nD) : W13 m c (Proc.devRef .tc main_arg0) = m ((c : Thread nD τ).loc main_arg0) :=
  W13_of m c main_arg0 (by decide) (by decide) (by decide) (by decide) (by decide) (by decide) (by decide) (by decide) (by decide) (by decide) (by decide) (by decide) (by decide)
theorem W13_main_arg1 (c : Dev nD) : W13 m c (Proc.devRef .tc main_arg1) = m ((c : Thread nD τ).loc main_arg1) :=
  W13_of m c main_arg1 (by decide) (by decide) (by decide) (by decide) (by decide) (by decide) (by decide) (by decide) (by decide) (by decide) (by decide) (by decide) (by decide)
theorem W13_main_arg2 (c : Dev nD) : W13 m c (Proc.devRef .tc main_arg2) = m ((c : Thread nD τ).loc main_arg2) :=
  W13_of m c main_arg2 (by decide) (by decide) (by decide) (by decide) (by decide) (by decide) (by decide) (by decide) (by decide) (by decide) (by decide) (by decide) (by decide)
theorem W13_main_arg3 (c : Dev nD) : W13 m c (Proc.devRef .tc main_arg3) = m ((c : Thread nD τ).loc main_arg3) :=
  W13_of m c main_arg3 (by decide) (by decide) (by decide) (by decide) (by decide) (by decide) (by decide) (by decide) (by decide) (by decide) (by decide) (by decide) (by decide)
theorem W13_main_arg4 (c : Dev nD) : W13 m c (Proc.devRef .tc main_arg4) = m ((c : Thread nD τ).loc main_arg4) :=
  W13_of m c main_arg4 (by decide) (by decide) (by decide) (by decide) (by decide) (by decide) (by decide) (by decide) (by decide) (by decide) (by decide) (by decide) (by decide)
theorem W13_main_arg5 (c : Dev nD) : W13 m c (Proc.devRef .tc main_arg5) = m ((c : Thread nD τ).loc main_arg5) :=
  W13_of m c main_arg5 (by decide) (by decide) (by decide) (by decide) (by decide) (by decide) (by decide) (by decide) (by decide) (by decide) (by decide) (by decide) (by decide)
theorem W13_main_arg6 (c : Dev nD) : W13 m c (Proc.devRef .tc main_arg6) = m ((c : Thread nD τ).loc main_arg6) :=
  W13_of m c main_arg6 (by decide) (by decide) (by decide) (by decide) (by decide) (by decide) (by decide) (by decide) (by decide) (by decide) (by decide) (by decide) (by decide)
theorem W13_main_arg7 (c : Dev nD) : W13 m c (Proc.devRef .tc main_arg7) = m ((c : Thread nD τ).loc main_arg7) :=
  W13_of m c main_arg7 (by decide) (by decide) (by decide) (by decide) (by decide) (by decide) (by decide) (by decide) (by decide) (by decide) (by decide) (by decide) (by decide)
theorem W13_main_arg8 (c : Dev nD) : W13 m c (Proc.devRef .tc main_arg8) = m ((c : Thread nD τ).loc main_arg8) :=
  W13_of m c main_arg8 (by decide) (by decide) (by decide) (by decide) (by decide) (by decide) (by decide) (by decide) (by decide) (by decide) (by decide) (by decide) (by decide)

/-- THE FRAME: every argument array ends as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c =>
    ⟨(h c _ (mem_uc main_arg0 (by decide))).trans (W13_main_arg0 m c),
     (h c _ (mem_uc main_arg1 (by decide))).trans (W13_main_arg1 m c),
     (h c _ (mem_uc main_arg2 (by decide))).trans (W13_main_arg2 m c),
     (h c _ (mem_uc main_arg3 (by decide))).trans (W13_main_arg3 m c),
     (h c _ (mem_uc main_arg4 (by decide))).trans (W13_main_arg4 m c),
     (h c _ (mem_uc main_arg5 (by decide))).trans (W13_main_arg5 m c),
     (h c _ (mem_uc main_arg6 (by decide))).trans (W13_main_arg6 m c),
     (h c _ (mem_uc main_arg7 (by decide))).trans (W13_main_arg7 m c),
     (h c _ (mem_uc main_arg8 (by decide))).trans (W13_main_arg8 m c)⟩) (run_all m ρ)

end Cert.KernelIdeal.Hand

end
-- ==== Proof.Ref.Ops.lean ====
/-
  The reference program's @main written as four lists of host operations, one per printed stretch of
  statements, each call of the outlined variance (and, inside it, of the outlined select) replaced by the
  callee's operations over that call's own buffers.  With each list: the buffers it writes, and that every
  operation touches only buffers of the device.
-/
import proofs.«125359_j15118284882190_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The operations of the first stretch of @main, in order (81 of them). -/
abbrev ops0 : List (HloOp τ sig (Elt F)) :=
  [ StableHlo.unary main_arg1 main_v0 ((extractStridedSlice S1x1600000 ![0, 0] · slices_S2x1600000_S1x1600000_0_0) : (⟨S2x1600000, .i32⟩ : BufTy).Contents (Elt F) → (⟨S1x1600000, .i32⟩ : BufTy).Contents (Elt F)),
    StableHlo.reshape main_v0 main_v1 rfl shapeCasts_S1x1600000_S1600000,
    StableHlo.unary main_arg1 main_v2 ((extractStridedSlice S1x1600000 ![1, 0] · slices_S2x1600000_S1x1600000_1_0) : (⟨S2x1600000, .i32⟩ : BufTy).Contents (Elt F) → (⟨S1x1600000, .i32⟩ : BufTy).Contents (Elt F)),
    StableHlo.reshape main_v2 main_v3 rfl shapeCasts_S1x1600000_S1600000,
    StableHlo.nullary main_c (constantI S_ 32 0#32),
    StableHlo.unary main_c main_v4 (broadcastInDim S1600000 ![] bcast_S_S1600000 : (⟨S_, .i32⟩ : BufTy).Contents (Elt F) → (⟨S1600000, .i32⟩ : BufTy).Contents (Elt F)),
    StableHlo.binary main_v1 main_v4 main_v5 (cmpi .slt : (⟨S1600000, .i32⟩ : BufTy).Contents (Elt F) → (⟨S1600000, .i32⟩ : BufTy).Contents (Elt F) → (⟨S1600000, .i1⟩ : BufTy).Contents (Elt F)),
    StableHlo.nullary main_c_0 (constantI S_ 32 100000#32),
    StableHlo.unary main_c_0 main_v6 (broadcastInDim S1600000 ![] bcast_S_S1600000 : (⟨S_, .i32⟩ : BufTy).Contents (Elt F) → (⟨S1600000, .i32⟩ : BufTy).Contents (Elt F)),
    StableHlo.binary main_v1 main_v6 main_v7 (addi : (⟨S1600000, .i32⟩ : BufTy).Contents (Elt F) → (⟨S1600000, .i32⟩ : BufTy).Contents (Elt F) → (⟨S1600000, .i32⟩ : BufTy).Contents (Elt F)),
    StableHlo.ternary main_v5 main_v7 main_v1 main_v8 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v8 main_v9 (broadcastInDim S1600000x1 ![0] bcast_S1600000_S1600000x1_0 : (⟨S1600000, .i32⟩ : BufTy).Contents (Elt F) → (⟨S1600000x1, .i32⟩ : BufTy).Contents (Elt F)),
    StableHlo.binary main_arg0 main_v9 main_v10 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst (constant S_ .f32 0x00000000#32),
    StableHlo.unary main_cst main_v11 (broadcastInDim S100000x128 ![] bcast_S_S100000x128 : (⟨S_, .f32⟩ : BufTy).Contents (Elt F) → (⟨S100000x128, .f32⟩ : BufTy).Contents (Elt F)),
    StableHlo.unary main_v3 main_v12 (broadcastInDim S1600000x1 ![0] bcast_S1600000_S1600000x1_0 : (⟨S1600000, .i32⟩ : BufTy).Contents (Elt F) → (⟨S1600000x1, .i32⟩ : BufTy).Contents (Elt F)),
    StableHlo.ternary main_v11 main_v12 main_v10 main_v13 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_arg0 main_v13 main_v14 (addf : (⟨S100000x128, .f32⟩ : BufTy).Contents (Elt F) → (⟨S100000x128, .f32⟩ : BufTy).Contents (Elt F) → (⟨S100000x128, .f32⟩ : BufTy).Contents (Elt F)),
    StableHlo.unary main_arg3 main_v15 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v15 main_v16 rfl shapeCasts_S1x128x128_S128x128,
    StableHlo.binary main_v14 main_v16 main_v17 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v18 ((extractStridedSlice S1x128 ![0, 0] · slices_S3x128_S1x128_0_0) : (⟨S3x128, .f32⟩ : BufTy).Contents (Elt F) → (⟨S1x128, .f32⟩ : BufTy).Contents (Elt F)),
    StableHlo.reshape main_v18 main_v19 rfl shapeCasts_S1x128_S128,
    StableHlo.unary main_v19 main_v20 (broadcastInDim S1x128 ![1] bcast_S128_S1x128_1 : (⟨S128, .f32⟩ : BufTy).Contents (Elt F) → (⟨S1x128, .f32⟩ : BufTy).Contents (Elt F)),
    StableHlo.unary main_v20 main_v21 (broadcastInDim S100000x128 ![0, 1] bcast_S1x128_S100000x128_0_1 : (⟨S1x128, .f32⟩ : BufTy).Contents (Elt F) → (⟨S100000x128, .f32⟩ : BufTy).Contents (Elt F)),
    StableHlo.binary main_v17 main_v21 main_v22 (addf : (⟨S100000x128, .f32⟩ : BufTy).Contents (Elt F) → (⟨S100000x128, .f32⟩ : BufTy).Contents (Elt F) → (⟨S100000x128, .f32⟩ : BufTy).Contents (Elt F)),
    StableHlo.nullary main_cst_1 (constant S_ .f32 0x00000000#32),
    StableHlo.unary main_cst_1 main_v23 (broadcastInDim S100000x128 ![] bcast_S_S100000x128 : (⟨S_, .f32⟩ : BufTy).Contents (Elt F) → (⟨S100000x128, .f32⟩ : BufTy).Contents (Elt F)),
    StableHlo.binary main_v22 main_v23 main_v24 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v25 ((extractStridedSlice S1x128x128 ![0, 0, 0] · slices_S3x128x128_S1x128x128_0_0_0) : (⟨S3x128x128, .f32⟩ : BufTy).Contents (Elt F) → (⟨S1x128x128, .f32⟩ : BufTy).Contents (Elt F)),
    StableHlo.reshape main_v25 main_v26 rfl shapeCasts_S1x128x128_S128x128,
    StableHlo.binary main_v24 main_v26 main_v27 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v28 ((extractStridedSlice S1x128 ![0, 0] · slices_S3x128_S1x128_0_0) : (⟨S3x128, .f32⟩ : BufTy).Contents (Elt F) → (⟨S1x128, .f32⟩ : BufTy).Contents (Elt F)),
    StableHlo.reshape main_v28 main_v29 rfl shapeCasts_S1x128_S128,
    StableHlo.unary main_v29 main_v30 (broadcastInDim S1x128 ![1] bcast_S128_S1x128_1 : (⟨S128, .f32⟩ : BufTy).Contents (Elt F) → (⟨S1x128, .f32⟩ : BufTy).Contents (Elt F)),
    StableHlo.unary main_v30 main_v31 (broadcastInDim S100000x128 ![0, 1] bcast_S1x128_S100000x128_0_1 : (⟨S1x128, .f32⟩ : BufTy).Contents (Elt F) → (⟨S100000x128, .f32⟩ : BufTy).Contents (Elt F)),
    StableHlo.binary main_v27 main_v31 main_v32 (addf : (⟨S100000x128, .f32⟩ : BufTy).Contents (Elt F) → (⟨S100000x128, .f32⟩ : BufTy).Contents (Elt F) → (⟨S100000x128, .f32⟩ : BufTy).Contents (Elt F)),
    StableHlo.nullary main_cst_2 (constant S_ .f32 0x00000000#32),
    StableHlo.binary main_v32 main_cst_2 main_v33 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_3 (constant S_ .f32 0x47C35000#32),
    StableHlo.unary main_cst_3 main_v34 (broadcastInDim S128 ![] bcast_S_S128 : (⟨S_, .f32⟩ : BufTy).Contents (Elt F) → (⟨S128, .f32⟩ : BufTy).Contents (Elt F)),
    StableHlo.binary main_v33 main_v34 main_v35 (Host.divf : (⟨S128, .f32⟩ : BufTy).Contents (Elt F) → (⟨S128, .f32⟩ : BufTy).Contents (Elt F) → (⟨S128, .f32⟩ : BufTy).Contents (Elt F)),
    StableHlo.nullary main_c_4 (constantI S_ 32 0#32),
    StableHlo.TRef.nullary main_call0.cst (constant S_ .f32 0x00000000#32),
    StableHlo.TRef.binary (TRef.of main_v32 : TRef sig ⟨S100000x128, .f32⟩) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (TRef.of main_v32 : TRef sig ⟨S100000x128, .f32⟩) main_call0.v4 main_call0.v5 subf,
    StableHlo.TRef.binary main_call0.v5 main_call0.v5 main_call0.v6 mulf,
    StableHlo.TRef.unary (TRef.of main_c_4 : TRef sig ⟨S_, .i32⟩) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_arg7 main_v37 ((extractStridedSlice S1x128 ![0, 0] · slices_S3x128_S1x128_0_0) : (⟨S3x128, .f32⟩ : BufTy).Contents (Elt F) → (⟨S1x128, .f32⟩ : BufTy).Contents (Elt F)),
    StableHlo.reshape main_v37 main_v38 rfl shapeCasts_S1x128_S128,
    StableHlo.unary main_v35 main_v39 (broadcastInDim S1x128 ![1] bcast_S128_S1x128_1 : (⟨S128, .f32⟩ : BufTy).Contents (Elt F) → (⟨S1x128, .f32⟩ : BufTy).Contents (Elt F)),
    StableHlo.unary main_v39 main_v40 (broadcastInDim S100000x128 ![0, 1] bcast_S1x128_S100000x128_0_1 : (⟨S1x128, .f32⟩ : BufTy).Contents (Elt F) → (⟨S100000x128, .f32⟩ : BufTy).Contents (Elt F)),
    StableHlo.binary main_v32 main_v40 main_v41 (subf : (⟨S100000x128, .f32⟩ : BufTy).Contents (Elt F) → (⟨S100000x128, .f32⟩ : BufTy).Contents (Elt F) → (⟨S100000x128, .f32⟩ : BufTy).Contents (Elt F)),
    StableHlo.unary main_v38 main_v42 (broadcastInDim S1x128 ![1] bcast_S128_S1x128_1 : (⟨S128, .f32⟩ : BufTy).Contents (Elt F) → (⟨S1x128, .f32⟩ : BufTy).Contents (Elt F)),
    StableHlo.unary main_v42 main_v43 (broadcastInDim S100000x128 ![0, 1] bcast_S1x128_S100000x128_0_1 : (⟨S1x128, .f32⟩ : BufTy).Contents (Elt F) → (⟨S100000x128, .f32⟩ : BufTy).Contents (Elt F)),
    StableHlo.binary main_v43 main_v41 main_v44 (mulf : (⟨S100000x128, .f32⟩ : BufTy).Contents (Elt F) → (⟨S100000x128, .f32⟩ : BufTy).Contents (Elt F) → (⟨S100000x128, .f32⟩ : BufTy).Contents (Elt F)),
    StableHlo.nullary main_cst_5 (constant S_ .f32 0x3727C5AC#32),
    StableHlo.unary main_cst_5 main_v45 (broadcastInDim S128 ![] bcast_S_S128 : (⟨S_, .f32⟩ : BufTy).Contents (Elt F) → (⟨S128, .f32⟩ : BufTy).Contents (Elt F)),
    StableHlo.binary main_v36 main_v45 main_v46 (addf : (⟨S128, .f32⟩ : BufTy).Contents (Elt F) → (⟨S128, .f32⟩ : BufTy).Contents (Elt F) → (⟨S128, .f32⟩ : BufTy).Contents (Elt F)),
    StableHlo.unary main_v46 main_v47 (Host.rsqrt : (⟨S128, .f32⟩ : BufTy).Contents (Elt F) → (⟨S128, .f32⟩ : BufTy).Contents (Elt F)),
    StableHlo.unary main_v47 main_v48 (broadcastInDim S1x128 ![1] bcast_S128_S1x128_1 : (⟨S128, .f32⟩ : BufTy).Contents (Elt F) → (⟨S1x128, .f32⟩ : BufTy).Contents (Elt F)),
    StableHlo.unary main_v48 main_v49 (broadcastInDim S100000x128 ![0, 1] bcast_S1x128_S100000x128_0_1 : (⟨S1x128, .f32⟩ : BufTy).Contents (Elt F) → (⟨S100000x128, .f32⟩ : BufTy).Contents (Elt F)),
    StableHlo.binary main_v44 main_v49 main_v50 (mulf : (⟨S100000x128, .f32⟩ : BufTy).Contents (Elt F) → (⟨S100000x128, .f32⟩ : BufTy).Contents (Elt F) → (⟨S100000x128, .f32⟩ : BufTy).Contents (Elt F)),
    StableHlo.unary main_arg8 main_v51 ((extractStridedSlice S1x128 ![0, 0] · slices_S3x128_S1x128_0_0) : (⟨S3x128, .f32⟩ : BufTy).Contents (Elt F) → (⟨S1x128, .f32⟩ : BufTy).Contents (Elt F)) ]

/-- The operations of the second stretch of @main, in order (81 of them). -/
abbrev ops1 : List (HloOp τ sig (Elt F)) :=
  [ StableHlo.reshape main_v51 main_v52 rfl shapeCasts_S1x128_S128,
    StableHlo.unary main_v52 main_v53 (broadcastInDim S1x128 ![1] bcast_S128_S1x128_1 : (⟨S128, .f32⟩ : BufTy).Contents (Elt F) → (⟨S1x128, .f32⟩ : BufTy).Contents (Elt F)),
    StableHlo.unary main_v53 main_v54 (broadcastInDim S100000x128 ![0, 1] bcast_S1x128_S100000x128_0_1 : (⟨S1x128, .f32⟩ : BufTy).Contents (Elt F) → (⟨S100000x128, .f32⟩ : BufTy).Contents (Elt F)),
    StableHlo.binary main_v50 main_v54 main_v55 (addf : (⟨S100000x128, .f32⟩ : BufTy).Contents (Elt F) → (⟨S100000x128, .f32⟩ : BufTy).Contents (Elt F) → (⟨S100000x128, .f32⟩ : BufTy).Contents (Elt F)),
    StableHlo.nullary main_cst_6 (constant S_ .f32 0x00000000#32),
    StableHlo.unary main_cst_6 main_v56 (broadcastInDim S100000x128 ![] bcast_S_S100000x128 : (⟨S_, .f32⟩ : BufTy).Contents (Elt F) → (⟨S100000x128, .f32⟩ : BufTy).Contents (Elt F)),
    StableHlo.binary main_v55 main_v56 main_v57 (maximumf : (⟨S100000x128, .f32⟩ : BufTy).Contents (Elt F) → (⟨S100000x128, .f32⟩ : BufTy).Contents (Elt F) → (⟨S100000x128, .f32⟩ : BufTy).Contents (Elt F)),
    StableHlo.nullary main_c_7 (constantI S_ 32 0#32),
    StableHlo.unary main_c_7 main_v58 (broadcastInDim S1600000 ![] bcast_S_S1600000 : (⟨S_, .i32⟩ : BufTy).Contents (Elt F) → (⟨S1600000, .i32⟩ : BufTy).Contents (Elt F)),
    StableHlo.binary main_v1 main_v58 main_v59 (cmpi .slt : (⟨S1600000, .i32⟩ : BufTy).Contents (Elt F) → (⟨S1600000, .i32⟩ : BufTy).Contents (Elt F) → (⟨S1600000, .i1⟩ : BufTy).Contents (Elt F)),
    StableHlo.nullary main_c_8 (constantI S_ 32 100000#32),
    StableHlo.unary main_c_8 main_v60 (broadcastInDim S1600000 ![] bcast_S_S1600000 : (⟨S_, .i32⟩ : BufTy).Contents (Elt F) → (⟨S1600000, .i32⟩ : BufTy).Contents (Elt F)),
    StableHlo.binary main_v1 main_v60 main_v61 (addi : (⟨S1600000, .i32⟩ : BufTy).Contents (Elt F) → (⟨S1600000, .i32⟩ : BufTy).Contents (Elt F) → (⟨S1600000, .i32⟩ : BufTy).Contents (Elt F)),
    StableHlo.ternary main_v59 main_v61 main_v1 main_v62 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v62 main_v63 (broadcastInDim S1600000x1 ![0] bcast_S1600000_S1600000x1_0 : (⟨S1600000, .i32⟩ : BufTy).Contents (Elt F) → (⟨S1600000x1, .i32⟩ : BufTy).Contents (Elt F)),
    StableHlo.binary main_v57 main_v63 main_v64 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_9 (constant S_ .f32 0x00000000#32),
    StableHlo.unary main_cst_9 main_v65 (broadcastInDim S100000x128 ![] bcast_S_S100000x128 : (⟨S_, .f32⟩ : BufTy).Contents (Elt F) → (⟨S100000x128, .f32⟩ : BufTy).Contents (Elt F)),
    StableHlo.unary main_v3 main_v66 (broadcastInDim S1600000x1 ![0] bcast_S1600000_S1600000x1_0 : (⟨S1600000, .i32⟩ : BufTy).Contents (Elt F) → (⟨S1600000x1, .i32⟩ : BufTy).Contents (Elt F)),
    StableHlo.ternary main_v65 main_v66 main_v64 main_v67 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v57 main_v67 main_v68 (addf : (⟨S100000x128, .f32⟩ : BufTy).Contents (Elt F) → (⟨S100000x128, .f32⟩ : BufTy).Contents (Elt F) → (⟨S100000x128, .f32⟩ : BufTy).Contents (Elt F)),
    StableHlo.unary main_arg3 main_v69 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v69 main_v70 rfl shapeCasts_S1x128x128_S128x128,
    StableHlo.binary main_v68 main_v70 main_v71 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v72 ((extractStridedSlice S1x128 ![1, 0] · slices_S3x128_S1x128_1_0) : (⟨S3x128, .f32⟩ : BufTy).Contents (Elt F) → (⟨S1x128, .f32⟩ : BufTy).Contents (Elt F)),
    StableHlo.reshape main_v72 main_v73 rfl shapeCasts_S1x128_S128,
    StableHlo.unary main_v73 main_v74 (broadcastInDim S1x128 ![1] bcast_S128_S1x128_1 : (⟨S128, .f32⟩ : BufTy).Contents (Elt F) → (⟨S1x128, .f32⟩ : BufTy).Contents (Elt F)),
    StableHlo.unary main_v74 main_v75 (broadcastInDim S100000x128 ![0, 1] bcast_S1x128_S100000x128_0_1 : (⟨S1x128, .f32⟩ : BufTy).Contents (Elt F) → (⟨S100000x128, .f32⟩ : BufTy).Contents (Elt F)),
    StableHlo.binary main_v71 main_v75 main_v76 (addf : (⟨S100000x128, .f32⟩ : BufTy).Contents (Elt F) → (⟨S100000x128, .f32⟩ : BufTy).Contents (Elt F) → (⟨S100000x128, .f32⟩ : BufTy).Contents (Elt F)),
    StableHlo.nullary main_cst_10 (constant S_ .f32 0x00000000#32),
    StableHlo.unary main_cst_10 main_v77 (broadcastInDim S100000x128 ![] bcast_S_S100000x128 : (⟨S_, .f32⟩ : BufTy).Contents (Elt F) → (⟨S100000x128, .f32⟩ : BufTy).Contents (Elt F)),
    StableHlo.binary main_v76 main_v77 main_v78 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v79 ((extractStridedSlice S1x128x128 ![1, 0, 0] · slices_S3x128x128_S1x128x128_1_0_0) : (⟨S3x128x128, .f32⟩ : BufTy).Contents (Elt F) → (⟨S1x128x128, .f32⟩ : BufTy).Contents (Elt F)),
    StableHlo.reshape main_v79 main_v80 rfl shapeCasts_S1x128x128_S128x128,
    StableHlo.binary main_v78 main_v80 main_v81 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v82 ((extractStridedSlice S1x128 ![1, 0] · slices_S3x128_S1x128_1_0) : (⟨S3x128, .f32⟩ : BufTy).Contents (Elt F) → (⟨S1x128, .f32⟩ : BufTy).Contents (Elt F)),
    StableHlo.reshape main_v82 main_v83 rfl shapeCasts_S1x128_S128,
    StableHlo.unary main_v83 main_v84 (broadcastInDim S1x128 ![1] bcast_S128_S1x128_1 : (⟨S128, .f32⟩ : BufTy).Contents (Elt F) → (⟨S1x128, .f32⟩ : BufTy).Contents (Elt F)),
    StableHlo.unary main_v84 main_v85 (broadcastInDim S100000x128 ![0, 1] bcast_S1x128_S100000x128_0_1 : (⟨S1x128, .f32⟩ : BufTy).Contents (Elt F) → (⟨S100000x128, .f32⟩ : BufTy).Contents (Elt F)),
    StableHlo.binary main_v81 main_v85 main_v86 (addf : (⟨S100000x128, .f32⟩ : BufTy).Contents (Elt F) → (⟨S100000x128, .f32⟩ : BufTy).Contents (Elt F) → (⟨S100000x128, .f32⟩ : BufTy).Contents (Elt F)),
    StableHlo.nullary main_cst_11 (constant S_ .f32 0x00000000#32),
    StableHlo.binary main_v86 main_cst_11 main_v87 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_12 (constant S_ .f32 0x47C35000#32),
    StableHlo.unary main_cst_12 main_v88 (broadcastInDim S128 ![] bcast_S_S128 : (⟨S_, .f32⟩ : BufTy).Contents (Elt F) → (⟨S128, .f32⟩ : BufTy).Contents (Elt F)),
    StableHlo.binary main_v87 main_v88 main_v89 (Host.divf : (⟨S128, .f32⟩ : BufTy).Contents (Elt F) → (⟨S128, .f32⟩ : BufTy).Contents (Elt F) → (⟨S128, .f32⟩ : BufTy).Contents (Elt F)),
    StableHlo.nullary main_c_13 (constantI S_ 32 0#32),
    StableHlo.TRef.nullary main_call1.cst (constant S_ .f32 0x00000000#32),
    StableHlo.TRef.binary (TRef.of main_v86 : TRef sig ⟨S100000x128, .f32⟩) main_call1.cst main_call1.v0 (fun x v => Host.reduceAdd x v reducesTo_S100000x128_S128_d0 h_S_),
    StableHlo.TRef.unary main_call1.v0 main_call1.v1 (broadcastInDim S1x128 ![1] bcast_S128_S1x128_1),
    StableHlo.TRef.nullary main_call1.cst_0 (constant S_ .f32 0x47C35000#32),
    StableHlo.TRef.unary main_call1.cst_0 main_call1.v2 (broadcastInDim S1x128 ![] bcast_S_S1x128),
    StableHlo.TRef.binary main_call1.v1 main_call1.v2 main_call1.v3 Host.divf,
    StableHlo.TRef.unary main_call1.v3 main_call1.v4 (broadcastInDim S100000x128 ![0, 1] bcast_S1x128_S100000x128_0_1),
    StableHlo.TRef.binary (TRef.of main_v86 : TRef sig ⟨S100000x128, .f32⟩) main_call1.v4 main_call1.v5 subf,
    StableHlo.TRef.binary main_call1.v5 main_call1.v5 main_call1.v6 mulf,
    StableHlo.TRef.unary (TRef.of main_c_13 : TRef sig ⟨S_, .i32⟩) main_call1.v7 (sitofp .f32),
    StableHlo.TRef.nullary main_call1.cst_1 (constant S_ .f32 0x47C35000#32),
    StableHlo.TRef.binary main_call1.cst_1 main_call1.v7 main_call1.v8 subf,
    StableHlo.TRef.nullary main_call1.cst_2 (constant S_ .f32 0x00000000#32),
    StableHlo.TRef.binary main_call1.v6 main_call1.cst_2 main_call1.v9 (fun x v => Host.reduceAdd x v reducesTo_S100000x128_S128_d0 h_S_),
    StableHlo.TRef.unary main_call1.v8 main_call1.v10 (broadcastInDim S128 ![] bcast_S_S128),
    StableHlo.TRef.binary main_call1.v9 main_call1.v10 main_call1.v11 Host.divf,
    StableHlo.TRef.nullary main_call1.cst_3 (constant S_ .f32 0x00000000#32),
    StableHlo.TRef.binary main_call1.v8 main_call1.cst_3 main_call1.v12 (cmpf .ogt),
    StableHlo.TRef.nullary main_call1.cst_4 (constant S_ .f32 0x7FC00000#32),
    StableHlo.TRef.unary main_call1.cst_4 main_call1.call0.v0 id,
    StableHlo.TRef.unary main_call1.call0.v0 main_call1.call0.v1 (broadcastInDim S128 ![] bcast_S_S128),
    StableHlo.TRef.ternary main_call1.v12 main_call1.v11 main_call1.call0.v1 main_call1.call0.v2 (fun p a b => select (broadcastInDim S128 ![] bcast_S_S128 p) a b),
    StableHlo.unary main_arg7 main_v91 ((extractStridedSlice S1x128 ![1, 0] · slices_S3x128_S1x128_1_0) : (⟨S3x128, .f32⟩ : BufTy).Contents (Elt F) → (⟨S1x128, .f32⟩ : BufTy).Contents (Elt F)),
    StableHlo.reshape main_v91 main_v92 rfl shapeCasts_S1x128_S128,
    StableHlo.unary main_v89 main_v93 (broadcastInDim S1x128 ![1] bcast_S128_S1x128_1 : (⟨S128, .f32⟩ : BufTy).Contents (Elt F) → (⟨S1x128, .f32⟩ : BufTy).Contents (Elt F)),
    StableHlo.unary main_v93 main_v94 (broadcastInDim S100000x128 ![0, 1] bcast_S1x128_S100000x128_0_1 : (⟨S1x128, .f32⟩ : BufTy).Contents (Elt F) → (⟨S100000x128, .f32⟩ : BufTy).Contents (Elt F)),
    StableHlo.binary main_v86 main_v94 main_v95 (subf : (⟨S100000x128, .f32⟩ : BufTy).Contents (Elt F) → (⟨S100000x128, .f32⟩ : BufTy).Contents (Elt F) → (⟨S100000x128, .f32⟩ : BufTy).Contents (Elt F)),
    StableHlo.unary main_v92 main_v96 (broadcastInDim S1x128 ![1] bcast_S128_S1x128_1 : (⟨S128, .f32⟩ : BufTy).Contents (Elt F) → (⟨S1x128, .f32⟩ : BufTy).Contents (Elt F)),
    StableHlo.unary main_v96 main_v97 (broadcastInDim S100000x128 ![0, 1] bcast_S1x128_S100000x128_0_1 : (⟨S1x128, .f32⟩ : BufTy).Contents (Elt F) → (⟨S100000x128, .f32⟩ : BufTy).Contents (Elt F)),
    StableHlo.binary main_v97 main_v95 main_v98 (mulf : (⟨S100000x128, .f32⟩ : BufTy).Contents (Elt F) → (⟨S100000x128, .f32⟩ : BufTy).Contents (Elt F) → (⟨S100000x128, .f32⟩ : BufTy).Contents (Elt F)),
    StableHlo.nullary main_cst_14 (constant S_ .f32 0x3727C5AC#32),
    StableHlo.unary main_cst_14 main_v99 (broadcastInDim S128 ![] bcast_S_S128 : (⟨S_, .f32⟩ : BufTy).Contents (Elt F) → (⟨S128, .f32⟩ : BufTy).Contents (Elt F)),
    StableHlo.binary main_v90 main_v99 main_v100 (addf : (⟨S128, .f32⟩ : BufTy).Contents (Elt F) → (⟨S128, .f32⟩ : BufTy).Contents (Elt F) → (⟨S128, .f32⟩ : BufTy).Contents (Elt F)),
    StableHlo.unary main_v100 main_v101 (Host.rsqrt : (⟨S128, .f32⟩ : BufTy).Contents (Elt F) → (⟨S128, .f32⟩ : BufTy).Contents (Elt F)),
    StableHlo.unary main_v101 main_v102 (broadcastInDim S1x128 ![1] bcast_S128_S1x128_1 : (⟨S128, .f32⟩ : BufTy).Contents (Elt F) → (⟨S1x128, .f32⟩ : BufTy).Contents (Elt F)) ]

/-- The operations of the third stretch of @main, in order (81 of them). -/
abbrev ops2 : List (HloOp τ sig (Elt F)) :=
  [ StableHlo.unary main_v102 main_v103 (broadcastInDim S100000x128 ![0, 1] bcast_S1x128_S100000x128_0_1 : (⟨S1x128, .f32⟩ : BufTy).Contents (Elt F) → (⟨S100000x128, .f32⟩ : BufTy).Contents (Elt F)),
    StableHlo.binary main_v98 main_v103 main_v104 (mulf : (⟨S100000x128, .f32⟩ : BufTy).Contents (Elt F) → (⟨S100000x128, .f32⟩ : BufTy).Contents (Elt F) → (⟨S100000x128, .f32⟩ : BufTy).Contents (Elt F)),
    StableHlo.unary main_arg8 main_v105 ((extractStridedSlice S1x128 ![1, 0] · slices_S3x128_S1x128_1_0) : (⟨S3x128, .f32⟩ : BufTy).Contents (Elt F) → (⟨S1x128, .f32⟩ : BufTy).Contents (Elt F)),
    StableHlo.reshape main_v105 main_v106 rfl shapeCasts_S1x128_S128,
    StableHlo.unary main_v106 main_v107 (broadcastInDim S1x128 ![1] bcast_S128_S1x128_1 : (⟨S128, .f32⟩ : BufTy).Contents (Elt F) → (⟨S1x128, .f32⟩ : BufTy).Contents (Elt F)),
    StableHlo.unary main_v107 main_v108 (broadcastInDim S100000x128 ![0, 1] bcast_S1x128_S100000x128_0_1 : (⟨S1x128, .f32⟩ : BufTy).Contents (Elt F) → (⟨S100000x128, .f32⟩ : BufTy).Contents (Elt F)),
    StableHlo.binary main_v104 main_v108 main_v109 (addf : (⟨S100000x128, .f32⟩ : BufTy).Contents (Elt F) → (⟨S100000x128, .f32⟩ : BufTy).Contents (Elt F) → (⟨S100000x128, .f32⟩ : BufTy).Contents (Elt F)),
    StableHlo.nullary main_cst_15 (constant S_ .f32 0x00000000#32),
    StableHlo.unary main_cst_15 main_v110 (broadcastInDim S100000x128 ![] bcast_S_S100000x128 : (⟨S_, .f32⟩ : BufTy).Contents (Elt F) → (⟨S100000x128, .f32⟩ : BufTy).Contents (Elt F)),
    StableHlo.binary main_v109 main_v110 main_v111 (maximumf : (⟨S100000x128, .f32⟩ : BufTy).Contents (Elt F) → (⟨S100000x128, .f32⟩ : BufTy).Contents (Elt F) → (⟨S100000x128, .f32⟩ : BufTy).Contents (Elt F)),
    StableHlo.nullary main_c_16 (constantI S_ 32 0#32),
    StableHlo.unary main_c_16 main_v112 (broadcastInDim S1600000 ![] bcast_S_S1600000 : (⟨S_, .i32⟩ : BufTy).Contents (Elt F) → (⟨S1600000, .i32⟩ : BufTy).Contents (Elt F)),
    StableHlo.binary main_v1 main_v112 main_v113 (cmpi .slt : (⟨S1600000, .i32⟩ : BufTy).Contents (Elt F) → (⟨S1600000, .i32⟩ : BufTy).Contents (Elt F) → (⟨S1600000, .i1⟩ : BufTy).Contents (Elt F)),
    StableHlo.nullary main_c_17 (constantI S_ 32 100000#32),
    StableHlo.unary main_c_17 main_v114 (broadcastInDim S1600000 ![] bcast_S_S1600000 : (⟨S_, .i32⟩ : BufTy).Contents (Elt F) → (⟨S1600000, .i32⟩ : BufTy).Contents (Elt F)),
    StableHlo.binary main_v1 main_v114 main_v115 (addi : (⟨S1600000, .i32⟩ : BufTy).Contents (Elt F) → (⟨S1600000, .i32⟩ : BufTy).Contents (Elt F) → (⟨S1600000, .i32⟩ : BufTy).Contents (Elt F)),
    StableHlo.ternary main_v113 main_v115 main_v1 main_v116 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    StableHlo.unary main_v116 main_v117 (broadcastInDim S1600000x1 ![0] bcast_S1600000_S1600000x1_0 : (⟨S1600000, .i32⟩ : BufTy).Contents (Elt F) → (⟨S1600000x1, .i32⟩ : BufTy).Contents (Elt F)),
    StableHlo.binary main_v111 main_v117 main_v118 ((fun x i => Host.gather gather_S100000x128_S1600000x1_S1600000x128_1_0_n_n_0_1_1128 x i) : (⟨S100000x128, .f32⟩ : BufTy).Contents (Elt F) → (⟨S1600000x1, .i32⟩ : BufTy).Contents (Elt F) → (⟨S1600000x128, .f32⟩ : BufTy).Contents (Elt F)),
    StableHlo.nullary main_cst_18 (constant S_ .f32 0x00000000#32),
    StableHlo.unary main_cst_18 main_v119 (broadcastInDim S100000x128 ![] bcast_S_S100000x128 : (⟨S_, .f32⟩ : BufTy).Contents (Elt F) → (⟨S100000x128, .f32⟩ : BufTy).Contents (Elt F)),
    StableHlo.unary main_v3 main_v120 (broadcastInDim S1600000x1 ![0] bcast_S1600000_S1600000x1_0 : (⟨S1600000, .i32⟩ : BufTy).Contents (Elt F) → (⟨S1600000x1, .i32⟩ : BufTy).Contents (Elt F)),
    StableHlo.ternary main_v119 main_v120 main_v118 main_v121 ((fun x i u => Host.scatterAdd scatter_S100000x128_S1600000x1_S1600000x128_1_0_0_1 x i u) : (⟨S100000x128, .f32⟩ : BufTy).Contents (Elt F) → (⟨S1600000x1, .i32⟩ : BufTy).Contents (Elt F) → (⟨S1600000x128, .f32⟩ : BufTy).Contents (Elt F) → (⟨S100000x128, .f32⟩ : BufTy).Contents (Elt F)),
    StableHlo.binary main_v111 main_v121 main_v122 (addf : (⟨S100000x128, .f32⟩ : BufTy).Contents (Elt F) → (⟨S100000x128, .f32⟩ : BufTy).Contents (Elt F) → (⟨S100000x128, .f32⟩ : BufTy).Contents (Elt F)),
    StableHlo.unary main_arg3 main_v123 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v123 main_v124 rfl shapeCasts_S1x128x128_S128x128,
    StableHlo.binary main_v122 main_v124 main_v125 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg4 main_v126 ((extractStridedSlice S1x128 ![2, 0] · slices_S3x128_S1x128_2_0) : (⟨S3x128, .f32⟩ : BufTy).Contents (Elt F) → (⟨S1x128, .f32⟩ : BufTy).Contents (Elt F)),
    StableHlo.reshape main_v126 main_v127 rfl shapeCasts_S1x128_S128,
    StableHlo.unary main_v127 main_v128 (broadcastInDim S1x128 ![1] bcast_S128_S1x128_1 : (⟨S128, .f32⟩ : BufTy).Contents (Elt F) → (⟨S1x128, .f32⟩ : BufTy).Contents (Elt F)),
    StableHlo.unary main_v128 main_v129 (broadcastInDim S100000x128 ![0, 1] bcast_S1x128_S100000x128_0_1 : (⟨S1x128, .f32⟩ : BufTy).Contents (Elt F) → (⟨S100000x128, .f32⟩ : BufTy).Contents (Elt F)),
    StableHlo.binary main_v125 main_v129 main_v130 (addf : (⟨S100000x128, .f32⟩ : BufTy).Contents (Elt F) → (⟨S100000x128, .f32⟩ : BufTy).Contents (Elt F) → (⟨S100000x128, .f32⟩ : BufTy).Contents (Elt F)),
    StableHlo.nullary main_cst_19 (constant S_ .f32 0x00000000#32),
    StableHlo.unary main_cst_19 main_v131 (broadcastInDim S100000x128 ![] bcast_S_S100000x128 : (⟨S_, .f32⟩ : BufTy).Contents (Elt F) → (⟨S100000x128, .f32⟩ : BufTy).Contents (Elt F)),
    StableHlo.binary main_v130 main_v131 main_v132 (maximumf : (⟨S100000x128, .f32⟩ : BufTy).Contents (Elt F) → (⟨S100000x128, .f32⟩ : BufTy).Contents (Elt F) → (⟨S100000x128, .f32⟩ : BufTy).Contents (Elt F)),
    StableHlo.unary main_arg5 main_v133 ((extractStridedSlice S1x128x128 ![2, 0, 0] · slices_S3x128x128_S1x128x128_2_0_0) : (⟨S3x128x128, .f32⟩ : BufTy).Contents (Elt F) → (⟨S1x128x128, .f32⟩ : BufTy).Contents (Elt F)),
    StableHlo.reshape main_v133 main_v134 rfl shapeCasts_S1x128x128_S128x128,
    StableHlo.binary main_v132 main_v134 main_v135 ((fun l r => Host.dotGeneral dot_S100000x128_S128x128_S100000x128_1_0_0_1_n_n none l r) : (⟨S100000x128, .f32⟩ : BufTy).Contents (Elt F) → (⟨S128x128, .f32⟩ : BufTy).Contents (Elt F) → (⟨S100000x128, .f32⟩ : BufTy).Contents (Elt F)),
    StableHlo.unary main_arg6 main_v136 ((extractStridedSlice S1x128 ![2, 0] · slices_S3x128_S1x128_2_0) : (⟨S3x128, .f32⟩ : BufTy).Contents (Elt F) → (⟨S1x128, .f32⟩ : BufTy).Contents (Elt F)),
    StableHlo.reshape main_v136 main_v137 rfl shapeCasts_S1x128_S128,
    StableHlo.unary main_v137 main_v138 (broadcastInDim S1x128 ![1] bcast_S128_S1x128_1 : (⟨S128, .f32⟩ : BufTy).Contents (Elt F) → (⟨S1x128, .f32⟩ : BufTy).Contents (Elt F)),
    StableHlo.unary main_v138 main_v139 (broadcastInDim S100000x128 ![0, 1] bcast_S1x128_S100000x128_0_1 : (⟨S1x128, .f32⟩ : BufTy).Contents (Elt F) → (⟨S100000x128, .f32⟩ : BufTy).Contents (Elt F)),
    StableHlo.binary main_v135 main_v139 main_v140 (addf : (⟨S100000x128, .f32⟩ : BufTy).Contents (Elt F) → (⟨S100000x128, .f32⟩ : BufTy).Contents (Elt F) → (⟨S100000x128, .f32⟩ : BufTy).Contents (Elt F)),
    StableHlo.nullary main_cst_20 (constant S_ .f32 0x00000000#32),
    StableHlo.binary main_v140 main_cst_20 main_v141 ((fun x v => Host.reduceAdd x v reducesTo_S100000x128_S128_d0 h_S_) : (⟨S100000x128, .f32⟩ : BufTy).Contents (Elt F) → (⟨S_, .f32⟩ : BufTy).Contents (Elt F) → (⟨S128, .f32⟩ : BufTy).Contents (Elt F)),
    StableHlo.nullary main_cst_21 (constant S_ .f32 0x47C35000#32),
    StableHlo.unary main_cst_21 main_v142 (broadcastInDim S128 ![] bcast_S_S128 : (⟨S_, .f32⟩ : BufTy).Contents (Elt F) → (⟨S128, .f32⟩ : BufTy).Contents (Elt F)),
    StableHlo.binary main_v141 main_v142 main_v143 (Host.divf : (⟨S128, .f32⟩ : BufTy).Contents (Elt F) → (⟨S128, .f32⟩ : BufTy).Contents (Elt F) → (⟨S128, .f32⟩ : BufTy).Contents (Elt F)),
    StableHlo.nullary main_c_22 (constantI S_ 32 0#32),
    StableHlo.TRef.nullary main_call2.cst (constant S_ .f32 0x00000000#32),
    StableHlo.TRef.binary (TRef.of main_v140 : TRef sig ⟨S100000x128, .f32⟩) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (TRef.of main_v140 : TRef sig ⟨S100000x128, .f32⟩) main_call2.v4 main_call2.v5 subf,
    StableHlo.TRef.binary main_call2.v5 main_call2.v5 main_call2.v6 mulf,
    StableHlo.TRef.unary (TRef.of main_c_22 : TRef sig ⟨S_, .i32⟩) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_arg7 main_v145 ((extractStridedSlice S1x128 ![2, 0] · slices_S3x128_S1x128_2_0) : (⟨S3x128, .f32⟩ : BufTy).Contents (Elt F) → (⟨S1x128, .f32⟩ : BufTy).Contents (Elt F)),
    StableHlo.reshape main_v145 main_v146 rfl shapeCasts_S1x128_S128,
    StableHlo.unary main_v143 main_v147 (broadcastInDim S1x128 ![1] bcast_S128_S1x128_1 : (⟨S128, .f32⟩ : BufTy).Contents (Elt F) → (⟨S1x128, .f32⟩ : BufTy).Contents (Elt F)),
    StableHlo.unary main_v147 main_v148 (broadcastInDim S100000x128 ![0, 1] bcast_S1x128_S100000x128_0_1 : (⟨S1x128, .f32⟩ : BufTy).Contents (Elt F) → (⟨S100000x128, .f32⟩ : BufTy).Contents (Elt F)),
    StableHlo.binary main_v140 main_v148 main_v149 (subf : (⟨S100000x128, .f32⟩ : BufTy).Contents (Elt F) → (⟨S100000x128, .f32⟩ : BufTy).Contents (Elt F) → (⟨S100000x128, .f32⟩ : BufTy).Contents (Elt F)),
    StableHlo.unary main_v146 main_v150 (broadcastInDim S1x128 ![1] bcast_S128_S1x128_1 : (⟨S128, .f32⟩ : BufTy).Contents (Elt F) → (⟨S1x128, .f32⟩ : BufTy).Contents (Elt F)),
    StableHlo.unary main_v150 main_v151 (broadcastInDim S100000x128 ![0, 1] bcast_S1x128_S100000x128_0_1 : (⟨S1x128, .f32⟩ : BufTy).Contents (Elt F) → (⟨S100000x128, .f32⟩ : BufTy).Contents (Elt F)),
    StableHlo.binary main_v151 main_v149 main_v152 (mulf : (⟨S100000x128, .f32⟩ : BufTy).Contents (Elt F) → (⟨S100000x128, .f32⟩ : BufTy).Contents (Elt F) → (⟨S100000x128, .f32⟩ : BufTy).Contents (Elt F)),
    StableHlo.nullary main_cst_23 (constant S_ .f32 0x3727C5AC#32),
    StableHlo.unary main_cst_23 main_v153 (broadcastInDim S128 ![] bcast_S_S128 : (⟨S_, .f32⟩ : BufTy).Contents (Elt F) → (⟨S128, .f32⟩ : BufTy).Contents (Elt F)) ]

/-- The operations of the fourth stretch of @main, in order (24 of them). -/
abbrev ops3 : List (HloOp τ sig (Elt F)) :=
  [ StableHlo.binary main_v144 main_v153 main_v154 (addf : (⟨S128, .f32⟩ : BufTy).Contents (Elt F) → (⟨S128, .f32⟩ : BufTy).Contents (Elt F) → (⟨S128, .f32⟩ : BufTy).Contents (Elt F)),
    StableHlo.unary main_v154 main_v155 (Host.rsqrt : (⟨S128, .f32⟩ : BufTy).Contents (Elt F) → (⟨S128, .f32⟩ : BufTy).Contents (Elt F)),
    StableHlo.unary main_v155 main_v156 (broadcastInDim S1x128 ![1] bcast_S128_S1x128_1 : (⟨S128, .f32⟩ : BufTy).Contents (Elt F) → (⟨S1x128, .f32⟩ : BufTy).Contents (Elt F)),
    StableHlo.unary main_v156 main_v157 (broadcastInDim S100000x128 ![0, 1] bcast_S1x128_S100000x128_0_1 : (⟨S1x128, .f32⟩ : BufTy).Contents (Elt F) → (⟨S100000x128, .f32⟩ : BufTy).Contents (Elt F)),
    StableHlo.binary main_v152 main_v157 main_v158 (mulf : (⟨S100000x128, .f32⟩ : BufTy).Contents (Elt F) → (⟨S100000x128, .f32⟩ : BufTy).Contents (Elt F) → (⟨S100000x128, .f32⟩ : BufTy).Contents (Elt F)),
    StableHlo.unary main_arg8 main_v159 ((extractStridedSlice S1x128 ![2, 0] · slices_S3x128_S1x128_2_0) : (⟨S3x128, .f32⟩ : BufTy).Contents (Elt F) → (⟨S1x128, .f32⟩ : BufTy).Contents (Elt F)),
    StableHlo.reshape main_v159 main_v160 rfl shapeCasts_S1x128_S128,
    StableHlo.unary main_v160 main_v161 (broadcastInDim S1x128 ![1] bcast_S128_S1x128_1 : (⟨S128, .f32⟩ : BufTy).Contents (Elt F) → (⟨S1x128, .f32⟩ : BufTy).Contents (Elt F)),
    StableHlo.unary main_v161 main_v162 (broadcastInDim S100000x128 ![0, 1] bcast_S1x128_S100000x128_0_1 : (⟨S1x128, .f32⟩ : BufTy).Contents (Elt F) → (⟨S100000x128, .f32⟩ : BufTy).Contents (Elt F)),
    StableHlo.binary main_v158 main_v162 main_v163 (addf : (⟨S100000x128, .f32⟩ : BufTy).Contents (Elt F) → (⟨S100000x128, .f32⟩ : BufTy).Contents (Elt F) → (⟨S100000x128, .f32⟩ : BufTy).Contents (Elt F)),
    StableHlo.nullary main_cst_24 (constant S_ .f32 0x00000000#32),
    StableHlo.unary main_cst_24 main_v164 (broadcastInDim S512x128 ![] bcast_S_S512x128 : (⟨S_, .f32⟩ : BufTy).Contents (Elt F) → (⟨S512x128, .f32⟩ : BufTy).Contents (Elt F)),
    StableHlo.unary main_arg2 main_v165 (broadcastInDim S100000x1 ![0] bcast_S100000_S100000x1_0 : (⟨S100000, .i32⟩ : BufTy).Contents (Elt F) → (⟨S100000x1, .i32⟩ : BufTy).Contents (Elt F)),
    StableHlo.ternary main_v164 main_v165 main_v57 main_v166 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_25 (constant S_ .f32 0x00000000#32),
    StableHlo.unary main_cst_25 main_v167 (broadcastInDim S512x128 ![] bcast_S_S512x128 : (⟨S_, .f32⟩ : BufTy).Contents (Elt F) → (⟨S512x128, .f32⟩ : BufTy).Contents (Elt F)),
    StableHlo.unary main_arg2 main_v168 (broadcastInDim S100000x1 ![0] bcast_S100000_S100000x1_0 : (⟨S100000, .i32⟩ : BufTy).Contents (Elt F) → (⟨S100000x1, .i32⟩ : BufTy).Contents (Elt F)),
    StableHlo.ternary main_v167 main_v168 main_v111 main_v169 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nullary main_cst_26 (constant S_ .f32 0x00000000#32),
    StableHlo.unary main_cst_26 main_v170 (broadcastInDim S512x128 ![] bcast_S_S512x128 : (⟨S_, .f32⟩ : BufTy).Contents (Elt F) → (⟨S512x128, .f32⟩ : BufTy).Contents (Elt F)),
    StableHlo.unary main_arg2 main_v171 (broadcastInDim S100000x1 ![0] bcast_S100000_S100000x1_0 : (⟨S100000, .i32⟩ : BufTy).Contents (Elt F) → (⟨S100000x1, .i32⟩ : BufTy).Contents (Elt F)),
    StableHlo.ternary main_v170 main_v171 main_v163 main_v172 ((fun x i u => Host.scatterAdd scatter_S512x128_S100000x1_S100000x128_1_0_0_1 x i u) : (⟨S512x128, .f32⟩ : BufTy).Contents (Elt F) → (⟨S100000x1, .i32⟩ : BufTy).Contents (Elt F) → (⟨S100000x128, .f32⟩ : BufTy).Contents (Elt F) → (⟨S512x128, .f32⟩ : BufTy).Contents (Elt F)),
    StableHlo.nary ![main_v57, main_v111, main_v163] main_v173 (fun u => concatenate S100000x384 1 [⟨S100000x128, u 0⟩, ⟨S100000x128, u 1⟩, ⟨S100000x128, u 2⟩] concatenates_S100000x128_S100000x128_S100000x128_S100000x384_d1),
    StableHlo.nary ![main_v166, main_v169, main_v172] main_v174 (fun u => concatenate S512x384 1 [⟨S512x128, u 0⟩, ⟨S512x128, u 1⟩, ⟨S512x128, u 2⟩] concatenates_S512x128_S512x128_S512x128_S512x384_d1) ]

set_option maxRecDepth 8192 in
theorem ops0_sub : (ops0 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub ..⟩

/-- The buffers the first stretch writes. -/
abbrev ops0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18, main_v19, main_v20, main_v21, main_v22, main_cst_1, main_v23, main_v24, main_v25, main_v26, main_v27, main_v28, main_v29, main_v30, main_v31, main_v32, main_cst_2, main_v33, main_cst_3, main_v34, main_v35, main_c_4, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v36, main_v37, main_v38, main_v39, main_v40, main_v41, main_v42, main_v43, main_v44, main_cst_5, main_v45, main_v46, main_v47, main_v48, main_v49, main_v50, main_v51]

set_option maxRecDepth 8192 in
theorem ops0_writes : (ops0 : List (HloOp τ sig (Elt F))).Forall fun op => op.writes ⊆ (ops0_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

set_option maxRecDepth 8192 in
theorem ops1_sub : (ops1 : List (HloOp τ sig (Elt F))).Forall fun op => op.bufs ⊆ tcRefs τ sig :=
  ⟨reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub .., binary_bufs_sub .., unary_bufs_sub .., unary_bufs_sub ..⟩

/-- The buffers the second stretch writes. -/
abbrev ops1_W : List (Ref sig .tc) := [main_v52, main_v53, main_v54, main_v55, main_cst_6, main_v56, main_v57, main_c_7, main_v58, main_v59, main_c_8, main_v60, main_v61, main_v62, main_v63, main_v64, main_cst_9, main_v65, main_v66, main_v67, main_v68, main_v69, main_v70, main_v71, main_v72, main_v73, main_v74, main_v75, main_v76, main_cst_10, main_v77, main_v78, main_v79, main_v80, main_v81, main_v82, main_v83, main_v84, main_v85, main_v86, main_cst_11, main_v87, main_cst_12, main_v88, main_v89, main_c_13, main_call1_cst, main_call1_v0, main_call1_v1, main_call1_cst_0, main_call1_v2, main_call1_v3, main_call1_v4, main_call1_v5, main_call1_v6, main_call1_v7, main_call1_cst_1, main_call1_v8, main_call1_cst_2, main_call1_v9, main_call1_v10, main_call1_v11, main_call1_cst_3, main_call1_v12, main_call1_cst_4, main_call1_call0_v0, main_call1_call0_v1, main_v90, main_v91, main_v92, main_v93, main_v94, main_v95, main_v96, main_v97, main_v98, main_cst_14, main_v99, main_v100, main_v101, main_v102]

set_option maxRecDepth 8192 in
theorem ops1_writes : (ops1 : List (HloOp τ sig (Elt F))).Forall fun op => op.writes ⊆ (ops1_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

set_option maxRecDepth 8192 in
theorem ops2_sub : (ops2 : List (HloOp τ sig (Elt F))).Forall fun op => op.bufs ⊆ tcRefs τ sig :=
  ⟨unary_bufs_sub .., binary_bufs_sub .., unary_bufs_sub .., reshape_bufs_sub .., unary_bufs_sub .., unary_bufs_sub .., binary_bufs_sub .., nullary_bufs_sub .., unary_bufs_sub .., binary_bufs_sub .., nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., reshape_bufs_sub .., unary_bufs_sub .., unary_bufs_sub .., binary_bufs_sub .., unary_bufs_sub .., unary_bufs_sub .., binary_bufs_sub .., nullary_bufs_sub .., unary_bufs_sub ..⟩

/-- The buffers the third stretch writes. -/
abbrev ops2_W : List (Ref sig .tc) := [main_v103, main_v104, main_v105, main_v106, main_v107, main_v108, main_v109, main_cst_15, main_v110, main_v111, main_c_16, main_v112, main_v113, main_c_17, main_v114, main_v115, main_v116, main_v117, main_v118, main_cst_18, main_v119, main_v120, main_v121, main_v122, main_v123, main_v124, main_v125, main_v126, main_v127, main_v128, main_v129, main_v130, main_cst_19, main_v131, main_v132, main_v133, main_v134, main_v135, main_v136, main_v137, main_v138, main_v139, main_v140, main_cst_20, main_v141, main_cst_21, main_v142, main_v143, main_c_22, main_call2_cst, main_call2_v0, main_call2_v1, main_call2_cst_0, main_call2_v2, main_call2_v3, main_call2_v4, main_call2_v5, main_call2_v6, main_call2_v7, main_call2_cst_1, main_call2_v8, main_call2_cst_2, main_call2_v9, main_call2_v10, main_call2_v11, main_call2_cst_3, main_call2_v12, main_call2_cst_4, main_call2_call0_v0, main_call2_call0_v1, main_v144, main_v145, main_v146, main_v147, main_v148, main_v149, main_v150, main_v151, main_v152, main_cst_23, main_v153]

set_option maxRecDepth 8192 in
theorem ops2_writes : (ops2 : List (HloOp τ sig (Elt F))).Forall fun op => op.writes ⊆ (ops2_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

set_option maxRecDepth 8192 in
theorem ops3_sub : (ops3 : List (HloOp τ sig (Elt F))).Forall fun op => op.bufs ⊆ tcRefs τ sig :=
  ⟨binary_bufs_sub .., unary_bufs_sub .., unary_bufs_sub .., unary_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., unary_bufs_sub .., ternary_bufs_sub .., nullary_bufs_sub .., unary_bufs_sub .., unary_bufs_sub .., ternary_bufs_sub .., nary_bufs_sub .., nary_bufs_sub ..⟩

/-- The buffers the fourth stretch writes. -/
abbrev ops3_W : List (Ref sig .tc) := [main_v154, main_v155, main_v156, main_v157, main_v158, main_v159, main_v160, main_v161, main_v162, main_v163, main_cst_24, main_v164, main_v165, main_v166, main_cst_25, main_v167, main_v168, main_v169, main_cst_26, main_v170, main_v171, main_v172, main_v173, main_v174]

set_option maxRecDepth 8192 in
theorem ops3_writes : (ops3 : List (HloOp τ sig (Elt F))).Forall fun op => op.writes ⊆ (ops3_W.map (Proc.devRef (τ := τ) .tc)).toFinset := by
  simp only [List.Forall]
  exact ⟨by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide),
    by simp only [nullary_writes, unary_writes, binary_writes, ternary_writes, reshape_writes, nary_writes, Finset.singleton_subset_iff, List.mem_toFinset]; exact List.mem_map_of_mem (by decide)⟩

end Cert.ReferenceIdeal.Hand

end
-- ==== Proof.Ref.MainEq.lean ====
/-
  @main is the straight line of the four lists of operations one after the other, and so every weakly fair
  execution of it ends with each buffer holding what the operations, in order, leave in it.
-/
import proofs.«125359_j15118284882190_1_alg».proof.Proof.Ref.Ops
import Idealize.ShloMosaic.Lib.Pipeline.Frame

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- @main's operations, in order: the four stretches joined. -/
abbrev ops : List (HloOp τ sig (Elt F)) := ops0 ++ (ops1 ++ (ops2 ++ ops3))

set_option maxRecDepth 8192 in
set_option maxHeartbeats 4000000 in
/-- The first stretch is the straight line of its operations: the outlined functions' definitions unfolded at the
    call, sequencing reassociated. -/
theorem main_part0_eq (c : Dev nD) : main_part0 (F := F) c = seq ops0 := by
  simp only [main_part0, fn_var.body, fn_where.body, seq, bind_assoc, pure_bind]
  rfl

set_option maxRecDepth 8192 in
set_option maxHeartbeats 4000000 in
theorem main_part1_eq (c : Dev nD) : main_part1 (F := F) c = seq ops1 := by
  simp only [main_part1, fn_var.body, fn_where.body, seq, bind_assoc, pure_bind]
  rfl

set_option maxRecDepth 8192 in
set_option maxHeartbeats 4000000 in
theorem main_part2_eq (c : Dev nD) : main_part2 (F := F) c = seq ops2 := by
  simp only [main_part2, fn_var.body, fn_where.body, seq, bind_assoc, pure_bind]
  rfl

set_option maxRecDepth 8192 in
theorem main_part3_eq (c : Dev nD) : main_part3 (F := F) c = seq ops3 := rfl

set_option maxRecDepth 8192 in
theorem main_eq (c : Dev nD) : main (F := F) c = seq ops := by
  simp only [ops, seq_append, ← main_part0_eq c, ← main_part1_eq c, ← main_part2_eq c, ← main_part3_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  List.forall_iff_forall_mem.mpr fun op h => by
    simp only [ops, List.mem_append] at h
    rcases h with h | h | h | h
    exacts [List.forall_iff_forall_mem.mp ops0_sub op h, List.forall_iff_forall_mem.mp ops1_sub op h,
      List.forall_iff_forall_mem.mp ops2_sub op h, List.forall_iff_forall_mem.mp ops3_sub op h]

set_option maxRecDepth 100000 in
set_option maxHeartbeats 4000000 in
/-- On every device, from any memory with zero counters: every weakly fair execution of @main terminates, and
    every buffer ends at what the operations, in order, leave in it. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after ops (launchContents m c) (b : DevRef τ sig) :=
  run_seq scopedRefs_eq scopedSems_eq defs main (fun _ => ops) main_eq (fun _ => ops_sub) m ρ

end Cert.ReferenceIdeal.Hand

end
-- ==== Proof.Ref.Fun.lean ====
/-
  The reference as plain functions of its nine argument arrays.

  One round of the network is: aggregate each node with the sum of its in-neighbours' rows (a gather along the
  edges' sources, a scatter-add at their targets), a two-layer perceptron with a rectifier between the layers,
  then a normalisation of every column by that column's mean and variance over all rows, an affine map, and —
  except in the last round — a rectifier.  The result stacks the three rounds' outputs side by side, and with
  them their sums over the nodes of each graph.
-/
import proofs.«125359_j15118284882190_1_alg».proof.Proof.Gen.ReferenceIdeal

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-! ## The edge table -/

/-- Row 0 of the edge table: each edge's source node. -/
def src (e : IVec S2x1600000 32) : IVec S1600000 32 :=
  shapeCast S1600000 (extractStridedSlice S1x1600000 ![0, 0] e slices_S2x1600000_S1x1600000_0_0) shapeCasts_S1x1600000_S1600000

/-- Row 1 of the edge table: each edge's target node. -/
def dst (e : IVec S2x1600000 32) : IVec S1600000 32 :=
  shapeCast S1600000 (extractStridedSlice S1x1600000 ![1, 0] e slices_S2x1600000_S1x1600000_1_0) shapeCasts_S1x1600000_S1600000

/-- A negative index counts from the end: it is moved up by the number of nodes. -/
def wrap (s : IVec S1600000 32) : IVec S1600000 32 :=
  select (cmpi .slt s (broadcastInDim S1600000 ![] bcast_S_S1600000 (constantI S_ 32 0#32)))
    (addi s (broadcastInDim S1600000 ![] bcast_S_S1600000 (constantI S_ 32 100000#32))) s

/-! ## Pieces of one round -/

/-- The all-zero node table. -/
def zeros : FVec F S100000x128 .f32 :=
  broadcastInDim S100000x128 ![] bcast_S_S100000x128 (constant S_ .f32 0x00000000#32)

/-- A vector of 128 as a single row. -/
def row1 (v : FVec F S128 .f32) : FVec F S1x128 .f32 := broadcastInDim S1x128 ![1] bcast_S128_S1x128_1 v

/-- A vector of 128 repeated on every row of the node table. -/
def rowB (v : FVec F S128 .f32) : FVec F S100000x128 .f32 :=
  broadcastInDim S100000x128 ![0, 1] bcast_S1x128_S100000x128_0_1 (row1 v)

/-- Each node's row plus the sum of the rows of the sources of the edges that end at it. -/
def agg (z : FVec F S100000x128 .f32) (s d : IVec S1600000 32) : FVec F S100000x128 .f32 :=
  addf z
    (Host.scatterAdd scatter_S100000x128_S1600000x1_S1600000x128_1_0_0_1 zeros
      (broadcastInDim S1600000x1 ![0] bcast_S1600000_S1600000x1_0 d)
      (Host.gather gather_S100000x128_S1600000x1_S1600000x128_1_0_n_n_0_1_1128 z
        (broadcastInDim S1600000x1 ![0] bcast_S1600000_S1600000x1_0 (wrap s))))

/-- The rectifier: the larger of the entry and zero. -/
def relu (x : FVec F S100000x128 .f32) : FVec F S100000x128 .f32 := maximumf x zeros

/-- The two-layer perceptron, row by row. -/
def mlp (a : FVec F S100000x128 .f32) (W1 : FVec F S128x128 .f32) (b1 : FVec F S128 .f32)
    (W2 : FVec F S128x128 .f32) (b2 : FVec F S128 .f32) : FVec F S100000x128 .f32 :=
  addf (Host.dotGeneral dot_S100000x128_S128x128_S100000x128_1_0_0_1_n_n none
      (relu (addf (Host.dotGeneral dot_S100000x128_S128x128_S100000x128_1_0_0_1_n_n none a W1) (rowB b1))) W2)
    (rowB b2)

/-- The sum of every column over all rows. -/
def colSum (h : FVec F S100000x128 .f32) : FVec F S128 .f32 :=
  Host.reduceAdd h (constant S_ .f32 0x00000000#32 : FVec F S_ .f32) reducesTo_S100000x128_S128_d0 h_S_

/-- Every column's mean over all rows. -/
def mean (h : FVec F S100000x128 .f32) : FVec F S128 .f32 :=
  Host.divf (colSum h) (broadcastInDim S128 ![] bcast_S_S128 (constant S_ .f32 0x47C35000#32))

/-- The number of rows less the correction (zero) of the variance, as the outlined function computes it. -/
def varCount : FVec F S_ .f32 :=
  subf (constant S_ .f32 0x47C35000#32) (sitofp .f32 (constantI S_ 32 0#32))

/-- The deviations from the column means, the means computed as the outlined variance does. -/
def dev (h : FVec F S100000x128 .f32) : FVec F S100000x128 .f32 :=
  subf h (broadcastInDim S100000x128 ![0, 1] bcast_S1x128_S100000x128_0_1
    (Host.divf (broadcastInDim S1x128 ![1] bcast_S128_S1x128_1 (colSum h))
      (broadcastInDim S1x128 ![] bcast_S_S1x128 (constant S_ .f32 0x47C35000#32))))

/-- Every column's variance over all rows, as the outlined function computes it: the mean of the squared
    deviations where the count is positive, and the stated not-a-number otherwise. -/
def var (h : FVec F S100000x128 .f32) : FVec F S128 .f32 :=
  select (broadcastInDim S128 ![] bcast_S_S128 (cmpf .ogt (varCount (F := F)) (constant S_ .f32 0x00000000#32)))
    (Host.divf (colSum (mulf (dev h) (dev h))) (broadcastInDim S128 ![] bcast_S_S128 (varCount (F := F))))
    (broadcastInDim S128 ![] bcast_S_S128 (id (constant S_ .f32 0x7FC00000#32 : FVec F S_ .f32)))

/-- The small constant added to the variance, on every column. -/
def epsV : FVec F S128 .f32 := broadcastInDim S128 ![] bcast_S_S128 (constant S_ .f32 0x3727C5AC#32)

/-- The deviations from the column means, scaled column by column. -/
def cen (h : FVec F S100000x128 .f32) (g : FVec F S128 .f32) : FVec F S100000x128 .f32 :=
  mulf (rowB g) (subf h (rowB (mean h)))

/-- One over the square root of the variance plus the small constant, column by column. -/
def istd (h : FVec F S100000x128 .f32) : FVec F S128 .f32 := Host.rsqrt (addf (var h) epsV)

/-- The normalisation of every column, then the affine map. -/
def bn (h : FVec F S100000x128 .f32) (g b : FVec F S128 .f32) : FVec F S100000x128 .f32 :=
  addf (mulf (cen h g) (rowB (istd h))) (rowB b)

/-! ## The parameters of round `k` -/

/-- Slab 0, 1, 2 of a stack of three matrices. -/
def mat0 (w : FVec F S3x128x128 .f32) : FVec F S128x128 .f32 :=
  shapeCast S128x128 (extractStridedSlice S1x128x128 ![0, 0, 0] w slices_S3x128x128_S1x128x128_0_0_0) shapeCasts_S1x128x128_S128x128
@[inherit_doc mat0] def mat1 (w : FVec F S3x128x128 .f32) : FVec F S128x128 .f32 :=
  shapeCast S128x128 (extractStridedSlice S1x128x128 ![1, 0, 0] w slices_S3x128x128_S1x128x128_1_0_0) shapeCasts_S1x128x128_S128x128
@[inherit_doc mat0] def mat2 (w : FVec F S3x128x128 .f32) : FVec F S128x128 .f32 :=
  shapeCast S128x128 (extractStridedSlice S1x128x128 ![2, 0, 0] w slices_S3x128x128_S1x128x128_2_0_0) shapeCasts_S1x128x128_S128x128

/-- Row 0, 1, 2 of a stack of three vectors, still as a one-row table. -/
def sl0 (v : FVec F S3x128 .f32) : FVec F S1x128 .f32 := extractStridedSlice S1x128 ![0, 0] v slices_S3x128_S1x128_0_0
@[inherit_doc sl0] def sl1 (v : FVec F S3x128 .f32) : FVec F S1x128 .f32 := extractStridedSlice S1x128 ![1, 0] v slices_S3x128_S1x128_1_0
@[inherit_doc sl0] def sl2 (v : FVec F S3x128 .f32) : FVec F S1x128 .f32 := extractStridedSlice S1x128 ![2, 0] v slices_S3x128_S1x128_2_0

/-- A one-row table as a vector. -/
def flat (v : FVec F S1x128 .f32) : FVec F S128 .f32 := shapeCast S128 v shapeCasts_S1x128_S128

/-- Row 0, 1, 2 of a stack of three vectors. -/
def vec0 (v : FVec F S3x128 .f32) : FVec F S128 .f32 := flat (sl0 v)
@[inherit_doc vec0] def vec1 (v : FVec F S3x128 .f32) : FVec F S128 .f32 := flat (sl1 v)
@[inherit_doc vec0] def vec2 (v : FVec F S3x128 .f32) : FVec F S128 .f32 := flat (sl2 v)

/-! ## The three rounds -/

section Rounds

variable (a0 : FVec F S100000x128 .f32) (a1 : IVec S2x1600000 32) (a3 : FVec F S3x128x128 .f32) (a4 : FVec F S3x128 .f32)
  (a5 : FVec F S3x128x128 .f32) (a6 : FVec F S3x128 .f32) (a7 a8 : FVec F S3x128 .f32)

/-- Round 1 before its normalisation. -/
def hpre1 : FVec F S100000x128 .f32 := mlp (agg a0 (src a1) (dst a1)) (mat0 a3) (vec0 a4) (mat0 a5) (vec0 a6)
/-- Round 1. -/
def h1 : FVec F S100000x128 .f32 := relu (bn (hpre1 a0 a1 a3 a4 a5 a6) (vec0 a7) (vec0 a8))
/-- Round 2 before its normalisation. -/
def hpre2 : FVec F S100000x128 .f32 :=
  mlp (agg (h1 a0 a1 a3 a4 a5 a6 a7 a8) (src a1) (dst a1)) (mat1 a3) (vec1 a4) (mat1 a5) (vec1 a6)
/-- Round 2. -/
def h2 : FVec F S100000x128 .f32 := relu (bn (hpre2 a0 a1 a3 a4 a5 a6 a7 a8) (vec1 a7) (vec1 a8))
/-- Round 3 before its normalisation. -/
def hpre3 : FVec F S100000x128 .f32 :=
  mlp (agg (h2 a0 a1 a3 a4 a5 a6 a7 a8) (src a1) (dst a1)) (mat2 a3) (vec2 a4) (mat2 a5) (vec2 a6)
/-- Round 3: no rectifier after the last normalisation. -/
def h3 : FVec F S100000x128 .f32 := bn (hpre3 a0 a1 a3 a4 a5 a6 a7 a8) (vec2 a7) (vec2 a8)

end Rounds

/-! ## The results -/

/-- The sum of the rows of each graph's nodes. -/
def pool (h : FVec F S100000x128 .f32) (batch : IVec S100000 32) : FVec F S512x128 .f32 :=
  Host.scatterAdd scatter_S512x128_S100000x1_S100000x128_1_0_0_1
    (broadcastInDim S512x128 ![] bcast_S_S512x128 (constant S_ .f32 0x00000000#32))
    (broadcastInDim S100000x1 ![0] bcast_S100000_S100000x1_0 batch) h

/-- Three node tables side by side. -/
def cat3 (x y z : FVec F S100000x128 .f32) : FVec F S100000x384 .f32 :=
  concatenate S100000x384 1 [⟨S100000x128, x⟩, ⟨S100000x128, y⟩, ⟨S100000x128, z⟩]
    concatenates_S100000x128_S100000x128_S100000x128_S100000x384_d1

/-- Three graph tables side by side. -/
def cat3g (x y z : FVec F S512x128 .f32) : FVec F S512x384 .f32 :=
  concatenate S512x384 1 [⟨S512x128, x⟩, ⟨S512x128, y⟩, ⟨S512x128, z⟩]
    concatenates_S512x128_S512x128_S512x128_S512x384_d1

/-- The first result: the three rounds' node tables side by side. -/
def out0 (a0 : FVec F S100000x128 .f32) (a1 : IVec S2x1600000 32) (a2 : IVec S100000 32) (a3 : FVec F S3x128x128 .f32)
    (a4 : FVec F S3x128 .f32) (a5 : FVec F S3x128x128 .f32) (a6 a7 a8 : FVec F S3x128 .f32) : FVec F S100000x384 .f32 :=
  cat3 (h1 a0 a1 a3 a4 a5 a6 a7 a8) (h2 a0 a1 a3 a4 a5 a6 a7 a8) (h3 a0 a1 a3 a4 a5 a6 a7 a8)

/-- The second result: the three rounds' per-graph sums side by side. -/
def out1 (a0 : FVec F S100000x128 .f32) (a1 : IVec S2x1600000 32) (a2 : IVec S100000 32) (a3 : FVec F S3x128x128 .f32)
    (a4 : FVec F S3x128 .f32) (a5 : FVec F S3x128x128 .f32) (a6 a7 a8 : FVec F S3x128 .f32) : FVec F S512x384 .f32 :=
  cat3g (pool (h1 a0 a1 a3 a4 a5 a6 a7 a8) a2) (pool (h2 a0 a1 a3 a4 a5 a6 a7 a8) a2) (pool (h3 a0 a1 a3 a4 a5 a6 a7 a8) a2)

end Cert.ReferenceIdeal.Hand

end
-- ==== Proof.Ref.Val1.lean ====
/-
  What the buffers hold after the first stretch of @main, from any contents: the edge table's two rows, and the
  first round up to its scaled, normalised deviations.
-/
import proofs.«125359_j15118284882190_1_alg».proof.Proof.Ref.Ops
import proofs.«125359_j15118284882190_1_alg».proof.Proof.Ref.Fun

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable (V0 : Valuation τ sig (Elt F))

/-- The nine argument arrays in the contents `V0`. -/
abbrev A0 : FVec F S100000x128 .f32 := V0 (Proc.devRef .tc main_arg0)
@[inherit_doc A0] abbrev A1 : IVec S2x1600000 32 := V0 (Proc.devRef .tc main_arg1)
@[inherit_doc A0] abbrev A2 : IVec S100000 32 := V0 (Proc.devRef .tc main_arg2)
@[inherit_doc A0] abbrev A3 : FVec F S3x128x128 .f32 := V0 (Proc.devRef .tc main_arg3)
@[inherit_doc A0] abbrev A4 : FVec F S3x128 .f32 := V0 (Proc.devRef .tc main_arg4)
@[inherit_doc A0] abbrev A5 : FVec F S3x128x128 .f32 := V0 (Proc.devRef .tc main_arg5)
@[inherit_doc A0] abbrev A6 : FVec F S3x128 .f32 := V0 (Proc.devRef .tc main_arg6)
@[inherit_doc A0] abbrev A7 : FVec F S3x128 .f32 := V0 (Proc.devRef .tc main_arg7)
@[inherit_doc A0] abbrev A8 : FVec F S3x128 .f32 := V0 (Proc.devRef .tc main_arg8)

/-- The rounds at the contents' argument arrays. -/
abbrev HP1 : FVec F S100000x128 .f32 := hpre1 (A0 V0) (A1 V0) (A3 V0) (A4 V0) (A5 V0) (A6 V0)
@[inherit_doc HP1] abbrev H1 : FVec F S100000x128 .f32 := h1 (A0 V0) (A1 V0) (A3 V0) (A4 V0) (A5 V0) (A6 V0) (A7 V0) (A8 V0)
@[inherit_doc HP1] abbrev HP2 : FVec F S100000x128 .f32 := hpre2 (A0 V0) (A1 V0) (A3 V0) (A4 V0) (A5 V0) (A6 V0) (A7 V0) (A8 V0)
@[inherit_doc HP1] abbrev H2 : FVec F S100000x128 .f32 := h2 (A0 V0) (A1 V0) (A3 V0) (A4 V0) (A5 V0) (A6 V0) (A7 V0) (A8 V0)
@[inherit_doc HP1] abbrev HP3 : FVec F S100000x128 .f32 := hpre3 (A0 V0) (A1 V0) (A3 V0) (A4 V0) (A5 V0) (A6 V0) (A7 V0) (A8 V0)
@[inherit_doc HP1] abbrev H3 : FVec F S100000x128 .f32 := h3 (A0 V0) (A1 V0) (A3 V0) (A4 V0) (A5 V0) (A6 V0) (A7 V0) (A8 V0)

/-- The buffers' contents after the first stretch. -/
def val1 : Valuation τ sig (Elt F) := after ops0 V0

/-- A buffer the first stretch does not write keeps its contents. -/
theorem val1_keep (r : Ref sig .tc) (h : r ∉ ops0_W) : val1 V0 (Proc.devRef .tc r) = V0 (Proc.devRef .tc r) :=
  after_of_writes_sub ops0 _ ops0_writes h

theorem val1_main_arg0 : val1 V0 (no_index (Proc.devRef .tc main_arg0)) = V0 (Proc.devRef .tc main_arg0) :=
  (val1_keep V0 main_arg0 (by decide)).trans rfl
theorem val1_main_arg1 : val1 V0 (no_index (Proc.devRef .tc main_arg1)) = V0 (Proc.devRef .tc main_arg1) :=
  (val1_keep V0 main_arg1 (by decide)).trans rfl
theorem val1_main_arg2 : val1 V0 (no_index (Proc.devRef .tc main_arg2)) = V0 (Proc.devRef .tc main_arg2) :=
  (val1_keep V0 main_arg2 (by decide)).trans rfl
theorem val1_main_arg3 : val1 V0 (no_index (Proc.devRef .tc main_arg3)) = V0 (Proc.devRef .tc main_arg3) :=
  (val1_keep V0 main_arg3 (by decide)).trans rfl
theorem val1_main_arg4 : val1 V0 (no_index (Proc.devRef .tc main_arg4)) = V0 (Proc.devRef .tc main_arg4) :=
  (val1_keep V0 main_arg4 (by decide)).trans rfl
theorem val1_main_arg5 : val1 V0 (no_index (Proc.devRef .tc main_arg5)) = V0 (Proc.devRef .tc main_arg5) :=
  (val1_keep V0 main_arg5 (by decide)).trans rfl
theorem val1_main_arg6 : val1 V0 (no_index (Proc.devRef .tc main_arg6)) = V0 (Proc.devRef .tc main_arg6) :=
  (val1_keep V0 main_arg6 (by decide)).trans rfl
theorem val1_main_arg7 : val1 V0 (no_index (Proc.devRef .tc main_arg7)) = V0 (Proc.devRef .tc main_arg7) :=
  (val1_keep V0 main_arg7 (by decide)).trans rfl
theorem val1_main_arg8 : val1 V0 (no_index (Proc.devRef .tc main_arg8)) = V0 (Proc.devRef .tc main_arg8) :=
  (val1_keep V0 main_arg8 (by decide)).trans rfl

set_option maxRecDepth 8192 in
theorem val1_main_v1 : val1 V0 (no_index (Proc.devRef .tc main_v1)) = src (A1 V0) := by
  unfold val1
  simp only [ops0]
  after_results_simp
  all_goals rfl

set_option maxRecDepth 8192 in
theorem val1_main_v3 : val1 V0 (no_index (Proc.devRef .tc main_v3)) = dst (A1 V0) := by
  unfold val1
  simp only [ops0]
  after_results_simp
  all_goals rfl

set_option maxRecDepth 8192 in
theorem val1_main_v51 : val1 V0 (no_index (Proc.devRef .tc main_v51)) = sl0 (A8 V0) := by
  unfold val1
  simp only [ops0]
  after_results_simp
  all_goals rfl

set_option maxRecDepth 8192 in
set_option maxHeartbeats 2000000 in
theorem val1_main_v50 : val1 V0 (no_index (Proc.devRef .tc main_v50))
    = mulf (cen (HP1 V0) (vec0 (A7 V0))) (rowB (istd (HP1 V0))) := by
  unfold val1
  simp only [ops0]
  after_results_simp
  all_goals rfl

end

end Cert.ReferenceIdeal.Hand

end
-- ==== Proof.Ref.Val2.lean ====
/-
  What the buffers hold after the second stretch of @main: the first round, and the second round up to its scaled
  deviations and the row of its inverse standard deviations.
-/
import proofs.«125359_j15118284882190_1_alg».proof.Proof.Ref.Val1

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable (V0 : Valuation τ sig (Elt F))

/-- The buffers' contents after the second stretch. -/
def val2 : Valuation τ sig (Elt F) := after ops1 (val1 V0)

/-- A buffer the second stretch does not write keeps its contents. -/
theorem val2_keep (r : Ref sig .tc) (h : r ∉ ops1_W) : val2 V0 (Proc.devRef .tc r) = val1 V0 (Proc.devRef .tc r) :=
  after_of_writes_sub ops1 _ ops1_writes h

theorem val2_main_arg0 : val2 V0 (no_index (Proc.devRef .tc main_arg0)) = V0 (Proc.devRef .tc main_arg0) :=
  (val2_keep V0 main_arg0 (by decide)).trans (val1_main_arg0 V0)
theorem val2_main_arg1 : val2 V0 (no_index (Proc.devRef .tc main_arg1)) = V0 (Proc.devRef .tc main_arg1) :=
  (val2_keep V0 main_arg1 (by decide)).trans (val1_main_arg1 V0)
theorem val2_main_arg2 : val2 V0 (no_index (Proc.devRef .tc main_arg2)) = V0 (Proc.devRef .tc main_arg2) :=
  (val2_keep V0 main_arg2 (by decide)).trans (val1_main_arg2 V0)
theorem val2_main_arg3 : val2 V0 (no_index (Proc.devRef .tc main_arg3)) = V0 (Proc.devRef .tc main_arg3) :=
  (val2_keep V0 main_arg3 (by decide)).trans (val1_main_arg3 V0)
theorem val2_main_arg4 : val2 V0 (no_index (Proc.devRef .tc main_arg4)) = V0 (Proc.devRef .tc main_arg4) :=
  (val2_keep V0 main_arg4 (by decide)).trans (val1_main_arg4 V0)
theorem val2_main_arg5 : val2 V0 (no_index (Proc.devRef .tc main_arg5)) = V0 (Proc.devRef .tc main_arg5) :=
  (val2_keep V0 main_arg5 (by decide)).trans (val1_main_arg5 V0)
theorem val2_main_arg6 : val2 V0 (no_index (Proc.devRef .tc main_arg6)) = V0 (Proc.devRef .tc main_arg6) :=
  (val2_keep V0 main_arg6 (by decide)).trans (val1_main_arg6 V0)
theorem val2_main_arg7 : val2 V0 (no_index (Proc.devRef .tc main_arg7)) = V0 (Proc.devRef .tc main_arg7) :=
  (val2_keep V0 main_arg7 (by decide)).trans (val1_main_arg7 V0)
theorem val2_main_arg8 : val2 V0 (no_index (Proc.devRef .tc main_arg8)) = V0 (Proc.devRef .tc main_arg8) :=
  (val2_keep V0 main_arg8 (by decide)).trans (val1_main_arg8 V0)
theorem val2_main_v1 : val2 V0 (no_index (Proc.devRef .tc main_v1)) = src (A1 V0) :=
  (val2_keep V0 main_v1 (by decide)).trans (val1_main_v1 V0)
theorem val2_main_v3 : val2 V0 (no_index (Proc.devRef .tc main_v3)) = dst (A1 V0) :=
  (val2_keep V0 main_v3 (by decide)).trans (val1_main_v3 V0)

set_option maxRecDepth 8192 in
set_option maxHeartbeats 1000000 in
theorem val2_main_v57 : val2 V0 (no_index (Proc.devRef .tc main_v57)) = H1 V0 := by
  unfold val2
  simp only [ops1]
  after_results_simp
  simp only [val1_main_v50, val1_main_v51]
  all_goals rfl

set_option maxRecDepth 8192 in
set_option maxHeartbeats 2000000 in
theorem val2_main_v98 : val2 V0 (no_index (Proc.devRef .tc main_v98)) = cen (HP2 V0) (vec1 (A7 V0)) := by
  unfold val2
  simp only [ops1]
  after_results_simp
  simp only [val1_main_v50, val1_main_v51, val1_main_v1, val1_main_v3, val1_main_arg3, val1_main_arg4, val1_main_arg5, val1_main_arg6, val1_main_arg7]
  all_goals rfl

set_option maxRecDepth 8192 in
set_option maxHeartbeats 2000000 in
theorem val2_main_v102 : val2 V0 (no_index (Proc.devRef .tc main_v102)) = row1 (istd (HP2 V0)) := by
  unfold val2
  simp only [ops1]
  after_results_simp
  simp only [val1_main_v50, val1_main_v51, val1_main_v1, val1_main_v3, val1_main_arg3, val1_main_arg4, val1_main_arg5, val1_main_arg6]
  all_goals rfl

end

end Cert.ReferenceIdeal.Hand

end
-- ==== Proof.Ref.Val3.lean ====
/-
  What the buffers hold after the third stretch of @main: the first two rounds, and the third round's variance,
  scaled deviations and the small constant's row.
-/
import proofs.«125359_j15118284882190_1_alg».proof.Proof.Ref.Val2

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable (V0 : Valuation τ sig (Elt F))

/-- The buffers' contents after the third stretch. -/
def val3 : Valuation τ sig (Elt F) := after ops2 (val2 V0)

/-- A buffer the third stretch does not write keeps its contents. -/
theorem val3_keep (r : Ref sig .tc) (h : r ∉ ops2_W) : val3 V0 (Proc.devRef .tc r) = val2 V0 (Proc.devRef .tc r) :=
  after_of_writes_sub ops2 _ ops2_writes h

theorem val3_main_arg0 : val3 V0 (no_index (Proc.devRef .tc main_arg0)) = V0 (Proc.devRef .tc main_arg0) :=
  (val3_keep V0 main_arg0 (by decide)).trans (val2_main_arg0 V0)
theorem val3_main_arg1 : val3 V0 (no_index (Proc.devRef .tc main_arg1)) = V0 (Proc.devRef .tc main_arg1) :=
  (val3_keep V0 main_arg1 (by decide)).trans (val2_main_arg1 V0)
theorem val3_main_arg2 : val3 V0 (no_index (Proc.devRef .tc main_arg2)) = V0 (Proc.devRef .tc main_arg2) :=
  (val3_keep V0 main_arg2 (by decide)).trans (val2_main_arg2 V0)
theorem val3_main_arg3 : val3 V0 (no_index (Proc.devRef .tc main_arg3)) = V0 (Proc.devRef .tc main_arg3) :=
  (val3_keep V0 main_arg3 (by decide)).trans (val2_main_arg3 V0)
theorem val3_main_arg4 : val3 V0 (no_index (Proc.devRef .tc main_arg4)) = V0 (Proc.devRef .tc main_arg4) :=
  (val3_keep V0 main_arg4 (by decide)).trans (val2_main_arg4 V0)
theorem val3_main_arg5 : val3 V0 (no_index (Proc.devRef .tc main_arg5)) = V0 (Proc.devRef .tc main_arg5) :=
  (val3_keep V0 main_arg5 (by decide)).trans (val2_main_arg5 V0)
theorem val3_main_arg6 : val3 V0 (no_index (Proc.devRef .tc main_arg6)) = V0 (Proc.devRef .tc main_arg6) :=
  (val3_keep V0 main_arg6 (by decide)).trans (val2_main_arg6 V0)
theorem val3_main_arg7 : val3 V0 (no_index (Proc.devRef .tc main_arg7)) = V0 (Proc.devRef .tc main_arg7) :=
  (val3_keep V0 main_arg7 (by decide)).trans (val2_main_arg7 V0)
theorem val3_main_arg8 : val3 V0 (no_index (Proc.devRef .tc main_arg8)) = V0 (Proc.devRef .tc main_arg8) :=
  (val3_keep V0 main_arg8 (by decide)).trans (val2_main_arg8 V0)
theorem val3_main_v57 : val3 V0 (no_index (Proc.devRef .tc main_v57)) = H1 V0 :=
  (val3_keep V0 main_v57 (by decide)).trans (val2_main_v57 V0)

set_option maxRecDepth 8192 in
set_option maxHeartbeats 1000000 in
theorem val3_main_v111 : val3 V0 (no_index (Proc.devRef .tc main_v111)) = H2 V0 := by
  unfold val3
  simp only [ops2]
  after_results_simp
  simp only [val2_main_v98, val2_main_v102, val2_main_arg8]
  all_goals rfl

set_option maxRecDepth 8192 in
set_option maxHeartbeats 2000000 in
theorem val3_main_v144 : val3 V0 (no_index (Proc.devRef .tc main_v144)) = var (HP3 V0) := by
  unfold val3
  simp only [ops2]
  after_results_simp
  simp only [val2_main_v98, val2_main_v102, val2_main_v1, val2_main_v3, val2_main_arg3, val2_main_arg4, val2_main_arg5, val2_main_arg6, val2_main_arg8]
  all_goals rfl

set_option maxRecDepth 8192 in
set_option maxHeartbeats 2000000 in
theorem val3_main_v152 : val3 V0 (no_index (Proc.devRef .tc main_v152)) = cen (HP3 V0) (vec2 (A7 V0)) := by
  unfold val3
  simp only [ops2]
  after_results_simp
  simp only [val2_main_v98, val2_main_v102, val2_main_v1, val2_main_v3, val2_main_arg3, val2_main_arg4, val2_main_arg5, val2_main_arg6, val2_main_arg7, val2_main_arg8]
  all_goals rfl

set_option maxRecDepth 8192 in
theorem val3_main_v153 : val3 V0 (no_index (Proc.devRef .tc main_v153)) = epsV := by
  unfold val3
  simp only [ops2]
  after_results_simp
  all_goals rfl

end

end Cert.ReferenceIdeal.Hand

end
-- ==== Proof.Ref.Val4.lean ====
/-
  What the buffers hold after the last stretch of @main: the two results, as the plain functions of the argument
  arrays.
-/
import proofs.«125359_j15118284882190_1_alg».proof.Proof.Ref.Val3

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

section
variable (V0 : Valuation τ sig (Elt F))

/-- The buffers' contents after the fourth stretch. -/
def val4 : Valuation τ sig (Elt F) := after ops3 (val3 V0)

/-- A buffer the fourth stretch does not write keeps its contents. -/
theorem val4_keep (r : Ref sig .tc) (h : r ∉ ops3_W) : val4 V0 (Proc.devRef .tc r) = val3 V0 (Proc.devRef .tc r) :=
  after_of_writes_sub ops3 _ ops3_writes h

theorem val4_main_arg0 : val4 V0 (no_index (Proc.devRef .tc main_arg0)) = V0 (Proc.devRef .tc main_arg0) :=
  (val4_keep V0 main_arg0 (by decide)).trans (val3_main_arg0 V0)
theorem val4_main_arg1 : val4 V0 (no_index (Proc.devRef .tc main_arg1)) = V0 (Proc.devRef .tc main_arg1) :=
  (val4_keep V0 main_arg1 (by decide)).trans (val3_main_arg1 V0)
theorem val4_main_arg2 : val4 V0 (no_index (Proc.devRef .tc main_arg2)) = V0 (Proc.devRef .tc main_arg2) :=
  (val4_keep V0 main_arg2 (by decide)).trans (val3_main_arg2 V0)
theorem val4_main_arg3 : val4 V0 (no_index (Proc.devRef .tc main_arg3)) = V0 (Proc.devRef .tc main_arg3) :=
  (val4_keep V0 main_arg3 (by decide)).trans (val3_main_arg3 V0)
theorem val4_main_arg4 : val4 V0 (no_index (Proc.devRef .tc main_arg4)) = V0 (Proc.devRef .tc main_arg4) :=
  (val4_keep V0 main_arg4 (by decide)).trans (val3_main_arg4 V0)
theorem val4_main_arg5 : val4 V0 (no_index (Proc.devRef .tc main_arg5)) = V0 (Proc.devRef .tc main_arg5) :=
  (val4_keep V0 main_arg5 (by decide)).trans (val3_main_arg5 V0)
theorem val4_main_arg6 : val4 V0 (no_index (Proc.devRef .tc main_arg6)) = V0 (Proc.devRef .tc main_arg6) :=
  (val4_keep V0 main_arg6 (by decide)).trans (val3_main_arg6 V0)
theorem val4_main_arg7 : val4 V0 (no_index (Proc.devRef .tc main_arg7)) = V0 (Proc.devRef .tc main_arg7) :=
  (val4_keep V0 main_arg7 (by decide)).trans (val3_main_arg7 V0)
theorem val4_main_arg8 : val4 V0 (no_index (Proc.devRef .tc main_arg8)) = V0 (Proc.devRef .tc main_arg8) :=
  (val4_keep V0 main_arg8 (by decide)).trans (val3_main_arg8 V0)

set_option maxRecDepth 8192 in
set_option maxHeartbeats 1000000 in
theorem val4_main_v173 : val4 V0 (no_index (Proc.devRef .tc main_v173)) = out0 (A0 V0) (A1 V0) (A2 V0) (A3 V0) (A4 V0) (A5 V0) (A6 V0) (A7 V0) (A8 V0) := by
  unfold val4
  simp only [ops3]
  after_results_simp
  dsimp only [Matrix.cons_val]
  show cat3 _ _ _ = _
  after_results_simp
  simp only [val3_main_v57, val3_main_v111, val3_main_v144, val3_main_v152, val3_main_v153, val3_main_arg8]
  all_goals rfl

set_option maxRecDepth 8192 in
set_option maxHeartbeats 1000000 in
theorem val4_main_v174 : val4 V0 (no_index (Proc.devRef .tc main_v174)) = out1 (A0 V0) (A1 V0) (A2 V0) (A3 V0) (A4 V0) (A5 V0) (A6 V0) (A7 V0) (A8 V0) := by
  unfold val4
  simp only [ops3]
  after_results_simp
  dsimp only [Matrix.cons_val]
  show cat3g _ _ _ = _
  after_results_simp
  simp only [val3_main_v57, val3_main_v111, val3_main_v144, val3_main_v152, val3_main_v153, val3_main_arg8, val3_main_arg2]
  all_goals rfl

end

end Cert.ReferenceIdeal.Hand

end
-- ==== Proof.Ref.Run.lean ====
/-
  The reference's run: every weakly fair execution of @main terminates with the two results at the plain
  functions of the nine argument arrays, and the argument arrays unchanged.
-/
import proofs.«125359_j15118284882190_1_alg».proof.Proof.Ref.MainEq
import proofs.«125359_j15118284882190_1_alg».proof.Proof.Ref.Val4

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- What the buffers hold after all of @main's operations: after the four stretches, one after the other. -/
theorem after_ops (V0 : Valuation τ sig (Elt F)) : after ops V0 = val4 V0 := by
  simp only [ops, after_append]
  rfl

/-- On every device, for any float values, from any memory with zero counters: every weakly fair execution of
    @main terminates with each result at its plain function of the argument arrays, and the arguments unchanged. -/
theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v173) = out0 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_v174) = out1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨
      (h c main_v173).trans (by simp only [after_ops]; exact val4_main_v173 (launchContents m c)),
      (h c main_v174).trans (by simp only [after_ops]; exact val4_main_v174 (launchContents m c)),
      (h c main_arg0).trans (by simp only [after_ops]; exact val4_main_arg0 (launchContents m c)),
      (h c main_arg1).trans (by simp only [after_ops]; exact val4_main_arg1 (launchContents m c)),
      (h c main_arg2).trans (by simp only [after_ops]; exact val4_main_arg2 (launchContents m c)),
      (h c main_arg3).trans (by simp only [after_ops]; exact val4_main_arg3 (launchContents m c)),
      (h c main_arg4).trans (by simp only [after_ops]; exact val4_main_arg4 (launchContents m c)),
      (h c main_arg5).trans (by simp only [after_ops]; exact val4_main_arg5 (launchContents m c)),
      (h c main_arg6).trans (by simp only [after_ops]; exact val4_main_arg6 (launchContents m c)),
      (h c main_arg7).trans (by simp only [after_ops]; exact val4_main_arg7 (launchContents m c)),
      (h c main_arg8).trans (by simp only [after_ops]; exact val4_main_arg8 (launchContents m c))⟩)
    (run_main m ρ)

end Cert.ReferenceIdeal.Hand

end
-- ==== Proof.KI.Host.lean ====
import proofs.«125359_j15118284882190_1_alg».proof.Proof.Gen.KernelIdeal.Regions
import proofs.«125359_j15118284882190_1_alg».proof.Proof.Ref.Fun

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand (src dst wrap agg mat0 mat1 mat2 vec0 vec1 vec2 pool cat3 cat3g)

variable {F : FTy → Type} [FloatOps F]

-- the buffers' contents before a stretch of host operations: any
variable (Wp : Valuation τ sig (Elt F))

/-! ## The argument arrays -/

/-- The argument arrays in the contents `Wp`. -/
abbrev argA : FVec F S100000x128 .f32 := Wp (Proc.devRef .tc main_arg0)
@[inherit_doc argA] abbrev argB : IVec S2x1600000 32 := Wp (Proc.devRef .tc main_arg1)
@[inherit_doc argA] abbrev argC : IVec S100000 32 := Wp (Proc.devRef .tc main_arg2)
@[inherit_doc argA] abbrev argD : FVec F S3x128x128 .f32 := Wp (Proc.devRef .tc main_arg3)
@[inherit_doc argA] abbrev argE : FVec F S3x128 .f32 := Wp (Proc.devRef .tc main_arg4)
@[inherit_doc argA] abbrev argF : FVec F S3x128x128 .f32 := Wp (Proc.devRef .tc main_arg5)
@[inherit_doc argA] abbrev argG : FVec F S3x128 .f32 := Wp (Proc.devRef .tc main_arg6)
@[inherit_doc argA] abbrev argH : FVec F S3x128 .f32 := Wp (Proc.devRef .tc main_arg7)
@[inherit_doc argA] abbrev argI : FVec F S3x128 .f32 := Wp (Proc.devRef .tc main_arg8)

/-- A vector of 128 as the one-row table a kernel's window stages. -/
abbrev asRow (v : FVec F S128 .f32) : FVec F S1x128 .f32 := shapeCast S1x128 v shapeCasts_S128_S1x128

/-- The source and target node of every edge, as the first stretch leaves them for the later ones. -/
abbrev edgeS : IVec S1600000 32 := Wp (Proc.devRef .tc main_v1)
@[inherit_doc edgeS] abbrev edgeT : IVec S1600000 32 := Wp (Proc.devRef .tc main_v3)

/-! ## Stretch 0: the first round's aggregation and its parameters -/

theorem hostA_src : after hostOps0 Wp (no_index (Proc.devRef .tc main_v1)) = src (argB Wp) := by
  simp only [hostOps0]
  after_results_simp
  all_goals rfl

theorem hostA_dst : after hostOps0 Wp (no_index (Proc.devRef .tc main_v3)) = dst (argB Wp) := by
  simp only [hostOps0]
  after_results_simp
  all_goals rfl

set_option maxHeartbeats 2000000 in
theorem hostA_agg : after hostOps0 Wp (no_index (Proc.devRef .tc main_v14)) = agg (argA Wp) (src (argB Wp)) (dst (argB Wp)) := by
  simp only [hostOps0]
  after_results_simp
  all_goals rfl

theorem hostA_matP : after hostOps0 Wp (no_index (Proc.devRef .tc main_v16)) = mat0 (argD Wp) := by
  simp only [hostOps0]
  after_results_simp
  all_goals rfl

theorem hostA_matQ : after hostOps0 Wp (no_index (Proc.devRef .tc main_v20)) = mat0 (argF Wp) := by
  simp only [hostOps0]
  after_results_simp
  all_goals rfl

theorem hostA_biasP : after hostOps0 Wp (no_index (Proc.devRef .tc main_v23)) = asRow (vec0 (argE Wp)) := by
  simp only [hostOps0]
  after_results_simp
  all_goals rfl

theorem hostA_biasQ : after hostOps0 Wp (no_index (Proc.devRef .tc main_v24)) = asRow (vec0 (argG Wp)) := by
  simp only [hostOps0]
  after_results_simp
  all_goals rfl

/-! ## Stretch 2: the next round's aggregation and its parameters -/

set_option maxHeartbeats 2000000 in
theorem hostC_agg : after hostOps2 Wp (no_index (Proc.devRef .tc main_v55)) = agg (Wp (Proc.devRef .tc main_v44) : FVec F S100000x128 .f32) (edgeS Wp) (edgeT Wp) := by
  simp only [hostOps2]
  after_results_simp
  all_goals rfl

theorem hostC_matP : after hostOps2 Wp (no_index (Proc.devRef .tc main_v57)) = mat1 (argD Wp) := by
  simp only [hostOps2]
  after_results_simp
  all_goals rfl

theorem hostC_matQ : after hostOps2 Wp (no_index (Proc.devRef .tc main_v61)) = mat1 (argF Wp) := by
  simp only [hostOps2]
  after_results_simp
  all_goals rfl

theorem hostC_biasP : after hostOps2 Wp (no_index (Proc.devRef .tc main_v64)) = asRow (vec1 (argE Wp)) := by
  simp only [hostOps2]
  after_results_simp
  all_goals rfl

theorem hostC_biasQ : after hostOps2 Wp (no_index (Proc.devRef .tc main_v65)) = asRow (vec1 (argG Wp)) := by
  simp only [hostOps2]
  after_results_simp
  all_goals rfl

/-! ## Stretch 4: the next round's aggregation and its parameters -/

set_option maxHeartbeats 2000000 in
theorem hostE_agg : after hostOps4 Wp (no_index (Proc.devRef .tc main_v96)) = agg (Wp (Proc.devRef .tc main_v85) : FVec F S100000x128 .f32) (edgeS Wp) (edgeT Wp) := by
  simp only [hostOps4]
  after_results_simp
  all_goals rfl

theorem hostE_matP : after hostOps4 Wp (no_index (Proc.devRef .tc main_v98)) = mat2 (argD Wp) := by
  simp only [hostOps4]
  after_results_simp
  all_goals rfl

theorem hostE_matQ : after hostOps4 Wp (no_index (Proc.devRef .tc main_v102)) = mat2 (argF Wp) := by
  simp only [hostOps4]
  after_results_simp
  all_goals rfl

theorem hostE_biasP : after hostOps4 Wp (no_index (Proc.devRef .tc main_v105)) = asRow (vec2 (argE Wp)) := by
  simp only [hostOps4]
  after_results_simp
  all_goals rfl

theorem hostE_biasQ : after hostOps4 Wp (no_index (Proc.devRef .tc main_v106)) = asRow (vec2 (argG Wp)) := by
  simp only [hostOps4]
  after_results_simp
  all_goals rfl

/-! ## The column statistics from the sums a kernel leaves -/

/-- Row 0 of the [2,128] table of sums over the count: every column's mean. -/
def statMean (s : FVec F S2x128 .f32) : FVec F S128 .f32 :=
  Host.divf (shapeCast S128 (extractStridedSlice S1x128 ![0, 0] s slices_S2x128_S1x128_0_0) shapeCasts_S1x128_S128)
    (broadcastInDim S128 ![] bcast_S_S128 (constant S_ .f32 0x47C35000#32))

/-- Row 1 of the table over the count, less the squared mean: every column's variance as the mean of the squares less
    the squared mean. -/
def statVar (s : FVec F S2x128 .f32) : FVec F S128 .f32 :=
  subf (Host.divf (shapeCast S128 (extractStridedSlice S1x128 ![1, 0] s slices_S2x128_S1x128_1_0) shapeCasts_S1x128_S128)
      (broadcastInDim S128 ![] bcast_S_S128 (constant S_ .f32 0x47C35000#32)))
    (mulf (statMean s) (statMean s))

/-! ## Stretch 1: the statistics and the normalisation's parameters, as one-row tables -/

theorem hostB_mean : after hostOps1 Wp (no_index (Proc.devRef .tc main_v40)) = asRow (statMean (Wp (Proc.devRef .tc main_v25_1) : FVec F S2x128 .f32)) := by
  simp only [hostOps1]
  after_results_simp
  all_goals rfl

theorem hostB_var : after hostOps1 Wp (no_index (Proc.devRef .tc main_v41)) = asRow (statVar (Wp (Proc.devRef .tc main_v25_1) : FVec F S2x128 .f32)) := by
  simp only [hostOps1]
  after_results_simp
  all_goals rfl

theorem hostB_scale : after hostOps1 Wp (no_index (Proc.devRef .tc main_v42)) = asRow (vec0 (argH Wp)) := by
  simp only [hostOps1]
  after_results_simp
  all_goals rfl

theorem hostB_shift : after hostOps1 Wp (no_index (Proc.devRef .tc main_v43)) = asRow (vec0 (argI Wp)) := by
  simp only [hostOps1]
  after_results_simp
  all_goals rfl

/-! ## Stretch 3: the statistics and the normalisation's parameters, as one-row tables -/

theorem hostD_mean : after hostOps3 Wp (no_index (Proc.devRef .tc main_v81)) = asRow (statMean (Wp (Proc.devRef .tc main_v66_1) : FVec F S2x128 .f32)) := by
  simp only [hostOps3]
  after_results_simp
  all_goals rfl

theorem hostD_var : after hostOps3 Wp (no_index (Proc.devRef .tc main_v82)) = asRow (statVar (Wp (Proc.devRef .tc main_v66_1) : FVec F S2x128 .f32)) := by
  simp only [hostOps3]
  after_results_simp
  all_goals rfl

theorem hostD_scale : after hostOps3 Wp (no_index (Proc.devRef .tc main_v83)) = asRow (vec1 (argH Wp)) := by
  simp only [hostOps3]
  after_results_simp
  all_goals rfl

theorem hostD_shift : after hostOps3 Wp (no_index (Proc.devRef .tc main_v84)) = asRow (vec1 (argI Wp)) := by
  simp only [hostOps3]
  after_results_simp
  all_goals rfl

/-! ## Stretch 5: the statistics and the normalisation's parameters, as one-row tables -/

theorem hostF_mean : after hostOps5 Wp (no_index (Proc.devRef .tc main_v122)) = asRow (statMean (Wp (Proc.devRef .tc main_v107_1) : FVec F S2x128 .f32)) := by
  simp only [hostOps5]
  after_results_simp
  all_goals rfl

theorem hostF_var : after hostOps5 Wp (no_index (Proc.devRef .tc main_v123)) = asRow (statVar (Wp (Proc.devRef .tc main_v107_1) : FVec F S2x128 .f32)) := by
  simp only [hostOps5]
  after_results_simp
  all_goals rfl

theorem hostF_scale : after hostOps5 Wp (no_index (Proc.devRef .tc main_v124)) = asRow (vec2 (argH Wp)) := by
  simp only [hostOps5]
  after_results_simp
  all_goals rfl

theorem hostF_shift : after hostOps5 Wp (no_index (Proc.devRef .tc main_v125)) = asRow (vec2 (argI Wp)) := by
  simp only [hostOps5]
  after_results_simp
  all_goals rfl

/-! ## Stretch 6: the two results -/

theorem hostG_nodes : after hostOps6 Wp (no_index (Proc.devRef .tc main_v136)) = cat3 (Wp (Proc.devRef .tc main_v44) : FVec F S100000x128 .f32) (Wp (Proc.devRef .tc main_v85) : FVec F S100000x128 .f32) (Wp (Proc.devRef .tc main_v126) : FVec F S100000x128 .f32) := by
  simp only [hostOps6]
  after_results_simp
  dsimp only [Matrix.cons_val]
  show cat3 _ _ _ = _
  after_results_simp
  all_goals rfl

set_option maxHeartbeats 2000000 in
theorem hostG_graphs : after hostOps6 Wp (no_index (Proc.devRef .tc main_v137)) = cat3g (pool (Wp (Proc.devRef .tc main_v44) : FVec F S100000x128 .f32) (argC Wp)) (pool (Wp (Proc.devRef .tc main_v85) : FVec F S100000x128 .f32) (argC Wp)) (pool (Wp (Proc.devRef .tc main_v126) : FVec F S100000x128 .f32) (argC Wp)) := by
  simp only [hostOps6]
  after_results_simp
  dsimp only [Matrix.cons_val]
  show cat3g _ _ _ = _
  after_results_simp
  all_goals rfl

end Cert.KernelIdeal.Hand

end
-- ==== Proof.KI.HostW.lean ====
import proofs.«125359_j15118284882190_1_alg».proof.Proof.KI.Run
import proofs.«125359_j15118284882190_1_alg».proof.Proof.KI.Host
import Idealize.ShloMosaic.Lib.ValueIdx
import Idealize.ShloMosaic.Lib.ValueLayout
import Idealize.ShloMosaic.Lib.IdealHost

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo
open Idealize.ShloMosaic.ValueIdx
open Cert.ReferenceIdeal.Hand (src dst wrap agg mat0 mat1 mat2 vec0 vec1 vec2 pool cat3 cat3g)

/-! ## The statistics and the one-row tables, read at an index -/

/-- A vector as a one-row table reads, at lane `q` of its row, the vector at `q`. -/
theorem asRow_apply {F : FTy → Type} [FloatOps F] (v : FVec F S128 .f32) (q : Fin 128) : asRow v (ix2 (0 : Fin 1) q) = v (ix1 q) :=
  shapeCast_a_1a_apply v _ 0 q

/-- The mean of column `q`: the column's sum (row 0 of the table of sums) over the printed count. -/
theorem statMean_apply (s : FVec Ideal S2x128 .f32) (q : Fin 128) :
    statMean s (ix1 q) = Ideal.div (s (ix2 (0 : Fin 2) q)) (Ideal.ofBits .f32 0x47C35000#32) := by
  unfold statMean
  rw [hostDivf_apply, shapeCast_1a_a_apply, slice2_axis0_apply 0 s _ (0 : Fin 1) q (0 : Fin 2) rfl, broadcastInDim_scalar_apply,
    constant_apply]

/-- The variance of column `q`: the column's sum of squares (row 1 of the table) over the printed count, less the
    squared mean. -/
theorem statVar_apply (s : FVec Ideal S2x128 .f32) (q : Fin 128) :
    statVar s (ix1 q) = Ideal.div (s (ix2 (1 : Fin 2) q)) (Ideal.ofBits .f32 0x47C35000#32)
      - statMean s (ix1 q) * statMean s (ix1 q) := by
  unfold statVar
  rw [subf_apply, mulf_apply, hostDivf_apply, shapeCast_1a_a_apply, slice2_axis0_apply 1 s _ (0 : Fin 1) q (1 : Fin 2) rfl,
    broadcastInDim_scalar_apply, constant_apply]

variable {F : FTy → Type} [FloatOps F]
variable (m : (ℓ : Loc nD τ sig) → Buf (Elt F) ℓ)

/-! ## The regions' window arrays, by name -/
theorem arr0_0 : Pipeline.arrRef spec0 0 = main_v14 := rfl
theorem arr0_1 : Pipeline.arrRef spec0 1 = main_v16 := rfl
theorem arr0_2 : Pipeline.arrRef spec0 2 = main_v23 := rfl
theorem arr0_3 : Pipeline.arrRef spec0 3 = main_v20 := rfl
theorem arr0_4 : Pipeline.arrRef spec0 4 = main_v24 := rfl
theorem arr0_5 : Pipeline.arrRef spec0 5 = main_v25_0 := rfl
theorem arr0_6 : Pipeline.arrRef spec0 6 = main_v25_1 := rfl
theorem arr1_0 : Pipeline.arrRef spec1 0 = main_v25_0 := rfl
theorem arr1_1 : Pipeline.arrRef spec1 1 = main_v40 := rfl
theorem arr1_2 : Pipeline.arrRef spec1 2 = main_v41 := rfl
theorem arr1_3 : Pipeline.arrRef spec1 3 = main_v42 := rfl
theorem arr1_4 : Pipeline.arrRef spec1 4 = main_v43 := rfl
theorem arr1_5 : Pipeline.arrRef spec1 5 = main_v44 := rfl
theorem arr2_0 : Pipeline.arrRef spec2 0 = main_v55 := rfl
theorem arr2_1 : Pipeline.arrRef spec2 1 = main_v57 := rfl
theorem arr2_2 : Pipeline.arrRef spec2 2 = main_v64 := rfl
theorem arr2_3 : Pipeline.arrRef spec2 3 = main_v61 := rfl
theorem arr2_4 : Pipeline.arrRef spec2 4 = main_v65 := rfl
theorem arr2_5 : Pipeline.arrRef spec2 5 = main_v66_0 := rfl
theorem arr2_6 : Pipeline.arrRef spec2 6 = main_v66_1 := rfl
theorem arr3_0 : Pipeline.arrRef spec3 0 = main_v66_0 := rfl
theorem arr3_1 : Pipeline.arrRef spec3 1 = main_v81 := rfl
theorem arr3_2 : Pipeline.arrRef spec3 2 = main_v82 := rfl
theorem arr3_3 : Pipeline.arrRef spec3 3 = main_v83 := rfl
theorem arr3_4 : Pipeline.arrRef spec3 4 = main_v84 := rfl
theorem arr3_5 : Pipeline.arrRef spec3 5 = main_v85 := rfl
theorem arr4_0 : Pipeline.arrRef spec4 0 = main_v96 := rfl
theorem arr4_1 : Pipeline.arrRef spec4 1 = main_v98 := rfl
theorem arr4_2 : Pipeline.arrRef spec4 2 = main_v105 := rfl
theorem arr4_3 : Pipeline.arrRef spec4 3 = main_v102 := rfl
theorem arr4_4 : Pipeline.arrRef spec4 4 = main_v106 := rfl
theorem arr4_5 : Pipeline.arrRef spec4 5 = main_v107_0 := rfl
theorem arr4_6 : Pipeline.arrRef spec4 6 = main_v107_1 := rfl
theorem arr5_0 : Pipeline.arrRef spec5 0 = main_v107_0 := rfl
theorem arr5_1 : Pipeline.arrRef spec5 1 = main_v122 := rfl
theorem arr5_2 : Pipeline.arrRef spec5 2 = main_v123 := rfl
theorem arr5_3 : Pipeline.arrRef spec5 3 = main_v124 := rfl
theorem arr5_4 : Pipeline.arrRef spec5 4 = main_v125 := rfl
theorem arr5_5 : Pipeline.arrRef spec5 5 = main_v126 := rfl

/-! ## What a segment leaves alone -/

/-- A buffer a stretch of host operations does not write keeps its contents. -/
theorem keep1 (c : Dev nD) (r : Ref sig .tc) (h : r ∉ hostOps0_W) : W1 m c (Proc.devRef .tc r) = W0 m c (Proc.devRef .tc r) :=
  after_of_writes_sub hostOps0 _ hostOps0_writes h
theorem keep3 (c : Dev nD) (r : Ref sig .tc) (h : r ∉ hostOps1_W) : W3 m c (Proc.devRef .tc r) = W2 m c (Proc.devRef .tc r) :=
  after_of_writes_sub hostOps1 _ hostOps1_writes h
theorem keep5 (c : Dev nD) (r : Ref sig .tc) (h : r ∉ hostOps2_W) : W5 m c (Proc.devRef .tc r) = W4 m c (Proc.devRef .tc r) :=
  after_of_writes_sub hostOps2 _ hostOps2_writes h
theorem keep7 (c : Dev nD) (r : Ref sig .tc) (h : r ∉ hostOps3_W) : W7 m c (Proc.devRef .tc r) = W6 m c (Proc.devRef .tc r) :=
  after_of_writes_sub hostOps3 _ hostOps3_writes h
theorem keep9 (c : Dev nD) (r : Ref sig .tc) (h : r ∉ hostOps4_W) : W9 m c (Proc.devRef .tc r) = W8 m c (Proc.devRef .tc r) :=
  after_of_writes_sub hostOps4 _ hostOps4_writes h
theorem keep11 (c : Dev nD) (r : Ref sig .tc) (h : r ∉ hostOps5_W) : W11 m c (Proc.devRef .tc r) = W10 m c (Proc.devRef .tc r) :=
  after_of_writes_sub hostOps5 _ hostOps5_writes h
theorem keep13 (c : Dev nD) (r : Ref sig .tc) (h : r ∉ hostOps6_W) : W13 m c (Proc.devRef .tc r) = W12 m c (Proc.devRef .tc r) :=
  after_of_writes_sub hostOps6 _ hostOps6_writes h
/-- A reference nothing before segment 2 writes holds what it held at launch. -/
theorem W2_of (c : Dev nD) (r : Ref sig .tc) (h0 : r ∉ hostOps0_W) (a0 : ∀ w, Pipeline.arrRef spec0 w ≠ r) :
    W2 m c (Proc.devRef .tc r) = W0 m c (Proc.devRef .tc r) :=
  ((W2_of_ne m c r a0).trans (keep1 m c r h0))
/-- A reference nothing before segment 4 writes holds what it held at launch. -/
theorem W4_of (c : Dev nD) (r : Ref sig .tc) (h0 : r ∉ hostOps0_W) (a0 : ∀ w, Pipeline.arrRef spec0 w ≠ r) (h1 : r ∉ hostOps1_W) (a1 : ∀ w, Pipeline.arrRef spec1 w ≠ r) :
    W4 m c (Proc.devRef .tc r) = W0 m c (Proc.devRef .tc r) :=
  ((((W4_of_ne m c r a1).trans (keep3 m c r h1)).trans (W2_of_ne m c r a0)).trans (keep1 m c r h0))
/-- A reference nothing before segment 6 writes holds what it held at launch. -/
theorem W6_of (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) :
    W6 m c (Proc.devRef .tc r) = W0 m c (Proc.devRef .tc r) :=
  ((((((W6_of_ne m c r a2).trans (keep5 m c r h2)).trans (W4_of_ne m c r a1)).trans (keep3 m c r h1)).trans (W2_of_ne m c r a0)).trans (keep1 m c r h0))
/-- A reference nothing before segment 8 writes holds what it held at launch. -/
theorem W8_of (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) :
    W8 m c (Proc.devRef .tc r) = W0 m c (Proc.devRef .tc r) :=
  ((((((((W8_of_ne m c r a3).trans (keep7 m c r h3)).trans (W6_of_ne m c r a2)).trans (keep5 m c r h2)).trans (W4_of_ne m c r a1)).trans (keep3 m c r h1)).trans (W2_of_ne m c r a0)).trans (keep1 m c r h0))
/-- A reference nothing before segment 10 writes holds what it held at launch. -/
theorem W10_of (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) :
    W10 m c (Proc.devRef .tc r) = W0 m c (Proc.devRef .tc r) :=
  ((((((((((W10_of_ne m c r a4).trans (keep9 m c r h4)).trans (W8_of_ne m c r a3)).trans (keep7 m c r h3)).trans (W6_of_ne m c r a2)).trans (keep5 m c r h2)).trans (W4_of_ne m c r a1)).trans (keep3 m c r h1)).trans (W2_of_ne m c r a0)).trans (keep1 m c r h0))
/-- A reference nothing before segment 12 writes holds what it held at launch. -/
theorem W12_of (c : Dev nD) (r : Ref sig .tc) (h0 : r ∉ hostOps0_W) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) :
    W12 m c (Proc.devRef .tc r) = W0 m c (Proc.devRef .tc r) :=
  ((((((((((((W12_of_ne m c r a5).trans (keep11 m c r h5)).trans (W10_of_ne m c r a4)).trans (keep9 m c r h4)).trans (W8_of_ne m c r a3)).trans (keep7 m c r h3)).trans (W6_of_ne m c r a2)).trans (keep5 m c r h2)).trans (W4_of_ne m c r a1)).trans (keep3 m c r h1)).trans (W2_of_ne m c r a0)).trans (keep1 m c r h0))
/-- Kept from the first stretch to the second aggregation. -/
theorem W4_from1 (c : Dev nD) (r : Ref sig .tc) (a0 : ∀ w, Pipeline.arrRef spec0 w ≠ r) (h1 : r ∉ hostOps1_W) (a1 : ∀ w, Pipeline.arrRef spec1 w ≠ r) :
    W4 m c (Proc.devRef .tc r) = W1 m c (Proc.devRef .tc r) :=
  (((W4_of_ne m c r a1).trans (keep3 m c r h1)).trans (W2_of_ne m c r a0))
/-- Kept from the first stretch to the third aggregation. -/
theorem W8_from1 (c : Dev nD) (r : Ref sig .tc) (a0 : ∀ w, Pipeline.arrRef spec0 w ≠ r) (h1 : r ∉ hostOps1_W) (a1 : ∀ w, Pipeline.arrRef spec1 w ≠ r) (h2 : r ∉ hostOps2_W) (a2 : ∀ w, Pipeline.arrRef spec2 w ≠ r) (h3 : r ∉ hostOps3_W) (a3 : ∀ w, Pipeline.arrRef spec3 w ≠ r) :
    W8 m c (Proc.devRef .tc r) = W1 m c (Proc.devRef .tc r) :=
  (((((((W8_of_ne m c r a3).trans (keep7 m c r h3)).trans (W6_of_ne m c r a2)).trans (keep5 m c r h2)).trans (W4_of_ne m c r a1)).trans (keep3 m c r h1)).trans (W2_of_ne m c r a0))
/-- Kept from the first normalisation to the last stretch. -/
theorem W12_from4 (c : Dev nD) (r : Ref sig .tc) (h2 : r ∉ hostOps2_W) (a2 : ∀ w, Pipeline.arrRef spec2 w ≠ r) (h3 : r ∉ hostOps3_W) (a3 : ∀ w, Pipeline.arrRef spec3 w ≠ r) (h4 : r ∉ hostOps4_W) (a4 : ∀ w, Pipeline.arrRef spec4 w ≠ r) (h5 : r ∉ hostOps5_W) (a5 : ∀ w, Pipeline.arrRef spec5 w ≠ r) :
    W12 m c (Proc.devRef .tc r) = W4 m c (Proc.devRef .tc r) :=
  ((((((((W12_of_ne m c r a5).trans (keep11 m c r h5)).trans (W10_of_ne m c r a4)).trans (keep9 m c r h4)).trans (W8_of_ne m c r a3)).trans (keep7 m c r h3)).trans (W6_of_ne m c r a2)).trans (keep5 m c r h2))
/-- Kept from the second normalisation to the last stretch. -/
theorem W12_from8 (c : Dev nD) (r : Ref sig .tc) (h4 : r ∉ hostOps4_W) (a4 : ∀ w, Pipeline.arrRef spec4 w ≠ r) (h5 : r ∉ hostOps5_W) (a5 : ∀ w, Pipeline.arrRef spec5 w ≠ r) :
    W12 m c (Proc.devRef .tc r) = W8 m c (Proc.devRef .tc r) :=
  ((((W12_of_ne m c r a5).trans (keep11 m c r h5)).trans (W10_of_ne m c r a4)).trans (keep9 m c r h4))

/-! ## The argument arrays as launched -/

/-- Argument array `j` of core `c` as launched. -/
abbrev xArg0 (c : Dev nD) : FVec F S100000x128 .f32 := m ((c : Thread nD τ).loc main_arg0)
@[inherit_doc xArg0] abbrev xArg1 (c : Dev nD) : IVec S2x1600000 32 := m ((c : Thread nD τ).loc main_arg1)
@[inherit_doc xArg0] abbrev xArg2 (c : Dev nD) : IVec S100000 32 := m ((c : Thread nD τ).loc main_arg2)
@[inherit_doc xArg0] abbrev xArg3 (c : Dev nD) : FVec F S3x128x128 .f32 := m ((c : Thread nD τ).loc main_arg3)
@[inherit_doc xArg0] abbrev xArg4 (c : Dev nD) : FVec F S3x128 .f32 := m ((c : Thread nD τ).loc main_arg4)
@[inherit_doc xArg0] abbrev xArg5 (c : Dev nD) : FVec F S3x128x128 .f32 := m ((c : Thread nD τ).loc main_arg5)
@[inherit_doc xArg0] abbrev xArg6 (c : Dev nD) : FVec F S3x128 .f32 := m ((c : Thread nD τ).loc main_arg6)
@[inherit_doc xArg0] abbrev xArg7 (c : Dev nD) : FVec F S3x128 .f32 := m ((c : Thread nD τ).loc main_arg7)
@[inherit_doc xArg0] abbrev xArg8 (c : Dev nD) : FVec F S3x128 .f32 := m ((c : Thread nD τ).loc main_arg8)

/-! ## The argument arrays where the later stretches read them -/

theorem W2_main_arg7 (c : Dev nD) : W2 m c (Proc.devRef .tc main_arg7) = xArg7 m c :=
  W2_of m c main_arg7 (by decide) (by decide)
theorem W2_main_arg8 (c : Dev nD) : W2 m c (Proc.devRef .tc main_arg8) = xArg8 m c :=
  W2_of m c main_arg8 (by decide) (by decide)
theorem W4_main_arg3 (c : Dev nD) : W4 m c (Proc.devRef .tc main_arg3) = xArg3 m c :=
  W4_of m c main_arg3 (by decide) (by decide) (by decide) (by decide)
theorem W4_main_arg4 (c : Dev nD) : W4 m c (Proc.devRef .tc main_arg4) = xArg4 m c :=
  W4_of m c main_arg4 (by decide) (by decide) (by decide) (by decide)
theorem W4_main_arg5 (c : Dev nD) : W4 m c (Proc.devRef .tc main_arg5) = xArg5 m c :=
  W4_of m c main_arg5 (by decide) (by decide) (by decide) (by decide)
theorem W4_main_arg6 (c : Dev nD) : W4 m c (Proc.devRef .tc main_arg6) = xArg6 m c :=
  W4_of m c main_arg6 (by decide) (by decide) (by decide) (by decide)
theorem W6_main_arg7 (c : Dev nD) : W6 m c (Proc.devRef .tc main_arg7) = xArg7 m c :=
  W6_of m c main_arg7 (by decide) (by decide) (by decide) (by decide) (by decide) (by decide)
theorem W6_main_arg8 (c : Dev nD) : W6 m c (Proc.devRef .tc main_arg8) = xArg8 m c :=
  W6_of m c main_arg8 (by decide) (by decide) (by decide) (by decide) (by decide) (by decide)
theorem W8_main_arg3 (c : Dev nD) : W8 m c (Proc.devRef .tc main_arg3) = xArg3 m c :=
  W8_of m c main_arg3 (by decide) (by decide) (by decide) (by decide) (by decide) (by decide) (by decide) (by decide)
theorem W8_main_arg4 (c : Dev nD) : W8 m c (Proc.devRef .tc main_arg4) = xArg4 m c :=
  W8_of m c main_arg4 (by decide) (by decide) (by decide) (by decide) (by decide) (by decide) (by decide) (by decide)
theorem W8_main_arg5 (c : Dev nD) : W8 m c (Proc.devRef .tc main_arg5) = xArg5 m c :=
  W8_of m c main_arg5 (by decide) (by decide) (by decide) (by decide) (by decide) (by decide) (by decide) (by decide)
theorem W8_main_arg6 (c : Dev nD) : W8 m c (Proc.devRef .tc main_arg6) = xArg6 m c :=
  W8_of m c main_arg6 (by decide) (by decide) (by decide) (by decide) (by decide) (by decide) (by decide) (by decide)
theorem W10_main_arg7 (c : Dev nD) : W10 m c (Proc.devRef .tc main_arg7) = xArg7 m c :=
  W10_of m c main_arg7 (by decide) (by decide) (by decide) (by decide) (by decide) (by decide) (by decide) (by decide) (by decide) (by decide)
theorem W10_main_arg8 (c : Dev nD) : W10 m c (Proc.devRef .tc main_arg8) = xArg8 m c :=
  W10_of m c main_arg8 (by decide) (by decide) (by decide) (by decide) (by decide) (by decide) (by decide) (by decide) (by decide) (by decide)
theorem W12_main_arg2 (c : Dev nD) : W12 m c (Proc.devRef .tc main_arg2) = xArg2 m c :=
  W12_of m c main_arg2 (by decide) (by decide) (by decide) (by decide) (by decide) (by decide) (by decide) (by decide) (by decide) (by decide) (by decide) (by decide)

/-! ## What earlier segments left, where later ones read it -/

theorem W4_edgeS (c : Dev nD) : W4 m c (Proc.devRef .tc main_v1) = src (xArg1 m c) :=
  (W4_from1 m c main_v1 (by decide) (by decide) (by decide)).trans (hostA_src (W0 m c))
theorem W4_edgeT (c : Dev nD) : W4 m c (Proc.devRef .tc main_v3) = dst (xArg1 m c) :=
  (W4_from1 m c main_v3 (by decide) (by decide) (by decide)).trans (hostA_dst (W0 m c))
theorem W8_edgeS (c : Dev nD) : W8 m c (Proc.devRef .tc main_v1) = src (xArg1 m c) :=
  (W8_from1 m c main_v1 (by decide) (by decide) (by decide) (by decide) (by decide) (by decide) (by decide)).trans (hostA_src (W0 m c))
theorem W8_edgeT (c : Dev nD) : W8 m c (Proc.devRef .tc main_v3) = dst (xArg1 m c) :=
  (W8_from1 m c main_v3 (by decide) (by decide) (by decide) (by decide) (by decide) (by decide) (by decide)).trans (hostA_dst (W0 m c))
/-- The first round's table is still there when the last stretch reads it; likewise the second's. -/
theorem W12_main_v44 (c : Dev nD) : W12 m c (Proc.devRef .tc main_v44) = W4 m c (Proc.devRef .tc main_v44) :=
  W12_from4 m c main_v44 (by decide) (by decide) (by decide) (by decide) (by decide) (by decide) (by decide) (by decide)
theorem W12_main_v85 (c : Dev nD) : W12 m c (Proc.devRef .tc main_v85) = W8 m c (Proc.devRef .tc main_v85) :=
  W12_from8 m c main_v85 (by decide) (by decide) (by decide) (by decide)
/-- A kernel's table before its normalisation is still there after the stretch that computes the statistics. -/
theorem W3_main_v25_0 (c : Dev nD) : W3 m c (Proc.devRef .tc main_v25_0) = W2 m c (Proc.devRef .tc main_v25_0) :=
  keep3 m c main_v25_0 (by decide)
theorem W7_main_v66_0 (c : Dev nD) : W7 m c (Proc.devRef .tc main_v66_0) = W6 m c (Proc.devRef .tc main_v66_0) :=
  keep7 m c main_v66_0 (by decide)
theorem W11_main_v107_0 (c : Dev nD) : W11 m c (Proc.devRef .tc main_v107_0) = W10 m c (Proc.devRef .tc main_v107_0) :=
  keep11 m c main_v107_0 (by decide)

/-! ## Stretch 0 at the launch memory -/

theorem W1_main_v1 (c : Dev nD) : W1 m c (Proc.devRef .tc main_v1) = src (xArg1 m c) := hostA_src (W0 m c)
theorem W1_main_v3 (c : Dev nD) : W1 m c (Proc.devRef .tc main_v3) = dst (xArg1 m c) := hostA_dst (W0 m c)
theorem W1_main_v14 (c : Dev nD) : W1 m c (Proc.devRef .tc main_v14) = agg (xArg0 m c) (src (xArg1 m c)) (dst (xArg1 m c)) := hostA_agg (W0 m c)
theorem W1_main_v16 (c : Dev nD) : W1 m c (Proc.devRef .tc main_v16) = mat0 (xArg3 m c) := hostA_matP (W0 m c)
theorem W1_main_v20 (c : Dev nD) : W1 m c (Proc.devRef .tc main_v20) = mat0 (xArg5 m c) := hostA_matQ (W0 m c)
theorem W1_main_v23 (c : Dev nD) : W1 m c (Proc.devRef .tc main_v23) = asRow (vec0 (xArg4 m c)) := hostA_biasP (W0 m c)
theorem W1_main_v24 (c : Dev nD) : W1 m c (Proc.devRef .tc main_v24) = asRow (vec0 (xArg6 m c)) := hostA_biasQ (W0 m c)

/-! ## Stretch 1: the statistics and the normalisation's parameters -/

theorem W3_main_v40 (c : Dev nD) : W3 m c (Proc.devRef .tc main_v40) = asRow (statMean (W2 m c (Proc.devRef .tc main_v25_1) : FVec F S2x128 .f32)) := hostB_mean (W2 m c)
theorem W3_main_v41 (c : Dev nD) : W3 m c (Proc.devRef .tc main_v41) = asRow (statVar (W2 m c (Proc.devRef .tc main_v25_1) : FVec F S2x128 .f32)) := hostB_var (W2 m c)
theorem W3_main_v42 (c : Dev nD) : W3 m c (Proc.devRef .tc main_v42) = asRow (vec0 (xArg7 m c)) := by
  have h := hostB_scale (W2 m c)
  rw [show argH (W2 m c) = xArg7 m c from W2_main_arg7 m c] at h
  exact h
theorem W3_main_v43 (c : Dev nD) : W3 m c (Proc.devRef .tc main_v43) = asRow (vec0 (xArg8 m c)) := by
  have h := hostB_shift (W2 m c)
  rw [show argI (W2 m c) = xArg8 m c from W2_main_arg8 m c] at h
  exact h

/-! ## Stretch 2: the next round's aggregation and its parameters -/

theorem W5_main_v55 (c : Dev nD) : W5 m c (Proc.devRef .tc main_v55) = agg (W4 m c (Proc.devRef .tc main_v44) : FVec F S100000x128 .f32) (src (xArg1 m c)) (dst (xArg1 m c)) := by
  have h := hostC_agg (W4 m c)
  rw [show edgeS (W4 m c) = src (xArg1 m c) from W4_edgeS m c] at h
  rw [show edgeT (W4 m c) = dst (xArg1 m c) from W4_edgeT m c] at h
  exact h
theorem W5_main_v57 (c : Dev nD) : W5 m c (Proc.devRef .tc main_v57) = mat1 (xArg3 m c) := by
  have h := hostC_matP (W4 m c)
  rw [show argD (W4 m c) = xArg3 m c from W4_main_arg3 m c] at h
  exact h
theorem W5_main_v61 (c : Dev nD) : W5 m c (Proc.devRef .tc main_v61) = mat1 (xArg5 m c) := by
  have h := hostC_matQ (W4 m c)
  rw [show argF (W4 m c) = xArg5 m c from W4_main_arg5 m c] at h
  exact h
theorem W5_main_v64 (c : Dev nD) : W5 m c (Proc.devRef .tc main_v64) = asRow (vec1 (xArg4 m c)) := by
  have h := hostC_biasP (W4 m c)
  rw [show argE (W4 m c) = xArg4 m c from W4_main_arg4 m c] at h
  exact h
theorem W5_main_v65 (c : Dev nD) : W5 m c (Proc.devRef .tc main_v65) = asRow (vec1 (xArg6 m c)) := by
  have h := hostC_biasQ (W4 m c)
  rw [show argG (W4 m c) = xArg6 m c from W4_main_arg6 m c] at h
  exact h

/-! ## Stretch 3: the statistics and the normalisation's parameters -/

theorem W7_main_v81 (c : Dev nD) : W7 m c (Proc.devRef .tc main_v81) = asRow (statMean (W6 m c (Proc.devRef .tc main_v66_1) : FVec F S2x128 .f32)) := hostD_mean (W6 m c)
theorem W7_main_v82 (c : Dev nD) : W7 m c (Proc.devRef .tc main_v82) = asRow (statVar (W6 m c (Proc.devRef .tc main_v66_1) : FVec F S2x128 .f32)) := hostD_var (W6 m c)
theorem W7_main_v83 (c : Dev nD) : W7 m c (Proc.devRef .tc main_v83) = asRow (vec1 (xArg7 m c)) := by
  have h := hostD_scale (W6 m c)
  rw [show argH (W6 m c) = xArg7 m c from W6_main_arg7 m c] at h
  exact h
theorem W7_main_v84 (c : Dev nD) : W7 m c (Proc.devRef .tc main_v84) = asRow (vec1 (xArg8 m c)) := by
  have h := hostD_shift (W6 m c)
  rw [show argI (W6 m c) = xArg8 m c from W6_main_arg8 m c] at h
  exact h

/-! ## Stretch 4: the next round's aggregation and its parameters -/

theorem W9_main_v96 (c : Dev nD) : W9 m c (Proc.devRef .tc main_v96) = agg (W8 m c (Proc.devRef .tc main_v85) : FVec F S100000x128 .f32) (src (xArg1 m c)) (dst (xArg1 m c)) := by
  have h := hostE_agg (W8 m c)
  rw [show edgeS (W8 m c) = src (xArg1 m c) from W8_edgeS m c] at h
  rw [show edgeT (W8 m c) = dst (xArg1 m c) from W8_edgeT m c] at h
  exact h
theorem W9_main_v98 (c : Dev nD) : W9 m c (Proc.devRef .tc main_v98) = mat2 (xArg3 m c) := by
  have h := hostE_matP (W8 m c)
  rw [show argD (W8 m c) = xArg3 m c from W8_main_arg3 m c] at h
  exact h
theorem W9_main_v102 (c : Dev nD) : W9 m c (Proc.devRef .tc main_v102) = mat2 (xArg5 m c) := by
  have h := hostE_matQ (W8 m c)
  rw [show argF (W8 m c) = xArg5 m c from W8_main_arg5 m c] at h
  exact h
theorem W9_main_v105 (c : Dev nD) : W9 m c (Proc.devRef .tc main_v105) = asRow (vec2 (xArg4 m c)) := by
  have h := hostE_biasP (W8 m c)
  rw [show argE (W8 m c) = xArg4 m c from W8_main_arg4 m c] at h
  exact h
theorem W9_main_v106 (c : Dev nD) : W9 m c (Proc.devRef .tc main_v106) = asRow (vec2 (xArg6 m c)) := by
  have h := hostE_biasQ (W8 m c)
  rw [show argG (W8 m c) = xArg6 m c from W8_main_arg6 m c] at h
  exact h

/-! ## Stretch 5: the statistics and the normalisation's parameters -/

theorem W11_main_v122 (c : Dev nD) : W11 m c (Proc.devRef .tc main_v122) = asRow (statMean (W10 m c (Proc.devRef .tc main_v107_1) : FVec F S2x128 .f32)) := hostF_mean (W10 m c)
theorem W11_main_v123 (c : Dev nD) : W11 m c (Proc.devRef .tc main_v123) = asRow (statVar (W10 m c (Proc.devRef .tc main_v107_1) : FVec F S2x128 .f32)) := hostF_var (W10 m c)
theorem W11_main_v124 (c : Dev nD) : W11 m c (Proc.devRef .tc main_v124) = asRow (vec2 (xArg7 m c)) := by
  have h := hostF_scale (W10 m c)
  rw [show argH (W10 m c) = xArg7 m c from W10_main_arg7 m c] at h
  exact h
theorem W11_main_v125 (c : Dev nD) : W11 m c (Proc.devRef .tc main_v125) = asRow (vec2 (xArg8 m c)) := by
  have h := hostF_shift (W10 m c)
  rw [show argI (W10 m c) = xArg8 m c from W10_main_arg8 m c] at h
  exact h

/-! ## Stretch 6: the two results -/

theorem W13_main_v136 (c : Dev nD) : W13 m c (Proc.devRef .tc main_v136) = cat3 (W12 m c (Proc.devRef .tc main_v44) : FVec F S100000x128 .f32)
    (W12 m c (Proc.devRef .tc main_v85) : FVec F S100000x128 .f32) (W12 m c (Proc.devRef .tc main_v126) : FVec F S100000x128 .f32) := hostG_nodes (W12 m c)
theorem W13_main_v137 (c : Dev nD) : W13 m c (Proc.devRef .tc main_v137) = cat3g (pool (W12 m c (Proc.devRef .tc main_v44) : FVec F S100000x128 .f32) (xArg2 m c))
    (pool (W12 m c (Proc.devRef .tc main_v85) : FVec F S100000x128 .f32) (xArg2 m c)) (pool (W12 m c (Proc.devRef .tc main_v126) : FVec F S100000x128 .f32) (xArg2 m c)) := by
  have h := hostG_graphs (W12 m c)
  rw [show argC (W12 m c) = xArg2 m c from W12_main_arg2 m c] at h
  exact h

/-! ## The statistics stretches read at an index, at the ideal values -/

section AtIdeal
variable (mI : (ℓ : Loc nD τ sig) → Buf (Elt Ideal) ℓ)

theorem W3_main_v40_apply (c : Dev nD) (q : Fin 128) : (W3 mI c (Proc.devRef .tc main_v40) : FVec Ideal S1x128 .f32) (ix2 (0 : Fin 1) q)
    = Ideal.div ((W2 mI c (Proc.devRef .tc main_v25_1) : FVec Ideal S2x128 .f32) (ix2 (0 : Fin 2) q)) (Ideal.ofBits .f32 0x47C35000#32) := by
  rw [W3_main_v40, asRow_apply, statMean_apply]
theorem W3_main_v41_apply (c : Dev nD) (q : Fin 128) : (W3 mI c (Proc.devRef .tc main_v41) : FVec Ideal S1x128 .f32) (ix2 (0 : Fin 1) q)
    = Ideal.div ((W2 mI c (Proc.devRef .tc main_v25_1) : FVec Ideal S2x128 .f32) (ix2 (1 : Fin 2) q)) (Ideal.ofBits .f32 0x47C35000#32)
      - Ideal.div ((W2 mI c (Proc.devRef .tc main_v25_1) : FVec Ideal S2x128 .f32) (ix2 (0 : Fin 2) q)) (Ideal.ofBits .f32 0x47C35000#32)
        * Ideal.div ((W2 mI c (Proc.devRef .tc main_v25_1) : FVec Ideal S2x128 .f32) (ix2 (0 : Fin 2) q)) (Ideal.ofBits .f32 0x47C35000#32) := by
  rw [W3_main_v41, asRow_apply, statVar_apply, statMean_apply]
theorem W3_main_v42_apply (c : Dev nD) (q : Fin 128) : (W3 mI c (Proc.devRef .tc main_v42) : FVec Ideal S1x128 .f32) (ix2 (0 : Fin 1) q)
    = vec0 (xArg7 mI c) (ix1 q) := by
  rw [W3_main_v42, asRow_apply]
theorem W3_main_v43_apply (c : Dev nD) (q : Fin 128) : (W3 mI c (Proc.devRef .tc main_v43) : FVec Ideal S1x128 .f32) (ix2 (0 : Fin 1) q)
    = vec0 (xArg8 mI c) (ix1 q) := by
  rw [W3_main_v43, asRow_apply]

theorem W7_main_v81_apply (c : Dev nD) (q : Fin 128) : (W7 mI c (Proc.devRef .tc main_v81) : FVec Ideal S1x128 .f32) (ix2 (0 : Fin 1) q)
    = Ideal.div ((W6 mI c (Proc.devRef .tc main_v66_1) : FVec Ideal S2x128 .f32) (ix2 (0 : Fin 2) q)) (Ideal.ofBits .f32 0x47C35000#32) := by
  rw [W7_main_v81, asRow_apply, statMean_apply]
theorem W7_main_v82_apply (c : Dev nD) (q : Fin 128) : (W7 mI c (Proc.devRef .tc main_v82) : FVec Ideal S1x128 .f32) (ix2 (0 : Fin 1) q)
    = Ideal.div ((W6 mI c (Proc.devRef .tc main_v66_1) : FVec Ideal S2x128 .f32) (ix2 (1 : Fin 2) q)) (Ideal.ofBits .f32 0x47C35000#32)
      - Ideal.div ((W6 mI c (Proc.devRef .tc main_v66_1) : FVec Ideal S2x128 .f32) (ix2 (0 : Fin 2) q)) (Ideal.ofBits .f32 0x47C35000#32)
        * Ideal.div ((W6 mI c (Proc.devRef .tc main_v66_1) : FVec Ideal S2x128 .f32) (ix2 (0 : Fin 2) q)) (Ideal.ofBits .f32 0x47C35000#32) := by
  rw [W7_main_v82, asRow_apply, statVar_apply, statMean_apply]
theorem W7_main_v83_apply (c : Dev nD) (q : Fin 128) : (W7 mI c (Proc.devRef .tc main_v83) : FVec Ideal S1x128 .f32) (ix2 (0 : Fin 1) q)
    = vec1 (xArg7 mI c) (ix1 q) := by
  rw [W7_main_v83, asRow_apply]
theorem W7_main_v84_apply (c : Dev nD) (q : Fin 128) : (W7 mI c (Proc.devRef .tc main_v84) : FVec Ideal S1x128 .f32) (ix2 (0 : Fin 1) q)
    = vec1 (xArg8 mI c) (ix1 q) := by
  rw [W7_main_v84, asRow_apply]

theorem W11_main_v122_apply (c : Dev nD) (q : Fin 128) : (W11 mI c (Proc.devRef .tc main_v122) : FVec Ideal S1x128 .f32) (ix2 (0 : Fin 1) q)
    = Ideal.div ((W10 mI c (Proc.devRef .tc main_v107_1) : FVec Ideal S2x128 .f32) (ix2 (0 : Fin 2) q)) (Ideal.ofBits .f32 0x47C35000#32) := by
  rw [W11_main_v122, asRow_apply, statMean_apply]
theorem W11_main_v123_apply (c : Dev nD) (q : Fin 128) : (W11 mI c (Proc.devRef .tc main_v123) : FVec Ideal S1x128 .f32) (ix2 (0 : Fin 1) q)
    = Ideal.div ((W10 mI c (Proc.devRef .tc main_v107_1) : FVec Ideal S2x128 .f32) (ix2 (1 : Fin 2) q)) (Ideal.ofBits .f32 0x47C35000#32)
      - Ideal.div ((W10 mI c (Proc.devRef .tc main_v107_1) : FVec Ideal S2x128 .f32) (ix2 (0 : Fin 2) q)) (Ideal.ofBits .f32 0x47C35000#32)
        * Ideal.div ((W10 mI c (Proc.devRef .tc main_v107_1) : FVec Ideal S2x128 .f32) (ix2 (0 : Fin 2) q)) (Ideal.ofBits .f32 0x47C35000#32) := by
  rw [W11_main_v123, asRow_apply, statVar_apply, statMean_apply]
theorem W11_main_v124_apply (c : Dev nD) (q : Fin 128) : (W11 mI c (Proc.devRef .tc main_v124) : FVec Ideal S1x128 .f32) (ix2 (0 : Fin 1) q)
    = vec2 (xArg7 mI c) (ix1 q) := by
  rw [W11_main_v124, asRow_apply]
theorem W11_main_v125_apply (c : Dev nD) (q : Fin 128) : (W11 mI c (Proc.devRef .tc main_v125) : FVec Ideal S1x128 .f32) (ix2 (0 : Fin 1) q)
    = vec2 (xArg8 mI c) (ix1 q) := by
  rw [W11_main_v125, asRow_apply]

end AtIdeal

end Cert.KernelIdeal.Hand

end
-- ==== Proof.LibFiniteReals.lean ====
/-
  A general lemma file: extended reals that are real numbers, and the mean and variance of finitely many of them.

  Over the extended reals sums and products have corners at the infinities, and laws such as distributivity hold only
  away from them. This file keeps track of the entries that ARE real numbers: they are closed under the arithmetic
  operations, finite sums, maxima, quotients by a nonzero real and the reciprocal square root of a positive real, and
  on them every identity of real arithmetic may be used. The identity needed for a batch normalisation is the two ways
  of writing a variance: for `n` real numbers with mean `μ`, the mean of the squared deviations `(y − μ)²` is the mean
  of the squares minus `μ²`.
-/
import Idealize.ShloMosaic.PureOps.Ideal

noncomputable section

namespace Cert.FiniteReals

open Idealize.ShloMosaic

/-- An extended real that is a real number. -/
def IsReal (x : EReal) : Prop := ∃ r : ℝ, x = (r : EReal)

theorem isReal_coe (r : ℝ) : IsReal (r : EReal) := ⟨r, rfl⟩

theorem isReal_zero : IsReal 0 := ⟨0, rfl⟩

theorem isReal_one : IsReal 1 := ⟨1, rfl⟩

theorem IsReal.add {x y : EReal} (hx : IsReal x) (hy : IsReal y) : IsReal (x + y) := by
  obtain ⟨r, rfl⟩ := hx; obtain ⟨s, rfl⟩ := hy; exact ⟨r + s, (EReal.coe_add r s).symm⟩

theorem IsReal.sub {x y : EReal} (hx : IsReal x) (hy : IsReal y) : IsReal (x - y) := by
  obtain ⟨r, rfl⟩ := hx; obtain ⟨s, rfl⟩ := hy; exact ⟨r - s, (EReal.coe_sub r s).symm⟩

theorem IsReal.mul {x y : EReal} (hx : IsReal x) (hy : IsReal y) : IsReal (x * y) := by
  obtain ⟨r, rfl⟩ := hx; obtain ⟨s, rfl⟩ := hy; exact ⟨r * s, (EReal.coe_mul r s).symm⟩

theorem IsReal.max {x y : EReal} (hx : IsReal x) (hy : IsReal y) : IsReal (max x y) := by
  rcases max_cases x y with ⟨h, _⟩ | ⟨h, _⟩ <;> rw [h] <;> assumption

/-- A finite sum of reals, taken in the extended reals, is the real sum. -/
theorem coe_sum {ι : Type*} (s : Finset ι) (f : ι → ℝ) : (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem IsReal.sum {ι : Type*} (s : Finset ι) (f : ι → EReal) (h : ∀ i ∈ s, IsReal (f i)) : IsReal (∑ i ∈ s, f i) := by
  classical
  induction s using Finset.induction_on with
  | empty => simpa using isReal_zero
  | insert a s ha ih =>
    rw [Finset.sum_insert ha]
    exact (h a (Finset.mem_insert_self a s)).add (ih fun i hi => h i (Finset.mem_insert_of_mem hi))

/-- The quotient of a real by a nonzero real, in the extended reals' division, is the real quotient. -/
theorem div_coe_coe (x : ℝ) {y : ℝ} (hy : y ≠ 0) : Ideal.div (x : EReal) (y : EReal) = ((x / y : ℝ) : EReal) := by
  rw [Ideal.div_coe hy, ← EReal.coe_mul]
  congr 1
  field_simp

theorem IsReal.div_coe {x : EReal} (hx : IsReal x) {y : ℝ} (hy : y ≠ 0) : IsReal (Ideal.div x (y : EReal)) := by
  obtain ⟨r, rfl⟩ := hx; exact ⟨r / y, div_coe_coe r hy⟩

/-- The reciprocal square root of a positive real is a positive real. -/
theorem rsqrt_coe_pos {r : ℝ} (h : 0 < r) : Ideal.rsqrt (r : EReal) = (((Real.sqrt r)⁻¹ : ℝ) : EReal) := by
  rw [Ideal.rsqrt_coe, if_neg (not_lt.mpr h.le), if_neg h.ne']

theorem isReal_rsqrt_of_pos {r : ℝ} (h : 0 < r) : IsReal (Ideal.rsqrt (r : EReal)) :=
  ⟨_, rsqrt_coe_pos h⟩

/-! ## Mean and variance of `n` reals -/

/-- For `n` real numbers with sum `S`: the mean of the squared deviations from `S / n` is the mean of the squares minus
    the square of the mean. -/
theorem real_variance (n : ℕ) (hn : (n : ℝ) ≠ 0) (y : Fin n → ℝ) :
    (∑ a, (y a - (∑ a, y a) / n) * (y a - (∑ a, y a) / n)) / n
      = (∑ a, y a * y a) / n - ((∑ a, y a) / n) * ((∑ a, y a) / n) := by
  set S := ∑ a, y a with hS
  have h1 : ∑ a, (y a - S / n) * (y a - S / n) = (∑ a, y a * y a) - 2 * (S / n) * S + n * ((S / n) * (S / n)) := by
    have : ∀ a, (y a - S / n) * (y a - S / n) = y a * y a - 2 * (S / n) * y a + (S / n) * (S / n) := fun a => by ring
    simp only [this, Finset.sum_add_distrib, Finset.sum_sub_distrib, ← Finset.mul_sum, Finset.sum_const, Finset.card_univ,
      Fintype.card_fin, nsmul_eq_mul, ← hS]
    ring
  rw [h1]
  field_simp
  ring

/-- The mean of the squared deviations of real numbers is a nonnegative real. -/
theorem real_variance_nonneg (n : ℕ) (μ : ℝ) (y : Fin n → ℝ) : 0 ≤ (∑ a, (y a - μ) * (y a - μ)) / n :=
  div_nonneg (Finset.sum_nonneg fun a _ => mul_self_nonneg _) (Nat.cast_nonneg n)

variable {n : ℕ}

/-- THE MEAN of `n` real entries, computed in the extended reals: the real mean. -/
theorem mean_coe (hn : (n : ℝ) ≠ 0) (y : Fin n → ℝ) :
    Ideal.div (∑ a, ((y a : ℝ) : EReal)) ((n : ℝ) : EReal) = (((∑ a, y a) / n : ℝ) : EReal) := by
  rw [coe_sum, div_coe_coe _ hn]

/-- THE TWO VARIANCES AGREE on real entries: the mean of `(Y − μ)²` (`μ` the mean) is the mean of `Y²` minus `μ²`, all
    computed in the extended reals with the quotient by `n`. -/
theorem variance_eq (hn : (n : ℝ) ≠ 0) (Y : Fin n → EReal) (hY : ∀ a, IsReal (Y a)) :
    Ideal.div (∑ a, (Y a - Ideal.div (∑ a, Y a) ((n : ℝ) : EReal)) * (Y a - Ideal.div (∑ a, Y a) ((n : ℝ) : EReal))) ((n : ℝ) : EReal)
      = Ideal.div (∑ a, Y a * Y a) ((n : ℝ) : EReal)
        - Ideal.div (∑ a, Y a) ((n : ℝ) : EReal) * Ideal.div (∑ a, Y a) ((n : ℝ) : EReal) := by
  choose y hy using hY
  obtain rfl : Y = fun a => ((y a : ℝ) : EReal) := funext hy
  simp only [mean_coe hn, ← EReal.coe_sub, ← EReal.coe_mul, coe_sum, div_coe_coe _ hn]
  exact congrArg _ (real_variance n hn y)

/-- On real entries the mean is real, -/
theorem isReal_mean (hn : (n : ℝ) ≠ 0) (Y : Fin n → EReal) (hY : ∀ a, IsReal (Y a)) :
    IsReal (Ideal.div (∑ a, Y a) ((n : ℝ) : EReal)) :=
  (IsReal.sum _ _ fun a _ => hY a).div_coe hn

/-- and the variance is a nonnegative real. -/
theorem variance_nonneg (hn : (n : ℝ) ≠ 0) (Y : Fin n → EReal) (hY : ∀ a, IsReal (Y a)) (μ : EReal) (hμ : IsReal μ) :
    ∃ v : ℝ, 0 ≤ v ∧ Ideal.div (∑ a, (Y a - μ) * (Y a - μ)) ((n : ℝ) : EReal) = (v : EReal) := by
  choose y hy using hY
  obtain rfl : Y = fun a => ((y a : ℝ) : EReal) := funext hy
  obtain ⟨m, rfl⟩ := hμ
  refine ⟨(∑ a, (y a - m) * (y a - m)) / n, real_variance_nonneg n m y, ?_⟩
  simp only [← EReal.coe_sub, ← EReal.coe_mul, coe_sum, div_coe_coe _ hn]

end Cert.FiniteReals

end
-- ==== Proof.LibColumnStats.lean ====
/-
  A general lemma file: the arithmetic of a row-wise two-layer perceptron followed by a column-wise (batch)
  normalisation, entry by entry on the extended reals, for any number n of rows and d of columns.

  `mlpAt` is entry (p, q) of relu(a·W1 + b1)·W2 + b2; `colSumAt` / `colSqAt` a column's sum and sum of squares;
  `meanAt` the mean; the variance in the two arrangements met in practice, `varDevAt` (the mean of the squared deviations
  from the mean: jnp.var) and `varSqAt` (the mean of the squares less the squared mean: what a kernel that accumulates
  sum and sum of squares in one pass computes); `normAt` the normalised entry g·(x − μ)·rsqrt(v + ε) + b.
  On a table of real entries: the perceptron's entries are real (`isReal_mlpAt`), the two variances are one number
  (`varSqAt_eq_varDevAt`), the mean is real (`isReal_meanAt`), and the normalised entry is real for a positive real ε
  (`isReal_normAt`). It imports LibFiniteReals.lean (IsReal, variance_eq), which has to be taken with it.
-/
import Idealize.ShloMosaic.PureOps.Ideal
import proofs.«125359_j15118284882190_1_alg».proof.Proof.LibFiniteReals

noncomputable section

namespace Cert.Spec

open Idealize.ShloMosaic Cert.FiniteReals

variable {n d : ℕ}

/-- Entry (p, q) of the two-layer perceptron applied to row p of a: (Σ_k max ((Σ_j a(p,j)·W1(j,k)) + b1(k)) 0 · W2(k,q)) + b2(q). -/
def mlpAt (a : Fin n → Fin d → EReal) (W1 : Fin d → Fin d → EReal) (b1 : Fin d → EReal)
    (W2 : Fin d → Fin d → EReal) (b2 : Fin d → EReal) (p : Fin n) (q : Fin d) : EReal :=
  (∑ k : Fin d, max ((∑ j : Fin d, a p j * W1 j k) + b1 k) 0 * W2 k q) + b2 q

/-- The sum of column q. -/
def colSumAt (h : Fin n → Fin d → EReal) (q : Fin d) : EReal := ∑ p : Fin n, h p q

/-- The sum of the squares of column q. -/
def colSqAt (h : Fin n → Fin d → EReal) (q : Fin d) : EReal := ∑ p : Fin n, h p q * h p q

/-- The mean of column q, the count N given as an extended real. -/
def meanAt (N : EReal) (h : Fin n → Fin d → EReal) (q : Fin d) : EReal := Ideal.div (colSumAt h q) N

/-- The variance of column q as the mean of the squared deviations from the mean. -/
def varDevAt (N : EReal) (h : Fin n → Fin d → EReal) (q : Fin d) : EReal :=
  Ideal.div (∑ p : Fin n, (h p q - meanAt N h q) * (h p q - meanAt N h q)) N

/-- The variance of column q as the mean of the squares less the squared mean. -/
def varSqAt (N : EReal) (h : Fin n → Fin d → EReal) (q : Fin d) : EReal :=
  Ideal.div (colSqAt h q) N - meanAt N h q * meanAt N h q

/-- The normalised entry: g(q)·(x − μ(q))·rsqrt(v(q) + ε) + b(q). -/
def normAt (eps : EReal) (μ v g b : Fin d → EReal) (x : EReal) (q : Fin d) : EReal :=
  g q * (x - μ q) * Ideal.rsqrt (v q + eps) + b q

/-! ## On real entries -/

theorem isReal_mlpAt {a : Fin n → Fin d → EReal} {W1 : Fin d → Fin d → EReal} {b1 : Fin d → EReal}
    {W2 : Fin d → Fin d → EReal} {b2 : Fin d → EReal}
    (ha : ∀ p j, IsReal (a p j)) (hW1 : ∀ j k, IsReal (W1 j k)) (hb1 : ∀ k, IsReal (b1 k))
    (hW2 : ∀ k q, IsReal (W2 k q)) (hb2 : ∀ q, IsReal (b2 q)) (p : Fin n) (q : Fin d) :
    IsReal (mlpAt a W1 b1 W2 b2 p q) :=
  (IsReal.sum _ _ fun k _ => ((((IsReal.sum _ _ fun j _ => (ha p j).mul (hW1 j k)).add (hb1 k)).max isReal_zero).mul (hW2 k q))).add (hb2 q)

/-- The two arrangements of the variance agree on a table of real entries. -/
theorem varSqAt_eq_varDevAt (hn : (n : ℝ) ≠ 0) (h : Fin n → Fin d → EReal) (hh : ∀ p q, IsReal (h p q)) (q : Fin d) :
    varSqAt ((n : ℝ) : EReal) h q = varDevAt ((n : ℝ) : EReal) h q :=
  (variance_eq hn (fun p => h p q) (fun p => hh p q)).symm

theorem isReal_meanAt (hn : (n : ℝ) ≠ 0) (h : Fin n → Fin d → EReal) (hh : ∀ p q, IsReal (h p q)) (q : Fin d) :
    IsReal (meanAt ((n : ℝ) : EReal) h q) :=
  isReal_mean hn (fun p => h p q) (fun p => hh p q)

/-- The normalised entry of a real table is real when the small constant is a positive real. -/
theorem isReal_normAt (hn : (n : ℝ) ≠ 0) (h : Fin n → Fin d → EReal) (hh : ∀ p q, IsReal (h p q))
    {e : ℝ} (he : 0 < e) (g b : Fin d → EReal) (hg : ∀ q, IsReal (g q)) (hb : ∀ q, IsReal (b q)) (p : Fin n) (q : Fin d) :
    IsReal (normAt (e : EReal) (meanAt ((n : ℝ) : EReal) h) (varDevAt ((n : ℝ) : EReal) h) g b (h p q) q) := by
  obtain ⟨v, hv0, hv⟩ := variance_nonneg hn (fun p => h p q) (fun p => hh p q) _ (isReal_meanAt hn h hh q)
  have hr : IsReal (Ideal.rsqrt (varDevAt ((n : ℝ) : EReal) h q + (e : EReal))) := by
    unfold varDevAt
    rw [hv, ← EReal.coe_add]
    exact isReal_rsqrt_of_pos (by linarith)
  exact (((hg q).mul ((hh p q).sub (isReal_meanAt hn h hh q))).mul hr).add (hb q)

end Cert.Spec

end
-- ==== Proof.KI.MlpPay0.lean ====
import proofs.«125359_j15118284882190_1_alg».proof.Proof.Gen.KernelIdeal.Skeleton
import proofs.«125359_j15118284882190_1_alg».proof.Proof.LibColumnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # Pipeline 0's payloads at an index, at the ideal values

Entry by entry, what the body of the MLP-and-statistics kernel computes from the blocks it loads: the first payload is
the two-layer perceptron's entry (a matrix product, a bias row, a relu, a second product and bias; the roundings to bf16
on the way into the products are the identity on the extended reals), the second stacks the column sums and the column
sums of squares of the first over the block's 5000 rows, the third adds the second to the running statistics. -/

namespace Cert.KernelIdeal.Hand

open Cert.KernelIdeal Cert.KernelIdeal.Gen
open Idealize.ShloMosaic
open Idealize.ShloMosaic.ValueIdx
open scoped BigOperators

/-- The kernel's matrix product into a zero accumulator, read at (p, q): the sum over the contracted coordinate of the
    products of the entries (the one contracted axis re-indexed by its coordinate). -/
theorem matmul0_apply {φa φb : FTy} (A : FVec Ideal S5000x128 φa) (B : FVec Ideal S128x128 φb) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B _ (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : (dot_S5000x128_S128x128_S5000x128_1_0_0_1_n_n).lhsIdx (ix2 p q) ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => exact ((dot_S5000x128_S128x128_S5000x128_1_0_0_1_n_n).lhsIdx_val_of_single (cl := 1) rfl _ _).trans hk
  have hr : (dot_S5000x128_S128x128_S5000x128_1_0_0_1_n_n).rhsIdx (ix2 p q) ((contrEquiv1 dot_S5000x128_S128x128_S5000x128_1_0_0_1_n_n 128 rfl rfl).symm k) = ix2 k q := by
    funext ax; apply Fin.ext
    match ax with
    | ⟨0, _⟩ => exact ((dot_S5000x128_S128x128_S5000x128_1_0_0_1_n_n).rhsIdx_val_of_single (cr := 0) rfl _ _).trans hk
    | ⟨1, _⟩ => simp [DotDims.rhsIdx, dot_S5000x128_S128x128_S5000x128_1_0_0_1_n_n]; rfl
  rw [hl, hr]

/-- A bias row broadcast over the block's rows, read at (p, q), is the row's entry q. -/
theorem bias0_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b _ (ix2 p q) (ix2 0 q) (fun a => by match a with | ⟨0, _⟩ => rfl | ⟨1, _⟩ => rfl)

/-- THE FIRST PAYLOAD AT (p, q): the two-layer perceptron's entry — the roundings to bf16 are the identity at the ideal
    values, the zero the relu compares with is the extended real 0. -/
theorem pay0_1_apply (a : FVec Ideal S5000x128 .f32) (w1 : FVec Ideal S128x128 .f32) (c1 : FVec Ideal S1x128 .f32)
    (w2 : FVec Ideal S128x128 .f32) (c2 : FVec Ideal S1x128 .f32) (p : Fin 5000) (q : Fin 128) :
    k0_pay1 (F := Ideal) a w1 c1 w2 c2 (ix2 p q)
      = Cert.Spec.mlpAt (fun p j => a (ix2 p j)) (fun j k => w1 (ix2 j k)) (fun k => c1 (ix2 0 k))
          (fun k q => w2 (ix2 k q)) (fun q => c2 (ix2 0 q)) p q := by
  unfold k0_pay1 Cert.Spec.mlpAt
  rw [addf_apply, matmul0_apply, bias0_apply]
  refine congrArg (· + c2 (ix2 0 q)) (Finset.sum_congr rfl fun k _ => ?_)
  rw [truncf_apply, maximumf_apply, addf_apply, matmul0_apply, bias0_apply, broadcast_apply]
  simp only [truncf_apply, shapeCast_self]
  rw [show (Scalar.ofBits .f32 0x00000000#32 : Ideal .f32) = 0 from Ideal.ofBits_zero_f32]

/-- A column reduction of a block followed by the cast to one row, read at (0, q): the sum of column q over the block's
    rows. -/
theorem colsum0_apply (x : FVec Ideal S5000x128 .f32) (u : Fin 1) (q : Fin 128) :
    shapeCast S1x128 (multiReduction (F := Ideal) .add [0] S128 x 0x00000000#32 reduces_S5000x128_S128 (.inl rfl) rfl)
        shapeCasts_S128_S1x128 (ix2 u q) = ∑ p : Fin 5000, x (ix2 p q) := by
  refine (shapeCast_a_1a_apply _ _ u q).trans ((Ideal.multiReduction_add_single x _ reduces_S5000x128_S128 _ _ (ix1 q)).trans ?_)
  refine Finset.sum_congr rfl fun p _ => congrArg x ?_
  funext ax; apply Fin.ext
  match ax with
  | ⟨0, _⟩ => rfl
  | ⟨1, _⟩ => rfl

/-- Two rows stacked, read at (0, q) and at (1, q): the first row's and the second row's entry q. -/
theorem stack0_fst_apply (x y : FVec Ideal S1x128 .f32) (q : Fin 128) :
    concatenate S2x128 0 [⟨S1x128, x⟩, ⟨S1x128, y⟩] concatenates_S1x128_S1x128_S2x128_d0 (ix2 0 q) = x (ix2 0 q) :=
  concatenate_apply_piece (t := S2x128) (0 : Fin 2) [⟨S1x128, x⟩, ⟨S1x128, y⟩] concatenates_S1x128_S1x128_S2x128_d0 (ix2 (0 : Fin 2) q) 0 Nat.zero_lt_two
    S1x128 x rfl rfl 0 rfl (ix2 (0 : Fin 1) q) (fun b hb => by match b with | ⟨0, _⟩ => exact absurd rfl hb | ⟨1, _⟩ => rfl) rfl
theorem stack0_snd_apply (x y : FVec Ideal S1x128 .f32) (q : Fin 128) :
    concatenate S2x128 0 [⟨S1x128, x⟩, ⟨S1x128, y⟩] concatenates_S1x128_S1x128_S2x128_d0 (ix2 1 q) = y (ix2 0 q) :=
  concatenate_apply_piece (t := S2x128) (0 : Fin 2) [⟨S1x128, x⟩, ⟨S1x128, y⟩] concatenates_S1x128_S1x128_S2x128_d0 (ix2 (1 : Fin 2) q) 1 Nat.one_lt_two
    S1x128 y rfl rfl 1 rfl (ix2 (0 : Fin 1) q) (fun b hb => by match b with | ⟨0, _⟩ => exact absurd rfl hb | ⟨1, _⟩ => rfl) rfl

/-- THE SECOND PAYLOAD, ROW 0 AT q: the sum over the block's rows of the first payload's column q. -/
theorem pay0_2_sum_apply (a : FVec Ideal S5000x128 .f32) (w1 : FVec Ideal S128x128 .f32) (c1 : FVec Ideal S1x128 .f32)
    (w2 : FVec Ideal S128x128 .f32) (c2 : FVec Ideal S1x128 .f32) (q : Fin 128) :
    k0_pay2 (F := Ideal) a w1 c1 w2 c2 (ix2 0 q)
      = Cert.Spec.colSumAt (fun (p : Fin 5000) (q : Fin 128) => k0_pay1 (F := Ideal) a w1 c1 w2 c2 (ix2 p q)) q := by
  unfold k0_pay2 Cert.Spec.colSumAt
  exact (stack0_fst_apply _ _ q).trans (colsum0_apply _ 0 q)

/-- THE SECOND PAYLOAD, ROW 1 AT q: the sum over the block's rows of the squares of the first payload's column q. -/
theorem pay0_2_sq_apply (a : FVec Ideal S5000x128 .f32) (w1 : FVec Ideal S128x128 .f32) (c1 : FVec Ideal S1x128 .f32)
    (w2 : FVec Ideal S128x128 .f32) (c2 : FVec Ideal S1x128 .f32) (q : Fin 128) :
    k0_pay2 (F := Ideal) a w1 c1 w2 c2 (ix2 1 q)
      = Cert.Spec.colSqAt (fun (p : Fin 5000) (q : Fin 128) => k0_pay1 (F := Ideal) a w1 c1 w2 c2 (ix2 p q)) q := by
  unfold k0_pay2 Cert.Spec.colSqAt
  exact (stack0_snd_apply _ _ q).trans (colsum0_apply _ 0 q)

/-- THE THIRD PAYLOAD AT (r, q): the running statistics' entry plus the second payload's. -/
theorem pay0_3_apply (a : FVec Ideal S5000x128 .f32) (w1 : FVec Ideal S128x128 .f32) (c1 : FVec Ideal S1x128 .f32)
    (w2 : FVec Ideal S128x128 .f32) (c2 : FVec Ideal S1x128 .f32) (s : FVec Ideal S2x128 .f32) (r : Fin 2) (q : Fin 128) :
    k0_pay3 (F := Ideal) a w1 c1 w2 c2 s (ix2 r q) = s (ix2 r q) + k0_pay2 (F := Ideal) a w1 c1 w2 c2 (ix2 r q) := by
  unfold k0_pay3
  rw [addf_apply, shapeCast_self]

end Cert.KernelIdeal.Hand

end
-- ==== Proof.KI.MlpValue0.lean ====
import proofs.«125359_j15118284882190_1_alg».proof.Proof.KI.Mlp0
import proofs.«125359_j15118284882190_1_alg».proof.Proof.KI.MlpPay0

set_option maxRecDepth 16384

noncomputable section

/-! # Pipeline 0's output arrays after the region, at the ideal values

The row-block output is written back at every point and its blocks tile the rows, so its array ends holding the two-layer
perceptron's table of the five input arrays; the statistics' block is the whole [2, 128] array, carried in its staging
buffer over the grid and written back once, at the last point, so its array ends holding the column sums (row 0) and the
column sums of squares (row 1) of that table over all 100000 rows: the sum over the rows met up to a point, by induction
on the point, each block contributing its 5000 consecutive rows. -/

namespace Cert.KernelIdeal.Hand

open Cert.KernelIdeal Cert.KernelIdeal.Gen
open Idealize.ShloMosaic Idealize.ShloMosaic.TcCoe
open Idealize.ShloMosaic.ValueIdx
open Idealize.SL Idealize.SL.Sem
open Idealize.ShloMosaic.Pipeline (Dat Cfg Window)
open scoped BigOperators

-- What core `c`'s TensorCore buffers hold when the region is entered, at the ideal values: a parameter of everything below.
variable (V : (c : Dev nD) → (b : Ref sig .tc) → Buf (Elt Ideal) ((c : Thread nD τ).loc b))

/-! ## The perceptron's table of the arrays, and the blocks read off them -/

/-- Entry (p, q) of the two-layer perceptron applied to the five arrays as the region finds them. -/
def mlp0 (c : Dev nD) (p : Fin 100000) (q : Fin 128) : EReal :=
  Cert.Spec.mlpAt (fun p j => V c (Pipeline.arrRef spec0 0) (ix2 p j)) (fun j k => V c (Pipeline.arrRef spec0 1) (ix2 j k))
    (fun k => V c (Pipeline.arrRef spec0 2) (ix2 0 k)) (fun k q => V c (Pipeline.arrRef spec0 3) (ix2 k q))
    (fun q => V c (Pipeline.arrRef spec0 4) (ix2 0 q)) p q

/-- The printed index maps, decided over the grid: the row-block windows (0 and 5) are at block `t` at point `t`,
    every other window at block 0. -/
theorem idx0_facts : ∀ t : Fin cfg0.N, win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = t.val
    ∧ win0_5.index t (1 : Fin 2) = 0
    ∧ win0_6.index t (0 : Fin 2) = 0
    ∧ win0_6.index t (1 : Fin 2) = 0 :=
  (by decide +kernel : ∀ t : Fin grid0.N, _)

/-- Row r of the row block at point `t` is row 5000·t + r of the array. -/
theorem blk0_0_apply (c : Dev nD) (t : Fin cfg0.N) (r : Fin 5000) (j : Fin 128) (h : t.val * 5000 + r.val < 100000) :
    iblk0 V c 0 t (ix2 r j) = V c (Pipeline.arrRef spec0 0) (ix2 ⟨t.val * 5000 + r.val, h⟩ j) := by
  show V c (Pipeline.arrRef spec0 0) (((cfg0.win 0).blk t).view.emb (ix2 r j)) = _
  refine congrArg _ (funext fun ax => Fin.ext ?_)
  obtain ⟨ea, eb, -, -, -, -, -, -, -, -, -, -, -, -⟩ := idx0_facts t
  match ax with
  | ⟨0, _⟩ => show win0_0.index t (0 : Fin 2) * 5000 + 1 * r.val = t.val * 5000 + r.val; rw [ea]; omega
  | ⟨1, _⟩ => show win0_0.index t (1 : Fin 2) * 128 + 1 * j.val = j.val; rw [eb]; omega

/-- Window 1's block is its whole array at every point. -/
theorem blk0_1_apply (c : Dev nD) (t : Fin cfg0.N) (x : Fin 128) (y : Fin 128) :
    iblk0 V c 1 t (ix2 x y) = V c (Pipeline.arrRef spec0 1) (ix2 x y) := by
  show V c (Pipeline.arrRef spec0 1) (((cfg0.win 1).blk t).view.emb (ix2 x y)) = _
  refine congrArg _ (funext fun ax => Fin.ext ?_)
  obtain ⟨-, -, ea, eb, -, -, -, -, -, -, -, -, -, -⟩ := idx0_facts t
  match ax with
  | ⟨0, _⟩ => show win0_1.index t (0 : Fin 2) * 128 + 1 * x.val = x.val; rw [ea]; omega
  | ⟨1, _⟩ => show win0_1.index t (1 : Fin 2) * 128 + 1 * y.val = y.val; rw [eb]; omega

/-- Window 2's block is its whole array at every point. -/
theorem blk0_2_apply (c : Dev nD) (t : Fin cfg0.N) (x : Fin 1) (y : Fin 128) :
    iblk0 V c 2 t (ix2 x y) = V c (Pipeline.arrRef spec0 2) (ix2 x y) := by
  show V c (Pipeline.arrRef spec0 2) (((cfg0.win 2).blk t).view.emb (ix2 x y)) = _
  refine congrArg _ (funext fun ax => Fin.ext ?_)
  obtain ⟨-, -, -, -, ea, eb, -, -, -, -, -, -, -, -⟩ := idx0_facts t
  match ax with
  | ⟨0, _⟩ => show win0_2.index t (0 : Fin 2) * 1 + 1 * x.val = x.val; rw [ea]; omega
  | ⟨1, _⟩ => show win0_2.index t (1 : Fin 2) * 128 + 1 * y.val = y.val; rw [eb]; omega

/-- Window 3's block is its whole array at every point. -/
theorem blk0_3_apply (c : Dev nD) (t : Fin cfg0.N) (x : Fin 128) (y : Fin 128) :
    iblk0 V c 3 t (ix2 x y) = V c (Pipeline.arrRef spec0 3) (ix2 x y) := by
  show V c (Pipeline.arrRef spec0 3) (((cfg0.win 3).blk t).view.emb (ix2 x y)) = _
  refine congrArg _ (funext fun ax => Fin.ext ?_)
  obtain ⟨-, -, -, -, -, -, ea, eb, -, -, -, -, -, -⟩ := idx0_facts t
  match ax with
  | ⟨0, _⟩ => show win0_3.index t (0 : Fin 2) * 128 + 1 * x.val = x.val; rw [ea]; omega
  | ⟨1, _⟩ => show win0_3.index t (1 : Fin 2) * 128 + 1 * y.val = y.val; rw [eb]; omega

/-- Window 4's block is its whole array at every point. -/
theorem blk0_4_apply (c : Dev nD) (t : Fin cfg0.N) (x : Fin 1) (y : Fin 128) :
    iblk0 V c 4 t (ix2 x y) = V c (Pipeline.arrRef spec0 4) (ix2 x y) := by
  show V c (Pipeline.arrRef spec0 4) (((cfg0.win 4).blk t).view.emb (ix2 x y)) = _
  refine congrArg _ (funext fun ax => Fin.ext ?_)
  obtain ⟨-, -, -, -, -, -, -, -, ea, eb, -, -, -, -⟩ := idx0_facts t
  match ax with
  | ⟨0, _⟩ => show win0_4.index t (0 : Fin 2) * 1 + 1 * x.val = x.val; rw [ea]; omega
  | ⟨1, _⟩ => show win0_4.index t (1 : Fin 2) * 128 + 1 * y.val = y.val; rw [eb]; omega

/-- The perceptron's entry depends on its arguments entry by entry. -/
theorem mlpAt_congr0 {n n' d : ℕ} (a : Fin n → Fin d → EReal) (a' : Fin n' → Fin d → EReal) (W W' : Fin d → Fin d → EReal)
    (b b' : Fin d → EReal) (U U' : Fin d → Fin d → EReal) (e e' : Fin d → EReal) (p : Fin n) (p' : Fin n') (q : Fin d)
    (ha : ∀ j, a p j = a' p' j) (hW : ∀ j k, W j k = W' j k) (hb : ∀ k, b k = b' k) (hU : ∀ k, U k q = U' k q) (he : e q = e' q) :
    Cert.Spec.mlpAt a W b U e p q = Cert.Spec.mlpAt a' W' b' U' e' p' q := by
  unfold Cert.Spec.mlpAt
  simp only [ha, hW, hb, hU, he]

/-- THE FIRST PAYLOAD OF THE BLOCKS AT POINT `t`, at (r, q): the table's entry at row 5000·t + r. -/
theorem point0_5 (c : Dev nD) (t : Fin cfg0.N) (r : Fin 5000) (q : Fin 128) (h : t.val * 5000 + r.val < 100000) :
    k0_pay1 (F := Ideal) (iblk0 V c 0 t) (iblk0 V c 1 t) (iblk0 V c 2 t) (iblk0 V c 3 t) (iblk0 V c 4 t) (ix2 r q) = mlp0 V c ⟨t.val * 5000 + r.val, h⟩ q := by
  refine (pay0_1_apply _ _ _ _ _ r q).trans ?_
  unfold mlp0
  exact mlpAt_congr0 _ _ _ _ _ _ _ _ _ _ r _ q (fun j => blk0_0_apply V c t r j h) (fun j k => blk0_1_apply V c t j k)
    (fun k => blk0_2_apply V c t 0 k) (fun k => blk0_3_apply V c t k q) (blk0_4_apply V c t 0 q)

/-! ## The row-block output's array after the region -/

/-- The table as contents of the row-block output's array. -/
def G0_5 (c : Dev nD) : Buf (Elt Ideal) ((cfg0.win 5).arr.view.loc (c.tc : Thread nD τ)) :=
  fun (i : S100000x128.Idx) => mlp0 V c (i 0) (i 1)

/-- WHAT POINT `t` WRITES BACK is block `t` of the table. -/
theorem flushed0_5_eq (c : Dev nD) (t : Fin cfg0.N) :
    (dat0 V c).flushed 5 t = ((cfg0.win 5).blk t).view.read (Elt Ideal) (G0_5 V c) := by
  show (cfg0.win 5).cut (grid0.coords t) ((dat0 V c).after 5 t) = _
  rw [after0_5]
  funext y
  obtain ⟨r, q, rfl⟩ : ∃ (r : Fin 5000) (q : Fin 128), y = ix2 r q := ⟨y 0, y 1, eq_ix2 y⟩
  have hN : t.val < 20 := lt_of_lt_of_eq t.isLt (show cfg0.N = 20 from N_0)
  have hlt : t.val * 5000 + r.val < 100000 := by have := r.isLt; omega
  show k0_pay1 (F := Ideal) (iblk0 V c 0 t) (iblk0 V c 1 t) (iblk0 V c 2 t) (iblk0 V c 3 t) (iblk0 V c 4 t) (ix2 r q) = G0_5 V c (((cfg0.win 5).blk t).view.emb (ix2 r q))
  have e : ((cfg0.win 5).blk t).view.emb (ix2 r q) = (ix2 (⟨t.val * 5000 + r.val, hlt⟩ : Fin 100000) q : S100000x128.Idx) := by
    funext ax; apply Fin.ext
    obtain ⟨-, -, -, -, -, -, -, -, -, -, ea, eb, -, -⟩ := idx0_facts t
    match ax with
    | ⟨0, _⟩ => show win0_5.index t (0 : Fin 2) * 5000 + 1 * r.val = t.val * 5000 + r.val; rw [ea]; omega
    | ⟨1, _⟩ => show win0_5.index t (1 : Fin 2) * 128 + 1 * q.val = q.val; rw [eb]; omega
  rw [e]
  exact point0_5 V c t r q hlt

/-- An index of the array is in point `t`'s block iff each coordinate is in the block's range on its axis. -/
theorem mem_blk0_5 (t : Fin cfg0.N) (i : S100000x128.Idx) :
    i ∈ ((cfg0.win 5).blk t).view.set ↔ ∀ a : Fin 2, win0_5.index t a * S5000x128.size a ≤ (i a).val ∧ (i a).val < win0_5.index t a * S5000x128.size a + S5000x128.size a := by
  show i ∈ ((View.whole (Pipeline.arrRef spec0 5)).slice (win0_5.rect t)).set ↔ _
  rw [View.set_slice_whole, Rect.mem_set_unit]
  exact Iff.rfl

/-- Every row of the array is in the block of the point numbered by the row's quotient by 5000, which writes it back. -/
theorem covers0_5 (i : S100000x128.Idx) : ∃ t : Fin cfg0.N, (cfg0.win 5).flush t = true ∧ i ∈ ((cfg0.win 5).blk t).view.set := by
  have hi : (i 0).val < 100000 := (i 0).isLt
  have hj : (i 1).val < 128 := (i 1).isLt
  have hq : (i 0).val / 5000 < cfg0.N := by rw [show cfg0.N = 20 from N_0]; omega
  refine ⟨⟨(i 0).val / 5000, hq⟩, flush0_5 _, ?_⟩
  rw [mem_blk0_5]
  obtain ⟨-, -, -, -, -, -, -, -, -, -, ea, eb, -, -⟩ := idx0_facts ⟨(i 0).val / 5000, hq⟩
  intro a
  match a with
  | ⟨0, _⟩ =>
    show win0_5.index ⟨(i 0).val / 5000, hq⟩ (0 : Fin 2) * 5000 ≤ (i 0).val ∧ (i 0).val < win0_5.index ⟨(i 0).val / 5000, hq⟩ (0 : Fin 2) * 5000 + 5000
    rw [ea]; dsimp only; omega
  | ⟨1, _⟩ =>
    show win0_5.index ⟨(i 0).val / 5000, hq⟩ (1 : Fin 2) * 128 ≤ (i 1).val ∧ (i 1).val < win0_5.index ⟨(i 0).val / 5000, hq⟩ (1 : Fin 2) * 128 + 128
    rw [eb]; omega

/-- THE ROW-BLOCK OUTPUT'S ARRAY after the region: the perceptron's table of the five input arrays. -/
theorem final0_5 (c : Dev nD) (p : Fin 100000) (q : Fin 128) :
    (dat0 (F := Ideal) V c).arrAt 5 cfg0.N (ix2 p q)
      = Cert.Spec.mlpAt (fun p j => V c (Pipeline.arrRef spec0 0) (ix2 p j)) (fun j k => V c (Pipeline.arrRef spec0 1) (ix2 j k))
        (fun k => V c (Pipeline.arrRef spec0 2) (ix2 0 k)) (fun k q => V c (Pipeline.arrRef spec0 3) (ix2 k q))
        (fun q => V c (Pipeline.arrRef spec0 4) (ix2 0 q)) p q :=
  congrFun ((dat0 V c).arrAt_eq_of_cover 5 (G0_5 V c) (fun t _ => flushed0_5_eq V c t) covers0_5) (ix2 p q)

/-! ## The statistics' array after the region -/

/-- A function of the array's rows extended by zero to every natural number. -/
def rows0 (g : Fin 100000 → EReal) (p : ℕ) : EReal := if h : p < 100000 then g ⟨p, h⟩ else 0

theorem sum_rows0 (g : Fin 100000 → EReal) : ∑ p ∈ Finset.range 100000, rows0 g p = ∑ p : Fin 100000, g p := by
  rw [Finset.sum_range]
  exact Finset.sum_congr rfl fun p _ => dif_pos p.isLt

/-- The block at point `t` contributes the rows 5000·t … 5000·t + 4999 of the table (`φ` of each entry). -/
theorem blocksum0 (φ : EReal → EReal) (c : Dev nD) (q : Fin 128) (t : Fin cfg0.N) :
    ∑ r : Fin 5000, φ (k0_pay1 (F := Ideal) (iblk0 V c 0 t) (iblk0 V c 1 t) (iblk0 V c 2 t) (iblk0 V c 3 t) (iblk0 V c 4 t) (ix2 r q))
      = ∑ x ∈ Finset.range 5000, rows0 (fun p => φ (mlp0 V c p q)) (t.val * 5000 + x) := by
  have hN : t.val < 20 := lt_of_lt_of_eq t.isLt (show cfg0.N = 20 from N_0)
  rw [Finset.sum_range]
  refine Finset.sum_congr rfl fun r _ => ?_
  have hlt : t.val * 5000 + r.val < 100000 := by have := r.isLt; omega
  rw [point0_5 V c t r q hlt]
  unfold rows0
  rw [dif_pos hlt]

/-- THE RUNNING STATISTICS. Row `ρ` of the statistics buffer after the body at position `n`, at q, is the sum of `φ` of
    the table's column q over the rows of the blocks met so far, 0 … 5000·(n + 1) − 1 — for the row whose block
    contribution is the sum of `φ` of the first payload's column (`hφ`): by induction on the position, the first point
    storing its block's sum and every later one adding its block's to what the point before left. -/
theorem stats0_row (φ : EReal → EReal) (ρ : Fin 2)
    (hφ : ∀ (a : FVec Ideal S5000x128 .f32) (w1 : FVec Ideal S128x128 .f32) (c1 : FVec Ideal S1x128 .f32)
      (w2 : FVec Ideal S128x128 .f32) (c2 : FVec Ideal S1x128 .f32) (q : Fin 128),
      k0_pay2 (F := Ideal) a w1 c1 w2 c2 (ix2 ρ q) = ∑ p : Fin 5000, φ (k0_pay1 (F := Ideal) a w1 c1 w2 c2 (ix2 p q)))
    (c : Dev nD) (q : Fin 128) : ∀ (n : ℕ) (hn : n < cfg0.N),
      (dat0 (F := Ideal) V c).after 6 ⟨n, hn⟩ (ix2 ρ q)
        = ∑ p ∈ Finset.range ((n + 1) * 5000), rows0 (fun p => φ (mlp0 V c p q)) p
  | 0, hn => by
    refine (congrFun (after0_6_zero V c ⟨0, hn⟩ rfl) (ix2 ρ q)).trans ((hφ _ _ _ _ _ q).trans ((blocksum0 V φ c q ⟨0, hn⟩).trans ?_))
    rw [show (0 + 1) * 5000 = 5000 from rfl]
    refine Finset.sum_congr rfl fun x _ => ?_
    show rows0 _ (0 * 5000 + x) = _
    rw [Nat.zero_mul, Nat.zero_add]
  | n + 1, hn => by
    have ih := stats0_row φ ρ hφ c q n (Nat.lt_of_succ_lt hn)
    refine (congrFun (after0_6_succ V c ⟨n + 1, hn⟩ (Nat.succ_ne_zero n)) (ix2 ρ q)).trans ((pay0_3_apply _ _ _ _ _ _ ρ q).trans ?_)
    rw [show (n + 1 + 1) * 5000 = (n + 1) * 5000 + 5000 by omega, Finset.sum_range_add]
    exact congrArg₂ (· + ·) ih ((hφ _ _ _ _ _ q).trans (blocksum0 V φ c q ⟨n + 1, hn⟩))

/-- The last point. -/
theorem last0_lt : 19 < cfg0.N := by rw [show cfg0.N = 20 from N_0]; omega

/-- An index of the statistics' array is in every point's block: the block is the whole array. -/
theorem mem_blk0_6 (t : Fin cfg0.N) (i : S2x128.Idx) :
    i ∈ ((cfg0.win 6).blk t).view.set ↔ ∀ a : Fin 2, win0_6.index t a * S2x128.size a ≤ (i a).val ∧ (i a).val < win0_6.index t a * S2x128.size a + S2x128.size a := by
  show i ∈ ((View.whole (Pipeline.arrRef spec0 6)).slice (win0_6.rect t)).set ↔ _
  rw [View.set_slice_whole, Rect.mem_set_unit]
  exact Iff.rfl

/-- THE STATISTICS' ARRAY after the region is what the body left in the staging buffer at the last point, the one point
    that writes it back (the block is the whole array). -/
theorem final0_6 (c : Dev nD) (ρ : Fin 2) (q : Fin 128) :
    (dat0 (F := Ideal) V c).arrAt 6 cfg0.N (ix2 ρ q) = (dat0 (F := Ideal) V c).after 6 ⟨19, last0_lt⟩ (ix2 ρ q) := by
  refine congrFun ((dat0 V c).arrAt_eq_of_cover 6 (fun (i : S2x128.Idx) => (dat0 (F := Ideal) V c).after 6 ⟨19, last0_lt⟩ i) ?_ ?_) (ix2 ρ q)
  · intro t hf
    have hN : t.val < 20 := lt_of_lt_of_eq t.isLt (show cfg0.N = 20 from N_0)
    have ht : t.val = 19 := by have := (flush0_6 t).mp hf; omega
    obtain rfl : t = ⟨19, last0_lt⟩ := Fin.ext ht
    show (cfg0.win 6).cut (grid0.coords ⟨19, last0_lt⟩) ((dat0 V c).after 6 ⟨19, last0_lt⟩) = _
    funext y
    show (dat0 V c).after 6 ⟨19, last0_lt⟩ y = (dat0 V c).after 6 ⟨19, last0_lt⟩ (((cfg0.win 6).blk ⟨19, last0_lt⟩).view.emb y)
    refine congrArg _ (funext fun ax => Fin.ext ?_)
    obtain ⟨-, -, -, -, -, -, -, -, -, -, -, -, ea, eb⟩ := idx0_facts ⟨19, last0_lt⟩
    match ax with
    | ⟨0, _⟩ => show (y 0).val = win0_6.index ⟨19, last0_lt⟩ (0 : Fin 2) * 2 + 1 * (y 0).val; rw [ea]; omega
    | ⟨1, _⟩ => show (y 1).val = win0_6.index ⟨19, last0_lt⟩ (1 : Fin 2) * 128 + 1 * (y 1).val; rw [eb]; omega
  · intro i
    refine ⟨⟨19, last0_lt⟩, (flush0_6 _).mpr rfl, ?_⟩
    have hi : (i 0).val < 2 := (i 0).isLt
    have hj : (i 1).val < 128 := (i 1).isLt
    rw [mem_blk0_6]
    obtain ⟨-, -, -, -, -, -, -, -, -, -, -, -, ea, eb⟩ := idx0_facts ⟨19, last0_lt⟩
    intro a
    match a with
    | ⟨0, _⟩ =>
      show win0_6.index ⟨19, last0_lt⟩ (0 : Fin 2) * 2 ≤ (i 0).val ∧ (i 0).val < win0_6.index ⟨19, last0_lt⟩ (0 : Fin 2) * 2 + 2
      rw [ea]; omega
    | ⟨1, _⟩ =>
      show win0_6.index ⟨19, last0_lt⟩ (1 : Fin 2) * 128 ≤ (i 1).val ∧ (i 1).val < win0_6.index ⟨19, last0_lt⟩ (1 : Fin 2) * 128 + 128
      rw [eb]; omega

/-- THE STATISTICS' ARRAY, ROW 0: the column sums of the perceptron's table over all 100000 rows. -/
theorem final0_6_sum (c : Dev nD) (q : Fin 128) :
    (dat0 (F := Ideal) V c).arrAt 6 cfg0.N (ix2 0 q)
      = Cert.Spec.colSumAt (fun (p : Fin 100000) (q : Fin 128) => Cert.Spec.mlpAt (fun p j => V c (Pipeline.arrRef spec0 0) (ix2 p j)) (fun j k => V c (Pipeline.arrRef spec0 1) (ix2 j k))
        (fun k => V c (Pipeline.arrRef spec0 2) (ix2 0 k)) (fun k q => V c (Pipeline.arrRef spec0 3) (ix2 k q))
        (fun q => V c (Pipeline.arrRef spec0 4) (ix2 0 q)) p q) q := by
  refine (final0_6 V c 0 q).trans ((stats0_row V (fun x => x) 0 (fun a w1 c1 w2 c2 q => pay0_2_sum_apply a w1 c1 w2 c2 q) c q 19 last0_lt).trans ?_)
  exact sum_rows0 (fun p => mlp0 V c p q)

/-- THE STATISTICS' ARRAY, ROW 1: the column sums of the squares of the perceptron's table over all 100000 rows. -/
theorem final0_6_sq (c : Dev nD) (q : Fin 128) :
    (dat0 (F := Ideal) V c).arrAt 6 cfg0.N (ix2 1 q)
      = Cert.Spec.colSqAt (fun (p : Fin 100000) (q : Fin 128) => Cert.Spec.mlpAt (fun p j => V c (Pipeline.arrRef spec0 0) (ix2 p j)) (fun j k => V c (Pipeline.arrRef spec0 1) (ix2 j k))
        (fun k => V c (Pipeline.arrRef spec0 2) (ix2 0 k)) (fun k q => V c (Pipeline.arrRef spec0 3) (ix2 k q))
        (fun q => V c (Pipeline.arrRef spec0 4) (ix2 0 q)) p q) q := by
  refine (final0_6 V c 1 q).trans ((stats0_row V (fun x => x * x) 1 (fun a w1 c1 w2 c2 q => pay0_2_sq_apply a w1 c1 w2 c2 q) c q 19 last0_lt).trans ?_)
  exact sum_rows0 (fun p => mlp0 V c p q * mlp0 V c p q)

end Cert.KernelIdeal.Hand

end
-- ==== Proof.KI.MlpPay2.lean ====
import proofs.«125359_j15118284882190_1_alg».proof.Proof.Gen.KernelIdeal.Skeleton
import proofs.«125359_j15118284882190_1_alg».proof.Proof.LibColumnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # Pipeline 2's payloads at an index, at the ideal values

Entry by entry, what the body of the MLP-and-statistics kernel computes from the blocks it loads: the first payload is
the two-layer perceptron's entry (a matrix product, a bias row, a relu, a second product and bias; the roundings to bf16
on the way into the products are the identity on the extended reals), the second stacks the column sums and the column
sums of squares of the first over the block's 5000 rows, the third adds the second to the running statistics. -/

namespace Cert.KernelIdeal.Hand

open Cert.KernelIdeal Cert.KernelIdeal.Gen
open Idealize.ShloMosaic
open Idealize.ShloMosaic.ValueIdx
open scoped BigOperators

/-- The kernel's matrix product into a zero accumulator, read at (p, q): the sum over the contracted coordinate of the
    products of the entries (the one contracted axis re-indexed by its coordinate). -/
theorem matmul2_apply {φa φb : FTy} (A : FVec Ideal S5000x128 φa) (B : FVec Ideal S128x128 φb) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B _ (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : (dot_S5000x128_S128x128_S5000x128_1_0_0_1_n_n).lhsIdx (ix2 p q) ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => exact ((dot_S5000x128_S128x128_S5000x128_1_0_0_1_n_n).lhsIdx_val_of_single (cl := 1) rfl _ _).trans hk
  have hr : (dot_S5000x128_S128x128_S5000x128_1_0_0_1_n_n).rhsIdx (ix2 p q) ((contrEquiv1 dot_S5000x128_S128x128_S5000x128_1_0_0_1_n_n 128 rfl rfl).symm k) = ix2 k q := by
    funext ax; apply Fin.ext
    match ax with
    | ⟨0, _⟩ => exact ((dot_S5000x128_S128x128_S5000x128_1_0_0_1_n_n).rhsIdx_val_of_single (cr := 0) rfl _ _).trans hk
    | ⟨1, _⟩ => simp [DotDims.rhsIdx, dot_S5000x128_S128x128_S5000x128_1_0_0_1_n_n]; rfl
  rw [hl, hr]

/-- A bias row broadcast over the block's rows, read at (p, q), is the row's entry q. -/
theorem bias2_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b _ (ix2 p q) (ix2 0 q) (fun a => by match a with | ⟨0, _⟩ => rfl | ⟨1, _⟩ => rfl)

/-- THE FIRST PAYLOAD AT (p, q): the two-layer perceptron's entry — the roundings to bf16 are the identity at the ideal
    values, the zero the relu compares with is the extended real 0. -/
theorem pay2_1_apply (a : FVec Ideal S5000x128 .f32) (w1 : FVec Ideal S128x128 .f32) (c1 : FVec Ideal S1x128 .f32)
    (w2 : FVec Ideal S128x128 .f32) (c2 : FVec Ideal S1x128 .f32) (p : Fin 5000) (q : Fin 128) :
    k2_pay1 (F := Ideal) a w1 c1 w2 c2 (ix2 p q)
      = Cert.Spec.mlpAt (fun p j => a (ix2 p j)) (fun j k => w1 (ix2 j k)) (fun k => c1 (ix2 0 k))
          (fun k q => w2 (ix2 k q)) (fun q => c2 (ix2 0 q)) p q := by
  unfold k2_pay1 Cert.Spec.mlpAt
  rw [addf_apply, matmul2_apply, bias2_apply]
  refine congrArg (· + c2 (ix2 0 q)) (Finset.sum_congr rfl fun k _ => ?_)
  rw [truncf_apply, maximumf_apply, addf_apply, matmul2_apply, bias2_apply, broadcast_apply]
  simp only [truncf_apply, shapeCast_self]
  rw [show (Scalar.ofBits .f32 0x00000000#32 : Ideal .f32) = 0 from Ideal.ofBits_zero_f32]

/-- A column reduction of a block followed by the cast to one row, read at (0, q): the sum of column q over the block's
    rows. -/
theorem colsum2_apply (x : FVec Ideal S5000x128 .f32) (u : Fin 1) (q : Fin 128) :
    shapeCast S1x128 (multiReduction (F := Ideal) .add [0] S128 x 0x00000000#32 reduces_S5000x128_S128 (.inl rfl) rfl)
        shapeCasts_S128_S1x128 (ix2 u q) = ∑ p : Fin 5000, x (ix2 p q) := by
  refine (shapeCast_a_1a_apply _ _ u q).trans ((Ideal.multiReduction_add_single x _ reduces_S5000x128_S128 _ _ (ix1 q)).trans ?_)
  refine Finset.sum_congr rfl fun p _ => congrArg x ?_
  funext ax; apply Fin.ext
  match ax with
  | ⟨0, _⟩ => rfl
  | ⟨1, _⟩ => rfl

/-- Two rows stacked, read at (0, q) and at (1, q): the first row's and the second row's entry q. -/
theorem stack2_fst_apply (x y : FVec Ideal S1x128 .f32) (q : Fin 128) :
    concatenate S2x128 0 [⟨S1x128, x⟩, ⟨S1x128, y⟩] concatenates_S1x128_S1x128_S2x128_d0 (ix2 0 q) = x (ix2 0 q) :=
  concatenate_apply_piece (t := S2x128) (0 : Fin 2) [⟨S1x128, x⟩, ⟨S1x128, y⟩] concatenates_S1x128_S1x128_S2x128_d0 (ix2 (0 : Fin 2) q) 0 Nat.zero_lt_two
    S1x128 x rfl rfl 0 rfl (ix2 (0 : Fin 1) q) (fun b hb => by match b with | ⟨0, _⟩ => exact absurd rfl hb | ⟨1, _⟩ => rfl) rfl
theorem stack2_snd_apply (x y : FVec Ideal S1x128 .f32) (q : Fin 128) :
    concatenate S2x128 0 [⟨S1x128, x⟩, ⟨S1x128, y⟩] concatenates_S1x128_S1x128_S2x128_d0 (ix2 1 q) = y (ix2 0 q) :=
  concatenate_apply_piece (t := S2x128) (0 : Fin 2) [⟨S1x128, x⟩, ⟨S1x128, y⟩] concatenates_S1x128_S1x128_S2x128_d0 (ix2 (1 : Fin 2) q) 1 Nat.one_lt_two
    S1x128 y rfl rfl 1 rfl (ix2 (0 : Fin 1) q) (fun b hb => by match b with | ⟨0, _⟩ => exact absurd rfl hb | ⟨1, _⟩ => rfl) rfl

/-- THE SECOND PAYLOAD, ROW 0 AT q: the sum over the block's rows of the first payload's column q. -/
theorem pay2_2_sum_apply (a : FVec Ideal S5000x128 .f32) (w1 : FVec Ideal S128x128 .f32) (c1 : FVec Ideal S1x128 .f32)
    (w2 : FVec Ideal S128x128 .f32) (c2 : FVec Ideal S1x128 .f32) (q : Fin 128) :
    k2_pay2 (F := Ideal) a w1 c1 w2 c2 (ix2 0 q)
      = Cert.Spec.colSumAt (fun (p : Fin 5000) (q : Fin 128) => k2_pay1 (F := Ideal) a w1 c1 w2 c2 (ix2 p q)) q := by
  unfold k2_pay2 Cert.Spec.colSumAt
  exact (stack2_fst_apply _ _ q).trans (colsum2_apply _ 0 q)

/-- THE SECOND PAYLOAD, ROW 1 AT q: the sum over the block's rows of the squares of the first payload's column q. -/
theorem pay2_2_sq_apply (a : FVec Ideal S5000x128 .f32) (w1 : FVec Ideal S128x128 .f32) (c1 : FVec Ideal S1x128 .f32)
    (w2 : FVec Ideal S128x128 .f32) (c2 : FVec Ideal S1x128 .f32) (q : Fin 128) :
    k2_pay2 (F := Ideal) a w1 c1 w2 c2 (ix2 1 q)
      = Cert.Spec.colSqAt (fun (p : Fin 5000) (q : Fin 128) => k2_pay1 (F := Ideal) a w1 c1 w2 c2 (ix2 p q)) q := by
  unfold k2_pay2 Cert.Spec.colSqAt
  exact (stack2_snd_apply _ _ q).trans (colsum2_apply _ 0 q)

/-- THE THIRD PAYLOAD AT (r, q): the running statistics' entry plus the second payload's. -/
theorem pay2_3_apply (a : FVec Ideal S5000x128 .f32) (w1 : FVec Ideal S128x128 .f32) (c1 : FVec Ideal S1x128 .f32)
    (w2 : FVec Ideal S128x128 .f32) (c2 : FVec Ideal S1x128 .f32) (s : FVec Ideal S2x128 .f32) (r : Fin 2) (q : Fin 128) :
    k2_pay3 (F := Ideal) a w1 c1 w2 c2 s (ix2 r q) = s (ix2 r q) + k2_pay2 (F := Ideal) a w1 c1 w2 c2 (ix2 r q) := by
  unfold k2_pay3
  rw [addf_apply, shapeCast_self]

end Cert.KernelIdeal.Hand

end
-- ==== Proof.KI.MlpValue2.lean ====
import proofs.«125359_j15118284882190_1_alg».proof.Proof.KI.Mlp2
import proofs.«125359_j15118284882190_1_alg».proof.Proof.KI.MlpPay2

set_option maxRecDepth 16384

noncomputable section

/-! # Pipeline 2's output arrays after the region, at the ideal values

The row-block output is written back at every point and its blocks tile the rows, so its array ends holding the two-layer
perceptron's table of the five input arrays; the statistics' block is the whole [2, 128] array, carried in its staging
buffer over the grid and written back once, at the last point, so its array ends holding the column sums (row 0) and the
column sums of squares (row 1) of that table over all 100000 rows: the sum over the rows met up to a point, by induction
on the point, each block contributing its 5000 consecutive rows. -/

namespace Cert.KernelIdeal.Hand

open Cert.KernelIdeal Cert.KernelIdeal.Gen
open Idealize.ShloMosaic Idealize.ShloMosaic.TcCoe
open Idealize.ShloMosaic.ValueIdx
open Idealize.SL Idealize.SL.Sem
open Idealize.ShloMosaic.Pipeline (Dat Cfg Window)
open scoped BigOperators

-- What core `c`'s TensorCore buffers hold when the region is entered, at the ideal values: a parameter of everything below.
variable (V : (c : Dev nD) → (b : Ref sig .tc) → Buf (Elt Ideal) ((c : Thread nD τ).loc b))

/-! ## The perceptron's table of the arrays, and the blocks read off them -/

/-- Entry (p, q) of the two-layer perceptron applied to the five arrays as the region finds them. -/
def mlp2 (c : Dev nD) (p : Fin 100000) (q : Fin 128) : EReal :=
  Cert.Spec.mlpAt (fun p j => V c (Pipeline.arrRef spec2 0) (ix2 p j)) (fun j k => V c (Pipeline.arrRef spec2 1) (ix2 j k))
    (fun k => V c (Pipeline.arrRef spec2 2) (ix2 0 k)) (fun k q => V c (Pipeline.arrRef spec2 3) (ix2 k q))
    (fun q => V c (Pipeline.arrRef spec2 4) (ix2 0 q)) p q

/-- The printed index maps, decided over the grid: the row-block windows (0 and 5) are at block `t` at point `t`,
    every other window at block 0. -/
theorem idx2_facts : ∀ t : Fin cfg2.N, win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = t.val
    ∧ win2_5.index t (1 : Fin 2) = 0
    ∧ win2_6.index t (0 : Fin 2) = 0
    ∧ win2_6.index t (1 : Fin 2) = 0 :=
  (by decide +kernel : ∀ t : Fin grid2.N, _)

/-- Row r of the row block at point `t` is row 5000·t + r of the array. -/
theorem blk2_0_apply (c : Dev nD) (t : Fin cfg2.N) (r : Fin 5000) (j : Fin 128) (h : t.val * 5000 + r.val < 100000) :
    iblk2 V c 0 t (ix2 r j) = V c (Pipeline.arrRef spec2 0) (ix2 ⟨t.val * 5000 + r.val, h⟩ j) := by
  show V c (Pipeline.arrRef spec2 0) (((cfg2.win 0).blk t).view.emb (ix2 r j)) = _
  refine congrArg _ (funext fun ax => Fin.ext ?_)
  obtain ⟨ea, eb, -, -, -, -, -, -, -, -, -, -, -, -⟩ := idx2_facts t
  match ax with
  | ⟨0, _⟩ => show win2_0.index t (0 : Fin 2) * 5000 + 1 * r.val = t.val * 5000 + r.val; rw [ea]; omega
  | ⟨1, _⟩ => show win2_0.index t (1 : Fin 2) * 128 + 1 * j.val = j.val; rw [eb]; omega

/-- Window 1's block is its whole array at every point. -/
theorem blk2_1_apply (c : Dev nD) (t : Fin cfg2.N) (x : Fin 128) (y : Fin 128) :
    iblk2 V c 1 t (ix2 x y) = V c (Pipeline.arrRef spec2 1) (ix2 x y) := by
  show V c (Pipeline.arrRef spec2 1) (((cfg2.win 1).blk t).view.emb (ix2 x y)) = _
  refine congrArg _ (funext fun ax => Fin.ext ?_)
  obtain ⟨-, -, ea, eb, -, -, -, -, -, -, -, -, -, -⟩ := idx2_facts t
  match ax with
  | ⟨0, _⟩ => show win2_1.index t (0 : Fin 2) * 128 + 1 * x.val = x.val; rw [ea]; omega
  | ⟨1, _⟩ => show win2_1.index t (1 : Fin 2) * 128 + 1 * y.val = y.val; rw [eb]; omega

/-- Window 2's block is its whole array at every point. -/
theorem blk2_2_apply (c : Dev nD) (t : Fin cfg2.N) (x : Fin 1) (y : Fin 128) :
    iblk2 V c 2 t (ix2 x y) = V c (Pipeline.arrRef spec2 2) (ix2 x y) := by
  show V c (Pipeline.arrRef spec2 2) (((cfg2.win 2).blk t).view.emb (ix2 x y)) = _
  refine congrArg _ (funext fun ax => Fin.ext ?_)
  obtain ⟨-, -, -, -, ea, eb, -, -, -, -, -, -, -, -⟩ := idx2_facts t
  match ax with
  | ⟨0, _⟩ => show win2_2.index t (0 : Fin 2) * 1 + 1 * x.val = x.val; rw [ea]; omega
  | ⟨1, _⟩ => show win2_2.index t (1 : Fin 2) * 128 + 1 * y.val = y.val; rw [eb]; omega

/-- Window 3's block is its whole array at every point. -/
theorem blk2_3_apply (c : Dev nD) (t : Fin cfg2.N) (x : Fin 128) (y : Fin 128) :
    iblk2 V c 3 t (ix2 x y) = V c (Pipeline.arrRef spec2 3) (ix2 x y) := by
  show V c (Pipeline.arrRef spec2 3) (((cfg2.win 3).blk t).view.emb (ix2 x y)) = _
  refine congrArg _ (funext fun ax => Fin.ext ?_)
  obtain ⟨-, -, -, -, -, -, ea, eb, -, -, -, -, -, -⟩ := idx2_facts t
  match ax with
  | ⟨0, _⟩ => show win2_3.index t (0 : Fin 2) * 128 + 1 * x.val = x.val; rw [ea]; omega
  | ⟨1, _⟩ => show win2_3.index t (1 : Fin 2) * 128 + 1 * y.val = y.val; rw [eb]; omega

/-- Window 4's block is its whole array at every point. -/
theorem blk2_4_apply (c : Dev nD) (t : Fin cfg2.N) (x : Fin 1) (y : Fin 128) :
    iblk2 V c 4 t (ix2 x y) = V c (Pipeline.arrRef spec2 4) (ix2 x y) := by
  show V c (Pipeline.arrRef spec2 4) (((cfg2.win 4).blk t).view.emb (ix2 x y)) = _
  refine congrArg _ (funext fun ax => Fin.ext ?_)
  obtain ⟨-, -, -, -, -, -, -, -, ea, eb, -, -, -, -⟩ := idx2_facts t
  match ax with
  | ⟨0, _⟩ => show win2_4.index t (0 : Fin 2) * 1 + 1 * x.val = x.val; rw [ea]; omega
  | ⟨1, _⟩ => show win2_4.index t (1 : Fin 2) * 128 + 1 * y.val = y.val; rw [eb]; omega

/-- The perceptron's entry depends on its arguments entry by entry. -/
theorem mlpAt_congr2 {n n' d : ℕ} (a : Fin n → Fin d → EReal) (a' : Fin n' → Fin d → EReal) (W W' : Fin d → Fin d → EReal)
    (b b' : Fin d → EReal) (U U' : Fin d → Fin d → EReal) (e e' : Fin d → EReal) (p : Fin n) (p' : Fin n') (q : Fin d)
    (ha : ∀ j, a p j = a' p' j) (hW : ∀ j k, W j k = W' j k) (hb : ∀ k, b k = b' k) (hU : ∀ k, U k q = U' k q) (he : e q = e' q) :
    Cert.Spec.mlpAt a W b U e p q = Cert.Spec.mlpAt a' W' b' U' e' p' q := by
  unfold Cert.Spec.mlpAt
  simp only [ha, hW, hb, hU, he]

/-- THE FIRST PAYLOAD OF THE BLOCKS AT POINT `t`, at (r, q): the table's entry at row 5000·t + r. -/
theorem point2_5 (c : Dev nD) (t : Fin cfg2.N) (r : Fin 5000) (q : Fin 128) (h : t.val * 5000 + r.val < 100000) :
    k2_pay1 (F := Ideal) (iblk2 V c 0 t) (iblk2 V c 1 t) (iblk2 V c 2 t) (iblk2 V c 3 t) (iblk2 V c 4 t) (ix2 r q) = mlp2 V c ⟨t.val * 5000 + r.val, h⟩ q := by
  refine (pay2_1_apply _ _ _ _ _ r q).trans ?_
  unfold mlp2
  exact mlpAt_congr2 _ _ _ _ _ _ _ _ _ _ r _ q (fun j => blk2_0_apply V c t r j h) (fun j k => blk2_1_apply V c t j k)
    (fun k => blk2_2_apply V c t 0 k) (fun k => blk2_3_apply V c t k q) (blk2_4_apply V c t 0 q)

/-! ## The row-block output's array after the region -/

/-- The table as contents of the row-block output's array. -/
def G2_5 (c : Dev nD) : Buf (Elt Ideal) ((cfg2.win 5).arr.view.loc (c.tc : Thread nD τ)) :=
  fun (i : S100000x128.Idx) => mlp2 V c (i 0) (i 1)

/-- WHAT POINT `t` WRITES BACK is block `t` of the table. -/
theorem flushed2_5_eq (c : Dev nD) (t : Fin cfg2.N) :
    (dat2 V c).flushed 5 t = ((cfg2.win 5).blk t).view.read (Elt Ideal) (G2_5 V c) := by
  show (cfg2.win 5).cut (grid2.coords t) ((dat2 V c).after 5 t) = _
  rw [after2_5]
  funext y
  obtain ⟨r, q, rfl⟩ : ∃ (r : Fin 5000) (q : Fin 128), y = ix2 r q := ⟨y 0, y 1, eq_ix2 y⟩
  have hN : t.val < 20 := lt_of_lt_of_eq t.isLt (show cfg2.N = 20 from N_2)
  have hlt : t.val * 5000 + r.val < 100000 := by have := r.isLt; omega
  show k2_pay1 (F := Ideal) (iblk2 V c 0 t) (iblk2 V c 1 t) (iblk2 V c 2 t) (iblk2 V c 3 t) (iblk2 V c 4 t) (ix2 r q) = G2_5 V c (((cfg2.win 5).blk t).view.emb (ix2 r q))
  have e : ((cfg2.win 5).blk t).view.emb (ix2 r q) = (ix2 (⟨t.val * 5000 + r.val, hlt⟩ : Fin 100000) q : S100000x128.Idx) := by
    funext ax; apply Fin.ext
    obtain ⟨-, -, -, -, -, -, -, -, -, -, ea, eb, -, -⟩ := idx2_facts t
    match ax with
    | ⟨0, _⟩ => show win2_5.index t (0 : Fin 2) * 5000 + 1 * r.val = t.val * 5000 + r.val; rw [ea]; omega
    | ⟨1, _⟩ => show win2_5.index t (1 : Fin 2) * 128 + 1 * q.val = q.val; rw [eb]; omega
  rw [e]
  exact point2_5 V c t r q hlt

/-- An index of the array is in point `t`'s block iff each coordinate is in the block's range on its axis. -/
theorem mem_blk2_5 (t : Fin cfg2.N) (i : S100000x128.Idx) :
    i ∈ ((cfg2.win 5).blk t).view.set ↔ ∀ a : Fin 2, win2_5.index t a * S5000x128.size a ≤ (i a).val ∧ (i a).val < win2_5.index t a * S5000x128.size a + S5000x128.size a := by
  show i ∈ ((View.whole (Pipeline.arrRef spec2 5)).slice (win2_5.rect t)).set ↔ _
  rw [View.set_slice_whole, Rect.mem_set_unit]
  exact Iff.rfl

/-- Every row of the array is in the block of the point numbered by the row's quotient by 5000, which writes it back. -/
theorem covers2_5 (i : S100000x128.Idx) : ∃ t : Fin cfg2.N, (cfg2.win 5).flush t = true ∧ i ∈ ((cfg2.win 5).blk t).view.set := by
  have hi : (i 0).val < 100000 := (i 0).isLt
  have hj : (i 1).val < 128 := (i 1).isLt
  have hq : (i 0).val / 5000 < cfg2.N := by rw [show cfg2.N = 20 from N_2]; omega
  refine ⟨⟨(i 0).val / 5000, hq⟩, flush2_5 _, ?_⟩
  rw [mem_blk2_5]
  obtain ⟨-, -, -, -, -, -, -, -, -, -, ea, eb, -, -⟩ := idx2_facts ⟨(i 0).val / 5000, hq⟩
  intro a
  match a with
  | ⟨0, _⟩ =>
    show win2_5.index ⟨(i 0).val / 5000, hq⟩ (0 : Fin 2) * 5000 ≤ (i 0).val ∧ (i 0).val < win2_5.index ⟨(i 0).val / 5000, hq⟩ (0 : Fin 2) * 5000 + 5000
    rw [ea]; dsimp only; omega
  | ⟨1, _⟩ =>
    show win2_5.index ⟨(i 0).val / 5000, hq⟩ (1 : Fin 2) * 128 ≤ (i 1).val ∧ (i 1).val < win2_5.index ⟨(i 0).val / 5000, hq⟩ (1 : Fin 2) * 128 + 128
    rw [eb]; omega

/-- THE ROW-BLOCK OUTPUT'S ARRAY after the region: the perceptron's table of the five input arrays. -/
theorem final2_5 (c : Dev nD) (p : Fin 100000) (q : Fin 128) :
    (dat2 (F := Ideal) V c).arrAt 5 cfg2.N (ix2 p q)
      = Cert.Spec.mlpAt (fun p j => V c (Pipeline.arrRef spec2 0) (ix2 p j)) (fun j k => V c (Pipeline.arrRef spec2 1) (ix2 j k))
        (fun k => V c (Pipeline.arrRef spec2 2) (ix2 0 k)) (fun k q => V c (Pipeline.arrRef spec2 3) (ix2 k q))
        (fun q => V c (Pipeline.arrRef spec2 4) (ix2 0 q)) p q :=
  congrFun ((dat2 V c).arrAt_eq_of_cover 5 (G2_5 V c) (fun t _ => flushed2_5_eq V c t) covers2_5) (ix2 p q)

/-! ## The statistics' array after the region -/

/-- A function of the array's rows extended by zero to every natural number. -/
def rows2 (g : Fin 100000 → EReal) (p : ℕ) : EReal := if h : p < 100000 then g ⟨p, h⟩ else 0

theorem sum_rows2 (g : Fin 100000 → EReal) : ∑ p ∈ Finset.range 100000, rows2 g p = ∑ p : Fin 100000, g p := by
  rw [Finset.sum_range]
  exact Finset.sum_congr rfl fun p _ => dif_pos p.isLt

/-- The block at point `t` contributes the rows 5000·t … 5000·t + 4999 of the table (`φ` of each entry). -/
theorem blocksum2 (φ : EReal → EReal) (c : Dev nD) (q : Fin 128) (t : Fin cfg2.N) :
    ∑ r : Fin 5000, φ (k2_pay1 (F := Ideal) (iblk2 V c 0 t) (iblk2 V c 1 t) (iblk2 V c 2 t) (iblk2 V c 3 t) (iblk2 V c 4 t) (ix2 r q))
      = ∑ x ∈ Finset.range 5000, rows2 (fun p => φ (mlp2 V c p q)) (t.val * 5000 + x) := by
  have hN : t.val < 20 := lt_of_lt_of_eq t.isLt (show cfg2.N = 20 from N_2)
  rw [Finset.sum_range]
  refine Finset.sum_congr rfl fun r _ => ?_
  have hlt : t.val * 5000 + r.val < 100000 := by have := r.isLt; omega
  rw [point2_5 V c t r q hlt]
  unfold rows2
  rw [dif_pos hlt]

/-- THE RUNNING STATISTICS. Row `ρ` of the statistics buffer after the body at position `n`, at q, is the sum of `φ` of
    the table's column q over the rows of the blocks met so far, 0 … 5000·(n + 1) − 1 — for the row whose block
    contribution is the sum of `φ` of the first payload's column (`hφ`): by induction on the position, the first point
    storing its block's sum and every later one adding its block's to what the point before left. -/
theorem stats2_row (φ : EReal → EReal) (ρ : Fin 2)
    (hφ : ∀ (a : FVec Ideal S5000x128 .f32) (w1 : FVec Ideal S128x128 .f32) (c1 : FVec Ideal S1x128 .f32)
      (w2 : FVec Ideal S128x128 .f32) (c2 : FVec Ideal S1x128 .f32) (q : Fin 128),
      k2_pay2 (F := Ideal) a w1 c1 w2 c2 (ix2 ρ q) = ∑ p : Fin 5000, φ (k2_pay1 (F := Ideal) a w1 c1 w2 c2 (ix2 p q)))
    (c : Dev nD) (q : Fin 128) : ∀ (n : ℕ) (hn : n < cfg2.N),
      (dat2 (F := Ideal) V c).after 6 ⟨n, hn⟩ (ix2 ρ q)
        = ∑ p ∈ Finset.range ((n + 1) * 5000), rows2 (fun p => φ (mlp2 V c p q)) p
  | 0, hn => by
    refine (congrFun (after2_6_zero V c ⟨0, hn⟩ rfl) (ix2 ρ q)).trans ((hφ _ _ _ _ _ q).trans ((blocksum2 V φ c q ⟨0, hn⟩).trans ?_))
    rw [show (0 + 1) * 5000 = 5000 from rfl]
    refine Finset.sum_congr rfl fun x _ => ?_
    show rows2 _ (0 * 5000 + x) = _
    rw [Nat.zero_mul, Nat.zero_add]
  | n + 1, hn => by
    have ih := stats2_row φ ρ hφ c q n (Nat.lt_of_succ_lt hn)
    refine (congrFun (after2_6_succ V c ⟨n + 1, hn⟩ (Nat.succ_ne_zero n)) (ix2 ρ q)).trans ((pay2_3_apply _ _ _ _ _ _ ρ q).trans ?_)
    rw [show (n + 1 + 1) * 5000 = (n + 1) * 5000 + 5000 by omega, Finset.sum_range_add]
    exact congrArg₂ (· + ·) ih ((hφ _ _ _ _ _ q).trans (blocksum2 V φ c q ⟨n + 1, hn⟩))

/-- The last point. -/
theorem last2_lt : 19 < cfg2.N := by rw [show cfg2.N = 20 from N_2]; omega

/-- An index of the statistics' array is in every point's block: the block is the whole array. -/
theorem mem_blk2_6 (t : Fin cfg2.N) (i : S2x128.Idx) :
    i ∈ ((cfg2.win 6).blk t).view.set ↔ ∀ a : Fin 2, win2_6.index t a * S2x128.size a ≤ (i a).val ∧ (i a).val < win2_6.index t a * S2x128.size a + S2x128.size a := by
  show i ∈ ((View.whole (Pipeline.arrRef spec2 6)).slice (win2_6.rect t)).set ↔ _
  rw [View.set_slice_whole, Rect.mem_set_unit]
  exact Iff.rfl

/-- THE STATISTICS' ARRAY after the region is what the body left in the staging buffer at the last point, the one point
    that writes it back (the block is the whole array). -/
theorem final2_6 (c : Dev nD) (ρ : Fin 2) (q : Fin 128) :
    (dat2 (F := Ideal) V c).arrAt 6 cfg2.N (ix2 ρ q) = (dat2 (F := Ideal) V c).after 6 ⟨19, last2_lt⟩ (ix2 ρ q) := by
  refine congrFun ((dat2 V c).arrAt_eq_of_cover 6 (fun (i : S2x128.Idx) => (dat2 (F := Ideal) V c).after 6 ⟨19, last2_lt⟩ i) ?_ ?_) (ix2 ρ q)
  · intro t hf
    have hN : t.val < 20 := lt_of_lt_of_eq t.isLt (show cfg2.N = 20 from N_2)
    have ht : t.val = 19 := by have := (flush2_6 t).mp hf; omega
    obtain rfl : t = ⟨19, last2_lt⟩ := Fin.ext ht
    show (cfg2.win 6).cut (grid2.coords ⟨19, last2_lt⟩) ((dat2 V c).after 6 ⟨19, last2_lt⟩) = _
    funext y
    show (dat2 V c).after 6 ⟨19, last2_lt⟩ y = (dat2 V c).after 6 ⟨19, last2_lt⟩ (((cfg2.win 6).blk ⟨19, last2_lt⟩).view.emb y)
    refine congrArg _ (funext fun ax => Fin.ext ?_)
    obtain ⟨-, -, -, -, -, -, -, -, -, -, -, -, ea, eb⟩ := idx2_facts ⟨19, last2_lt⟩
    match ax with
    | ⟨0, _⟩ => show (y 0).val = win2_6.index ⟨19, last2_lt⟩ (0 : Fin 2) * 2 + 1 * (y 0).val; rw [ea]; omega
    | ⟨1, _⟩ => show (y 1).val = win2_6.index ⟨19, last2_lt⟩ (1 : Fin 2) * 128 + 1 * (y 1).val; rw [eb]; omega
  · intro i
    refine ⟨⟨19, last2_lt⟩, (flush2_6 _).mpr rfl, ?_⟩
    have hi : (i 0).val < 2 := (i 0).isLt
    have hj : (i 1).val < 128 := (i 1).isLt
    rw [mem_blk2_6]
    obtain ⟨-, -, -, -, -, -, -, -, -, -, -, -, ea, eb⟩ := idx2_facts ⟨19, last2_lt⟩
    intro a
    match a with
    | ⟨0, _⟩ =>
      show win2_6.index ⟨19, last2_lt⟩ (0 : Fin 2) * 2 ≤ (i 0).val ∧ (i 0).val < win2_6.index ⟨19, last2_lt⟩ (0 : Fin 2) * 2 + 2
      rw [ea]; omega
    | ⟨1, _⟩ =>
      show win2_6.index ⟨19, last2_lt⟩ (1 : Fin 2) * 128 ≤ (i 1).val ∧ (i 1).val < win2_6.index ⟨19, last2_lt⟩ (1 : Fin 2) * 128 + 128
      rw [eb]; omega

/-- THE STATISTICS' ARRAY, ROW 0: the column sums of the perceptron's table over all 100000 rows. -/
theorem final2_6_sum (c : Dev nD) (q : Fin 128) :
    (dat2 (F := Ideal) V c).arrAt 6 cfg2.N (ix2 0 q)
      = Cert.Spec.colSumAt (fun (p : Fin 100000) (q : Fin 128) => Cert.Spec.mlpAt (fun p j => V c (Pipeline.arrRef spec2 0) (ix2 p j)) (fun j k => V c (Pipeline.arrRef spec2 1) (ix2 j k))
        (fun k => V c (Pipeline.arrRef spec2 2) (ix2 0 k)) (fun k q => V c (Pipeline.arrRef spec2 3) (ix2 k q))
        (fun q => V c (Pipeline.arrRef spec2 4) (ix2 0 q)) p q) q := by
  refine (final2_6 V c 0 q).trans ((stats2_row V (fun x => x) 0 (fun a w1 c1 w2 c2 q => pay2_2_sum_apply a w1 c1 w2 c2 q) c q 19 last2_lt).trans ?_)
  exact sum_rows2 (fun p => mlp2 V c p q)

/-- THE STATISTICS' ARRAY, ROW 1: the column sums of the squares of the perceptron's table over all 100000 rows. -/
theorem final2_6_sq (c : Dev nD) (q : Fin 128) :
    (dat2 (F := Ideal) V c).arrAt 6 cfg2.N (ix2 1 q)
      = Cert.Spec.colSqAt (fun (p : Fin 100000) (q : Fin 128) => Cert.Spec.mlpAt (fun p j => V c (Pipeline.arrRef spec2 0) (ix2 p j)) (fun j k => V c (Pipeline.arrRef spec2 1) (ix2 j k))
        (fun k => V c (Pipeline.arrRef spec2 2) (ix2 0 k)) (fun k q => V c (Pipeline.arrRef spec2 3) (ix2 k q))
        (fun q => V c (Pipeline.arrRef spec2 4) (ix2 0 q)) p q) q := by
  refine (final2_6 V c 1 q).trans ((stats2_row V (fun x => x * x) 1 (fun a w1 c1 w2 c2 q => pay2_2_sq_apply a w1 c1 w2 c2 q) c q 19 last2_lt).trans ?_)
  exact sum_rows2 (fun p => mlp2 V c p q * mlp2 V c p q)

end Cert.KernelIdeal.Hand

end
-- ==== Proof.KI.MlpPay4.lean ====
import proofs.«125359_j15118284882190_1_alg».proof.Proof.Gen.KernelIdeal.Skeleton
import proofs.«125359_j15118284882190_1_alg».proof.Proof.LibColumnStats
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

/-! # Pipeline 4's payloads at an index, at the ideal values

Entry by entry, what the body of the MLP-and-statistics kernel computes from the blocks it loads: the first payload is
the two-layer perceptron's entry (a matrix product, a bias row, a relu, a second product and bias; the roundings to bf16
on the way into the products are the identity on the extended reals), the second stacks the column sums and the column
sums of squares of the first over the block's 5000 rows, the third adds the second to the running statistics. -/

namespace Cert.KernelIdeal.Hand

open Cert.KernelIdeal Cert.KernelIdeal.Gen
open Idealize.ShloMosaic
open Idealize.ShloMosaic.ValueIdx
open scoped BigOperators

/-- The kernel's matrix product into a zero accumulator, read at (p, q): the sum over the contracted coordinate of the
    products of the entries (the one contracted axis re-indexed by its coordinate). -/
theorem matmul4_apply {φa φb : FTy} (A : FVec Ideal S5000x128 φa) (B : FVec Ideal S128x128 φb) (p : Fin 5000) (q : Fin 128) :
    matmul dot_S5000x128_S128x128_S5000x128_1_0_0_1_n_n none A B (constant (F := Ideal) S5000x128 .f32 0x00000000#32) (ix2 p q)
      = ∑ k : Fin 128, A (ix2 p k) * B (ix2 k q) := by
  show FloatOps.matmul dot_S5000x128_S128x128_S5000x128_1_0_0_1_n_n none A B _ (ix2 p q) = _
  rw [Ideal.matmul_constant_zero_apply, ← Equiv.sum_comp (contrEquiv1 dot_S5000x128_S128x128_S5000x128_1_0_0_1_n_n 128 rfl rfl).symm]
  refine Finset.sum_congr rfl fun k _ => ?_
  have hk := contrEquiv1_symm_val dot_S5000x128_S128x128_S5000x128_1_0_0_1_n_n 128 rfl rfl k
  have hl : (dot_S5000x128_S128x128_S5000x128_1_0_0_1_n_n).lhsIdx (ix2 p q) ((contrEquiv1 dot_S5000x128_S128x128_S5000x128_1_0_0_1_n_n 128 rfl rfl).symm k) = ix2 p k := by
    funext ax; apply Fin.ext
    match ax with
    | ⟨0, _⟩ => simp [DotDims.lhsIdx, dot_S5000x128_S128x128_S5000x128_1_0_0_1_n_n]; rfl
    | ⟨1, _⟩ => exact ((dot_S5000x128_S128x128_S5000x128_1_0_0_1_n_n).lhsIdx_val_of_single (cl := 1) rfl _ _).trans hk
  have hr : (dot_S5000x128_S128x128_S5000x128_1_0_0_1_n_n).rhsIdx (ix2 p q) ((contrEquiv1 dot_S5000x128_S128x128_S5000x128_1_0_0_1_n_n 128 rfl rfl).symm k) = ix2 k q := by
    funext ax; apply Fin.ext
    match ax with
    | ⟨0, _⟩ => exact ((dot_S5000x128_S128x128_S5000x128_1_0_0_1_n_n).rhsIdx_val_of_single (cr := 0) rfl _ _).trans hk
    | ⟨1, _⟩ => simp [DotDims.rhsIdx, dot_S5000x128_S128x128_S5000x128_1_0_0_1_n_n]; rfl
  rw [hl, hr]

/-- A bias row broadcast over the block's rows, read at (p, q), is the row's entry q. -/
theorem bias4_apply (b : FVec Ideal S1x128 .f32) (p : Fin 5000) (q : Fin 128) :
    broadcastTo S5000x128 (shapeCast S1x128 b shapeCasts_S1x128_S1x128) broadcasts_S1x128_S5000x128 (ix2 p q) = b (ix2 0 q) := by
  rw [shapeCast_self]
  exact broadcastTo_apply b _ (ix2 p q) (ix2 0 q) (fun a => by match a with | ⟨0, _⟩ => rfl | ⟨1, _⟩ => rfl)

/-- THE FIRST PAYLOAD AT (p, q): the two-layer perceptron's entry — the roundings to bf16 are the identity at the ideal
    values, the zero the relu compares with is the extended real 0. -/
theorem pay4_1_apply (a : FVec Ideal S5000x128 .f32) (w1 : FVec Ideal S128x128 .f32) (c1 : FVec Ideal S1x128 .f32)
    (w2 : FVec Ideal S128x128 .f32) (c2 : FVec Ideal S1x128 .f32) (p : Fin 5000) (q : Fin 128) :
    k4_pay1 (F := Ideal) a w1 c1 w2 c2 (ix2 p q)
      = Cert.Spec.mlpAt (fun p j => a (ix2 p j)) (fun j k => w1 (ix2 j k)) (fun k => c1 (ix2 0 k))
          (fun k q => w2 (ix2 k q)) (fun q => c2 (ix2 0 q)) p q := by
  unfold k4_pay1 Cert.Spec.mlpAt
  rw [addf_apply, matmul4_apply, bias4_apply]
  refine congrArg (· + c2 (ix2 0 q)) (Finset.sum_congr rfl fun k _ => ?_)
  rw [truncf_apply, maximumf_apply, addf_apply, matmul4_apply, bias4_apply, broadcast_apply]
  simp only [truncf_apply, shapeCast_self]
  rw [show (Scalar.ofBits .f32 0x00000000#32 : Ideal .f32) = 0 from Ideal.ofBits_zero_f32]

/-- A column reduction of a block followed by the cast to one row, read at (0, q): the sum of column q over the block's
    rows. -/
theorem colsum4_apply (x : FVec Ideal S5000x128 .f32) (u : Fin 1) (q : Fin 128) :
    shapeCast S1x128 (multiReduction (F := Ideal) .add [0] S128 x 0x00000000#32 reduces_S5000x128_S128 (.inl rfl) rfl)
        shapeCasts_S128_S1x128 (ix2 u q) = ∑ p : Fin 5000, x (ix2 p q) := by
  refine (shapeCast_a_1a_apply _ _ u q).trans ((Ideal.multiReduction_add_single x _ reduces_S5000x128_S128 _ _ (ix1 q)).trans ?_)
  refine Finset.sum_congr rfl fun p _ => congrArg x ?_
  funext ax; apply Fin.ext
  match ax with
  | ⟨0, _⟩ => rfl
  | ⟨1, _⟩ => rfl

/-- Two rows stacked, read at (0, q) and at (1, q): the first row's and the second row's entry q. -/
theorem stack4_fst_apply (x y : FVec Ideal S1x128 .f32) (q : Fin 128) :
    concatenate S2x128 0 [⟨S1x128, x⟩, ⟨S1x128, y⟩] concatenates_S1x128_S1x128_S2x128_d0 (ix2 0 q) = x (ix2 0 q) :=
  concatenate_apply_piece (t := S2x128) (0 : Fin 2) [⟨S1x128, x⟩, ⟨S1x128, y⟩] concatenates_S1x128_S1x128_S2x128_d0 (ix2 (0 : Fin 2) q) 0 Nat.zero_lt_two
    S1x128 x rfl rfl 0 rfl (ix2 (0 : Fin 1) q) (fun b hb => by match b with | ⟨0, _⟩ => exact absurd rfl hb | ⟨1, _⟩ => rfl) rfl
theorem stack4_snd_apply (x y : FVec Ideal S1x128 .f32) (q : Fin 128) :
    concatenate S2x128 0 [⟨S1x128, x⟩, ⟨S1x128, y⟩] concatenates_S1x128_S1x128_S2x128_d0 (ix2 1 q) = y (ix2 0 q) :=
  concatenate_apply_piece (t := S2x128) (0 : Fin 2) [⟨S1x128, x⟩, ⟨S1x128, y⟩] concatenates_S1x128_S1x128_S2x128_d0 (ix2 (1 : Fin 2) q) 1 Nat.one_lt_two
    S1x128 y rfl rfl 1 rfl (ix2 (0 : Fin 1) q) (fun b hb => by match b with | ⟨0, _⟩ => exact absurd rfl hb | ⟨1, _⟩ => rfl) rfl

/-- THE SECOND PAYLOAD, ROW 0 AT q: the sum over the block's rows of the first payload's column q. -/
theorem pay4_2_sum_apply (a : FVec Ideal S5000x128 .f32) (w1 : FVec Ideal S128x128 .f32) (c1 : FVec Ideal S1x128 .f32)
    (w2 : FVec Ideal S128x128 .f32) (c2 : FVec Ideal S1x128 .f32) (q : Fin 128) :
    k4_pay2 (F := Ideal) a w1 c1 w2 c2 (ix2 0 q)
      = Cert.Spec.colSumAt (fun (p : Fin 5000) (q : Fin 128) => k4_pay1 (F := Ideal) a w1 c1 w2 c2 (ix2 p q)) q := by
  unfold k4_pay2 Cert.Spec.colSumAt
  exact (stack4_fst_apply _ _ q).trans (colsum4_apply _ 0 q)

/-- THE SECOND PAYLOAD, ROW 1 AT q: the sum over the block's rows of the squares of the first payload's column q. -/
theorem pay4_2_sq_apply (a : FVec Ideal S5000x128 .f32) (w1 : FVec Ideal S128x128 .f32) (c1 : FVec Ideal S1x128 .f32)
    (w2 : FVec Ideal S128x128 .f32) (c2 : FVec Ideal S1x128 .f32) (q : Fin 128) :
    k4_pay2 (F := Ideal) a w1 c1 w2 c2 (ix2 1 q)
      = Cert.Spec.colSqAt (fun (p : Fin 5000) (q : Fin 128) => k4_pay1 (F := Ideal) a w1 c1 w2 c2 (ix2 p q)) q := by
  unfold k4_pay2 Cert.Spec.colSqAt
  exact (stack4_snd_apply _ _ q).trans (colsum4_apply _ 0 q)

/-- THE THIRD PAYLOAD AT (r, q): the running statistics' entry plus the second payload's. -/
theorem pay4_3_apply (a : FVec Ideal S5000x128 .f32) (w1 : FVec Ideal S128x128 .f32) (c1 : FVec Ideal S1x128 .f32)
    (w2 : FVec Ideal S128x128 .f32) (c2 : FVec Ideal S1x128 .f32) (s : FVec Ideal S2x128 .f32) (r : Fin 2) (q : Fin 128) :
    k4_pay3 (F := Ideal) a w1 c1 w2 c2 s (ix2 r q) = s (ix2 r q) + k4_pay2 (F := Ideal) a w1 c1 w2 c2 (ix2 r q) := by
  unfold k4_pay3
  rw [addf_apply, shapeCast_self]

end Cert.KernelIdeal.Hand

end
-- ==== Proof.KI.MlpValue4.lean ====
import proofs.«125359_j15118284882190_1_alg».proof.Proof.KI.Mlp4
import proofs.«125359_j15118284882190_1_alg».proof.Proof.KI.MlpPay4

set_option maxRecDepth 16384

noncomputable section

/-! # Pipeline 4's output arrays after the region, at the ideal values

The row-block output is written back at every point and its blocks tile the rows, so its array ends holding the two-layer
perceptron's table of the five input arrays; the statistics' block is the whole [2, 128] array, carried in its staging
buffer over the grid and written back once, at the last point, so its array ends holding the column sums (row 0) and the
column sums of squares (row 1) of that table over all 100000 rows: the sum over the rows met up to a point, by induction
on the point, each block contributing its 5000 consecutive rows. -/

namespace Cert.KernelIdeal.Hand

open Cert.KernelIdeal Cert.KernelIdeal.Gen
open Idealize.ShloMosaic Idealize.ShloMosaic.TcCoe
open Idealize.ShloMosaic.ValueIdx
open Idealize.SL Idealize.SL.Sem
open Idealize.ShloMosaic.Pipeline (Dat Cfg Window)
open scoped BigOperators

-- What core `c`'s TensorCore buffers hold when the region is entered, at the ideal values: a parameter of everything below.
variable (V : (c : Dev nD) → (b : Ref sig .tc) → Buf (Elt Ideal) ((c : Thread nD τ).loc b))

/-! ## The perceptron's table of the arrays, and the blocks read off them -/

/-- Entry (p, q) of the two-layer perceptron applied to the five arrays as the region finds them. -/
def mlp4 (c : Dev nD) (p : Fin 100000) (q : Fin 128) : EReal :=
  Cert.Spec.mlpAt (fun p j => V c (Pipeline.arrRef spec4 0) (ix2 p j)) (fun j k => V c (Pipeline.arrRef spec4 1) (ix2 j k))
    (fun k => V c (Pipeline.arrRef spec4 2) (ix2 0 k)) (fun k q => V c (Pipeline.arrRef spec4 3) (ix2 k q))
    (fun q => V c (Pipeline.arrRef spec4 4) (ix2 0 q)) p q

/-- The printed index maps, decided over the grid: the row-block windows (0 and 5) are at block `t` at point `t`,
    every other window at block 0. -/
theorem idx4_facts : ∀ t : Fin cfg4.N, win4_0.index t (0 : Fin 2) = t.val
    ∧ win4_0.index t (1 : Fin 2) = 0
    ∧ win4_1.index t (0 : Fin 2) = 0
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = 0
    ∧ win4_4.index t (1 : Fin 2) = 0
    ∧ win4_5.index t (0 : Fin 2) = t.val
    ∧ win4_5.index t (1 : Fin 2) = 0
    ∧ win4_6.index t (0 : Fin 2) = 0
    ∧ win4_6.index t (1 : Fin 2) = 0 :=
  (by decide +kernel : ∀ t : Fin grid4.N, _)

/-- Row r of the row block at point `t` is row 5000·t + r of the array. -/
theorem blk4_0_apply (c : Dev nD) (t : Fin cfg4.N) (r : Fin 5000) (j : Fin 128) (h : t.val * 5000 + r.val < 100000) :
    iblk4 V c 0 t (ix2 r j) = V c (Pipeline.arrRef spec4 0) (ix2 ⟨t.val * 5000 + r.val, h⟩ j) := by
  show V c (Pipeline.arrRef spec4 0) (((cfg4.win 0).blk t).view.emb (ix2 r j)) = _
  refine congrArg _ (funext fun ax => Fin.ext ?_)
  obtain ⟨ea, eb, -, -, -, -, -, -, -, -, -, -, -, -⟩ := idx4_facts t
  match ax with
  | ⟨0, _⟩ => show win4_0.index t (0 : Fin 2) * 5000 + 1 * r.val = t.val * 5000 + r.val; rw [ea]; omega
  | ⟨1, _⟩ => show win4_0.index t (1 : Fin 2) * 128 + 1 * j.val = j.val; rw [eb]; omega

/-- Window 1's block is its whole array at every point. -/
theorem blk4_1_apply (c : Dev nD) (t : Fin cfg4.N) (x : Fin 128) (y : Fin 128) :
    iblk4 V c 1 t (ix2 x y) = V c (Pipeline.arrRef spec4 1) (ix2 x y) := by
  show V c (Pipeline.arrRef spec4 1) (((cfg4.win 1).blk t).view.emb (ix2 x y)) = _
  refine congrArg _ (funext fun ax => Fin.ext ?_)
  obtain ⟨-, -, ea, eb, -, -, -, -, -, -, -, -, -, -⟩ := idx4_facts t
  match ax with
  | ⟨0, _⟩ => show win4_1.index t (0 : Fin 2) * 128 + 1 * x.val = x.val; rw [ea]; omega
  | ⟨1, _⟩ => show win4_1.index t (1 : Fin 2) * 128 + 1 * y.val = y.val; rw [eb]; omega

/-- Window 2's block is its whole array at every point. -/
theorem blk4_2_apply (c : Dev nD) (t : Fin cfg4.N) (x : Fin 1) (y : Fin 128) :
    iblk4 V c 2 t (ix2 x y) = V c (Pipeline.arrRef spec4 2) (ix2 x y) := by
  show V c (Pipeline.arrRef spec4 2) (((cfg4.win 2).blk t).view.emb (ix2 x y)) = _
  refine congrArg _ (funext fun ax => Fin.ext ?_)
  obtain ⟨-, -, -, -, ea, eb, -, -, -, -, -, -, -, -⟩ := idx4_facts t
  match ax with
  | ⟨0, _⟩ => show win4_2.index t (0 : Fin 2) * 1 + 1 * x.val = x.val; rw [ea]; omega
  | ⟨1, _⟩ => show win4_2.index t (1 : Fin 2) * 128 + 1 * y.val = y.val; rw [eb]; omega

/-- Window 3's block is its whole array at every point. -/
theorem blk4_3_apply (c : Dev nD) (t : Fin cfg4.N) (x : Fin 128) (y : Fin 128) :
    iblk4 V c 3 t (ix2 x y) = V c (Pipeline.arrRef spec4 3) (ix2 x y) := by
  show V c (Pipeline.arrRef spec4 3) (((cfg4.win 3).blk t).view.emb (ix2 x y)) = _
  refine congrArg _ (funext fun ax => Fin.ext ?_)
  obtain ⟨-, -, -, -, -, -, ea, eb, -, -, -, -, -, -⟩ := idx4_facts t
  match ax with
  | ⟨0, _⟩ => show win4_3.index t (0 : Fin 2) * 128 + 1 * x.val = x.val; rw [ea]; omega
  | ⟨1, _⟩ => show win4_3.index t (1 : Fin 2) * 128 + 1 * y.val = y.val; rw [eb]; omega

/-- Window 4's block is its whole array at every point. -/
theorem blk4_4_apply (c : Dev nD) (t : Fin cfg4.N) (x : Fin 1) (y : Fin 128) :
    iblk4 V c 4 t (ix2 x y) = V c (Pipeline.arrRef spec4 4) (ix2 x y) := by
  show V c (Pipeline.arrRef spec4 4) (((cfg4.win 4).blk t).view.emb (ix2 x y)) = _
  refine congrArg _ (funext fun ax => Fin.ext ?_)
  obtain ⟨-, -, -, -, -, -, -, -, ea, eb, -, -, -, -⟩ := idx4_facts t
  match ax with
  | ⟨0, _⟩ => show win4_4.index t (0 : Fin 2) * 1 + 1 * x.val = x.val; rw [ea]; omega
  | ⟨1, _⟩ => show win4_4.index t (1 : Fin 2) * 128 + 1 * y.val = y.val; rw [eb]; omega

/-- The perceptron's entry depends on its arguments entry by entry. -/
theorem mlpAt_congr4 {n n' d : ℕ} (a : Fin n → Fin d → EReal) (a' : Fin n' → Fin d → EReal) (W W' : Fin d → Fin d → EReal)
    (b b' : Fin d → EReal) (U U' : Fin d → Fin d → EReal) (e e' : Fin d → EReal) (p : Fin n) (p' : Fin n') (q : Fin d)
    (ha : ∀ j, a p j = a' p' j) (hW : ∀ j k, W j k = W' j k) (hb : ∀ k, b k = b' k) (hU : ∀ k, U k q = U' k q) (he : e q = e' q) :
    Cert.Spec.mlpAt a W b U e p q = Cert.Spec.mlpAt a' W' b' U' e' p' q := by
  unfold Cert.Spec.mlpAt
  simp only [ha, hW, hb, hU, he]

/-- THE FIRST PAYLOAD OF THE BLOCKS AT POINT `t`, at (r, q): the table's entry at row 5000·t + r. -/
theorem point4_5 (c : Dev nD) (t : Fin cfg4.N) (r : Fin 5000) (q : Fin 128) (h : t.val * 5000 + r.val < 100000) :
    k4_pay1 (F := Ideal) (iblk4 V c 0 t) (iblk4 V c 1 t) (iblk4 V c 2 t) (iblk4 V c 3 t) (iblk4 V c 4 t) (ix2 r q) = mlp4 V c ⟨t.val * 5000 + r.val, h⟩ q := by
  refine (pay4_1_apply _ _ _ _ _ r q).trans ?_
  unfold mlp4
  exact mlpAt_congr4 _ _ _ _ _ _ _ _ _ _ r _ q (fun j => blk4_0_apply V c t r j h) (fun j k => blk4_1_apply V c t j k)
    (fun k => blk4_2_apply V c t 0 k) (fun k => blk4_3_apply V c t k q) (blk4_4_apply V c t 0 q)

/-! ## The row-block output's array after the region -/

/-- The table as contents of the row-block output's array. -/
def G4_5 (c : Dev nD) : Buf (Elt Ideal) ((cfg4.win 5).arr.view.loc (c.tc : Thread nD τ)) :=
  fun (i : S100000x128.Idx) => mlp4 V c (i 0) (i 1)

/-- WHAT POINT `t` WRITES BACK is block `t` of the table. -/
theorem flushed4_5_eq (c : Dev nD) (t : Fin cfg4.N) :
    (dat4 V c).flushed 5 t = ((cfg4.win 5).blk t).view.read (Elt Ideal) (G4_5 V c) := by
  show (cfg4.win 5).cut (grid4.coords t) ((dat4 V c).after 5 t) = _
  rw [after4_5]
  funext y
  obtain ⟨r, q, rfl⟩ : ∃ (r : Fin 5000) (q : Fin 128), y = ix2 r q := ⟨y 0, y 1, eq_ix2 y⟩
  have hN : t.val < 20 := lt_of_lt_of_eq t.isLt (show cfg4.N = 20 from N_4)
  have hlt : t.val * 5000 + r.val < 100000 := by have := r.isLt; omega
  show k4_pay1 (F := Ideal) (iblk4 V c 0 t) (iblk4 V c 1 t) (iblk4 V c 2 t) (iblk4 V c 3 t) (iblk4 V c 4 t) (ix2 r q) = G4_5 V c (((cfg4.win 5).blk t).view.emb (ix2 r q))
  have e : ((cfg4.win 5).blk t).view.emb (ix2 r q) = (ix2 (⟨t.val * 5000 + r.val, hlt⟩ : Fin 100000) q : S100000x128.Idx) := by
    funext ax; apply Fin.ext
    obtain ⟨-, -, -, -, -, -, -, -, -, -, ea, eb, -, -⟩ := idx4_facts t
    match ax with
    | ⟨0, _⟩ => show win4_5.index t (0 : Fin 2) * 5000 + 1 * r.val = t.val * 5000 + r.val; rw [ea]; omega
    | ⟨1, _⟩ => show win4_5.index t (1 : Fin 2) * 128 + 1 * q.val = q.val; rw [eb]; omega
  rw [e]
  exact point4_5 V c t r q hlt

/-- An index of the array is in point `t`'s block iff each coordinate is in the block's range on its axis. -/
theorem mem_blk4_5 (t : Fin cfg4.N) (i : S100000x128.Idx) :
    i ∈ ((cfg4.win 5).blk t).view.set ↔ ∀ a : Fin 2, win4_5.index t a * S5000x128.size a ≤ (i a).val ∧ (i a).val < win4_5.index t a * S5000x128.size a + S5000x128.size a := by
  show i ∈ ((View.whole (Pipeline.arrRef spec4 5)).slice (win4_5.rect t)).set ↔ _
  rw [View.set_slice_whole, Rect.mem_set_unit]
  exact Iff.rfl

/-- Every row of the array is in the block of the point numbered by the row's quotient by 5000, which writes it back. -/
theorem covers4_5 (i : S100000x128.Idx) : ∃ t : Fin cfg4.N, (cfg4.win 5).flush t = true ∧ i ∈ ((cfg4.win 5).blk t).view.set := by
  have hi : (i 0).val < 100000 := (i 0).isLt
  have hj : (i 1).val < 128 := (i 1).isLt
  have hq : (i 0).val / 5000 < cfg4.N := by rw [show cfg4.N = 20 from N_4]; omega
  refine ⟨⟨(i 0).val / 5000, hq⟩, flush4_5 _, ?_⟩
  rw [mem_blk4_5]
  obtain ⟨-, -, -, -, -, -, -, -, -, -, ea, eb, -, -⟩ := idx4_facts ⟨(i 0).val / 5000, hq⟩
  intro a
  match a with
  | ⟨0, _⟩ =>
    show win4_5.index ⟨(i 0).val / 5000, hq⟩ (0 : Fin 2) * 5000 ≤ (i 0).val ∧ (i 0).val < win4_5.index ⟨(i 0).val / 5000, hq⟩ (0 : Fin 2) * 5000 + 5000
    rw [ea]; dsimp only; omega
  | ⟨1, _⟩ =>
    show win4_5.index ⟨(i 0).val / 5000, hq⟩ (1 : Fin 2) * 128 ≤ (i 1).val ∧ (i 1).val < win4_5.index ⟨(i 0).val / 5000, hq⟩ (1 : Fin 2) * 128 + 128
    rw [eb]; omega

/-- THE ROW-BLOCK OUTPUT'S ARRAY after the region: the perceptron's table of the five input arrays. -/
theorem final4_5 (c : Dev nD) (p : Fin 100000) (q : Fin 128) :
    (dat4 (F := Ideal) V c).arrAt 5 cfg4.N (ix2 p q)
      = Cert.Spec.mlpAt (fun p j => V c (Pipeline.arrRef spec4 0) (ix2 p j)) (fun j k => V c (Pipeline.arrRef spec4 1) (ix2 j k))
        (fun k => V c (Pipeline.arrRef spec4 2) (ix2 0 k)) (fun k q => V c (Pipeline.arrRef spec4 3) (ix2 k q))
        (fun q => V c (Pipeline.arrRef spec4 4) (ix2 0 q)) p q :=
  congrFun ((dat4 V c).arrAt_eq_of_cover 5 (G4_5 V c) (fun t _ => flushed4_5_eq V c t) covers4_5) (ix2 p q)

/-! ## The statistics' array after the region -/

/-- A function of the array's rows extended by zero to every natural number. -/
def rows4 (g : Fin 100000 → EReal) (p : ℕ) : EReal := if h : p < 100000 then g ⟨p, h⟩ else 0

theorem sum_rows4 (g : Fin 100000 → EReal) : ∑ p ∈ Finset.range 100000, rows4 g p = ∑ p : Fin 100000, g p := by
  rw [Finset.sum_range]
  exact Finset.sum_congr rfl fun p _ => dif_pos p.isLt

/-- The block at point `t` contributes the rows 5000·t … 5000·t + 4999 of the table (`φ` of each entry). -/
theorem blocksum4 (φ : EReal → EReal) (c : Dev nD) (q : Fin 128) (t : Fin cfg4.N) :
    ∑ r : Fin 5000, φ (k4_pay1 (F := Ideal) (iblk4 V c 0 t) (iblk4 V c 1 t) (iblk4 V c 2 t) (iblk4 V c 3 t) (iblk4 V c 4 t) (ix2 r q))
      = ∑ x ∈ Finset.range 5000, rows4 (fun p => φ (mlp4 V c p q)) (t.val * 5000 + x) := by
  have hN : t.val < 20 := lt_of_lt_of_eq t.isLt (show cfg4.N = 20 from N_4)
  rw [Finset.sum_range]
  refine Finset.sum_congr rfl fun r _ => ?_
  have hlt : t.val * 5000 + r.val < 100000 := by have := r.isLt; omega
  rw [point4_5 V c t r q hlt]
  unfold rows4
  rw [dif_pos hlt]

/-- THE RUNNING STATISTICS. Row `ρ` of the statistics buffer after the body at position `n`, at q, is the sum of `φ` of
    the table's column q over the rows of the blocks met so far, 0 … 5000·(n + 1) − 1 — for the row whose block
    contribution is the sum of `φ` of the first payload's column (`hφ`): by induction on the position, the first point
    storing its block's sum and every later one adding its block's to what the point before left. -/
theorem stats4_row (φ : EReal → EReal) (ρ : Fin 2)
    (hφ : ∀ (a : FVec Ideal S5000x128 .f32) (w1 : FVec Ideal S128x128 .f32) (c1 : FVec Ideal S1x128 .f32)
      (w2 : FVec Ideal S128x128 .f32) (c2 : FVec Ideal S1x128 .f32) (q : Fin 128),
      k4_pay2 (F := Ideal) a w1 c1 w2 c2 (ix2 ρ q) = ∑ p : Fin 5000, φ (k4_pay1 (F := Ideal) a w1 c1 w2 c2 (ix2 p q)))
    (c : Dev nD) (q : Fin 128) : ∀ (n : ℕ) (hn : n < cfg4.N),
      (dat4 (F := Ideal) V c).after 6 ⟨n, hn⟩ (ix2 ρ q)
        = ∑ p ∈ Finset.range ((n + 1) * 5000), rows4 (fun p => φ (mlp4 V c p q)) p
  | 0, hn => by
    refine (congrFun (after4_6_zero V c ⟨0, hn⟩ rfl) (ix2 ρ q)).trans ((hφ _ _ _ _ _ q).trans ((blocksum4 V φ c q ⟨0, hn⟩).trans ?_))
    rw [show (0 + 1) * 5000 = 5000 from rfl]
    refine Finset.sum_congr rfl fun x _ => ?_
    show rows4 _ (0 * 5000 + x) = _
    rw [Nat.zero_mul, Nat.zero_add]
  | n + 1, hn => by
    have ih := stats4_row φ ρ hφ c q n (Nat.lt_of_succ_lt hn)
    refine (congrFun (after4_6_succ V c ⟨n + 1, hn⟩ (Nat.succ_ne_zero n)) (ix2 ρ q)).trans ((pay4_3_apply _ _ _ _ _ _ ρ q).trans ?_)
    rw [show (n + 1 + 1) * 5000 = (n + 1) * 5000 + 5000 by omega, Finset.sum_range_add]
    exact congrArg₂ (· + ·) ih ((hφ _ _ _ _ _ q).trans (blocksum4 V φ c q ⟨n + 1, hn⟩))

/-- The last point. -/
theorem last4_lt : 19 < cfg4.N := by rw [show cfg4.N = 20 from N_4]; omega

/-- An index of the statistics' array is in every point's block: the block is the whole array. -/
theorem mem_blk4_6 (t : Fin cfg4.N) (i : S2x128.Idx) :
    i ∈ ((cfg4.win 6).blk t).view.set ↔ ∀ a : Fin 2, win4_6.index t a * S2x128.size a ≤ (i a).val ∧ (i a).val < win4_6.index t a * S2x128.size a + S2x128.size a := by
  show i ∈ ((View.whole (Pipeline.arrRef spec4 6)).slice (win4_6.rect t)).set ↔ _
  rw [View.set_slice_whole, Rect.mem_set_unit]
  exact Iff.rfl

/-- THE STATISTICS' ARRAY after the region is what the body left in the staging buffer at the last point, the one point
    that writes it back (the block is the whole array). -/
theorem final4_6 (c : Dev nD) (ρ : Fin 2) (q : Fin 128) :
    (dat4 (F := Ideal) V c).arrAt 6 cfg4.N (ix2 ρ q) = (dat4 (F := Ideal) V c).after 6 ⟨19, last4_lt⟩ (ix2 ρ q) := by
  refine congrFun ((dat4 V c).arrAt_eq_of_cover 6 (fun (i : S2x128.Idx) => (dat4 (F := Ideal) V c).after 6 ⟨19, last4_lt⟩ i) ?_ ?_) (ix2 ρ q)
  · intro t hf
    have hN : t.val < 20 := lt_of_lt_of_eq t.isLt (show cfg4.N = 20 from N_4)
    have ht : t.val = 19 := by have := (flush4_6 t).mp hf; omega
    obtain rfl : t = ⟨19, last4_lt⟩ := Fin.ext ht
    show (cfg4.win 6).cut (grid4.coords ⟨19, last4_lt⟩) ((dat4 V c).after 6 ⟨19, last4_lt⟩) = _
    funext y
    show (dat4 V c).after 6 ⟨19, last4_lt⟩ y = (dat4 V c).after 6 ⟨19, last4_lt⟩ (((cfg4.win 6).blk ⟨19, last4_lt⟩).view.emb y)
    refine congrArg _ (funext fun ax => Fin.ext ?_)
    obtain ⟨-, -, -, -, -, -, -, -, -, -, -, -, ea, eb⟩ := idx4_facts ⟨19, last4_lt⟩
    match ax with
    | ⟨0, _⟩ => show (y 0).val = win4_6.index ⟨19, last4_lt⟩ (0 : Fin 2) * 2 + 1 * (y 0).val; rw [ea]; omega
    | ⟨1, _⟩ => show (y 1).val = win4_6.index ⟨19, last4_lt⟩ (1 : Fin 2) * 128 + 1 * (y 1).val; rw [eb]; omega
  · intro i
    refine ⟨⟨19, last4_lt⟩, (flush4_6 _).mpr rfl, ?_⟩
    have hi : (i 0).val < 2 := (i 0).isLt
    have hj : (i 1).val < 128 := (i 1).isLt
    rw [mem_blk4_6]
    obtain ⟨-, -, -, -, -, -, -, -, -, -, -, -, ea, eb⟩ := idx4_facts ⟨19, last4_lt⟩
    intro a
    match a with
    | ⟨0, _⟩ =>
      show win4_6.index ⟨19, last4_lt⟩ (0 : Fin 2) * 2 ≤ (i 0).val ∧ (i 0).val < win4_6.index ⟨19, last4_lt⟩ (0 : Fin 2) * 2 + 2
      rw [ea]; omega
    | ⟨1, _⟩ =>
      show win4_6.index ⟨19, last4_lt⟩ (1 : Fin 2) * 128 ≤ (i 1).val ∧ (i 1).val < win4_6.index ⟨19, last4_lt⟩ (1 : Fin 2) * 128 + 128
      rw [eb]; omega

/-- THE STATISTICS' ARRAY, ROW 0: the column sums of the perceptron's table over all 100000 rows. -/
theorem final4_6_sum (c : Dev nD) (q : Fin 128) :
    (dat4 (F := Ideal) V c).arrAt 6 cfg4.N (ix2 0 q)
      = Cert.Spec.colSumAt (fun (p : Fin 100000) (q : Fin 128) => Cert.Spec.mlpAt (fun p j => V c (Pipeline.arrRef spec4 0) (ix2 p j)) (fun j k => V c (Pipeline.arrRef spec4 1) (ix2 j k))
        (fun k => V c (Pipeline.arrRef spec4 2) (ix2 0 k)) (fun k q => V c (Pipeline.arrRef spec4 3) (ix2 k q))
        (fun q => V c (Pipeline.arrRef spec4 4) (ix2 0 q)) p q) q := by
  refine (final4_6 V c 0 q).trans ((stats4_row V (fun x => x) 0 (fun a w1 c1 w2 c2 q => pay4_2_sum_apply a w1 c1 w2 c2 q) c q 19 last4_lt).trans ?_)
  exact sum_rows4 (fun p => mlp4 V c p q)

/-- THE STATISTICS' ARRAY, ROW 1: the column sums of the squares of the perceptron's table over all 100000 rows. -/
theorem final4_6_sq (c : Dev nD) (q : Fin 128) :
    (dat4 (F := Ideal) V c).arrAt 6 cfg4.N (ix2 1 q)
      = Cert.Spec.colSqAt (fun (p : Fin 100000) (q : Fin 128) => Cert.Spec.mlpAt (fun p j => V c (Pipeline.arrRef spec4 0) (ix2 p j)) (fun j k => V c (Pipeline.arrRef spec4 1) (ix2 j k))
        (fun k => V c (Pipeline.arrRef spec4 2) (ix2 0 k)) (fun k q => V c (Pipeline.arrRef spec4 3) (ix2 k q))
        (fun q => V c (Pipeline.arrRef spec4 4) (ix2 0 q)) p q) q := by
  refine (final4_6 V c 1 q).trans ((stats4_row V (fun x => x * x) 1 (fun a w1 c1 w2 c2 q => pay4_2_sq_apply a w1 c1 w2 c2 q) c q 19 last4_lt).trans ?_)
  exact sum_rows4 (fun p => mlp4 V c p q * mlp4 V c p q)

end Cert.KernelIdeal.Hand

end
-- ==== Proof.KI.BnValue1.lean ====
import proofs.«125359_j15118284882190_1_alg».proof.Proof.KI.Bn1
import proofs.«125359_j15118284882190_1_alg».proof.Proof.LibColumnStats
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- A reciprocal square root at an index is that of the element. -/
theorem rsqrt_apply1 {s : Shape} {φ : FTy} (a : FVec Ideal s φ) (i : s.Idx) : rsqrt a i = Ideal.rsqrt (a i) := rfl

/-- The batch-norm payload at row `p`, lane `q` of the block: the lane's scale times the element less the lane's mean,
    times the reciprocal square root of the lane's variance plus the printed epsilon, plus the lane's shift, clamped
    below at zero. -/
theorem k1_pay1_apply (xA : FVec Ideal S5000x128 .f32) (xB xC xD xE : FVec Ideal S1x128 .f32) (p : Fin 5000) (q : Fin 128) :
    k1_pay1 (F := Ideal) xA xB xC xD xE (ix2 p q)
      = max (Cert.Spec.normAt (Ideal.ofBits .f32 0x3727C5AC#32) (fun q => xB (ix2 0 q)) (fun q => xC (ix2 0 q))
          (fun q => xD (ix2 0 q)) (fun q => xE (ix2 0 q)) (xA (ix2 p q)) q) 0 := by
  unfold k1_pay1 Cert.Spec.normAt
  simp only [shapeCast_self, maximumf_apply, addf_apply, mulf_apply, subf_apply, broadcast_apply, broadcastTo_1b_ab_apply,
    rsqrt_apply1]
  exact congrArg (max _) Ideal.ofBits_zero_f32

/-! ## From blocks to the array -/

/-- The lane of an index of the [100000,128] array, as a literal `Fin 128`. -/
abbrev lane1 (i : S100000x128.Idx) : Fin 128 := ⟨(i 1).val, (i 1).isLt⟩

/-- What the output array ends holding, index by index, from the five arrays the windows stage: the batch-norm of the
    element with its lane's mean, variance, scale and shift, then the larger of that and zero. -/
def bnArr1 (aA : S100000x128.Idx → Elt Ideal .f32) (aB aC aD aE : S1x128.Idx → Elt Ideal .f32) : S100000x128.Idx → Elt Ideal .f32 :=
  fun i => max (Cert.Spec.normAt (Ideal.ofBits .f32 0x3727C5AC#32) (fun q => aB (ix2 0 q)) (fun q => aC (ix2 0 q))
      (fun q => aD (ix2 0 q)) (fun q => aE (ix2 0 q)) (aA i) (lane1 i)) 0

/-- The payload of blocks that are restrictions of the arrays, at a block index `j` sitting at array index `i`. -/
theorem point1 (xA : FVec Ideal S5000x128 .f32) (xB xC xD xE : FVec Ideal S1x128 .f32)
    (aA : S100000x128.Idx → Elt Ideal .f32) (aB aC aD aE : S1x128.Idx → Elt Ideal .f32) (j : S5000x128.Idx) (i : S100000x128.Idx)
    (hA : xA j = aA i) (hB : ∀ y, xB y = aB y) (hC : ∀ y, xC y = aC y) (hD : ∀ y, xD y = aD y) (hE : ∀ y, xE y = aE y)
    (hi : (i 1).val = (j 1).val) : k1_pay1 (F := Ideal) xA xB xC xD xE j = bnArr1 aA aB aC aD aE i := by
  obtain ⟨p, q, rfl⟩ : ∃ (p : Fin 5000) (q : Fin 128), j = ix2 p q := ⟨j 0, j 1, eq_ix2 j⟩
  have hq : lane1 i = q := Fin.ext hi
  obtain rfl : xB = aB := funext hB
  obtain rfl : xC = aC := funext hC
  obtain rfl : xD = aD := funext hD
  obtain rfl : xE = aE := funext hE
  rw [k1_pay1_apply, hA]
  unfold bnArr1
  rw [hq]

section AnyValues
variable {F : FTy → Type} [FloatOps F]
variable (V : (c : Dev nD) → (b : Ref sig .tc) → Buf (Elt F) ((c : Thread nD τ).loc b))

/-- The printed index maps, decided over the grid: windows 0 and 5 sit at row block `t`, lane block 0; the four
    row windows at block (0, 0). -/
theorem idx_facts1 : ∀ t : Fin cfg1.N,
    win1_0.index t (0 : Fin 2) = t.val ∧ win1_0.index t (1 : Fin 2) = 0
    ∧ win1_5.index t (0 : Fin 2) = t.val ∧ win1_5.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0 :=
  (by decide +kernel : ∀ t : Fin grid1.N, _)

/-- Window 0's block at point `t` is rows `5000 t … 5000 t + 4999` of its array. -/
theorem blkX1 (c : Dev nD) (t : Fin cfg1.N) (y : S5000x128.Idx) (k : S100000x128.Idx)
    (hkr : (k 0).val = 5000 * t.val + (y 0).val) (hkl : (k 1).val = (y 1).val) :
    (iblk1 V c 0 t : Vec F S5000x128 .f32) y = (V c (Pipeline.arrRef spec1 0) : S100000x128.Idx → Elt F .f32) k := by
  obtain ⟨exr, exl, -⟩ := idx_facts1 t
  unfold iblk1
  rw [View.read_apply]
  show V c (Pipeline.arrRef spec1 0) _ = V c (Pipeline.arrRef spec1 0) _
  refine congrArg _ ?_
  funext a
  apply Fin.ext
  match a with
  | ⟨0, _⟩ => show win1_0.index t (0 : Fin 2) * 5000 + 1 * (y 0).val = (k 0).val; rw [exr, hkr]; omega
  | ⟨1, _⟩ => show win1_0.index t (1 : Fin 2) * 128 + 1 * (y 1).val = (k 1).val; rw [exl, hkl]; omega

/-- Each row window's block, at every point, is its whole [1,128] array. -/
theorem blkMean1 (c : Dev nD) (t : Fin cfg1.N) (y : S1x128.Idx) :
    (iblk1 V c 1 t : Vec F S1x128 .f32) y = (V c (Pipeline.arrRef spec1 1) : S1x128.Idx → Elt F .f32) y := by
  obtain ⟨-, -, -, -, emr, eml, evr, evl, esr, esl, ebr, ebl⟩ := idx_facts1 t
  unfold iblk1
  rw [View.read_apply]
  show V c (Pipeline.arrRef spec1 1) _ = V c (Pipeline.arrRef spec1 1) _
  refine congrArg _ ?_
  funext a
  apply Fin.ext
  match a with
  | ⟨0, _⟩ => show win1_1.index t (0 : Fin 2) * 1 + 1 * (y 0).val = (y 0).val; rw [emr]; omega
  | ⟨1, _⟩ => show win1_1.index t (1 : Fin 2) * 128 + 1 * (y 1).val = (y 1).val; rw [eml]; omega

theorem blkVar1 (c : Dev nD) (t : Fin cfg1.N) (y : S1x128.Idx) :
    (iblk1 V c 2 t : Vec F S1x128 .f32) y = (V c (Pipeline.arrRef spec1 2) : S1x128.Idx → Elt F .f32) y := by
  obtain ⟨-, -, -, -, emr, eml, evr, evl, esr, esl, ebr, ebl⟩ := idx_facts1 t
  unfold iblk1
  rw [View.read_apply]
  show V c (Pipeline.arrRef spec1 2) _ = V c (Pipeline.arrRef spec1 2) _
  refine congrArg _ ?_
  funext a
  apply Fin.ext
  match a with
  | ⟨0, _⟩ => show win1_2.index t (0 : Fin 2) * 1 + 1 * (y 0).val = (y 0).val; rw [evr]; omega
  | ⟨1, _⟩ => show win1_2.index t (1 : Fin 2) * 128 + 1 * (y 1).val = (y 1).val; rw [evl]; omega

theorem blkScale1 (c : Dev nD) (t : Fin cfg1.N) (y : S1x128.Idx) :
    (iblk1 V c 3 t : Vec F S1x128 .f32) y = (V c (Pipeline.arrRef spec1 3) : S1x128.Idx → Elt F .f32) y := by
  obtain ⟨-, -, -, -, emr, eml, evr, evl, esr, esl, ebr, ebl⟩ := idx_facts1 t
  unfold iblk1
  rw [View.read_apply]
  show V c (Pipeline.arrRef spec1 3) _ = V c (Pipeline.arrRef spec1 3) _
  refine congrArg _ ?_
  funext a
  apply Fin.ext
  match a with
  | ⟨0, _⟩ => show win1_3.index t (0 : Fin 2) * 1 + 1 * (y 0).val = (y 0).val; rw [esr]; omega
  | ⟨1, _⟩ => show win1_3.index t (1 : Fin 2) * 128 + 1 * (y 1).val = (y 1).val; rw [esl]; omega

theorem blkShift1 (c : Dev nD) (t : Fin cfg1.N) (y : S1x128.Idx) :
    (iblk1 V c 4 t : Vec F S1x128 .f32) y = (V c (Pipeline.arrRef spec1 4) : S1x128.Idx → Elt F .f32) y := by
  obtain ⟨-, -, -, -, emr, eml, evr, evl, esr, esl, ebr, ebl⟩ := idx_facts1 t
  unfold iblk1
  rw [View.read_apply]
  show V c (Pipeline.arrRef spec1 4) _ = V c (Pipeline.arrRef spec1 4) _
  refine congrArg _ ?_
  funext a
  apply Fin.ext
  match a with
  | ⟨0, _⟩ => show win1_4.index t (0 : Fin 2) * 1 + 1 * (y 0).val = (y 0).val; rw [ebr]; omega
  | ⟨1, _⟩ => show win1_4.index t (1 : Fin 2) * 128 + 1 * (y 1).val = (y 1).val; rw [ebl]; omega

/-- An index of the output array is in point `t`'s block iff each coordinate is in the block's range on its axis. -/
theorem mem_blk1 (t : Fin cfg1.N) (i : S100000x128.Idx) :
    i ∈ ((cfg1.win 5).blk t).view.set ↔ ∀ a : Fin 2, win1_5.index t a * S5000x128.size a ≤ (i a).val
      ∧ (i a).val < win1_5.index t a * S5000x128.size a + S5000x128.size a := by
  show i ∈ ((View.whole main_v44).slice (win1_5.rect t)).set ↔ _
  rw [View.set_slice_whole, Rect.mem_set_unit]
  exact Iff.rfl

/-- Every index of the output array is in the block of the point its row block names: row `r` is in block `r / 5000`. -/
theorem cover1_5 (i : S100000x128.Idx) :
    ∃ t : Fin cfg1.N, (cfg1.win 5).flush t = true ∧ i ∈ ((cfg1.win 5).blk t).view.set := by
  have hir : (i 0).val < 100000 := (i 0).isLt
  have hil : (i 1).val < 128 := (i 1).isLt
  obtain ⟨t, ht⟩ : ∃ t : Fin cfg1.N, t.val = (i 0).val / 5000 :=
    ⟨⟨(i 0).val / 5000, by show (i 0).val / 5000 < grid1.N; rw [N_1]; omega⟩, rfl⟩
  obtain ⟨-, -, eor, eol, -⟩ := idx_facts1 t
  refine ⟨t, flush1_5 t, ?_⟩
  rw [mem_blk1]
  intro a
  match a with
  | ⟨0, _⟩ => show win1_5.index t (0 : Fin 2) * 5000 ≤ (i 0).val ∧ (i 0).val < win1_5.index t (0 : Fin 2) * 5000 + 5000; rw [eor]; omega
  | ⟨1, _⟩ => show win1_5.index t (1 : Fin 2) * 128 ≤ (i 1).val ∧ (i 1).val < win1_5.index t (1 : Fin 2) * 128 + 128; rw [eol]; omega

end AnyValues

/-! ## The output array after the region -/

variable (V : (c : Dev nD) → (b : Ref sig .tc) → Buf (Elt Ideal) ((c : Thread nD τ).loc b))

/-- What point `t` writes back is block `t` of `bnArr1` of the arrays as the region finds them. -/
theorem flushed1_5_eq (c : Dev nD) (t : Fin cfg1.N) :
    (dat1 (F := Ideal) V c).flushed 5 t = ((cfg1.win 5).blk t).view.read (Elt Ideal)
      (bnArr1 (V c (Pipeline.arrRef spec1 0)) (V c (Pipeline.arrRef spec1 1)) (V c (Pipeline.arrRef spec1 2))
        (V c (Pipeline.arrRef spec1 3)) (V c (Pipeline.arrRef spec1 4))) := by
  show (cfg1.win 5).cut (grid1.coords t) ((dat1 V c).after 5 t) = _
  rw [after1_5]
  obtain ⟨-, -, eor, eol, -⟩ := idx_facts1 t
  funext j
  show k1_pay1 (F := Ideal) (iblk1 V c 0 t) (iblk1 V c 1 t) (iblk1 V c 2 t) (iblk1 V c 3 t) (iblk1 V c 4 t) j
    = bnArr1 _ _ _ _ _ (((cfg1.win 5).blk t).view.emb j)
  have hrr : ((((cfg1.win 5).blk t).view.emb j) 0 : Nat) = 5000 * t.val + (j 0).val := by
    show win1_5.index t (0 : Fin 2) * 5000 + 1 * (j 0).val = _; rw [eor]; omega
  have hrl : ((((cfg1.win 5).blk t).view.emb j) 1 : Nat) = (j 1).val := by
    show win1_5.index t (1 : Fin 2) * 128 + 1 * (j 1).val = _; rw [eol]; omega
  exact point1 _ _ _ _ _ _ _ _ _ _ j _ (blkX1 V c t j _ hrr hrl) (blkMean1 V c t) (blkVar1 V c t)
    (blkScale1 V c t) (blkShift1 V c t) hrl

/-- The output array after the region is `bnArr1` of the five arrays as the region finds them, at every index. -/
theorem final1_5 (c : Dev nD) :
    (dat1 (F := Ideal) V c).arrAt 5 cfg1.N = bnArr1 (V c (Pipeline.arrRef spec1 0)) (V c (Pipeline.arrRef spec1 1))
      (V c (Pipeline.arrRef spec1 2)) (V c (Pipeline.arrRef spec1 3)) (V c (Pipeline.arrRef spec1 4)) :=
  (dat1 V c).arrAt_eq_of_cover 5 _ (fun t _ => flushed1_5_eq V c t) cover1_5

/-- The output array after the region at row `p`, lane `q`: the batch-norm of the input array's entry there with the
    lane's mean, variance, scale and shift as the region finds them, then the larger of that and zero. -/
theorem final1 (c : Dev nD) (p : Fin 100000) (q : Fin 128) :
    (dat1 (F := Ideal) V c).arrAt 5 cfg1.N (ix2 p q)
      = max (Cert.Spec.normAt (Ideal.ofBits .f32 0x3727C5AC#32) (fun q => V c (Pipeline.arrRef spec1 1) (ix2 0 q))
          (fun q => V c (Pipeline.arrRef spec1 2) (ix2 0 q)) (fun q => V c (Pipeline.arrRef spec1 3) (ix2 0 q))
          (fun q => V c (Pipeline.arrRef spec1 4) (ix2 0 q)) (V c (Pipeline.arrRef spec1 0) (ix2 p q)) q) 0 := by
  rw [final1_5]
  rfl

end Cert.KernelIdeal.Hand

end
-- ==== Proof.KI.BnValue3.lean ====
import proofs.«125359_j15118284882190_1_alg».proof.Proof.KI.Bn3
import proofs.«125359_j15118284882190_1_alg».proof.Proof.LibColumnStats
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- A reciprocal square root at an index is that of the element. -/
theorem rsqrt_apply3 {s : Shape} {φ : FTy} (a : FVec Ideal s φ) (i : s.Idx) : rsqrt a i = Ideal.rsqrt (a i) := rfl

/-- The batch-norm payload at row `p`, lane `q` of the block: the lane's scale times the element less the lane's mean,
    times the reciprocal square root of the lane's variance plus the printed epsilon, plus the lane's shift, clamped
    below at zero. -/
theorem k3_pay1_apply (xA : FVec Ideal S5000x128 .f32) (xB xC xD xE : FVec Ideal S1x128 .f32) (p : Fin 5000) (q : Fin 128) :
    k3_pay1 (F := Ideal) xA xB xC xD xE (ix2 p q)
      = max (Cert.Spec.normAt (Ideal.ofBits .f32 0x3727C5AC#32) (fun q => xB (ix2 0 q)) (fun q => xC (ix2 0 q))
          (fun q => xD (ix2 0 q)) (fun q => xE (ix2 0 q)) (xA (ix2 p q)) q) 0 := by
  unfold k3_pay1 Cert.Spec.normAt
  simp only [shapeCast_self, maximumf_apply, addf_apply, mulf_apply, subf_apply, broadcast_apply, broadcastTo_1b_ab_apply,
    rsqrt_apply3]
  exact congrArg (max _) Ideal.ofBits_zero_f32

/-! ## From blocks to the array -/

/-- The lane of an index of the [100000,128] array, as a literal `Fin 128`. -/
abbrev lane3 (i : S100000x128.Idx) : Fin 128 := ⟨(i 1).val, (i 1).isLt⟩

/-- What the output array ends holding, index by index, from the five arrays the windows stage: the batch-norm of the
    element with its lane's mean, variance, scale and shift, then the larger of that and zero. -/
def bnArr3 (aA : S100000x128.Idx → Elt Ideal .f32) (aB aC aD aE : S1x128.Idx → Elt Ideal .f32) : S100000x128.Idx → Elt Ideal .f32 :=
  fun i => max (Cert.Spec.normAt (Ideal.ofBits .f32 0x3727C5AC#32) (fun q => aB (ix2 0 q)) (fun q => aC (ix2 0 q))
      (fun q => aD (ix2 0 q)) (fun q => aE (ix2 0 q)) (aA i) (lane3 i)) 0

/-- The payload of blocks that are restrictions of the arrays, at a block index `j` sitting at array index `i`. -/
theorem point3 (xA : FVec Ideal S5000x128 .f32) (xB xC xD xE : FVec Ideal S1x128 .f32)
    (aA : S100000x128.Idx → Elt Ideal .f32) (aB aC aD aE : S1x128.Idx → Elt Ideal .f32) (j : S5000x128.Idx) (i : S100000x128.Idx)
    (hA : xA j = aA i) (hB : ∀ y, xB y = aB y) (hC : ∀ y, xC y = aC y) (hD : ∀ y, xD y = aD y) (hE : ∀ y, xE y = aE y)
    (hi : (i 1).val = (j 1).val) : k3_pay1 (F := Ideal) xA xB xC xD xE j = bnArr3 aA aB aC aD aE i := by
  obtain ⟨p, q, rfl⟩ : ∃ (p : Fin 5000) (q : Fin 128), j = ix2 p q := ⟨j 0, j 1, eq_ix2 j⟩
  have hq : lane3 i = q := Fin.ext hi
  obtain rfl : xB = aB := funext hB
  obtain rfl : xC = aC := funext hC
  obtain rfl : xD = aD := funext hD
  obtain rfl : xE = aE := funext hE
  rw [k3_pay1_apply, hA]
  unfold bnArr3
  rw [hq]

section AnyValues
variable {F : FTy → Type} [FloatOps F]
variable (V : (c : Dev nD) → (b : Ref sig .tc) → Buf (Elt F) ((c : Thread nD τ).loc b))

/-- The printed index maps, decided over the grid: windows 0 and 5 sit at row block `t`, lane block 0; the four
    row windows at block (0, 0). -/
theorem idx_facts3 : ∀ t : Fin cfg3.N,
    win3_0.index t (0 : Fin 2) = t.val ∧ win3_0.index t (1 : Fin 2) = 0
    ∧ win3_5.index t (0 : Fin 2) = t.val ∧ win3_5.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0 :=
  (by decide +kernel : ∀ t : Fin grid3.N, _)

/-- Window 0's block at point `t` is rows `5000 t … 5000 t + 4999` of its array. -/
theorem blkX3 (c : Dev nD) (t : Fin cfg3.N) (y : S5000x128.Idx) (k : S100000x128.Idx)
    (hkr : (k 0).val = 5000 * t.val + (y 0).val) (hkl : (k 1).val = (y 1).val) :
    (iblk3 V c 0 t : Vec F S5000x128 .f32) y = (V c (Pipeline.arrRef spec3 0) : S100000x128.Idx → Elt F .f32) k := by
  obtain ⟨exr, exl, -⟩ := idx_facts3 t
  unfold iblk3
  rw [View.read_apply]
  show V c (Pipeline.arrRef spec3 0) _ = V c (Pipeline.arrRef spec3 0) _
  refine congrArg _ ?_
  funext a
  apply Fin.ext
  match a with
  | ⟨0, _⟩ => show win3_0.index t (0 : Fin 2) * 5000 + 1 * (y 0).val = (k 0).val; rw [exr, hkr]; omega
  | ⟨1, _⟩ => show win3_0.index t (1 : Fin 2) * 128 + 1 * (y 1).val = (k 1).val; rw [exl, hkl]; omega

/-- Each row window's block, at every point, is its whole [1,128] array. -/
theorem blkMean3 (c : Dev nD) (t : Fin cfg3.N) (y : S1x128.Idx) :
    (iblk3 V c 1 t : Vec F S1x128 .f32) y = (V c (Pipeline.arrRef spec3 1) : S1x128.Idx → Elt F .f32) y := by
  obtain ⟨-, -, -, -, emr, eml, evr, evl, esr, esl, ebr, ebl⟩ := idx_facts3 t
  unfold iblk3
  rw [View.read_apply]
  show V c (Pipeline.arrRef spec3 1) _ = V c (Pipeline.arrRef spec3 1) _
  refine congrArg _ ?_
  funext a
  apply Fin.ext
  match a with
  | ⟨0, _⟩ => show win3_1.index t (0 : Fin 2) * 1 + 1 * (y 0).val = (y 0).val; rw [emr]; omega
  | ⟨1, _⟩ => show win3_1.index t (1 : Fin 2) * 128 + 1 * (y 1).val = (y 1).val; rw [eml]; omega

theorem blkVar3 (c : Dev nD) (t : Fin cfg3.N) (y : S1x128.Idx) :
    (iblk3 V c 2 t : Vec F S1x128 .f32) y = (V c (Pipeline.arrRef spec3 2) : S1x128.Idx → Elt F .f32) y := by
  obtain ⟨-, -, -, -, emr, eml, evr, evl, esr, esl, ebr, ebl⟩ := idx_facts3 t
  unfold iblk3
  rw [View.read_apply]
  show V c (Pipeline.arrRef spec3 2) _ = V c (Pipeline.arrRef spec3 2) _
  refine congrArg _ ?_
  funext a
  apply Fin.ext
  match a with
  | ⟨0, _⟩ => show win3_2.index t (0 : Fin 2) * 1 + 1 * (y 0).val = (y 0).val; rw [evr]; omega
  | ⟨1, _⟩ => show win3_2.index t (1 : Fin 2) * 128 + 1 * (y 1).val = (y 1).val; rw [evl]; omega

theorem blkScale3 (c : Dev nD) (t : Fin cfg3.N) (y : S1x128.Idx) :
    (iblk3 V c 3 t : Vec F S1x128 .f32) y = (V c (Pipeline.arrRef spec3 3) : S1x128.Idx → Elt F .f32) y := by
  obtain ⟨-, -, -, -, emr, eml, evr, evl, esr, esl, ebr, ebl⟩ := idx_facts3 t
  unfold iblk3
  rw [View.read_apply]
  show V c (Pipeline.arrRef spec3 3) _ = V c (Pipeline.arrRef spec3 3) _
  refine congrArg _ ?_
  funext a
  apply Fin.ext
  match a with
  | ⟨0, _⟩ => show win3_3.index t (0 : Fin 2) * 1 + 1 * (y 0).val = (y 0).val; rw [esr]; omega
  | ⟨1, _⟩ => show win3_3.index t (1 : Fin 2) * 128 + 1 * (y 1).val = (y 1).val; rw [esl]; omega

theorem blkShift3 (c : Dev nD) (t : Fin cfg3.N) (y : S1x128.Idx) :
    (iblk3 V c 4 t : Vec F S1x128 .f32) y = (V c (Pipeline.arrRef spec3 4) : S1x128.Idx → Elt F .f32) y := by
  obtain ⟨-, -, -, -, emr, eml, evr, evl, esr, esl, ebr, ebl⟩ := idx_facts3 t
  unfold iblk3
  rw [View.read_apply]
  show V c (Pipeline.arrRef spec3 4) _ = V c (Pipeline.arrRef spec3 4) _
  refine congrArg _ ?_
  funext a
  apply Fin.ext
  match a with
  | ⟨0, _⟩ => show win3_4.index t (0 : Fin 2) * 1 + 1 * (y 0).val = (y 0).val; rw [ebr]; omega
  | ⟨1, _⟩ => show win3_4.index t (1 : Fin 2) * 128 + 1 * (y 1).val = (y 1).val; rw [ebl]; omega

/-- An index of the output array is in point `t`'s block iff each coordinate is in the block's range on its axis. -/
theorem mem_blk3 (t : Fin cfg3.N) (i : S100000x128.Idx) :
    i ∈ ((cfg3.win 5).blk t).view.set ↔ ∀ a : Fin 2, win3_5.index t a * S5000x128.size a ≤ (i a).val
      ∧ (i a).val < win3_5.index t a * S5000x128.size a + S5000x128.size a := by
  show i ∈ ((View.whole main_v85).slice (win3_5.rect t)).set ↔ _
  rw [View.set_slice_whole, Rect.mem_set_unit]
  exact Iff.rfl

/-- Every index of the output array is in the block of the point its row block names: row `r` is in block `r / 5000`. -/
theorem cover3_5 (i : S100000x128.Idx) :
    ∃ t : Fin cfg3.N, (cfg3.win 5).flush t = true ∧ i ∈ ((cfg3.win 5).blk t).view.set := by
  have hir : (i 0).val < 100000 := (i 0).isLt
  have hil : (i 1).val < 128 := (i 1).isLt
  obtain ⟨t, ht⟩ : ∃ t : Fin cfg3.N, t.val = (i 0).val / 5000 :=
    ⟨⟨(i 0).val / 5000, by show (i 0).val / 5000 < grid3.N; rw [N_3]; omega⟩, rfl⟩
  obtain ⟨-, -, eor, eol, -⟩ := idx_facts3 t
  refine ⟨t, flush3_5 t, ?_⟩
  rw [mem_blk3]
  intro a
  match a with
  | ⟨0, _⟩ => show win3_5.index t (0 : Fin 2) * 5000 ≤ (i 0).val ∧ (i 0).val < win3_5.index t (0 : Fin 2) * 5000 + 5000; rw [eor]; omega
  | ⟨1, _⟩ => show win3_5.index t (1 : Fin 2) * 128 ≤ (i 1).val ∧ (i 1).val < win3_5.index t (1 : Fin 2) * 128 + 128; rw [eol]; omega

end AnyValues

/-! ## The output array after the region -/

variable (V : (c : Dev nD) → (b : Ref sig .tc) → Buf (Elt Ideal) ((c : Thread nD τ).loc b))

/-- What point `t` writes back is block `t` of `bnArr3` of the arrays as the region finds them. -/
theorem flushed3_5_eq (c : Dev nD) (t : Fin cfg3.N) :
    (dat3 (F := Ideal) V c).flushed 5 t = ((cfg3.win 5).blk t).view.read (Elt Ideal)
      (bnArr3 (V c (Pipeline.arrRef spec3 0)) (V c (Pipeline.arrRef spec3 1)) (V c (Pipeline.arrRef spec3 2))
        (V c (Pipeline.arrRef spec3 3)) (V c (Pipeline.arrRef spec3 4))) := by
  show (cfg3.win 5).cut (grid3.coords t) ((dat3 V c).after 5 t) = _
  rw [after3_5]
  obtain ⟨-, -, eor, eol, -⟩ := idx_facts3 t
  funext j
  show k3_pay1 (F := Ideal) (iblk3 V c 0 t) (iblk3 V c 1 t) (iblk3 V c 2 t) (iblk3 V c 3 t) (iblk3 V c 4 t) j
    = bnArr3 _ _ _ _ _ (((cfg3.win 5).blk t).view.emb j)
  have hrr : ((((cfg3.win 5).blk t).view.emb j) 0 : Nat) = 5000 * t.val + (j 0).val := by
    show win3_5.index t (0 : Fin 2) * 5000 + 1 * (j 0).val = _; rw [eor]; omega
  have hrl : ((((cfg3.win 5).blk t).view.emb j) 1 : Nat) = (j 1).val := by
    show win3_5.index t (1 : Fin 2) * 128 + 1 * (j 1).val = _; rw [eol]; omega
  exact point3 _ _ _ _ _ _ _ _ _ _ j _ (blkX3 V c t j _ hrr hrl) (blkMean3 V c t) (blkVar3 V c t)
    (blkScale3 V c t) (blkShift3 V c t) hrl

/-- The output array after the region is `bnArr3` of the five arrays as the region finds them, at every index. -/
theorem final3_5 (c : Dev nD) :
    (dat3 (F := Ideal) V c).arrAt 5 cfg3.N = bnArr3 (V c (Pipeline.arrRef spec3 0)) (V c (Pipeline.arrRef spec3 1))
      (V c (Pipeline.arrRef spec3 2)) (V c (Pipeline.arrRef spec3 3)) (V c (Pipeline.arrRef spec3 4)) :=
  (dat3 V c).arrAt_eq_of_cover 5 _ (fun t _ => flushed3_5_eq V c t) cover3_5

/-- The output array after the region at row `p`, lane `q`: the batch-norm of the input array's entry there with the
    lane's mean, variance, scale and shift as the region finds them, then the larger of that and zero. -/
theorem final3 (c : Dev nD) (p : Fin 100000) (q : Fin 128) :
    (dat3 (F := Ideal) V c).arrAt 5 cfg3.N (ix2 p q)
      = max (Cert.Spec.normAt (Ideal.ofBits .f32 0x3727C5AC#32) (fun q => V c (Pipeline.arrRef spec3 1) (ix2 0 q))
          (fun q => V c (Pipeline.arrRef spec3 2) (ix2 0 q)) (fun q => V c (Pipeline.arrRef spec3 3) (ix2 0 q))
          (fun q => V c (Pipeline.arrRef spec3 4) (ix2 0 q)) (V c (Pipeline.arrRef spec3 0) (ix2 p q)) q) 0 := by
  rw [final3_5]
  rfl

end Cert.KernelIdeal.Hand

end
-- ==== Proof.KI.BnValue5.lean ====
import proofs.«125359_j15118284882190_1_alg».proof.Proof.KI.Bn5
import proofs.«125359_j15118284882190_1_alg».proof.Proof.LibColumnStats
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.SL.Sem
open Idealize.ShloMosaic.ValueIdx
open Idealize.ShloMosaic.Pipeline (Dat)

/-! ## The payload at an index -/

/-- A reciprocal square root at an index is that of the element. -/
theorem rsqrt_apply5 {s : Shape} {φ : FTy} (a : FVec Ideal s φ) (i : s.Idx) : rsqrt a i = Ideal.rsqrt (a i) := rfl

/-- The batch-norm payload at row `p`, lane `q` of the block: the lane's scale times the element less the lane's mean,
    times the reciprocal square root of the lane's variance plus the printed epsilon, plus the lane's shift. -/
theorem k5_pay1_apply (xA : FVec Ideal S5000x128 .f32) (xB xC xD xE : FVec Ideal S1x128 .f32) (p : Fin 5000) (q : Fin 128) :
    k5_pay1 (F := Ideal) xA xB xC xD xE (ix2 p q)
      = Cert.Spec.normAt (Ideal.ofBits .f32 0x3727C5AC#32) (fun q => xB (ix2 0 q)) (fun q => xC (ix2 0 q))
          (fun q => xD (ix2 0 q)) (fun q => xE (ix2 0 q)) (xA (ix2 p q)) q := by
  unfold k5_pay1 Cert.Spec.normAt
  simp only [shapeCast_self, maximumf_apply, addf_apply, mulf_apply, subf_apply, broadcast_apply, broadcastTo_1b_ab_apply,
    rsqrt_apply5]
  rfl

/-! ## From blocks to the array -/

/-- The lane of an index of the [100000,128] array, as a literal `Fin 128`. -/
abbrev lane5 (i : S100000x128.Idx) : Fin 128 := ⟨(i 1).val, (i 1).isLt⟩

/-- What the output array ends holding, index by index, from the five arrays the windows stage: the batch-norm of the
    element with its lane's mean, variance, scale and shift (no rectifier follows in the last round). -/
def bnArr5 (aA : S100000x128.Idx → Elt Ideal .f32) (aB aC aD aE : S1x128.Idx → Elt Ideal .f32) : S100000x128.Idx → Elt Ideal .f32 :=
  fun i => Cert.Spec.normAt (Ideal.ofBits .f32 0x3727C5AC#32) (fun q => aB (ix2 0 q)) (fun q => aC (ix2 0 q))
      (fun q => aD (ix2 0 q)) (fun q => aE (ix2 0 q)) (aA i) (lane5 i)

/-- The payload of blocks that are restrictions of the arrays, at a block index `j` sitting at array index `i`. -/
theorem point5 (xA : FVec Ideal S5000x128 .f32) (xB xC xD xE : FVec Ideal S1x128 .f32)
    (aA : S100000x128.Idx → Elt Ideal .f32) (aB aC aD aE : S1x128.Idx → Elt Ideal .f32) (j : S5000x128.Idx) (i : S100000x128.Idx)
    (hA : xA j = aA i) (hB : ∀ y, xB y = aB y) (hC : ∀ y, xC y = aC y) (hD : ∀ y, xD y = aD y) (hE : ∀ y, xE y = aE y)
    (hi : (i 1).val = (j 1).val) : k5_pay1 (F := Ideal) xA xB xC xD xE j = bnArr5 aA aB aC aD aE i := by
  obtain ⟨p, q, rfl⟩ : ∃ (p : Fin 5000) (q : Fin 128), j = ix2 p q := ⟨j 0, j 1, eq_ix2 j⟩
  have hq : lane5 i = q := Fin.ext hi
  obtain rfl : xB = aB := funext hB
  obtain rfl : xC = aC := funext hC
  obtain rfl : xD = aD := funext hD
  obtain rfl : xE = aE := funext hE
  rw [k5_pay1_apply, hA]
  unfold bnArr5
  rw [hq]

section AnyValues
variable {F : FTy → Type} [FloatOps F]
variable (V : (c : Dev nD) → (b : Ref sig .tc) → Buf (Elt F) ((c : Thread nD τ).loc b))

/-- The printed index maps, decided over the grid: windows 0 and 5 sit at row block `t`, lane block 0; the four
    row windows at block (0, 0). -/
theorem idx_facts5 : ∀ t : Fin cfg5.N,
    win5_0.index t (0 : Fin 2) = t.val ∧ win5_0.index t (1 : Fin 2) = 0
    ∧ win5_5.index t (0 : Fin 2) = t.val ∧ win5_5.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0 :=
  (by decide +kernel : ∀ t : Fin grid5.N, _)

/-- Window 0's block at point `t` is rows `5000 t … 5000 t + 4999` of its array. -/
theorem blkX5 (c : Dev nD) (t : Fin cfg5.N) (y : S5000x128.Idx) (k : S100000x128.Idx)
    (hkr : (k 0).val = 5000 * t.val + (y 0).val) (hkl : (k 1).val = (y 1).val) :
    (iblk5 V c 0 t : Vec F S5000x128 .f32) y = (V c (Pipeline.arrRef spec5 0) : S100000x128.Idx → Elt F .f32) k := by
  obtain ⟨exr, exl, -⟩ := idx_facts5 t
  unfold iblk5
  rw [View.read_apply]
  show V c (Pipeline.arrRef spec5 0) _ = V c (Pipeline.arrRef spec5 0) _
  refine congrArg _ ?_
  funext a
  apply Fin.ext
  match a with
  | ⟨0, _⟩ => show win5_0.index t (0 : Fin 2) * 5000 + 1 * (y 0).val = (k 0).val; rw [exr, hkr]; omega
  | ⟨1, _⟩ => show win5_0.index t (1 : Fin 2) * 128 + 1 * (y 1).val = (k 1).val; rw [exl, hkl]; omega

/-- Each row window's block, at every point, is its whole [1,128] array. -/
theorem blkMean5 (c : Dev nD) (t : Fin cfg5.N) (y : S1x128.Idx) :
    (iblk5 V c 1 t : Vec F S1x128 .f32) y = (V c (Pipeline.arrRef spec5 1) : S1x128.Idx → Elt F .f32) y := by
  obtain ⟨-, -, -, -, emr, eml, evr, evl, esr, esl, ebr, ebl⟩ := idx_facts5 t
  unfold iblk5
  rw [View.read_apply]
  show V c (Pipeline.arrRef spec5 1) _ = V c (Pipeline.arrRef spec5 1) _
  refine congrArg _ ?_
  funext a
  apply Fin.ext
  match a with
  | ⟨0, _⟩ => show win5_1.index t (0 : Fin 2) * 1 + 1 * (y 0).val = (y 0).val; rw [emr]; omega
  | ⟨1, _⟩ => show win5_1.index t (1 : Fin 2) * 128 + 1 * (y 1).val = (y 1).val; rw [eml]; omega

theorem blkVar5 (c : Dev nD) (t : Fin cfg5.N) (y : S1x128.Idx) :
    (iblk5 V c 2 t : Vec F S1x128 .f32) y = (V c (Pipeline.arrRef spec5 2) : S1x128.Idx → Elt F .f32) y := by
  obtain ⟨-, -, -, -, emr, eml, evr, evl, esr, esl, ebr, ebl⟩ := idx_facts5 t
  unfold iblk5
  rw [View.read_apply]
  show V c (Pipeline.arrRef spec5 2) _ = V c (Pipeline.arrRef spec5 2) _
  refine congrArg _ ?_
  funext a
  apply Fin.ext
  match a with
  | ⟨0, _⟩ => show win5_2.index t (0 : Fin 2) * 1 + 1 * (y 0).val = (y 0).val; rw [evr]; omega
  | ⟨1, _⟩ => show win5_2.index t (1 : Fin 2) * 128 + 1 * (y 1).val = (y 1).val; rw [evl]; omega

theorem blkScale5 (c : Dev nD) (t : Fin cfg5.N) (y : S1x128.Idx) :
    (iblk5 V c 3 t : Vec F S1x128 .f32) y = (V c (Pipeline.arrRef spec5 3) : S1x128.Idx → Elt F .f32) y := by
  obtain ⟨-, -, -, -, emr, eml, evr, evl, esr, esl, ebr, ebl⟩ := idx_facts5 t
  unfold iblk5
  rw [View.read_apply]
  show V c (Pipeline.arrRef spec5 3) _ = V c (Pipeline.arrRef spec5 3) _
  refine congrArg _ ?_
  funext a
  apply Fin.ext
  match a with
  | ⟨0, _⟩ => show win5_3.index t (0 : Fin 2) * 1 + 1 * (y 0).val = (y 0).val; rw [esr]; omega
  | ⟨1, _⟩ => show win5_3.index t (1 : Fin 2) * 128 + 1 * (y 1).val = (y 1).val; rw [esl]; omega

theorem blkShift5 (c : Dev nD) (t : Fin cfg5.N) (y : S1x128.Idx) :
    (iblk5 V c 4 t : Vec F S1x128 .f32) y = (V c (Pipeline.arrRef spec5 4) : S1x128.Idx → Elt F .f32) y := by
  obtain ⟨-, -, -, -, emr, eml, evr, evl, esr, esl, ebr, ebl⟩ := idx_facts5 t
  unfold iblk5
  rw [View.read_apply]
  show V c (Pipeline.arrRef spec5 4) _ = V c (Pipeline.arrRef spec5 4) _
  refine congrArg _ ?_
  funext a
  apply Fin.ext
  match a with
  | ⟨0, _⟩ => show win5_4.index t (0 : Fin 2) * 1 + 1 * (y 0).val = (y 0).val; rw [ebr]; omega
  | ⟨1, _⟩ => show win5_4.index t (1 : Fin 2) * 128 + 1 * (y 1).val = (y 1).val; rw [ebl]; omega

/-- An index of the output array is in point `t`'s block iff each coordinate is in the block's range on its axis. -/
theorem mem_blk5 (t : Fin cfg5.N) (i : S100000x128.Idx) :
    i ∈ ((cfg5.win 5).blk t).view.set ↔ ∀ a : Fin 2, win5_5.index t a * S5000x128.size a ≤ (i a).val
      ∧ (i a).val < win5_5.index t a * S5000x128.size a + S5000x128.size a := by
  show i ∈ ((View.whole main_v126).slice (win5_5.rect t)).set ↔ _
  rw [View.set_slice_whole, Rect.mem_set_unit]
  exact Iff.rfl

/-- Every index of the output array is in the block of the point its row block names: row `r` is in block `r / 5000`. -/
theorem cover5_5 (i : S100000x128.Idx) :
    ∃ t : Fin cfg5.N, (cfg5.win 5).flush t = true ∧ i ∈ ((cfg5.win 5).blk t).view.set := by
  have hir : (i 0).val < 100000 := (i 0).isLt
  have hil : (i 1).val < 128 := (i 1).isLt
  obtain ⟨t, ht⟩ : ∃ t : Fin cfg5.N, t.val = (i 0).val / 5000 :=
    ⟨⟨(i 0).val / 5000, by show (i 0).val / 5000 < grid5.N; rw [N_5]; omega⟩, rfl⟩
  obtain ⟨-, -, eor, eol, -⟩ := idx_facts5 t
  refine ⟨t, flush5_5 t, ?_⟩
  rw [mem_blk5]
  intro a
  match a with
  | ⟨0, _⟩ => show win5_5.index t (0 : Fin 2) * 5000 ≤ (i 0).val ∧ (i 0).val < win5_5.index t (0 : Fin 2) * 5000 + 5000; rw [eor]; omega
  | ⟨1, _⟩ => show win5_5.index t (1 : Fin 2) * 128 ≤ (i 1).val ∧ (i 1).val < win5_5.index t (1 : Fin 2) * 128 + 128; rw [eol]; omega

end AnyValues

/-! ## The output array after the region -/

variable (V : (c : Dev nD) → (b : Ref sig .tc) → Buf (Elt Ideal) ((c : Thread nD τ).loc b))

/-- What point `t` writes back is block `t` of `bnArr5` of the arrays as the region finds them. -/
theorem flushed5_5_eq (c : Dev nD) (t : Fin cfg5.N) :
    (dat5 (F := Ideal) V c).flushed 5 t = ((cfg5.win 5).blk t).view.read (Elt Ideal)
      (bnArr5 (V c (Pipeline.arrRef spec5 0)) (V c (Pipeline.arrRef spec5 1)) (V c (Pipeline.arrRef spec5 2))
        (V c (Pipeline.arrRef spec5 3)) (V c (Pipeline.arrRef spec5 4))) := by
  show (cfg5.win 5).cut (grid5.coords t) ((dat5 V c).after 5 t) = _
  rw [after5_5]
  obtain ⟨-, -, eor, eol, -⟩ := idx_facts5 t
  funext j
  show k5_pay1 (F := Ideal) (iblk5 V c 0 t) (iblk5 V c 1 t) (iblk5 V c 2 t) (iblk5 V c 3 t) (iblk5 V c 4 t) j
    = bnArr5 _ _ _ _ _ (((cfg5.win 5).blk t).view.emb j)
  have hrr : ((((cfg5.win 5).blk t).view.emb j) 0 : Nat) = 5000 * t.val + (j 0).val := by
    show win5_5.index t (0 : Fin 2) * 5000 + 1 * (j 0).val = _; rw [eor]; omega
  have hrl : ((((cfg5.win 5).blk t).view.emb j) 1 : Nat) = (j 1).val := by
    show win5_5.index t (1 : Fin 2) * 128 + 1 * (j 1).val = _; rw [eol]; omega
  exact point5 _ _ _ _ _ _ _ _ _ _ j _ (blkX5 V c t j _ hrr hrl) (blkMean5 V c t) (blkVar5 V c t)
    (blkScale5 V c t) (blkShift5 V c t) hrl

/-- The output array after the region is `bnArr5` of the five arrays as the region finds them, at every index. -/
theorem final5_5 (c : Dev nD) :
    (dat5 (F := Ideal) V c).arrAt 5 cfg5.N = bnArr5 (V c (Pipeline.arrRef spec5 0)) (V c (Pipeline.arrRef spec5 1))
      (V c (Pipeline.arrRef spec5 2)) (V c (Pipeline.arrRef spec5 3)) (V c (Pipeline.arrRef spec5 4)) :=
  (dat5 V c).arrAt_eq_of_cover 5 _ (fun t _ => flushed5_5_eq V c t) cover5_5

/-- The output array after the region at row `p`, lane `q`: the batch-norm of the input array's entry there with the
    lane's mean, variance, scale and shift as the region finds them (no rectifier follows in the last round). -/
theorem final5 (c : Dev nD) (p : Fin 100000) (q : Fin 128) :
    (dat5 (F := Ideal) V c).arrAt 5 cfg5.N (ix2 p q)
      = Cert.Spec.normAt (Ideal.ofBits .f32 0x3727C5AC#32) (fun q => V c (Pipeline.arrRef spec5 1) (ix2 0 q))
          (fun q => V c (Pipeline.arrRef spec5 2) (ix2 0 q)) (fun q => V c (Pipeline.arrRef spec5 3) (ix2 0 q))
          (fun q => V c (Pipeline.arrRef spec5 4) (ix2 0 q)) (V c (Pipeline.arrRef spec5 0) (ix2 p q)) q := by
  rw [final5_5]
  rfl

end Cert.KernelIdeal.Hand

end
-- ==== Proof.Ref.Read.lean ====
/-
  The reference's pieces read at an index, over the extended reals: a rectifier is a maximum with zero, a row of the
  two-layer perceptron is the nested sums of products, the column statistics are sums over the rows divided by the
  count, and a normalised entry is the scaled deviation times the inverse standard deviation plus the shift.
-/
import proofs.«125359_j15118284882190_1_alg».proof.Proof.Ref.Fun
import proofs.«125359_j15118284882190_1_alg».proof.Proof.LibColumnStats
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx Idealize.SL.Sem
open Cert.FiniteReals
open scoped BigOperators

/-! ## Broadcasts and the rectifier -/

/-- The all-zero table holds the extended real zero. -/
theorem zeros_apply (j : S100000x128.Idx) : zeros (F := Ideal) j = 0 := Ideal.ofBits_zero_f32

/-- A vector repeated on every row, at (p, q): the vector at q. -/
theorem rowB_apply {F : FTy → Type} [FloatOps F] (v : FVec F S128 .f32) (p : Fin 100000) (q : Fin 128) :
    rowB v (ix2 p q) = v (ix1 q) := by
  show v _ = v _
  congr 1
  funext a
  match a with
  | ⟨0, _⟩ => rfl

/-- The rectifier at an entry: the larger of the entry and zero. -/
theorem relu_apply (x : FVec Ideal S100000x128 .f32) (p : Fin 100000) (q : Fin 128) :
    relu (F := Ideal) x (ix2 p q) = max (x (ix2 p q)) 0 := by
  show max (x (ix2 p q)) (zeros (F := Ideal) (ix2 p q)) = _
  rw [zeros_apply]

/-! ## The products -/

/-- A table times a square matrix, at (p, q): the sum over the shared index. -/
theorem dot_apply (a : FVec Ideal S100000x128 .f32) (W : FVec Ideal S128x128 .f32) (p : Fin 100000) (q : Fin 128) :
    Host.dotGeneral dot_S100000x128_S128x128_S100000x128_1_0_0_1_n_n none a W (ix2 p q)
      = ∑ j : Fin 128, a (ix2 p j) * W (ix2 j q) := by
  show FloatOps.dotGeneral _ _ _ a W (ix2 p q) = _
  rw [Ideal.dotGeneral_apply]
  rw [← Equiv.sum_comp (contrEquiv1 dot_S100000x128_S128x128_S100000x128_1_0_0_1_n_n 128 rfl rfl).symm]
  refine Finset.sum_congr rfl fun j _ => ?_
  congr 1
  · congr 1
    funext b
    match b with
    | ⟨0, _⟩ => rfl
    | ⟨1, _⟩ => rfl
  · congr 1
    funext b
    match b with
    | ⟨0, _⟩ => rfl
    | ⟨1, _⟩ => rfl

/-- The two-layer perceptron at (p, q). -/
theorem mlp_apply (a : FVec Ideal S100000x128 .f32) (W1 : FVec Ideal S128x128 .f32) (b1 : FVec Ideal S128 .f32)
    (W2 : FVec Ideal S128x128 .f32) (b2 : FVec Ideal S128 .f32) (p : Fin 100000) (q : Fin 128) :
    mlp (F := Ideal) a W1 b1 W2 b2 (ix2 p q)
      = Cert.Spec.mlpAt (fun p j => a (ix2 p j)) (fun j k => W1 (ix2 j k)) (fun k => b1 (ix1 k))
          (fun k q => W2 (ix2 k q)) (fun q => b2 (ix1 q)) p q := by
  unfold Cert.Spec.mlpAt mlp
  show Host.dotGeneral _ none _ W2 (ix2 p q) + rowB b2 (ix2 p q) = _
  rw [dot_apply, rowB_apply]
  congr 1
  refine Finset.sum_congr rfl fun k _ => ?_
  rw [relu_apply]
  show max (Host.dotGeneral _ none a W1 (ix2 p k) + rowB b1 (ix2 p k)) 0 * _ = _
  rw [dot_apply, rowB_apply]

/-! ## The two printed constants -/

/-- The count's bit pattern is the real number 100000. -/
theorem count_eq : Ideal.ofBits .f32 0x47C35000#32 = ((100000 : ℝ) : EReal) := by
  simp [Ideal.ofBits, Ideal.ieee, -EReal.coe_mul]; norm_num

/-- The small constant's bit pattern is the real number 10995116 / 2⁴⁰. -/
theorem eps_eq : Ideal.ofBits .f32 0x3727C5AC#32 = (((10995116 : ℝ) / 1099511627776 : ℝ) : EReal) := by
  simp [Ideal.ofBits, Ideal.ieee, -EReal.coe_mul]; norm_num

/-- The small constant is a positive real. -/
theorem eps_pos : ∃ e : ℝ, 0 < e ∧ Ideal.ofBits .f32 0x3727C5AC#32 = (e : EReal) :=
  ⟨_, by norm_num, eps_eq⟩

/-! ## The column statistics -/

/-- The column sums at q: the sum over the rows. -/
theorem colSum_apply (h : FVec Ideal S100000x128 .f32) (q : Fin 128) :
    colSum (F := Ideal) h (ix1 q) = ∑ p : Fin 100000, h (ix2 p q) := by
  show Ideal.hostReduceAdd reducesTo_S100000x128_S128_d0 h (Ideal.ofBits .f32 0x00000000#32) (ix1 q) = _
  rw [Ideal.hostReduceAdd_single _ (by decide : S100000x128.Reduces [0] S128), Ideal.ofBits_zero_f32, zero_add]
  refine Finset.sum_congr rfl fun p _ => ?_
  congr 1
  funext b
  match b with
  | ⟨0, _⟩ => rfl
  | ⟨1, _⟩ => rfl

/-- The column means at q. -/
theorem mean_apply (h : FVec Ideal S100000x128 .f32) (q : Fin 128) :
    mean (F := Ideal) h (ix1 q) = Cert.Spec.meanAt (Ideal.ofBits .f32 0x47C35000#32) (fun p q => h (ix2 p q)) q := by
  unfold Cert.Spec.meanAt Cert.Spec.colSumAt
  show Ideal.div (colSum (F := Ideal) h (ix1 q)) (Ideal.ofBits .f32 0x47C35000#32) = _
  rw [colSum_apply]

/-- The variance's count: the number of rows less zero. -/
theorem varCount_apply (j : S_.Idx) : varCount (F := Ideal) j = Ideal.ofBits .f32 0x47C35000#32 := by
  show Ideal.ofBits .f32 0x47C35000#32 - (((0#32 : BitVec 32).toInt : ℝ) : EReal) = _
  simp

/-- The deviations at (p, q): the entry less its column's mean. -/
theorem dev_apply (h : FVec Ideal S100000x128 .f32) (p : Fin 100000) (q : Fin 128) :
    dev (F := Ideal) h (ix2 p q)
      = h (ix2 p q) - Cert.Spec.meanAt (Ideal.ofBits .f32 0x47C35000#32) (fun p q => h (ix2 p q)) q := by
  unfold Cert.Spec.meanAt Cert.Spec.colSumAt
  rw [← colSum_apply]
  show h (ix2 p q) - Ideal.div (colSum (F := Ideal) h _) (Ideal.ofBits .f32 0x47C35000#32) = _
  congr 3
  funext a
  match a with
  | ⟨0, _⟩ => rfl

/-- The column variances at q: the count is positive, so the select takes the mean of the squared deviations. -/
theorem var_apply (h : FVec Ideal S100000x128 .f32) (q : Fin 128) :
    var (F := Ideal) h (ix1 q) = Cert.Spec.varDevAt (Ideal.ofBits .f32 0x47C35000#32) (fun p q => h (ix2 p q)) q := by
  have hpos : Ideal.cmp .ogt (Ideal.ofBits .f32 0x47C35000#32) 0 = 1#1 := by
    rw [count_eq]
    have : (0 : EReal) < ((100000 : ℝ) : EReal) := by exact_mod_cast (by norm_num : (0 : ℝ) < 100000)
    simp [Ideal.cmp, this]
  unfold Cert.Spec.varDevAt
  show Scalar.select (FloatOps.cmpf .ogt (varCount (F := Ideal) _) (Ideal.ofBits .f32 0x00000000#32))
      (Ideal.div (colSum (F := Ideal) (mulf (dev h) (dev h)) (ix1 q)) (varCount (F := Ideal) _)) _ = _
  rw [varCount_apply, Ideal.ofBits_zero_f32, Ideal.cmpf_def, hpos, select_one, colSum_apply]
  refine congrArg (fun x => Ideal.div x (Ideal.ofBits .f32 0x47C35000#32)) (Finset.sum_congr rfl fun p _ => ?_)
  show dev (F := Ideal) h (ix2 p q) * dev (F := Ideal) h (ix2 p q) = _
  rw [dev_apply]

/-- A normalised entry. -/
theorem bn_apply (h : FVec Ideal S100000x128 .f32) (g b : FVec Ideal S128 .f32) (p : Fin 100000) (q : Fin 128) :
    bn (F := Ideal) h g b (ix2 p q)
      = Cert.Spec.normAt (Ideal.ofBits .f32 0x3727C5AC#32) (fun q => mean h (ix1 q)) (fun q => var h (ix1 q))
          (fun q => g (ix1 q)) (fun q => b (ix1 q)) (h (ix2 p q)) q := by
  unfold Cert.Spec.normAt
  show rowB g (ix2 p q) * (h (ix2 p q) - rowB (mean h) (ix2 p q)) * rowB (istd h) (ix2 p q) + rowB b (ix2 p q) = _
  rw [rowB_apply, rowB_apply, rowB_apply, rowB_apply]
  rfl

end Cert.ReferenceIdeal.Hand

end
-- ==== Proof.Layer.lean ====
/-
  One round of the network, in the kernel's arrangement and in the reference's. The kernel's first region leaves the
  perceptron's table and, beside it, each column's sum and sum of squares; the host divides them by the row count and
  takes the variance as the mean of the squares less the squared mean; the second region normalises every entry. The
  reference takes the variance as the mean of the squared deviations. On a real table the two variances are one number,
  so the two normalised tables are equal entry by entry, and every entry of the result is again real.
-/
import proofs.«125359_j15118284882190_1_alg».proof.Proof.LibColumnStats
import proofs.«125359_j15118284882190_1_alg».proof.Proof.Ref.Fun
import proofs.«125359_j15118284882190_1_alg».proof.Proof.Ref.Read
import Idealize.ShloMosaic.Lib.ValueIdx

noncomputable section

namespace Cert.Bridge

open Idealize.ShloMosaic Idealize.ShloMosaic.ValueIdx Cert.Spec Cert.FiniteReals
open Cert.ReferenceIdeal Cert.ReferenceIdeal.Hand

/-- A node table is determined by its entries. -/
theorem ext2 {x y : FVec Ideal S100000x128 .f32} (h : ∀ (p : Fin 100000) (q : Fin 128), x (ix2 p q) = y (ix2 p q)) : x = y :=
  funext fun i => by
    obtain ⟨p, q, rfl⟩ : ∃ (p : Fin 100000) (q : Fin 128), i = ix2 p q := ⟨i 0, i 1, eq_ix2 i⟩
    exact h p q

theorem real2 {x : FVec Ideal S100000x128 .f32} (h : ∀ (p : Fin 100000) (q : Fin 128), IsReal (x (ix2 p q))) (i : S100000x128.Idx) : IsReal (x i) := by
  obtain ⟨p, q, rfl⟩ : ∃ (p : Fin 100000) (q : Fin 128), i = ix2 p q := ⟨i 0, i 1, eq_ix2 i⟩
  exact h p q

/-- The row count as the reference and the kernel print it. -/
abbrev cnt : EReal := Ideal.ofBits .f32 0x47C35000#32
/-- The small constant under the square root. -/
abbrev eps : EReal := Ideal.ofBits .f32 0x3727C5AC#32

theorem cnt_eq : cnt = (((100000 : ℕ) : ℝ) : EReal) := by rw [show cnt = _ from count_eq]; norm_num

theorem hn : (((100000 : ℕ) : ℝ)) ≠ 0 := by norm_num

section Round

variable (a : FVec Ideal S100000x128 .f32) (Wa Wb : FVec Ideal S128x128 .f32) (ba bb g b : FVec Ideal S128 .f32)
  (ha : ∀ p j, IsReal (a (ix2 p j))) (hWa : ∀ j k, IsReal (Wa (ix2 j k))) (hWb : ∀ j k, IsReal (Wb (ix2 j k)))
  (hba : ∀ k, IsReal (ba (ix1 k))) (hbb : ∀ k, IsReal (bb (ix1 k))) (hg : ∀ k, IsReal (g (ix1 k))) (hb : ∀ k, IsReal (b (ix1 k)))

/-- The perceptron's table, entry by entry. -/
abbrev H : Fin 100000 → Fin 128 → EReal :=
  mlpAt (fun p j => a (ix2 p j)) (fun j k => Wa (ix2 j k)) (fun k => ba (ix1 k)) (fun k q => Wb (ix2 k q)) (fun q => bb (ix1 q))

include ha hWa hWb hba hbb in
theorem H_real (p : Fin 100000) (q : Fin 128) : IsReal (H a Wa Wb ba bb p q) :=
  isReal_mlpAt ha hWa hba hWb hbb p q

theorem mlp_tab : (fun p q => mlp (F := Ideal) a Wa ba Wb bb (ix2 p q)) = H a Wa Wb ba bb :=
  funext fun p => funext fun q => mlp_apply a Wa ba Wb bb p q

include ha hWa hWb hba hbb in
/-- The kernel's two statistics give the reference's mean and variance. -/
theorem stats_agree (q : Fin 128) :
    Ideal.div (colSumAt (H a Wa Wb ba bb) q) cnt = mean (F := Ideal) (mlp a Wa ba Wb bb) (ix1 q)
    ∧ Ideal.div (colSqAt (H a Wa Wb ba bb) q) cnt
        - Ideal.div (colSumAt (H a Wa Wb ba bb) q) cnt * Ideal.div (colSumAt (H a Wa Wb ba bb) q) cnt
      = var (F := Ideal) (mlp a Wa ba Wb bb) (ix1 q) := by
  rw [mean_apply, var_apply, mlp_tab]
  refine ⟨rfl, ?_⟩
  have := varSqAt_eq_varDevAt (n := 100000) (d := 128) hn (H a Wa Wb ba bb) (H_real a Wa Wb ba bb ha hWa hWb hba hbb) q
  rw [← cnt_eq] at this
  exact this

include ha hWa hWb hba hbb hg hb in
/-- The reference's normalised entry is real. -/
theorem bn_real (p : Fin 100000) (q : Fin 128) : IsReal (bn (F := Ideal) (mlp a Wa ba Wb bb) g b (ix2 p q)) := by
  obtain ⟨e, he, hee⟩ := eps_pos
  rw [bn_apply, mlp_apply]
  have h1 : (fun q => mean (F := Ideal) (mlp a Wa ba Wb bb) (ix1 q)) = meanAt ((((100000 : ℕ) : ℝ)) : EReal) (H a Wa Wb ba bb) :=
    funext fun q => by rw [mean_apply, mlp_tab, ← cnt_eq]
  have h2 : (fun q => var (F := Ideal) (mlp a Wa ba Wb bb) (ix1 q)) = varDevAt ((((100000 : ℕ) : ℝ)) : EReal) (H a Wa Wb ba bb) :=
    funext fun q => by rw [var_apply, mlp_tab, ← cnt_eq]
  rw [h1, h2, hee]
  exact isReal_normAt hn (H a Wa Wb ba bb) (H_real a Wa Wb ba bb ha hWa hWb hba hbb) he _ _ hg hb p q

end Round

section Kernel

variable (a : FVec Ideal S100000x128 .f32) (Wa Wb : FVec Ideal S128x128 .f32) (ba bb g b : FVec Ideal S128 .f32)
  (ha : ∀ p j, IsReal (a (ix2 p j))) (hWa : ∀ j k, IsReal (Wa (ix2 j k))) (hWb : ∀ j k, IsReal (Wb (ix2 j k)))
  (hba : ∀ k, IsReal (ba (ix1 k))) (hbb : ∀ k, IsReal (bb (ix1 k))) (hg : ∀ k, IsReal (g (ix1 k))) (hb : ∀ k, IsReal (b (ix1 k)))
  (hpreK outK : FVec Ideal S100000x128 .f32) (s0 s1 : Fin 128 → EReal) (μK vK gK bK : FVec Ideal S1x128 .f32)
  (e1 : ∀ p q, hpreK (ix2 p q) = H a Wa Wb ba bb p q)
  (e2 : ∀ q : Fin 128, s0 q = colSumAt (H a Wa Wb ba bb) q)
  (e3 : ∀ q : Fin 128, s1 q = colSqAt (H a Wa Wb ba bb) q)
  (e4 : ∀ q : Fin 128, μK (ix2 0 q) = Ideal.div (s0 q) cnt)
  (e5 : ∀ q : Fin 128, vK (ix2 0 q) = Ideal.div (s1 q) cnt - μK (ix2 0 q) * μK (ix2 0 q))
  (e6 : ∀ q : Fin 128, gK (ix2 0 q) = g (ix1 q)) (e7 : ∀ q : Fin 128, bK (ix2 0 q) = b (ix1 q))

include e1 in
theorem hpre_eq : hpreK = mlp (F := Ideal) a Wa ba Wb bb :=
  ext2 fun p q => (e1 p q).trans (mlp_apply a Wa ba Wb bb p q).symm

include ha hWa hWb hba hbb e1 e2 e3 e4 e5 e6 e7 in
/-- The kernel's normalised entry is the reference's. -/
theorem norm_eq (p : Fin 100000) (q : Fin 128) :
    normAt eps (fun q => μK (ix2 0 q)) (fun q => vK (ix2 0 q)) (fun q => gK (ix2 0 q)) (fun q => bK (ix2 0 q)) (hpreK (ix2 p q)) q
      = bn (F := Ideal) (mlp a Wa ba Wb bb) g b (ix2 p q) := by
  have hμ : (fun q => μK (ix2 0 q)) = fun q => mean (F := Ideal) (mlp a Wa ba Wb bb) (ix1 q) :=
    funext fun q => by rw [e4, e2]; exact (stats_agree a Wa Wb ba bb ha hWa hWb hba hbb q).1
  have hv : (fun q => vK (ix2 0 q)) = fun q => var (F := Ideal) (mlp a Wa ba Wb bb) (ix1 q) :=
    funext fun q => by rw [e5, e4, e3, e2]; exact (stats_agree a Wa Wb ba bb ha hWa hWb hba hbb q).2
  rw [hμ, hv, show (fun q => gK (ix2 0 q)) = fun q => g (ix1 q) from funext e6,
    show (fun q => bK (ix2 0 q)) = fun q => b (ix1 q) from funext e7, hpre_eq a Wa Wb ba bb hpreK e1, bn_apply]

include ha hWa hWb hba hbb hg hb e1 e2 e3 e4 e5 e6 e7 in
/-- A round that ends with the rectifier. -/
theorem round_relu
    (e8 : ∀ p q, outK (ix2 p q) = max (normAt eps (fun q => μK (ix2 0 q)) (fun q => vK (ix2 0 q)) (fun q => gK (ix2 0 q)) (fun q => bK (ix2 0 q)) (hpreK (ix2 p q)) q) 0) :
    outK = relu (bn (F := Ideal) (mlp a Wa ba Wb bb) g b) ∧ ∀ p q, IsReal (outK (ix2 p q)) := by
  have h2 : ∀ p q, outK (ix2 p q) = max (bn (F := Ideal) (mlp a Wa ba Wb bb) g b (ix2 p q)) 0 := fun p q => by
    rw [e8, norm_eq a Wa Wb ba bb g b ha hWa hWb hba hbb hpreK s0 s1 μK vK gK bK e1 e2 e3 e4 e5 e6 e7]
  exact ⟨ext2 fun p q => (h2 p q).trans (relu_apply _ p q).symm,
    fun p q => by rw [h2]; exact (bn_real a Wa Wb ba bb g b ha hWa hWb hba hbb hg hb p q).max isReal_zero⟩

include ha hWa hWb hba hbb hg hb e1 e2 e3 e4 e5 e6 e7 in
/-- The last round: no rectifier. -/
theorem round_last
    (e8 : ∀ p q, outK (ix2 p q) = normAt eps (fun q => μK (ix2 0 q)) (fun q => vK (ix2 0 q)) (fun q => gK (ix2 0 q)) (fun q => bK (ix2 0 q)) (hpreK (ix2 p q)) q) :
    outK = bn (F := Ideal) (mlp a Wa ba Wb bb) g b :=
  ext2 fun p q => by
    rw [e8, norm_eq a Wa Wb ba bb g b ha hWa hWb hba hbb hpreK s0 s1 μK vK gK bK e1 e2 e3 e4 e5 e6 e7]

end Kernel

end Cert.Bridge

end
-- ==== Proof.LibEdgeOps.lean ====
/-
  Indexing by an edge list, read at an index: `x[idx]`, `x[idx, :]`, `zeros.at[idx].add(v)`, `zeros.at[idx, :].add(v)`.

  An integer array `idx` of `E` entries, laid out `[E, 1]`, names for each edge `e` a position of an array of extent `N`
  (or a row of an `[N, C]` array). A gather reads the named position, the index read signed and clamped into
  `[0, N − 1]`; an accumulating scatter adds update `e` at the named position, and drops it when the index, read
  signed, falls outside `[0, N)`. Over the extended reals the accumulated array at `j` is the operand at `j` plus the sum
  of the updates of the edges that name `j`.
-/
import Idealize.ShloMosaic.PureOps.Ideal
import Idealize.ShloMosaic.PureOps.Contract
import Idealize.ShloMosaic.Lib.ValueIdx

noncomputable section

namespace Cert.EdgeOps

open Idealize.ShloMosaic Idealize.ShloMosaic.ValueIdx

/-! ## Accumulating at positions of a one-axis array -/

/-- The dimension numbers of `x.at[idx].add(v)` for `x : [N]`, `idx : [E, 1]`, `v : [E]`. -/
abbrev addDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat}

theorem addDims_start (wf : ScatterDims.WF ⟨1, ![N]⟩ ⟨2, ![E, 1]⟩ ⟨1, ![E]⟩ [] [0] [0] 1) (idx : IVec ⟨2, ![E, 1]⟩ w) (e : Fin E) :
    (addDims N E wf).start (ix1 e) idx 0 = (idx (ix2 e (0 : Fin 1))).toInt := by
  unfold ScatterDims.start
  rw [dif_pos (show (0 : Fin 1) ∈ (addDims N E wf).scatterDimsToOperandDims from List.mem_singleton.mpr rfl)]
  congr 2
  funext b; refine Fin.ext ?_
  match b with
  | ⟨0, _⟩ => rfl
  | ⟨1, _⟩ => rfl

theorem addDims_window (wf : ScatterDims.WF ⟨1, ![N]⟩ ⟨2, ![E, 1]⟩ ⟨1, ![E]⟩ [] [0] [0] 1) (e : Fin E) :
    (addDims N E wf).window (ix1 e) 0 = 0 := by
  unfold ScatterDims.window
  rw [dif_neg]
  simp [ScatterDims.sKept, Shape.kept]

/-- WHERE UPDATE `e` LANDS: at the position its index names, when that is inside the array. -/
theorem addDims_resultIdx_eq_some_iff (wf : ScatterDims.WF ⟨1, ![N]⟩ ⟨2, ![E, 1]⟩ ⟨1, ![E]⟩ [] [0] [0] 1)
    (idx : IVec ⟨2, ![E, 1]⟩ w) (e : Fin E) (j : Fin N) :
    (addDims N E wf).resultIdx? (ix1 e) idx = some (ix1 j) ↔ (idx (ix2 e (0 : Fin 1))).toInt = (j.val : Int) := by
  unfold ScatterDims.resultIdx?
  have hs := addDims_start wf idx e
  have hw := addDims_window (N := N) wf e
  split
  · next h =>
    have h0 := h 0
    rw [hs, hw] at h0
    constructor
    · intro heq
      have := congrFun (Option.some.inj heq) 0
      have hv := congrArg Fin.val this
      simp only at hv
      rw [hs, hw] at hv
      simp only [Nat.cast_zero, add_zero] at hv h0
      show _ = ((ix1 j (0 : Fin 1)).val : Int)
      have h1 : ((idx (ix2 e (0 : Fin 1))).toInt.toNat : Int) = (idx (ix2 e (0 : Fin 1))).toInt := Int.toNat_of_nonneg h0.1
      exact h1.symm.trans (congrArg (fun n : Nat => (n : Int)) hv)
    · intro heq
      congr 1
      funext a
      obtain rfl : a = 0 := Subsingleton.elim _ _
      refine Fin.ext ?_
      show ((addDims N E wf).start (ix1 e) idx 0 + ((addDims N E wf).window (ix1 e) 0 : Int)).toNat = j.val
      rw [hs, hw, heq]; simp
  · next h =>
    constructor
    · intro heq; exact absurd heq (by simp)
    · intro heq
      exfalso; apply h
      intro a
      obtain rfl : a = 0 := Subsingleton.elim _ _
      rw [hs, hw, heq]
      have := j.isLt
      simp only [Nat.cast_zero, add_zero]
      exact ⟨by omega, by exact_mod_cast this⟩

/-- An index of a one-axis array is its one coordinate. -/
def idx1Equiv (n : Nat) : (⟨1, ![n]⟩ : Shape).Idx ≃ Fin n where
  toFun u := u 0
  invFun := ix1
  left_inv u := (eq_ix1 u).symm
  right_inv _ := rfl

/-- THE ACCUMULATED ARRAY AT `j`, over the extended reals: the operand there plus the updates of the edges that name `j`. -/
theorem scatterAdd_addDims_apply {φ : FTy} (wf : ScatterDims.WF ⟨1, ![N]⟩ ⟨2, ![E, 1]⟩ ⟨1, ![E]⟩ [] [0] [0] 1)
    (x : FVec Ideal ⟨1, ![N]⟩ φ) (idx : IVec ⟨2, ![E, 1]⟩ w) (upd : FVec Ideal ⟨1, ![E]⟩ φ) (j : Fin N) :
    Host.scatterAdd (addDims N E wf) x idx upd (ix1 j)
      = x (ix1 j) + ∑ e : Fin E with (idx (ix2 e (0 : Fin 1))).toInt = (j.val : Int), upd (ix1 e) := by
  show Ideal.hostScatterAdd (addDims N E wf) x idx upd (ix1 j) = _
  unfold Ideal.hostScatterAdd
  congr 1
  refine Finset.sum_equiv (idx1Equiv E) (fun u => ?_) (fun u _ => ?_)
  · obtain ⟨e, rfl⟩ : ∃ e : Fin E, u = ix1 e := ⟨u 0, eq_ix1 u⟩
    simp only [Finset.mem_filter, Finset.mem_univ, true_and]
    exact addDims_resultIdx_eq_some_iff wf idx e j
  · obtain ⟨e, rfl⟩ : ∃ e : Fin E, u = ix1 e := ⟨u 0, eq_ix1 u⟩
    rfl

/-! ## The same accumulation as a fold of single updates (an integer `.at[idx].add(v)`: a histogram) -/

/-- A fold of single updates — entry `n` adds `val n` at the position `tgt n` names, or is dropped — leaves at `i₀` the
    start there plus the values of the entries that name `i₀`. -/
theorem foldl_update_apply {ι κ A : Type*} [DecidableEq ι] [AddCommMonoid A] (tgt : κ → Option ι) (val : κ → A)
    (l : List κ) (x : ι → A) (i₀ : ι) :
    (l.foldl (fun r n => match tgt n with
        | some i => fun i' => if i' = i then r i + val n else r i'
        | none => r) x) i₀
      = x i₀ + ((l.filter fun n => decide (tgt n = some i₀)).map val).sum := by
  induction l generalizing x with
  | nil => simp
  | cons a l ih =>
    rw [List.foldl_cons, ih]
    cases hta : tgt a with
    | none => simp [hta]
    | some i =>
      by_cases hi : i₀ = i
      · subst hi
        simp [hta, add_assoc]
      · have : ¬ (some i = some i₀) := fun h => hi (Option.some.inj h).symm
        simp [hta, hi, this]

/-- The sum over the entries a test keeps is the sum of the entries' values where the test holds, zero elsewhere. -/
theorem sum_filter_map {κ A : Type*} [AddCommMonoid A] (l : List κ) (p : κ → Bool) (val : κ → A) :
    ((l.filter p).map val).sum = (l.map fun n => if p n then val n else 0).sum := by
  induction l with
  | nil => rfl
  | cons a l ih => by_cases h : p a <;> simp [List.filter_cons, h, ih]

/-- THE FOLDED ACCUMULATION AT `j`: `Host.scatter` with an adding body, over a commutative monoid, leaves at `j` the operand
    there plus the updates of the edges that name `j`. -/
theorem scatter_add_addDims_apply {A : Type} [AddCommMonoid A] (wf : ScatterDims.WF ⟨1, ![N]⟩ ⟨2, ![E, 1]⟩ ⟨1, ![E]⟩ [] [0] [0] 1)
    (x : (⟨1, ![N]⟩ : Shape).Idx → A) (idx : IVec ⟨2, ![E, 1]⟩ w) (upd : (⟨1, ![E]⟩ : Shape).Idx → A) (j : Fin N) :
    Host.scatter (addDims N E wf) (fun a b => a + b) x idx upd (ix1 j)
      = x (ix1 j) + ∑ e : Fin E with (idx (ix2 e (0 : Fin 1))).toInt = (j.val : Int), upd (ix1 e) := by
  unfold Host.scatter
  have key := foldl_update_apply (fun n => (addDims N E wf).resultIdx? ((⟨1, ![E]⟩ : Shape).rowMajor.symm n) idx)
    (fun n => upd ((⟨1, ![E]⟩ : Shape).rowMajor.symm n)) (List.finRange (⟨1, ![E]⟩ : Shape).numel) x (ix1 j)
  beta_reduce
  refine Eq.trans ?_ (key.trans ?_)
  · congr!
    funext motive o h₁ h₂
    cases o <;> rfl
  congr 1
  rw [sum_filter_map, ← Fin.sum_univ_def, ← Finset.sum_filter]
  refine Finset.sum_equiv ((⟨1, ![E]⟩ : Shape).rowMajor.symm.trans (idx1Equiv E)) (fun n => ?_) (fun n _ => ?_)
  · obtain ⟨e, he⟩ : ∃ e : Fin E, (⟨1, ![E]⟩ : Shape).rowMajor.symm n = ix1 e := ⟨_, eq_ix1 _⟩
    simp only [Finset.mem_filter, Finset.mem_univ, true_and, decide_eq_true_eq, Equiv.trans_apply]
    rw [he]
    exact addDims_resultIdx_eq_some_iff wf idx e j
  · obtain ⟨e, he⟩ : ∃ e : Fin E, (⟨1, ![E]⟩ : Shape).rowMajor.symm n = ix1 e := ⟨_, eq_ix1 _⟩
    simp only [Equiv.trans_apply]
    rw [he]
    rfl

/-! ## Accumulating rows of a two-axis array -/

/-- The dimension numbers of `x.at[idx].add(v)` for `x : [N, C]`, `idx : [E, 1]`, `v : [E, C]`: update row `e` lands on row `idx e`. -/
abbrev addRows (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {C : Nat}

theorem addRows_start0 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 0 = (idx (ix2 e (0 : Fin 1))).toInt := by
  unfold ScatterDims.start
  rw [dif_pos (show (0 : Fin 2) ∈ (addRows N C E wf).scatterDimsToOperandDims from List.mem_singleton.mpr rfl)]
  congr 2
  funext b; refine Fin.ext ?_
  match b with
  | ⟨0, _⟩ => rfl
  | ⟨1, _⟩ => rfl

theorem addRows_start1 (wf : ScatterDims.WF ⟨2, ![N, C]⟩ ⟨2, ![E, 1]⟩ ⟨2, ![E, C]⟩ [1] [0] [0] 1) (idx : IVec ⟨2, ![E, 1]⟩ w)
    (e : Fin E) (o : Fin C) : (addRows N C E wf).start (ix2 e o) idx 1 = 0 := by
  unfold ScatterDims.start
  rw [dif_neg]
  simp

theorem addRows_window0 (wf : ScatterDims.WF ⟨2, ![N, C]⟩ ⟨2, ![E, 1]⟩ ⟨2, ![E, C]⟩ [1] [0] [0] 1) (e : Fin E) (o : Fin C) :
    (addRows N C E wf).window (ix2 e o) 0 = 0 := by
  unfold ScatterDims.window
  rw [dif_neg]
  simp [ScatterDims.sKept, Shape.kept]

theorem addRows_window1 (wf : ScatterDims.WF ⟨2, ![N, C]⟩ ⟨2, ![E, 1]⟩ ⟨2, ![E, C]⟩ [1] [0] [0] 1) (e : Fin E) (o : Fin C) :
    (addRows N C E wf).window (ix2 e o) 1 = o.val := by
  unfold ScatterDims.window
  rw [dif_pos (by simp [ScatterDims.sKept, Shape.kept])]
  rfl

/-- WHERE UPDATE ENTRY (e, o') LANDS: on row `idx e`, same column, when the row is inside the array. -/
theorem addRows_resultIdx_eq_some_iff (wf : ScatterDims.WF ⟨2, ![N, C]⟩ ⟨2, ![E, 1]⟩ ⟨2, ![E, C]⟩ [1] [0] [0] 1)
    (idx : IVec ⟨2, ![E, 1]⟩ w) (e : Fin E) (o' : Fin C) (j : Fin N) (o : Fin C) :
    (addRows N C E wf).resultIdx? (ix2 e o') idx = some (ix2 j o)
      ↔ (idx (ix2 e (0 : Fin 1))).toInt = (j.val : Int) ∧ o' = o := by
  unfold ScatterDims.resultIdx?
  have hs0 := addRows_start0 wf idx e o'
  have hs1 := addRows_start1 wf idx e o'
  have hw0 := addRows_window0 (N := N) wf e o'
  have hw1 := addRows_window1 (N := N) wf e o'
  split
  · next h =>
    have h0 := h 0
    rw [hs0, hw0] at h0
    simp only [Nat.cast_zero, add_zero] at h0
    constructor
    · intro heq
      have e0 := congrArg Fin.val (congrFun (Option.some.inj heq) 0)
      have e1 := congrArg Fin.val (congrFun (Option.some.inj heq) 1)
      simp only at e0 e1
      rw [hs0, hw0] at e0
      rw [hs1, hw1] at e1
      simp only [Nat.cast_zero, add_zero, zero_add, Int.toNat_natCast] at e0 e1
      have h1 : ((idx (ix2 e (0 : Fin 1))).toInt.toNat : Int) = (idx (ix2 e (0 : Fin 1))).toInt := Int.toNat_of_nonneg h0.1
      exact ⟨h1.symm.trans (congrArg (fun n : Nat => (n : Int)) e0), Fin.ext e1⟩
    · rintro ⟨heq, rfl⟩
      congr 1
      funext a
      refine Fin.ext ?_
      match a with
      | ⟨0, _⟩ =>
        show ((addRows N C E wf).start (ix2 e o') idx 0 + ((addRows N C E wf).window (ix2 e o') 0 : Int)).toNat = j.val
        rw [hs0, hw0, heq]; simp
      | ⟨1, _⟩ =>
        show ((addRows N C E wf).start (ix2 e o') idx 1 + ((addRows N C E wf).window (ix2 e o') 1 : Int)).toNat = o'.val
        rw [hs1, hw1]; simp
  · next h =>
    constructor
    · intro heq; exact absurd heq (by simp)
    · rintro ⟨heq, rfl⟩
      exfalso; apply h
      intro a
      match a with
      | ⟨0, _⟩ =>
        show 0 ≤ (addRows N C E wf).start (ix2 e o') idx 0 + ((addRows N C E wf).window (ix2 e o') 0 : Int)
          ∧ (addRows N C E wf).start (ix2 e o') idx 0 + ((addRows N C E wf).window (ix2 e o') 0 : Int) < (N : Int)
        rw [hs0, hw0, heq]
        have := j.isLt
        simp only [Nat.cast_zero, add_zero]
        exact ⟨by omega, by exact_mod_cast this⟩
      | ⟨1, _⟩ =>
        show 0 ≤ (addRows N C E wf).start (ix2 e o') idx 1 + ((addRows N C E wf).window (ix2 e o') 1 : Int)
          ∧ (addRows N C E wf).start (ix2 e o') idx 1 + ((addRows N C E wf).window (ix2 e o') 1 : Int) < (C : Int)
        rw [hs1, hw1]
        have := o'.isLt
        simp only [zero_add]
        exact ⟨by omega, by exact_mod_cast this⟩

/-- THE ACCUMULATED ARRAY AT (j, o), over the extended reals: the operand there plus the entries, in column `o`, of the
    update rows of the edges that name row `j`. -/
theorem scatterAdd_addRows_apply {φ : FTy} (wf : ScatterDims.WF ⟨2, ![N, C]⟩ ⟨2, ![E, 1]⟩ ⟨2, ![E, C]⟩ [1] [0] [0] 1)
    (x : FVec Ideal ⟨2, ![N, C]⟩ φ) (idx : IVec ⟨2, ![E, 1]⟩ w) (upd : FVec Ideal ⟨2, ![E, C]⟩ φ) (j : Fin N) (o : Fin C) :
    Host.scatterAdd (addRows N C E wf) x idx upd (ix2 j o)
      = x (ix2 j o) + ∑ e : Fin E with (idx (ix2 e (0 : Fin 1))).toInt = (j.val : Int), upd (ix2 e o) := by
  show Ideal.hostScatterAdd (addRows N C E wf) x idx upd (ix2 j o) = _
  unfold Ideal.hostScatterAdd
  congr 1
  symm
  refine Finset.sum_nbij (fun e => ix2 e o) ?_ ?_ ?_ (fun _ _ => rfl)
  · intro e he
    simp only [Finset.mem_filter, Finset.mem_univ, true_and] at he ⊢
    exact (addRows_resultIdx_eq_some_iff wf idx e o j o).mpr ⟨he, rfl⟩
  · intro a _ b _ hab
    have := congrFun hab 0
    exact this
  · intro u hu
    obtain ⟨e, o', rfl⟩ : ∃ (e : Fin E) (o' : Fin C), u = ix2 e o' := ⟨u 0, u 1, eq_ix2 u⟩
    simp only [Finset.coe_filter, Finset.mem_univ, true_and, Set.mem_setOf_eq] at hu
    obtain ⟨he, rfl⟩ := (addRows_resultIdx_eq_some_iff wf idx e o' j o).mp hu
    exact ⟨e, by simpa using he, rfl⟩

/-! ## Reading at the positions an edge list names -/

/-- The dimension numbers of `x[idx]` for `x : [N]`, `idx : [E, 1]`: result `[E]`. -/
abbrev takeDims1 (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

/-- `x[idx]` AT EDGE `e`: the operand at `idx e`, read signed and clamped into `[0, N − 1]`. -/
theorem gather_take1_apply {α : Type} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (e : Fin E) :
    Host.gather (takeDims1 N E wf) x idx (ix1 e)
      = x (ix1 ⟨min (idx (ix2 e (0 : Fin 1))).toInt.toNat (N - 1), by omega⟩) := by
  unfold Host.gather
  congr 1
  funext a
  obtain rfl : a = 0 := Subsingleton.elim _ _
  refine Fin.ext ?_
  show (takeDims1 N E wf).start (ix1 e) idx 0 + (takeDims1 N E wf).batchCoord (ix1 e) 0 + (takeDims1 N E wf).offCoord (ix1 e) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (takeDims1 N E wf).startIndexMap from List.mem_singleton.mpr rfl)]
  have hsi : (takeDims1 N E wf).siIdx (ix1 e) ⟨List.idxOf (0 : Fin 1) (takeDims1 N E wf).startIndexMap,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]
  rfl

/-- The dimension numbers of `x[idx, :]` for `x : [N, C]`, `idx : [E, 1]`: result `[E, C]`, row `e` the operand's row `idx e`. -/
abbrev takeRows (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- `x[idx, :]` AT (e, o): the operand at row `idx e` (read signed, clamped into `[0, N − 1]`), column `o`. -/
theorem gather_rows_apply {α : Type} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (takeRows N C E wf) x idx (ix2 e o)
      = x (ix2 ⟨min (idx (ix2 e (0 : Fin 1))).toInt.toNat (N - 1), by omega⟩ o) := by
  unfold Host.gather
  congr 1
  funext a
  refine Fin.ext ?_
  match a with
  | ⟨0, _⟩ =>
    show (takeRows N C E wf).start (ix2 e o) idx 0 + (takeRows N C E wf).batchCoord (ix2 e o) 0 + (takeRows N C E wf).offCoord (ix2 e o) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (takeRows N C E wf).startIndexMap from List.mem_singleton.mpr rfl)]
    have hsi : (takeRows N C E wf).siIdx (ix2 e o) ⟨List.idxOf (0 : Fin 2) (takeRows N C E wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (takeRows N C E wf).start (ix2 e o) idx 1 + (takeRows N C E wf).batchCoord (ix2 e o) 1 + (takeRows N C E wf).offCoord (ix2 e o) 1 = o.val
    rw [GatherDims.batchCoord_eq_zero _ _ _ List.not_mem_nil]
    have hst : (takeRows N C E wf).start (ix2 e o) idx 1 = 0 := by
      unfold GatherDims.start
      rw [dif_neg]
      simp
    rw [hst]
    simp only [Nat.zero_add, Nat.add_zero]
    unfold GatherDims.offCoord
    rw [dif_pos (by simp [GatherDims.sKept, Shape.kept])]
    rfl

end Cert.EdgeOps

end
-- ==== Proof.RealAgg.lean ====
/-
  Real entries stay real through the reference's edge aggregation and through the selection of one round's parameters.

  The aggregation adds to each node's row the rows of the sources of the edges that end at it: a gathered entry is an
  entry of the table it gathers from, and the accumulated table at an entry is zero plus the finitely many gathered
  entries of the edges that name the row. One round's matrix or vector is a slab or a row of the stacked parameters,
  every entry of it an entry of the stack.
-/
import proofs.«125359_j15118284882190_1_alg».proof.Proof.Ref.Fun
import proofs.«125359_j15118284882190_1_alg».proof.Proof.LibFiniteReals
import proofs.«125359_j15118284882190_1_alg».proof.Proof.LibEdgeOps
import Idealize.ShloMosaic.Lib.ValueIdx
import Idealize.ShloMosaic.PureOps.Ideal.Laws

noncomputable section

namespace Cert.ReferenceIdeal.Hand

open Cert.ReferenceIdeal Cert.ReferenceIdeal.Gen Idealize.ShloMosaic Idealize.ShloMosaic.ValueIdx Cert.FiniteReals
open scoped BigOperators

/-- Every entry of the all-zero node table is the real number zero. -/
theorem zeros_real (i : S100000x128.Idx) : IsReal (zeros (F := Ideal) i) := by
  show IsReal (Ideal.ofBits .f32 0x00000000#32)
  rw [Ideal.ofBits_zero_f32]
  exact isReal_zero

/-- THE AGGREGATION KEEPS REAL ENTRIES REAL: each entry is the node's own entry plus zero plus a finite sum of gathered
    entries, each of them an entry of the table. -/
theorem agg_real (z : FVec Ideal S100000x128 .f32) (s d : IVec S1600000 32) (hz : ∀ i, IsReal (z i)) :
    ∀ i, IsReal (agg (F := Ideal) z s d i) := by
  intro i
  obtain ⟨p, q, rfl⟩ : ∃ (p : Fin 100000) (q : Fin 128), i = ix2 p q := ⟨i 0, i 1, eq_ix2 i⟩
  unfold agg
  rw [addf_apply]
  refine (hz _).add ?_
  have hs := Cert.EdgeOps.scatterAdd_addRows_apply (N := 100000) (C := 128) (E := 1600000) (φ := .f32)
    scatter_S100000x128_S1600000x1_S1600000x128_1_0_0_1_wf (zeros (F := Ideal)) (broadcastInDim S1600000x1 ![0] bcast_S1600000_S1600000x1_0 d)
    (Host.gather gather_S100000x128_S1600000x1_S1600000x128_1_0_n_n_0_1_1128 z (broadcastInDim S1600000x1 ![0] bcast_S1600000_S1600000x1_0 (wrap s))) p q
  refine (show Host.scatterAdd scatter_S100000x128_S1600000x1_S1600000x128_1_0_0_1 _ _ _ (ix2 p q) = _ from hs) ▸ ?_
  refine (zeros_real _).add (IsReal.sum _ _ fun e _ => ?_)
  have hg := Cert.EdgeOps.gather_rows_apply (N := 100000) (C := 128) (E := 1600000) (by omega) gather_S100000x128_S1600000x1_S1600000x128_1_0_n_n_0_1_1128_wf z
    (broadcastInDim S1600000x1 ![0] bcast_S1600000_S1600000x1_0 (wrap s)) e q
  refine (show Host.gather gather_S100000x128_S1600000x1_S1600000x128_1_0_n_n_0_1_1128 _ _ (ix2 e q) = _ from hg) ▸ ?_
  exact hz _

/-! ## One round's parameters -/

/-- Every entry of a slab of the stacked matrices is an entry of the stack. -/
theorem mat0_real (w : FVec Ideal S3x128x128 .f32) (hw : ∀ i, IsReal (w i)) : ∀ i, IsReal (mat0 (F := Ideal) w i) :=
  fun _ => hw _
theorem mat1_real (w : FVec Ideal S3x128x128 .f32) (hw : ∀ i, IsReal (w i)) : ∀ i, IsReal (mat1 (F := Ideal) w i) :=
  fun _ => hw _
theorem mat2_real (w : FVec Ideal S3x128x128 .f32) (hw : ∀ i, IsReal (w i)) : ∀ i, IsReal (mat2 (F := Ideal) w i) :=
  fun _ => hw _

/-- Every entry of a row of the stacked vectors is an entry of the stack. -/
theorem vec0_real (v : FVec Ideal S3x128 .f32) (hv : ∀ i, IsReal (v i)) : ∀ i, IsReal (vec0 (F := Ideal) v i) :=
  fun _ => hv _
theorem vec1_real (v : FVec Ideal S3x128 .f32) (hv : ∀ i, IsReal (v i)) : ∀ i, IsReal (vec1 (F := Ideal) v i) :=
  fun _ => hv _
theorem vec2_real (v : FVec Ideal S3x128 .f32) (hv : ∀ i, IsReal (v i)) : ∀ i, IsReal (vec2 (F := Ideal) v i) :=
  fun _ => hv _

end Cert.ReferenceIdeal.Hand

end
-- ==== Proof.Bridge.lean ====
/-
  The kernel program's two results as the reference's functions of the nine arguments. Round by round: the table the
  first region leaves is the perceptron of the aggregated rows, the statistics beside it are the column sums and sums of
  squares of that table, the host's two quotients are then the reference's mean and (the table being real) variance, and
  the second region's table is the reference's normalised table. Each round's result is again real, which the next
  round's aggregation preserves.
-/
import proofs.«125359_j15118284882190_1_alg».proof.Proof.KI.HostW
import proofs.«125359_j15118284882190_1_alg».proof.Proof.KI.MlpValue0
import proofs.«125359_j15118284882190_1_alg».proof.Proof.KI.MlpValue2
import proofs.«125359_j15118284882190_1_alg».proof.Proof.KI.MlpValue4
import proofs.«125359_j15118284882190_1_alg».proof.Proof.KI.BnValue1
import proofs.«125359_j15118284882190_1_alg».proof.Proof.KI.BnValue3
import proofs.«125359_j15118284882190_1_alg».proof.Proof.KI.BnValue5
import proofs.«125359_j15118284882190_1_alg».proof.Proof.Layer
import proofs.«125359_j15118284882190_1_alg».proof.Proof.RealAgg

set_option maxRecDepth 16384

noncomputable section

namespace Cert.KernelIdeal.Hand

open Cert.KernelIdeal Cert.KernelIdeal.Gen
open Idealize.ShloMosaic Idealize.ShloMosaic.TcCoe Idealize.ShloMosaic.ValueIdx Idealize.SL.Sem
open Cert.Spec Cert.FiniteReals Cert.ReferenceIdeal.Hand

variable (m : (ℓ : Loc nD τ sig) → Buf (Elt Ideal) ℓ) (c : Dev nD)

/-- Round 1: the table the normalising region leaves is the reference's, and it is real. -/
theorem round1 (hz : ∀ i, IsReal ((xArg0 m c) i)) (ra3 : ∀ i, IsReal (xArg3 m c i)) (ra4 : ∀ i, IsReal (xArg4 m c i))
    (ra5 : ∀ i, IsReal (xArg5 m c i)) (ra6 : ∀ i, IsReal (xArg6 m c i)) (ra7 : ∀ i, IsReal (xArg7 m c i)) (ra8 : ∀ i, IsReal (xArg8 m c i)) :
    W4 m c (Proc.devRef .tc main_v44) = relu (bn (mlp (agg (xArg0 m c) (src (xArg1 m c)) (dst (xArg1 m c))) (mat0 (xArg3 m c)) (vec0 (xArg4 m c)) (mat0 (xArg5 m c)) (vec0 (xArg6 m c))) (vec0 (xArg7 m c)) (vec0 (xArg8 m c)))
      ∧ ∀ i, IsReal (W4 m c (Proc.devRef .tc main_v44) i) := by
  have ha : ∀ (p : Fin 100000) (j : Fin 128), IsReal (agg (F := Ideal) (xArg0 m c) (src (xArg1 m c)) (dst (xArg1 m c)) (ix2 p j)) :=
    fun p j => agg_real _ _ _ hz _
  have e1 : ∀ (p : Fin 100000) (q : Fin 128), W2 m c (Proc.devRef .tc main_v25_0) (ix2 p q)
      = Cert.Bridge.H (agg (F := Ideal) (xArg0 m c) (src (xArg1 m c)) (dst (xArg1 m c))) (mat0 (xArg3 m c)) (mat0 (xArg5 m c)) (vec0 (xArg4 m c)) (vec0 (xArg6 m c)) p q := fun p q => by
    refine (congrFun (W2_arr m c 5) (ix2 p q)).trans ((final0_5 (rd (W1 m)) c p q).trans ?_)
    show mlpAt (fun p j => W1 m c (Proc.devRef .tc main_v14) (ix2 p j)) (fun j k => W1 m c (Proc.devRef .tc main_v16) (ix2 j k)) (fun k => W1 m c (Proc.devRef .tc main_v23) (ix2 0 k))
      (fun k q => W1 m c (Proc.devRef .tc main_v20) (ix2 k q)) (fun q => W1 m c (Proc.devRef .tc main_v24) (ix2 0 q)) p q = _
    rw [W1_main_v14, W1_main_v16, W1_main_v23, W1_main_v20, W1_main_v24]
    simp only [asRow_apply]
  have e2 : ∀ q : Fin 128, W2 m c (Proc.devRef .tc main_v25_1) (ix2 0 q)
      = colSumAt (Cert.Bridge.H (agg (F := Ideal) (xArg0 m c) (src (xArg1 m c)) (dst (xArg1 m c))) (mat0 (xArg3 m c)) (mat0 (xArg5 m c)) (vec0 (xArg4 m c)) (vec0 (xArg6 m c))) q := fun q => by
    refine (congrFun (W2_arr m c 6) (ix2 0 q)).trans ((final0_6_sum (rd (W1 m)) c q).trans ?_)
    show colSumAt (mlpAt (fun p j => W1 m c (Proc.devRef .tc main_v14) (ix2 p j)) (fun j k => W1 m c (Proc.devRef .tc main_v16) (ix2 j k)) (fun k => W1 m c (Proc.devRef .tc main_v23) (ix2 0 k))
      (fun k q => W1 m c (Proc.devRef .tc main_v20) (ix2 k q)) (fun q => W1 m c (Proc.devRef .tc main_v24) (ix2 0 q))) q = _
    rw [W1_main_v14, W1_main_v16, W1_main_v23, W1_main_v20, W1_main_v24]
    simp only [asRow_apply]
  have e3 : ∀ q : Fin 128, W2 m c (Proc.devRef .tc main_v25_1) (ix2 1 q)
      = colSqAt (Cert.Bridge.H (agg (F := Ideal) (xArg0 m c) (src (xArg1 m c)) (dst (xArg1 m c))) (mat0 (xArg3 m c)) (mat0 (xArg5 m c)) (vec0 (xArg4 m c)) (vec0 (xArg6 m c))) q := fun q => by
    refine (congrFun (W2_arr m c 6) (ix2 1 q)).trans ((final0_6_sq (rd (W1 m)) c q).trans ?_)
    show colSqAt (mlpAt (fun p j => W1 m c (Proc.devRef .tc main_v14) (ix2 p j)) (fun j k => W1 m c (Proc.devRef .tc main_v16) (ix2 j k)) (fun k => W1 m c (Proc.devRef .tc main_v23) (ix2 0 k))
      (fun k q => W1 m c (Proc.devRef .tc main_v20) (ix2 k q)) (fun q => W1 m c (Proc.devRef .tc main_v24) (ix2 0 q))) q = _
    rw [W1_main_v14, W1_main_v16, W1_main_v23, W1_main_v20, W1_main_v24]
    simp only [asRow_apply]
  refine Cert.Bridge.round_relu (agg (F := Ideal) (xArg0 m c) (src (xArg1 m c)) (dst (xArg1 m c))) (mat0 (xArg3 m c)) (mat0 (xArg5 m c))
    (vec0 (xArg4 m c)) (vec0 (xArg6 m c)) (vec0 (xArg7 m c)) (vec0 (xArg8 m c))
    ha (fun j k => mat0_real _ ra3 _) (fun j k => mat0_real _ ra5 _) (fun k => vec0_real _ ra4 _) (fun k => vec0_real _ ra6 _)
    (fun k => vec0_real _ ra7 _) (fun k => vec0_real _ ra8 _)
    (W2 m c (Proc.devRef .tc main_v25_0)) (W4 m c (Proc.devRef .tc main_v44))
    (fun q => W2 m c (Proc.devRef .tc main_v25_1) (ix2 0 q)) (fun q => W2 m c (Proc.devRef .tc main_v25_1) (ix2 1 q))
    (W3 m c (Proc.devRef .tc main_v40)) (W3 m c (Proc.devRef .tc main_v41)) (W3 m c (Proc.devRef .tc main_v42)) (W3 m c (Proc.devRef .tc main_v43))
    e1 e2 e3 (fun q => W3_main_v40_apply m c q) (fun q => ?_) (fun q => W3_main_v42_apply m c q) (fun q => W3_main_v43_apply m c q) (fun p q => ?_) |>.imp id (fun h => Cert.Bridge.real2 h)
  · rw [W3_main_v40_apply]; exact W3_main_v41_apply m c q
  · refine (congrFun (W4_arr m c 5) (ix2 p q)).trans ((final1 (rd (W3 m)) c p q).trans ?_)
    show max (normAt _ (fun q => W3 m c (Proc.devRef .tc main_v40) (ix2 0 q)) (fun q => W3 m c (Proc.devRef .tc main_v41) (ix2 0 q)) (fun q => W3 m c (Proc.devRef .tc main_v42) (ix2 0 q))
      (fun q => W3 m c (Proc.devRef .tc main_v43) (ix2 0 q)) (W3 m c (Proc.devRef .tc main_v25_0) (ix2 p q)) q) 0 = _
    rw [W3_main_v25_0]

/-- Round 2: the table the normalising region leaves is the reference's, and it is real. -/
theorem round2 (hz : ∀ i, IsReal ((W4 m c (Proc.devRef .tc main_v44)) i)) (ra3 : ∀ i, IsReal (xArg3 m c i)) (ra4 : ∀ i, IsReal (xArg4 m c i))
    (ra5 : ∀ i, IsReal (xArg5 m c i)) (ra6 : ∀ i, IsReal (xArg6 m c i)) (ra7 : ∀ i, IsReal (xArg7 m c i)) (ra8 : ∀ i, IsReal (xArg8 m c i)) :
    W8 m c (Proc.devRef .tc main_v85) = relu (bn (mlp (agg (W4 m c (Proc.devRef .tc main_v44)) (src (xArg1 m c)) (dst (xArg1 m c))) (mat1 (xArg3 m c)) (vec1 (xArg4 m c)) (mat1 (xArg5 m c)) (vec1 (xArg6 m c))) (vec1 (xArg7 m c)) (vec1 (xArg8 m c)))
      ∧ ∀ i, IsReal (W8 m c (Proc.devRef .tc main_v85) i) := by
  have ha : ∀ (p : Fin 100000) (j : Fin 128), IsReal (agg (F := Ideal) (W4 m c (Proc.devRef .tc main_v44)) (src (xArg1 m c)) (dst (xArg1 m c)) (ix2 p j)) :=
    fun p j => agg_real _ _ _ hz _
  have e1 : ∀ (p : Fin 100000) (q : Fin 128), W6 m c (Proc.devRef .tc main_v66_0) (ix2 p q)
      = Cert.Bridge.H (agg (F := Ideal) (W4 m c (Proc.devRef .tc main_v44)) (src (xArg1 m c)) (dst (xArg1 m c))) (mat1 (xArg3 m c)) (mat1 (xArg5 m c)) (vec1 (xArg4 m c)) (vec1 (xArg6 m c)) p q := fun p q => by
    refine (congrFun (W6_arr m c 5) (ix2 p q)).trans ((final2_5 (rd (W5 m)) c p q).trans ?_)
    show mlpAt (fun p j => W5 m c (Proc.devRef .tc main_v55) (ix2 p j)) (fun j k => W5 m c (Proc.devRef .tc main_v57) (ix2 j k)) (fun k => W5 m c (Proc.devRef .tc main_v64) (ix2 0 k))
      (fun k q => W5 m c (Proc.devRef .tc main_v61) (ix2 k q)) (fun q => W5 m c (Proc.devRef .tc main_v65) (ix2 0 q)) p q = _
    rw [W5_main_v55, W5_main_v57, W5_main_v64, W5_main_v61, W5_main_v65]
    simp only [asRow_apply]
  have e2 : ∀ q : Fin 128, W6 m c (Proc.devRef .tc main_v66_1) (ix2 0 q)
      = colSumAt (Cert.Bridge.H (agg (F := Ideal) (W4 m c (Proc.devRef .tc main_v44)) (src (xArg1 m c)) (dst (xArg1 m c))) (mat1 (xArg3 m c)) (mat1 (xArg5 m c)) (vec1 (xArg4 m c)) (vec1 (xArg6 m c))) q := fun q => by
    refine (congrFun (W6_arr m c 6) (ix2 0 q)).trans ((final2_6_sum (rd (W5 m)) c q).trans ?_)
    show colSumAt (mlpAt (fun p j => W5 m c (Proc.devRef .tc main_v55) (ix2 p j)) (fun j k => W5 m c (Proc.devRef .tc main_v57) (ix2 j k)) (fun k => W5 m c (Proc.devRef .tc main_v64) (ix2 0 k))
      (fun k q => W5 m c (Proc.devRef .tc main_v61) (ix2 k q)) (fun q => W5 m c (Proc.devRef .tc main_v65) (ix2 0 q))) q = _
    rw [W5_main_v55, W5_main_v57, W5_main_v64, W5_main_v61, W5_main_v65]
    simp only [asRow_apply]
  have e3 : ∀ q : Fin 128, W6 m c (Proc.devRef .tc main_v66_1) (ix2 1 q)
      = colSqAt (Cert.Bridge.H (agg (F := Ideal) (W4 m c (Proc.devRef .tc main_v44)) (src (xArg1 m c)) (dst (xArg1 m c))) (mat1 (xArg3 m c)) (mat1 (xArg5 m c)) (vec1 (xArg4 m c)) (vec1 (xArg6 m c))) q := fun q => by
    refine (congrFun (W6_arr m c 6) (ix2 1 q)).trans ((final2_6_sq (rd (W5 m)) c q).trans ?_)
    show colSqAt (mlpAt (fun p j => W5 m c (Proc.devRef .tc main_v55) (ix2 p j)) (fun j k => W5 m c (Proc.devRef .tc main_v57) (ix2 j k)) (fun k => W5 m c (Proc.devRef .tc main_v64) (ix2 0 k))
      (fun k q => W5 m c (Proc.devRef .tc main_v61) (ix2 k q)) (fun q => W5 m c (Proc.devRef .tc main_v65) (ix2 0 q))) q = _
    rw [W5_main_v55, W5_main_v57, W5_main_v64, W5_main_v61, W5_main_v65]
    simp only [asRow_apply]
  refine Cert.Bridge.round_relu (agg (F := Ideal) (W4 m c (Proc.devRef .tc main_v44)) (src (xArg1 m c)) (dst (xArg1 m c))) (mat1 (xArg3 m c)) (mat1 (xArg5 m c))
    (vec1 (xArg4 m c)) (vec1 (xArg6 m c)) (vec1 (xArg7 m c)) (vec1 (xArg8 m c))
    ha (fun j k => mat1_real _ ra3 _) (fun j k => mat1_real _ ra5 _) (fun k => vec1_real _ ra4 _) (fun k => vec1_real _ ra6 _)
    (fun k => vec1_real _ ra7 _) (fun k => vec1_real _ ra8 _)
    (W6 m c (Proc.devRef .tc main_v66_0)) (W8 m c (Proc.devRef .tc main_v85))
    (fun q => W6 m c (Proc.devRef .tc main_v66_1) (ix2 0 q)) (fun q => W6 m c (Proc.devRef .tc main_v66_1) (ix2 1 q))
    (W7 m c (Proc.devRef .tc main_v81)) (W7 m c (Proc.devRef .tc main_v82)) (W7 m c (Proc.devRef .tc main_v83)) (W7 m c (Proc.devRef .tc main_v84))
    e1 e2 e3 (fun q => W7_main_v81_apply m c q) (fun q => ?_) (fun q => W7_main_v83_apply m c q) (fun q => W7_main_v84_apply m c q) (fun p q => ?_) |>.imp id (fun h => Cert.Bridge.real2 h)
  · rw [W7_main_v81_apply]; exact W7_main_v82_apply m c q
  · refine (congrFun (W8_arr m c 5) (ix2 p q)).trans ((final3 (rd (W7 m)) c p q).trans ?_)
    show max (normAt _ (fun q => W7 m c (Proc.devRef .tc main_v81) (ix2 0 q)) (fun q => W7 m c (Proc.devRef .tc main_v82) (ix2 0 q)) (fun q => W7 m c (Proc.devRef .tc main_v83) (ix2 0 q))
      (fun q => W7 m c (Proc.devRef .tc main_v84) (ix2 0 q)) (W7 m c (Proc.devRef .tc main_v66_0) (ix2 p q)) q) 0 = _
    rw [W7_main_v66_0]

/-- Round 3: the table the normalising region leaves is the reference's, and it is real. -/
theorem round3 (hz : ∀ i, IsReal ((W8 m c (Proc.devRef .tc main_v85)) i)) (ra3 : ∀ i, IsReal (xArg3 m c i)) (ra4 : ∀ i, IsReal (xArg4 m c i))
    (ra5 : ∀ i, IsReal (xArg5 m c i)) (ra6 : ∀ i, IsReal (xArg6 m c i)) (ra7 : ∀ i, IsReal (xArg7 m c i)) (ra8 : ∀ i, IsReal (xArg8 m c i)) :
    W12 m c (Proc.devRef .tc main_v126) = bn (mlp (agg (W8 m c (Proc.devRef .tc main_v85)) (src (xArg1 m c)) (dst (xArg1 m c))) (mat2 (xArg3 m c)) (vec2 (xArg4 m c)) (mat2 (xArg5 m c)) (vec2 (xArg6 m c))) (vec2 (xArg7 m c)) (vec2 (xArg8 m c)) := by
  have ha : ∀ (p : Fin 100000) (j : Fin 128), IsReal (agg (F := Ideal) (W8 m c (Proc.devRef .tc main_v85)) (src (xArg1 m c)) (dst (xArg1 m c)) (ix2 p j)) :=
    fun p j => agg_real _ _ _ hz _
  have e1 : ∀ (p : Fin 100000) (q : Fin 128), W10 m c (Proc.devRef .tc main_v107_0) (ix2 p q)
      = Cert.Bridge.H (agg (F := Ideal) (W8 m c (Proc.devRef .tc main_v85)) (src (xArg1 m c)) (dst (xArg1 m c))) (mat2 (xArg3 m c)) (mat2 (xArg5 m c)) (vec2 (xArg4 m c)) (vec2 (xArg6 m c)) p q := fun p q => by
    refine (congrFun (W10_arr m c 5) (ix2 p q)).trans ((final4_5 (rd (W9 m)) c p q).trans ?_)
    show mlpAt (fun p j => W9 m c (Proc.devRef .tc main_v96) (ix2 p j)) (fun j k => W9 m c (Proc.devRef .tc main_v98) (ix2 j k)) (fun k => W9 m c (Proc.devRef .tc main_v105) (ix2 0 k))
      (fun k q => W9 m c (Proc.devRef .tc main_v102) (ix2 k q)) (fun q => W9 m c (Proc.devRef .tc main_v106) (ix2 0 q)) p q = _
    rw [W9_main_v96, W9_main_v98, W9_main_v105, W9_main_v102, W9_main_v106]
    simp only [asRow_apply]
  have e2 : ∀ q : Fin 128, W10 m c (Proc.devRef .tc main_v107_1) (ix2 0 q)
      = colSumAt (Cert.Bridge.H (agg (F := Ideal) (W8 m c (Proc.devRef .tc main_v85)) (src (xArg1 m c)) (dst (xArg1 m c))) (mat2 (xArg3 m c)) (mat2 (xArg5 m c)) (vec2 (xArg4 m c)) (vec2 (xArg6 m c))) q := fun q => by
    refine (congrFun (W10_arr m c 6) (ix2 0 q)).trans ((final4_6_sum (rd (W9 m)) c q).trans ?_)
    show colSumAt (mlpAt (fun p j => W9 m c (Proc.devRef .tc main_v96) (ix2 p j)) (fun j k => W9 m c (Proc.devRef .tc main_v98) (ix2 j k)) (fun k => W9 m c (Proc.devRef .tc main_v105) (ix2 0 k))
      (fun k q => W9 m c (Proc.devRef .tc main_v102) (ix2 k q)) (fun q => W9 m c (Proc.devRef .tc main_v106) (ix2 0 q))) q = _
    rw [W9_main_v96, W9_main_v98, W9_main_v105, W9_main_v102, W9_main_v106]
    simp only [asRow_apply]
  have e3 : ∀ q : Fin 128, W10 m c (Proc.devRef .tc main_v107_1) (ix2 1 q)
      = colSqAt (Cert.Bridge.H (agg (F := Ideal) (W8 m c (Proc.devRef .tc main_v85)) (src (xArg1 m c)) (dst (xArg1 m c))) (mat2 (xArg3 m c)) (mat2 (xArg5 m c)) (vec2 (xArg4 m c)) (vec2 (xArg6 m c))) q := fun q => by
    refine (congrFun (W10_arr m c 6) (ix2 1 q)).trans ((final4_6_sq (rd (W9 m)) c q).trans ?_)
    show colSqAt (mlpAt (fun p j => W9 m c (Proc.devRef .tc main_v96) (ix2 p j)) (fun j k => W9 m c (Proc.devRef .tc main_v98) (ix2 j k)) (fun k => W9 m c (Proc.devRef .tc main_v105) (ix2 0 k))
      (fun k q => W9 m c (Proc.devRef .tc main_v102) (ix2 k q)) (fun q => W9 m c (Proc.devRef .tc main_v106) (ix2 0 q))) q = _
    rw [W9_main_v96, W9_main_v98, W9_main_v105, W9_main_v102, W9_main_v106]
    simp only [asRow_apply]
  refine Cert.Bridge.round_last (agg (F := Ideal) (W8 m c (Proc.devRef .tc main_v85)) (src (xArg1 m c)) (dst (xArg1 m c))) (mat2 (xArg3 m c)) (mat2 (xArg5 m c))
    (vec2 (xArg4 m c)) (vec2 (xArg6 m c)) (vec2 (xArg7 m c)) (vec2 (xArg8 m c))
    ha (fun j k => mat2_real _ ra3 _) (fun j k => mat2_real _ ra5 _) (fun k => vec2_real _ ra4 _) (fun k => vec2_real _ ra6 _)
    (fun k => vec2_real _ ra7 _) (fun k => vec2_real _ ra8 _)
    (W10 m c (Proc.devRef .tc main_v107_0)) (W12 m c (Proc.devRef .tc main_v126))
    (fun q => W10 m c (Proc.devRef .tc main_v107_1) (ix2 0 q)) (fun q => W10 m c (Proc.devRef .tc main_v107_1) (ix2 1 q))
    (W11 m c (Proc.devRef .tc main_v122)) (W11 m c (Proc.devRef .tc main_v123)) (W11 m c (Proc.devRef .tc main_v124)) (W11 m c (Proc.devRef .tc main_v125))
    e1 e2 e3 (fun q => W11_main_v122_apply m c q) (fun q => ?_) (fun q => W11_main_v124_apply m c q) (fun q => W11_main_v125_apply m c q) (fun p q => ?_)
  · rw [W11_main_v122_apply]; exact W11_main_v123_apply m c q
  · refine (congrFun (W12_arr m c 5) (ix2 p q)).trans ((final5 (rd (W11 m)) c p q).trans ?_)
    show normAt _ (fun q => W11 m c (Proc.devRef .tc main_v122) (ix2 0 q)) (fun q => W11 m c (Proc.devRef .tc main_v123) (ix2 0 q)) (fun q => W11 m c (Proc.devRef .tc main_v124) (ix2 0 q))
      (fun q => W11 m c (Proc.devRef .tc main_v125) (ix2 0 q)) (W11 m c (Proc.devRef .tc main_v107_0) (ix2 p q)) q = _
    rw [W11_main_v107_0]

/-- The kernel program's two result buffers, under real float arguments, are the reference's functions of the arguments. -/
theorem results (ra0 : ∀ i, IsReal (xArg0 m c i)) (ra3 : ∀ i, IsReal (xArg3 m c i)) (ra4 : ∀ i, IsReal (xArg4 m c i))
    (ra5 : ∀ i, IsReal (xArg5 m c i)) (ra6 : ∀ i, IsReal (xArg6 m c i)) (ra7 : ∀ i, IsReal (xArg7 m c i)) (ra8 : ∀ i, IsReal (xArg8 m c i)) :
    W13 m c (Proc.devRef .tc main_v136)
        = out0 (xArg0 m c) (xArg1 m c) (xArg2 m c) (xArg3 m c) (xArg4 m c) (xArg5 m c) (xArg6 m c) (xArg7 m c) (xArg8 m c)
      ∧ W13 m c (Proc.devRef .tc main_v137)
        = out1 (xArg0 m c) (xArg1 m c) (xArg2 m c) (xArg3 m c) (xArg4 m c) (xArg5 m c) (xArg6 m c) (xArg7 m c) (xArg8 m c) := by
  obtain ⟨r1, r1real⟩ := round1 m c ra0 ra3 ra4 ra5 ra6 ra7 ra8
  obtain ⟨r2, r2real⟩ := round2 m c r1real ra3 ra4 ra5 ra6 ra7 ra8
  have r3 := round3 m c r2real ra3 ra4 ra5 ra6 ra7 ra8
  have e1 : W4 m c (Proc.devRef .tc main_v44) = h1 (xArg0 m c) (xArg1 m c) (xArg3 m c) (xArg4 m c) (xArg5 m c) (xArg6 m c) (xArg7 m c) (xArg8 m c) := r1
  have e2 : W8 m c (Proc.devRef .tc main_v85) = h2 (xArg0 m c) (xArg1 m c) (xArg3 m c) (xArg4 m c) (xArg5 m c) (xArg6 m c) (xArg7 m c) (xArg8 m c) := by
    rw [r2, e1]; rfl
  have e3 : W12 m c (Proc.devRef .tc main_v126) = h3 (xArg0 m c) (xArg1 m c) (xArg3 m c) (xArg4 m c) (xArg5 m c) (xArg6 m c) (xArg7 m c) (xArg8 m c) := by
    rw [r3, e2]; rfl
  constructor
  · rw [W13_main_v136, W12_main_v44, W12_main_v85, e1, e2, e3]; rfl
  · rw [W13_main_v137, W12_main_v44, W12_main_v85, e1, e2, e3]; rfl

end Cert.KernelIdeal.Hand

end
-- ==== Proof.LibFiniteInputs.lean ====
/-
  A general lemma file: the printed precondition "every entry of a float array is finite", read back.

  `jnp.all(jnp.abs(x) < inf)` prints as a reduction by `and`, from the constant 1, of the comparison of `|x|` with the
  splat of the word 0x7F800000 (single precision's +inf). At the ideal values that word is the top element, the
  comparison is the order of the extended reals, and an extended real whose absolute value is below the top is a real
  number. So the reduction being 1 says every entry of `x` is a real number — for any shape and any reduced axes.
-/
import Idealize.ShloMosaic.Lib.ReduceAll
import Idealize.ShloMosaic.Lib.ValueIdx
import proofs.«125359_j15118284882190_1_alg».proof.Proof.LibFiniteReals

noncomputable section

namespace Cert.FiniteInputs

open Idealize.ShloMosaic Idealize.ShloMosaic.ValueIdx Cert.FiniteReals

/-- Single precision's +inf word is the top extended real. -/
theorem ofBits_inf : Ideal.ofBits .f32 0x7F800000#32 = ⊤ := by
  simp [Ideal.ofBits, Ideal.ieee]

/-- An extended real whose absolute value is below the top is a real number. -/
theorem isReal_of_abs_lt_top (x : EReal) (h : max x (-x) < ⊤) : IsReal x := by
  induction x using EReal.rec with
  | bot => simp at h
  | top => simp at h
  | coe r => exact ⟨r, rfl⟩

/-- The scalar shape has one index. -/
instance : Subsingleton (⟨0, ![]⟩ : Shape).Idx := ⟨fun a b => funext fun d => d.elim0⟩

/-- THE PRINTED `jnp.all(jnp.abs(x) < inf)` being 1 says every entry of `x` is a real number. -/
theorem isReal_of_all_finite {s : Shape} {axes : List (Fin s.rank)} (x : FVec Ideal s .f32)
    (hb : (⟨0, ![]⟩ : Shape).BroadcastsInDim s (![] : Fin 0 → Fin s.rank)) (h : s.ReducesTo axes ⟨0, ![]⟩)
    (hu : 0 < (⟨0, ![]⟩ : Shape).numel)
    (e : Host.reduce IntOp.andi
        (cmpf .olt (Host.absf x) (broadcastInDim s ![] hb (constant (F := Ideal) ⟨0, ![]⟩ .f32 0x7F800000#32)))
        (constantI ⟨0, ![]⟩ 1 1#1) h hu ix0 = 1#1) (i : s.Idx) : IsReal (x i) := by
  have hi := Host.reduce_andi_all _ _ h hu ix0 e i
  have hc : Ideal.cmp .olt (max (x i) (-(x i))) (Ideal.ofBits .f32 0x7F800000#32) = 1#1 := hi
  refine isReal_of_abs_lt_top (x i) ?_
  rw [← ofBits_inf]
  by_contra hn
  simp [Ideal.cmp, hn] at hc

end Cert.FiniteInputs

end
-- ==== Proof.PreReal.lean ====
/-
  The precondition read back: when the printed test "every float argument holds finite numbers" is all ones, every
  entry of each of the seven float argument arrays is a real number.
-/
import proofs.«125359_j15118284882190_1_alg».proof.Pre_finite_inputs
import proofs.«125359_j15118284882190_1_alg».proof.Proof.LibFiniteInputs

noncomputable section

namespace Cert.PreReal

open Idealize.ShloMosaic Idealize.ShloMosaic.ValueIdx Cert.FiniteReals Cert.FiniteInputs Cert.Pre_finite_inputs

variable [Cert.Pre_finite_inputs.Facts]

/-- The conjunction of the seven tests being 1 makes each array's entries real. -/
theorem real_of_pre (a0 : FVec Ideal S100000x128 .f32) (a1 : IVec S2x1600000 32) (a2 : IVec S100000 32)
    (a3 : FVec Ideal S3x128x128 .f32) (a4 : FVec Ideal S3x128 .f32) (a5 : FVec Ideal S3x128x128 .f32)
    (a6 a7 a8 : FVec Ideal S3x128 .f32)
    (h : fn (F := Ideal) a0 a1 a2 a3 a4 a5 a6 a7 a8 = fun _ => 1#1) :
    (∀ i, IsReal (a0 i)) ∧ (∀ i, IsReal (a3 i)) ∧ (∀ i, IsReal (a4 i)) ∧ (∀ i, IsReal (a5 i))
      ∧ (∀ i, IsReal (a6 i)) ∧ (∀ i, IsReal (a7 i)) ∧ (∀ i, IsReal (a8 i)) := by
  have h0 := congrFun h ix0
  dsimp only [fn, fn_part1] at h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨e0, e3⟩ := IntOp.andi_eq_one.1 h0
  exact ⟨isReal_of_all_finite a0 _ _ _ e0, isReal_of_all_finite a3 _ _ _ e3, isReal_of_all_finite a4 _ _ _ e4,
    isReal_of_all_finite a5 _ _ _ e5, isReal_of_all_finite a6 _ _ _ e6, isReal_of_all_finite a7 _ _ _ e7,
    isReal_of_all_finite a8 _ _ _ e8⟩

end Cert.PreReal

end
-- ==== Proof.lean ====
/-
  The certificate of a three-round graph network: each round adds to every node the rows of the sources of the edges
  that end at it (a gather and a scatter-add on the host), applies a two-layer perceptron row by row while summing every
  column and its squares over the row blocks (a kernel over twenty row blocks), and normalises every column by its mean
  and variance (a second kernel), the reference computing the same with the variance taken as the mean of squared
  deviations. The three frames: the kernel program's run as thirteen segments (host stretches and six kernel regions),
  at the word instance and at the extended reals, and the reference's run as one straight line of host operations.
  The idealization rewrote nothing. At the extended reals the two programs end with equal results because, on the
  finite inputs the precondition grants, every table stays real and the two arrangements of the variance are one number.
-/
import proofs.«125359_j15118284882190_1_alg».proof.Defs
import proofs.«125359_j15118284882190_1_alg».proof.Proof.Gen.Kernel
import proofs.«125359_j15118284882190_1_alg».proof.Proof.Gen.KernelIdeal
import proofs.«125359_j15118284882190_1_alg».proof.Proof.Gen.ReferenceIdeal
import proofs.«125359_j15118284882190_1_alg».proof.Proof.Gen.Pre_finite_inputs
import proofs.«125359_j15118284882190_1_alg».proof.Proof.K.Run
import proofs.«125359_j15118284882190_1_alg».proof.Proof.KI.Run
import proofs.«125359_j15118284882190_1_alg».proof.Proof.Ref.Run
import proofs.«125359_j15118284882190_1_alg».proof.Proof.Bridge
import proofs.«125359_j15118284882190_1_alg».proof.Proof.PreReal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Hand.frame (F := Bits) m ρ

theorem frame_ki : Cert.frame_KernelIdeal (hKernelIdeal := Cert.KernelIdeal.Gen.facts) (hPre_finite_inputs := Cert.Pre_finite_inputs.Gen.facts) :=
  fun m ρ _ => Cert.KernelIdeal.Hand.frame (F := Ideal) m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2.2) (Cert.ReferenceIdeal.Hand.run (F := Ideal) m ρ)

open Cert.KernelIdeal Cert.KernelIdeal.Hand in
/-- From memories that agree on the arguments both idealized programs run to the end, and their results are the same
    two functions of the arguments: the kernel program's by the bridge, the reference's by its run. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => W13 m c (Proc.devRef .tc main_v136), fun c => W13 m c (Proc.devRef .tc main_v137), ?_, ?_⟩
  · exact (θ_run Cert.KernelIdeal.defs _ _).mono (fun _ h c =>
      ⟨h c _ (mem_uc main_v136 (by decide)), h c _ (mem_uc main_v137 (by decide)),
        (h c _ (mem_uc main_arg0 (by decide))).trans (W13_main_arg0 m c),
        (h c _ (mem_uc main_arg1 (by decide))).trans (W13_main_arg1 m c),
        (h c _ (mem_uc main_arg2 (by decide))).trans (W13_main_arg2 m c),
        (h c _ (mem_uc main_arg3 (by decide))).trans (W13_main_arg3 m c),
        (h c _ (mem_uc main_arg4 (by decide))).trans (W13_main_arg4 m c),
        (h c _ (mem_uc main_arg5 (by decide))).trans (W13_main_arg5 m c),
        (h c _ (mem_uc main_arg6 (by decide))).trans (W13_main_arg6 m c),
        (h c _ (mem_uc main_arg7 (by decide))).trans (W13_main_arg7 m c),
        (h c _ (mem_uc main_arg8 (by decide))).trans (W13_main_arg8 m c)⟩) (run_all m ρ)
  · refine (θ_run Cert.ReferenceIdeal.defs _ _).mono (fun _ h c => ⟨(h c).1.trans ?_, (h c).2.1.trans ?_, (h c).2.2⟩)
      (Cert.ReferenceIdeal.Hand.run (F := Ideal) m' ρ')
    all_goals
      obtain ⟨h0, h3, h4, h5, h6, h7, h8⟩ := Cert.PreReal.real_of_pre _ _ _ _ _ _ _ _ _ (hpre c)
      obtain ⟨e0, e1, e2, e3, e4, e5, e6, e7, e8⟩ := hagree c
      rw [e0, e1, e2, e3, e4, e5, e6, e7, e8]
    · exact (results m c h0 h3 h4 h5 h6 h7 h8).1.symm
    · exact (results m c h0 h3 h4 h5 h6 h7 h8).2.symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
